-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S13x4096x1 : Shape := ⟨3, ![13, 4096, 1]⟩
abbrev S26x4096 : Shape := ⟨2, ![26, 4096]⟩
abbrev S4x4096x768 : Shape := ⟨3, ![4, 4096, 768]⟩
abbrev S26x100001x128 : Shape := ⟨3, ![26, 100001, 128]⟩
abbrev S13x1x128 : Shape := ⟨3, ![13, 1, 128]⟩
abbrev S4x768x128 : Shape := ⟨3, ![4, 768, 128]⟩
abbrev S128 : Shape := ⟨1, ![128]⟩
abbrev S_ : Shape := ⟨0, ![]⟩

class Facts : Prop where
  bcast_S_S13x4096x1 : S_.BroadcastsInDim S13x4096x1 (![] : Fin 0 → Fin S13x4096x1.rank)
  reducesTo_S13x4096x1_S_d0_1_2 : S13x4096x1.ReducesTo [0, 1, 2] S_
  h_S_ : 0 < S_.numel
  bcast_S_S4x4096x768 : S_.BroadcastsInDim S4x4096x768 (![] : Fin 0 → Fin S4x4096x768.rank)
  reducesTo_S4x4096x768_S_d0_1_2 : S4x4096x768.ReducesTo [0, 1, 2] S_
  bcast_S_S26x100001x128 : S_.BroadcastsInDim S26x100001x128 (![] : Fin 0 → Fin S26x100001x128.rank)
  reducesTo_S26x100001x128_S_d0_1_2 : S26x100001x128.ReducesTo [0, 1, 2] S_
  bcast_S_S13x1x128 : S_.BroadcastsInDim S13x1x128 (![] : Fin 0 → Fin S13x1x128.rank)
  reducesTo_S13x1x128_S_d0_1_2 : S13x1x128.ReducesTo [0, 1, 2] S_
  bcast_S_S4x768x128 : S_.BroadcastsInDim S4x768x128 (![] : Fin 0 → Fin S4x768x128.rank)
  reducesTo_S4x768x128_S_d0_1_2 : S4x768x128.ReducesTo [0, 1, 2] S_
  bcast_S_S128 : S_.BroadcastsInDim S128 (![] : Fin 0 → Fin S128.rank)
  reducesTo_S128_S_d0 : S128.ReducesTo [0] S_
  bcast_S_S26x4096 : S_.BroadcastsInDim S26x4096 (![] : Fin 0 → Fin S26x4096.rank)
  reducesTo_S26x4096_S_d0_1 : S26x4096.ReducesTo [0, 1] S_

variable [Facts]

def fn_part2 {F : FTy → Type} [FloatOps F] (main_arg1 : IVec S26x4096 32) (main_v33 : IVec S_ 1) : IVec S_ 1 :=
  let main_c_12 : IVec S_ 32 := constantI S_ 32 0#32
  let main_v34 : IVec S26x4096 32 := broadcastInDim S26x4096 ![] bcast_S_S26x4096 main_c_12
  let main_v35 : IVec S26x4096 1 := cmpi .sge main_arg1 main_v34
  let main_c_13 : IVec S_ 32 := constantI S_ 32 99999#32
  let main_v36 : IVec S26x4096 32 := broadcastInDim S26x4096 ![] bcast_S_S26x4096 main_c_13
  let main_v37 : IVec S26x4096 1 := cmpi .sle main_arg1 main_v36
  let main_v38 : IVec S26x4096 1 := andi main_v35 main_v37
  let main_c_14 : IVec S_ 1 := constantI S_ 1 1#1
  let main_v39 : IVec S_ 1 := (fun x v => Host.reduce IntOp.andi x v reducesTo_S26x4096_S_d0_1 h_S_) main_v38 main_c_14
  let main_v40 : IVec S_ 1 := andi main_v33 main_v39
  main_v40

def fn_part1 {F : FTy → Type} [FloatOps F] (main_arg1 : IVec S26x4096 32) (main_arg5 : FVec F S4x768x128 .f32) (main_arg6 : FVec F S128 .f32) (main_arg7 : FVec F S128 .f32) (main_v13 : IVec S_ 1) (main_v16 : IVec S13x1x128 1) : IVec S_ 1 :=
  let main_c_5 : IVec S_ 1 := constantI S_ 1 1#1
  let main_v17 : IVec S_ 1 := (fun x v => Host.reduce IntOp.andi x v reducesTo_S13x1x128_S_d0_1_2 h_S_) main_v16 main_c_5
  let main_v18 : IVec S_ 1 := andi main_v13 main_v17
  let main_v19 : FVec F S4x768x128 .f32 := Host.absf main_arg5
  let main_cst_6 : FVec F S_ .f32 := constant S_ .f32 0x7F800000#32
  let main_v20 : FVec F S4x768x128 .f32 := broadcastInDim S4x768x128 ![] bcast_S_S4x768x128 main_cst_6
  let main_v21 : IVec S4x768x128 1 := cmpf .olt main_v19 main_v20
  let main_c_7 : IVec S_ 1 := constantI S_ 1 1#1
  let main_v22 : IVec S_ 1 := (fun x v => Host.reduce IntOp.andi x v reducesTo_S4x768x128_S_d0_1_2 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S13x4096x1 .f32) (main_arg1 : IVec S26x4096 32) (main_arg2 : FVec F S4x4096x768 .f32) (main_arg3 : FVec F S26x100001x128 .f32) (main_arg4 : FVec F S13x1x128 .f32) (main_arg5 : FVec F S4x768x128 .f32) (main_arg6 : FVec F S128 .f32) (main_arg7 : FVec F S128 .f32) : IVec S_ 1 :=
  let main_v0 : FVec F S13x4096x1 .f32 := Host.absf main_arg0
  let main_cst : FVec F S_ .f32 := constant S_ .f32 0x7F800000#32
  let main_v1 : FVec F S13x4096x1 .f32 := broadcastInDim S13x4096x1 ![] bcast_S_S13x4096x1 main_cst
  let main_v2 : IVec S13x4096x1 1 := cmpf .olt main_v0 main_v1
  let main_c : IVec S_ 1 := constantI S_ 1 1#1
  let main_v3 : IVec S_ 1 := (fun x v => Host.reduce IntOp.andi x v reducesTo_S13x4096x1_S_d0_1_2 h_S_) main_v2 main_c
  let main_v4 : FVec F S4x4096x768 .f32 := Host.absf main_arg2
  let main_cst_0 : FVec F S_ .f32 := constant S_ .f32 0x7F800000#32
  let main_v5 : FVec F S4x4096x768 .f32 := broadcastInDim S4x4096x768 ![] bcast_S_S4x4096x768 main_cst_0
  let main_v6 : IVec S4x4096x768 1 := cmpf .olt main_v4 main_v5
  let main_c_1 : IVec S_ 1 := constantI S_ 1 1#1
  let main_v7 : IVec S_ 1 := (fun x v => Host.reduce IntOp.andi x v reducesTo_S4x4096x768_S_d0_1_2 h_S_) main_v6 main_c_1
  let main_v8 : IVec S_ 1 := andi main_v3 main_v7
  let main_v9 : FVec F S26x100001x128 .f32 := Host.absf main_arg3
  let main_cst_2 : FVec F S_ .f32 := constant S_ .f32 0x7F800000#32
  let main_v10 : FVec F S26x100001x128 .f32 := broadcastInDim S26x100001x128 ![] bcast_S_S26x100001x128 main_cst_2
  let main_v11 : IVec S26x100001x128 1 := cmpf .olt main_v9 main_v10
  let main_c_3 : IVec S_ 1 := constantI S_ 1 1#1
  let main_v12 : IVec S_ 1 := (fun x v => Host.reduce IntOp.andi x v reducesTo_S26x100001x128_S_d0_1_2 h_S_) main_v11 main_c_3
  let main_v13 : IVec S_ 1 := andi main_v8 main_v12
  let main_v14 : FVec F S13x1x128 .f32 := Host.absf main_arg4
  let main_cst_4 : FVec F S_ .f32 := constant S_ .f32 0x7F800000#32
  let main_v15 : FVec F S13x1x128 .f32 := broadcastInDim S13x1x128 ![] bcast_S_S13x1x128 main_cst_4
  let main_v16 : IVec S13x1x128 1 := cmpf .olt main_v14 main_v15
  fn_part1 (F := F) main_arg1 main_arg5 main_arg6 main_arg7 main_v13 main_v16
-- ==== Kernel.lean ====
abbrev S13x4096x1 : Shape := ⟨3, ![13, 4096, 1]⟩
abbrev S26x4096 : Shape := ⟨2, ![26, 4096]⟩
abbrev S4x4096x768 : Shape := ⟨3, ![4, 4096, 768]⟩
abbrev S26x100001x128 : Shape := ⟨3, ![26, 100001, 128]⟩
abbrev S13x1x128 : Shape := ⟨3, ![13, 1, 128]⟩
abbrev S4x768x128 : Shape := ⟨3, ![4, 768, 128]⟩
abbrev S128 : Shape := ⟨1, ![128]⟩
abbrev S32x26x128 : Shape := ⟨3, ![32, 26, 128]⟩
abbrev S26x4096x128 : Shape := ⟨3, ![26, 4096, 128]⟩
abbrev S26x128 : Shape := ⟨2, ![26, 128]⟩
abbrev S512x128 : Shape := ⟨2, ![512, 128]⟩
abbrev S4 : Shape := ⟨1, ![4]⟩
abbrev S_ : Shape := ⟨0, ![]⟩
abbrev S1x26x128 : Shape := ⟨3, ![1, 26, 128]⟩
abbrev S128x128 : Shape := ⟨2, ![128, 128]⟩
abbrev S1x128 : Shape := ⟨2, ![1, 128]⟩
abbrev S1x100001x128 : Shape := ⟨3, ![1, 100001, 128]⟩
abbrev S100001x128 : Shape := ⟨2, ![100001, 128]⟩
abbrev S1 : Shape := ⟨1, ![1]⟩
abbrev S1x4096x128 : Shape := ⟨3, ![1, 4096, 128]⟩
abbrev S4096x128 : Shape := ⟨2, ![4096, 128]⟩
abbrev S13x4096 : Shape := ⟨2, ![13, 4096]⟩
abbrev S13x128 : Shape := ⟨2, ![13, 128]⟩
abbrev S43x4096x128 : Shape := ⟨3, ![43, 4096, 128]⟩
abbrev S26x512x128 : Shape := ⟨3, ![26, 512, 128]⟩
abbrev S13x512 : Shape := ⟨2, ![13, 512]⟩
abbrev S4x512x768 : Shape := ⟨3, ![4, 512, 768]⟩
abbrev S43x512x128 : Shape := ⟨3, ![43, 512, 128]⟩
abbrev S1x1x128 : Shape := ⟨3, ![1, 1, 128]⟩
abbrev S26x512 : Shape := ⟨2, ![26, 512]⟩
abbrev S26x512x1 : Shape := ⟨3, ![26, 512, 1]⟩
abbrev S13x512x1 : Shape := ⟨3, ![13, 512, 1]⟩
abbrev S13x512x128 : Shape := ⟨3, ![13, 512, 128]⟩
abbrev S1x512x768 : Shape := ⟨3, ![1, 512, 768]⟩
abbrev S512x768 : Shape := ⟨2, ![512, 768]⟩
abbrev S1x768x128 : Shape := ⟨3, ![1, 768, 128]⟩
abbrev S768x128 : Shape := ⟨2, ![768, 128]⟩
abbrev S512 : Shape := ⟨1, ![512]⟩
abbrev S512x1 : Shape := ⟨2, ![512, 1]⟩
abbrev S1x512x128 : Shape := ⟨3, ![1, 512, 128]⟩
abbrev S4096x43x128 : Shape := ⟨3, ![4096, 43, 128]⟩

abbrev nBuf : Table → Nat
  | .hbm => 16
  | .local .tc .vmem => 12
  | .local .scVector .vmem => 2
  | _ => 0

abbrev bufTy : (tb : Table) → Fin (nBuf tb) → BufTy
  | .hbm, ⟨0, _⟩ => ⟨S13x4096x1, .f32⟩
  | .hbm, ⟨1, _⟩ => ⟨S26x4096, .i32⟩
  | .hbm, ⟨2, _⟩ => ⟨S4x4096x768, .f32⟩
  | .hbm, ⟨3, _⟩ => ⟨S26x100001x128, .f32⟩
  | .hbm, ⟨4, _⟩ => ⟨S13x1x128, .f32⟩
  | .hbm, ⟨5, _⟩ => ⟨S4x768x128, .f32⟩
  | .hbm, ⟨6, _⟩ => ⟨S128, .f32⟩
  | .hbm, ⟨7, _⟩ => ⟨S128, .f32⟩
  | .hbm, ⟨8, _⟩ => ⟨S32x26x128, .i32⟩
  | .hbm, ⟨9, _⟩ => ⟨S26x4096x128, .f32⟩
  | .hbm, ⟨10, _⟩ => ⟨S13x4096, .f32⟩
  | .hbm, ⟨11, _⟩ => ⟨S13x128, .f32⟩
  | .hbm, ⟨12, _⟩ => ⟨S1x128, .f32⟩
  | .hbm, ⟨13, _⟩ => ⟨S1x128, .f32⟩
  | .hbm, ⟨14, _⟩ => ⟨S43x4096x128, .f32⟩
  | .hbm, ⟨15, _⟩ => ⟨S4096x43x128, .f32⟩
  | .local .tc .vmem, ⟨0, _⟩ => ⟨S26x512x128, .f32⟩
  | .local .tc .vmem, ⟨1, _⟩ => ⟨S26x512x128, .f32⟩
  | .local .tc .vmem, ⟨2, _⟩ => ⟨S13x512, .f32⟩
  | .local .tc .vmem, ⟨3, _⟩ => ⟨S13x512, .f32⟩
  | .local .tc .vmem, ⟨4, _⟩ => ⟨S13x128, .f32⟩
  | .local .tc .vmem, ⟨5, _⟩ => ⟨S4x512x768, .f32⟩
  | .local .tc .vmem, ⟨6, _⟩ => ⟨S4x512x768, .f32⟩
  | .local .tc .vmem, ⟨7, _⟩ => ⟨S4x768x128, .f32⟩
  | .local .tc .vmem, ⟨8, _⟩ => ⟨S1x128, .f32⟩
  | .local .tc .vmem, ⟨9, _⟩ => ⟨S1x128, .f32⟩
  | .local .tc .vmem, ⟨10, _⟩ => ⟨S43x512x128, .f32⟩
  | .local .tc .vmem, ⟨11, _⟩ => ⟨S43x512x128, .f32⟩
  | .local .scVector .vmem, ⟨0, _⟩ => ⟨S26x128, .i32⟩
  | .local .scVector .vmem, ⟨1, _⟩ => ⟨S512x128, .f32⟩
  | _, _ => ⟨S13x4096x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg3_scv : Ref sig .scVector := ⟨.hbm, 3, rfl⟩
abbrev main_v0_scv : Ref sig .scVector := ⟨.hbm, 8, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_99_r0 : BitVec 32 := 0#32
  let c0_i32_100_r0 : BitVec 32 := 0#32
  ![v1.toNat, 0, 0]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c0_i32_16 : BitVec 32 := 0#32
  let c0_i32_17 : BitVec 32 := 0#32
  ![v20.toNat, 0, 0]
@[reducible] def k0_t1_loop : Scf.Loop 32 :=
  let c0_i32_70 : BitVec 32 := 0#32
  let c26_i32_71 : BitVec 32 := 26#32
  let v116 : BitVec 32 := Scalar.addi c0_i32_70 c26_i32_71
  let c1_i32_72 : BitVec 32 := 1#32
  ⟨c0_i32_70, v116, c1_i32_72⟩
def k0_cond1 (k0_t1 : Fin k0_t1_loop.trips) : BitVec 1 :=
  let c0_i32_70 : BitVec 32 := 0#32
  let c1_i32_72 : BitVec 32 := 1#32
  let arg9 : BitVec 32 := Scf.iv c0_i32_70 c1_i32_72 k0_t1
  let c1_i32_101 : BitVec 32 := 1#32
  let v162 : BitVec 1 := Scalar.cmpi .sge arg9 c1_i32_101
  let v163 : BitVec 32 := Scalar.extui v162
  let c0_i32_102 : BitVec 32 := 0#32
  let v164 : BitVec 1 := Scalar.cmpi .ne v163 c0_i32_102
  v164

def k0_off3 (k0_t1 : Fin k0_t1_loop.trips) : Fin 2 → Nat :=
  let c0_i32_70 : BitVec 32 := 0#32
  let c1_i32_72 : BitVec 32 := 1#32
  let arg9 : BitVec 32 := Scf.iv c0_i32_70 c1_i32_72 k0_t1
  let c3_i32 : BitVec 32 := 3#32
  let v160 : BitVec 32 := Scalar.addi arg9 c3_i32
  let c4_i32_100 : BitVec 32 := 4#32
  let v161 : BitVec 32 := Scalar.remsi v160 c4_i32_100
  let c128_i32_153 : BitVec 32 := 128#32
  let v250 : BitVec 32 := Scalar.muli v161 c128_i32_153
  let c0_i32_169 : BitVec 32 := 0#32
  ![v250.toNat, 0]
def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_154 : BitVec 32 := 26#32
  let v251 : BitVec 32 := Scalar.muli v1 c26_i32_154
  let c0_i32_70 : BitVec 32 := 0#32
  let c1_i32_72 : BitVec 32 := 1#32
  let arg9 : BitVec 32 := Scf.iv c0_i32_70 c1_i32_72 k0_t1
  let c1_i32_152 : BitVec 32 := 1#32
  let v249 : BitVec 32 := Scalar.subi arg9 c1_i32_152
  let v252 : BitVec 32 := Scalar.addi v251 v249
  let c0_i32_156 : BitVec 32 := 0#32
  let v254 : BitVec 1 := Scalar.cmpi .sgt v252 c0_i32_156
  let v255 : BitVec 32 := Scalar.extui v254
  let c0_i32_157 : BitVec 32 := 0#32
  let v256 : BitVec 1 := Scalar.cmpi .slt v252 c0_i32_157
  let v257 : BitVec 32 := Scalar.extui v256
  let v258 : BitVec 32 := Scalar.subi v255 v257
  let c32_i32_155 : BitVec 32 := 32#32
  let c0_i32_158 : BitVec 32 := 0#32
  let v259 : BitVec 1 := Scalar.cmpi .sgt c32_i32_155 c0_i32_158
  let v260 : BitVec 32 := Scalar.extui v259
  let c0_i32_159 : BitVec 32 := 0#32
  let v261 : BitVec 1 := Scalar.cmpi .slt c32_i32_155 c0_i32_159
  let v262 : BitVec 32 := Scalar.extui v261
  let v263 : BitVec 32 := Scalar.subi v260 v262
  let v264 : BitVec 1 := Scalar.cmpi .ne v258 v263
  let v265 : BitVec 32 := Scalar.remsi v252 c32_i32_155
  let c0_i32_160 : BitVec 32 := 0#32
  let v266 : BitVec 1 := Scalar.cmpi .ne v265 c0_i32_160
  let v267 : BitVec 1 := Scalar.andi v264 v266
  let v253 : BitVec 32 := Scalar.divsi v252 c32_i32_155
  let c1_i32_161 : BitVec 32 := 1#32
  let v268 : BitVec 32 := Scalar.subi v253 c1_i32_161
  let v269 : BitVec 32 := Scalar.select v267 v268 v253
  let c0_i32_170 : BitVec 32 := 0#32
  let c0_i32_171 : BitVec 32 := 0#32
  ![v269.toNat, 0, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_154 : BitVec 32 := 26#32
  let v251 : BitVec 32 := Scalar.muli v1 c26_i32_154
  let c0_i32_70 : BitVec 32 := 0#32
  let c1_i32_72 : BitVec 32 := 1#32
  let arg9 : BitVec 32 := Scf.iv c0_i32_70 c1_i32_72 k0_t1
  let c1_i32_152 : BitVec 32 := 1#32
  let v249 : BitVec 32 := Scalar.subi arg9 c1_i32_152
  let v252 : BitVec 32 := Scalar.addi v251 v249
  let c32_i32_162 : BitVec 32 := 32#32
  let c0_i32_163 : BitVec 32 := 0#32
  let v270 : BitVec 1 := Scalar.cmpi .eq c32_i32_162 c0_i32_163
  let c1_i32_164 : BitVec 32 := 1#32
  let v271 : BitVec 32 := Scalar.select v270 c1_i32_164 c32_i32_162
  let v272 : BitVec 32 := Scalar.remsi v252 v271
  let c0_i32_166 : BitVec 32 := 0#32
  let v274 : BitVec 1 := Scalar.cmpi .slt v272 c0_i32_166
  let c0_i32_167 : BitVec 32 := 0#32
  let v275 : BitVec 1 := Scalar.cmpi .slt v271 c0_i32_167
  let v276 : BitVec 1 := Scalar.xori v274 v275
  let c0_i32_165 : BitVec 32 := 0#32
  let v273 : BitVec 1 := Scalar.cmpi .ne v272 c0_i32_165
  let v277 : BitVec 1 := Scalar.andi v276 v273
  let v278 : BitVec 32 := Scalar.addi v272 v271
  let v279 : BitVec 32 := Scalar.select v277 v278 v272
  let c128_i32_168 : BitVec 32 := 128#32
  let v280 : BitVec 32 := Scalar.muli v279 c128_i32_168
  let c0_i32_172 : BitVec 32 := 0#32
  ![v280.toNat, 0]
def k0_off6 (k0_t1 : Fin k0_t1_loop.trips) : Fin 1 → Nat :=
  let c0_i32_70 : BitVec 32 := 0#32
  let c1_i32_72 : BitVec 32 := 1#32
  let arg9 : BitVec 32 := Scf.iv c0_i32_70 c1_i32_72 k0_t1
  let c3_i32 : BitVec 32 := 3#32
  let v160 : BitVec 32 := Scalar.addi arg9 c3_i32
  let c4_i32_100 : BitVec 32 := 4#32
  let v161 : BitVec 32 := Scalar.remsi v160 c4_i32_100
  ![v161.toNat]
def k0_cond2 (k0_t1 : Fin k0_t1_loop.trips) : BitVec 1 :=
  let c0_i32_70 : BitVec 32 := 0#32
  let c1_i32_72 : BitVec 32 := 1#32
  let arg9 : BitVec 32 := Scf.iv c0_i32_70 c1_i32_72 k0_t1
  let c3_i32_103 : BitVec 32 := 3#32
  let v165 : BitVec 32 := Scalar.addi arg9 c3_i32_103
  let c26_i32_104 : BitVec 32 := 26#32
  let v166 : BitVec 1 := Scalar.cmpi .slt v165 c26_i32_104
  let v167 : BitVec 32 := Scalar.extui v166
  let c0_i32_105 : BitVec 32 := 0#32
  let v168 : BitVec 1 := Scalar.cmpi .ne v167 c0_i32_105
  v168

def k0_off7 (k0_t1 : Fin k0_t1_loop.trips) : Fin 2 → Nat :=
  let c0_i32_70 : BitVec 32 := 0#32
  let c1_i32_72 : BitVec 32 := 1#32
  let arg9 : BitVec 32 := Scf.iv c0_i32_70 c1_i32_72 k0_t1
  let c3_i32 : BitVec 32 := 3#32
  let v160 : BitVec 32 := Scalar.addi arg9 c3_i32
  let c4_i32_100 : BitVec 32 := 4#32
  let v161 : BitVec 32 := Scalar.remsi v160 c4_i32_100
  let c128_i32_168 : BitVec 32 := 128#32
  let v280 : BitVec 32 := Scalar.muli v161 c128_i32_168
  let c0_i32_169 : BitVec 32 := 0#32
  ![v280.toNat, 0]
def k0_off8 (k0_t1 : Fin k0_t1_loop.trips) : Fin 2 → Nat :=
  let c0_i32_70 : BitVec 32 := 0#32
  let c1_i32_72 : BitVec 32 := 1#32
  let arg9 : BitVec 32 := Scf.iv c0_i32_70 c1_i32_72 k0_t1
  let c3_i32_152 : BitVec 32 := 3#32
  let v249 : BitVec 32 := Scalar.addi arg9 c3_i32_152
  let c0_i32_170 : BitVec 32 := 0#32
  ![v249.toNat, 0]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_153 : BitVec 32 := 26#32
  let v250 : BitVec 32 := Scalar.muli v1 c26_i32_153
  let c0_i32_70 : BitVec 32 := 0#32
  let c1_i32_72 : BitVec 32 := 1#32
  let arg9 : BitVec 32 := Scf.iv c0_i32_70 c1_i32_72 k0_t1
  let c3_i32_152 : BitVec 32 := 3#32
  let v249 : BitVec 32 := Scalar.addi arg9 c3_i32_152
  let v251 : BitVec 32 := Scalar.addi v250 v249
  let c0_i32_155 : BitVec 32 := 0#32
  let v253 : BitVec 1 := Scalar.cmpi .sgt v251 c0_i32_155
  let v254 : BitVec 32 := Scalar.extui v253
  let c0_i32_156 : BitVec 32 := 0#32
  let v255 : BitVec 1 := Scalar.cmpi .slt v251 c0_i32_156
  let v256 : BitVec 32 := Scalar.extui v255
  let v257 : BitVec 32 := Scalar.subi v254 v256
  let c32_i32_154 : BitVec 32 := 32#32
  let c0_i32_157 : BitVec 32 := 0#32
  let v258 : BitVec 1 := Scalar.cmpi .sgt c32_i32_154 c0_i32_157
  let v259 : BitVec 32 := Scalar.extui v258
  let c0_i32_158 : BitVec 32 := 0#32
  let v260 : BitVec 1 := Scalar.cmpi .slt c32_i32_154 c0_i32_158
  let v261 : BitVec 32 := Scalar.extui v260
  let v262 : BitVec 32 := Scalar.subi v259 v261
  let v263 : BitVec 1 := Scalar.cmpi .ne v257 v262
  let v264 : BitVec 32 := Scalar.remsi v251 c32_i32_154
  let c0_i32_159 : BitVec 32 := 0#32
  let v265 : BitVec 1 := Scalar.cmpi .ne v264 c0_i32_159
  let v266 : BitVec 1 := Scalar.andi v263 v265
  let v252 : BitVec 32 := Scalar.divsi v251 c32_i32_154
  let c1_i32_160 : BitVec 32 := 1#32
  let v267 : BitVec 32 := Scalar.subi v252 c1_i32_160
  let v268 : BitVec 32 := Scalar.select v266 v267 v252
  let c0_i32_171 : BitVec 32 := 0#32
  let c0_i32_172 : BitVec 32 := 0#32
  ![v268.toNat, 0, 0]
def k0_off10 (k0_t1 : Fin k0_t1_loop.trips) : Fin 1 → Nat :=
  let c0_i32_70 : BitVec 32 := 0#32
  let c1_i32_72 : BitVec 32 := 1#32
  let arg9 : BitVec 32 := Scf.iv c0_i32_70 c1_i32_72 k0_t1
  let c3_i32 : BitVec 32 := 3#32
  let v160 : BitVec 32 := Scalar.addi arg9 c3_i32
  let c4_i32_100 : BitVec 32 := 4#32
  let v161 : BitVec 32 := Scalar.remsi v160 c4_i32_100
  ![v161.toNat]
def k0_off11 (k0_t1 : Fin k0_t1_loop.trips) : Fin 2 → Nat :=
  let c0_i32_70 : BitVec 32 := 0#32
  let c1_i32_72 : BitVec 32 := 1#32
  let arg9 : BitVec 32 := Scf.iv c0_i32_70 c1_i32_72 k0_t1
  let c4_i32_99 : BitVec 32 := 4#32
  let v159 : BitVec 32 := Scalar.remsi arg9 c4_i32_99
  let c128_i32_121 : BitVec 32 := 128#32
  let v199 : BitVec 32 := Scalar.muli v159 c128_i32_121
  let c0_i32_122 : BitVec 32 := 0#32
  ![v199.toNat, 0]
def k0_off12 (k0_t1 : Fin k0_t1_loop.trips) : Fin 2 → Nat :=
  let c0_i32_70 : BitVec 32 := 0#32
  let c1_i32_72 : BitVec 32 := 1#32
  let arg9 : BitVec 32 := Scf.iv c0_i32_70 c1_i32_72 k0_t1
  let c0_i32_123 : BitVec 32 := 0#32
  ![arg9.toNat, 0]
def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_106 : BitVec 32 := 26#32
  let v169 : BitVec 32 := Scalar.muli v1 c26_i32_106
  let c0_i32_70 : BitVec 32 := 0#32
  let c1_i32_72 : BitVec 32 := 1#32
  let arg9 : BitVec 32 := Scf.iv c0_i32_70 c1_i32_72 k0_t1
  let v170 : BitVec 32 := Scalar.addi v169 arg9
  let c0_i32_108 : BitVec 32 := 0#32
  let v172 : BitVec 1 := Scalar.cmpi .sgt v170 c0_i32_108
  let v173 : BitVec 32 := Scalar.extui v172
  let c0_i32_109 : BitVec 32 := 0#32
  let v174 : BitVec 1 := Scalar.cmpi .slt v170 c0_i32_109
  let v175 : BitVec 32 := Scalar.extui v174
  let v176 : BitVec 32 := Scalar.subi v173 v175
  let c32_i32_107 : BitVec 32 := 32#32
  let c0_i32_110 : BitVec 32 := 0#32
  let v177 : BitVec 1 := Scalar.cmpi .sgt c32_i32_107 c0_i32_110
  let v178 : BitVec 32 := Scalar.extui v177
  let c0_i32_111 : BitVec 32 := 0#32
  let v179 : BitVec 1 := Scalar.cmpi .slt c32_i32_107 c0_i32_111
  let v180 : BitVec 32 := Scalar.extui v179
  let v181 : BitVec 32 := Scalar.subi v178 v180
  let v182 : BitVec 1 := Scalar.cmpi .ne v176 v181
  let v183 : BitVec 32 := Scalar.remsi v170 c32_i32_107
  let c0_i32_112 : BitVec 32 := 0#32
  let v184 : BitVec 1 := Scalar.cmpi .ne v183 c0_i32_112
  let v185 : BitVec 1 := Scalar.andi v182 v184
  let v171 : BitVec 32 := Scalar.divsi v170 c32_i32_107
  let c1_i32_113 : BitVec 32 := 1#32
  let v186 : BitVec 32 := Scalar.subi v171 c1_i32_113
  let v187 : BitVec 32 := Scalar.select v185 v186 v171
  let c0_i32_124 : BitVec 32 := 0#32
  let c0_i32_125 : BitVec 32 := 0#32
  ![v187.toNat, 0, 0]
def k0_off14 (k0_t1 : Fin k0_t1_loop.trips) : Fin 1 → Nat :=
  let c0_i32_70 : BitVec 32 := 0#32
  let c1_i32_72 : BitVec 32 := 1#32
  let arg9 : BitVec 32 := Scf.iv c0_i32_70 c1_i32_72 k0_t1
  let c4_i32_99 : BitVec 32 := 4#32
  let v159 : BitVec 32 := Scalar.remsi arg9 c4_i32_99
  ![v159.toNat]
def k0_off15 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_129 : BitVec 32 := 26#32
  let v209 : BitVec 32 := Scalar.muli v1 c26_i32_129
  let c0_i32_70 : BitVec 32 := 0#32
  let c1_i32_72 : BitVec 32 := 1#32
  let arg9 : BitVec 32 := Scf.iv c0_i32_70 c1_i32_72 k0_t1
  let v210 : BitVec 32 := Scalar.addi v209 arg9
  let c0_i32_131 : BitVec 32 := 0#32
  let v212 : BitVec 1 := Scalar.cmpi .sgt v210 c0_i32_131
  let v213 : BitVec 32 := Scalar.extui v212
  let c0_i32_132 : BitVec 32 := 0#32
  let v214 : BitVec 1 := Scalar.cmpi .slt v210 c0_i32_132
  let v215 : BitVec 32 := Scalar.extui v214
  let v216 : BitVec 32 := Scalar.subi v213 v215
  let c32_i32_130 : BitVec 32 := 32#32
  let c0_i32_133 : BitVec 32 := 0#32
  let v217 : BitVec 1 := Scalar.cmpi .sgt c32_i32_130 c0_i32_133
  let v218 : BitVec 32 := Scalar.extui v217
  let c0_i32_134 : BitVec 32 := 0#32
  let v219 : BitVec 1 := Scalar.cmpi .slt c32_i32_130 c0_i32_134
  let v220 : BitVec 32 := Scalar.extui v219
  let v221 : BitVec 32 := Scalar.subi v218 v220
  let v222 : BitVec 1 := Scalar.cmpi .ne v216 v221
  let v223 : BitVec 32 := Scalar.remsi v210 c32_i32_130
  let c0_i32_135 : BitVec 32 := 0#32
  let v224 : BitVec 1 := Scalar.cmpi .ne v223 c0_i32_135
  let v225 : BitVec 1 := Scalar.andi v222 v224
  let v211 : BitVec 32 := Scalar.divsi v210 c32_i32_130
  let c1_i32_136 : BitVec 32 := 1#32
  let v226 : BitVec 32 := Scalar.subi v211 c1_i32_136
  let v227 : BitVec 32 := Scalar.select v225 v226 v211
  let c0_i32_145 : BitVec 32 := 0#32
  let c0_i32_146 : BitVec 32 := 0#32
  ![v227.toNat, 0, 0]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_129 : BitVec 32 := 26#32
  let v209 : BitVec 32 := Scalar.muli v1 c26_i32_129
  let c0_i32_70 : BitVec 32 := 0#32
  let c1_i32_72 : BitVec 32 := 1#32
  let arg9 : BitVec 32 := Scf.iv c0_i32_70 c1_i32_72 k0_t1
  let v210 : BitVec 32 := Scalar.addi v209 arg9
  let c32_i32_137 : BitVec 32 := 32#32
  let c0_i32_138 : BitVec 32 := 0#32
  let v228 : BitVec 1 := Scalar.cmpi .eq c32_i32_137 c0_i32_138
  let c1_i32_139 : BitVec 32 := 1#32
  let v229 : BitVec 32 := Scalar.select v228 c1_i32_139 c32_i32_137
  let v230 : BitVec 32 := Scalar.remsi v210 v229
  let c0_i32_141 : BitVec 32 := 0#32
  let v232 : BitVec 1 := Scalar.cmpi .slt v230 c0_i32_141
  let c0_i32_142 : BitVec 32 := 0#32
  let v233 : BitVec 1 := Scalar.cmpi .slt v229 c0_i32_142
  let v234 : BitVec 1 := Scalar.xori v232 v233
  let c0_i32_140 : BitVec 32 := 0#32
  let v231 : BitVec 1 := Scalar.cmpi .ne v230 c0_i32_140
  let v235 : BitVec 1 := Scalar.andi v234 v231
  let v236 : BitVec 32 := Scalar.addi v230 v229
  let v237 : BitVec 32 := Scalar.select v235 v236 v230
  let c128_i32_143 : BitVec 32 := 128#32
  let v238 : BitVec 32 := Scalar.muli v237 c128_i32_143
  let c0_i32_147 : BitVec 32 := 0#32
  ![v238.toNat, 0]
def k0_off17 : Fin 2 → Nat :=
  let c25_i32 : BitVec 32 := 25#32
  let c4_i32 : BitVec 32 := 4#32
  let v117 : BitVec 32 := Scalar.remsi c25_i32 c4_i32
  let c128_i32_74 : BitVec 32 := 128#32
  let v118 : BitVec 32 := Scalar.muli v117 c128_i32_74
  let c0_i32_91 : BitVec 32 := 0#32
  ![v118.toNat, 0]
def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_75 : BitVec 32 := 26#32
  let v119 : BitVec 32 := Scalar.muli v1 c26_i32_75
  let c25_i32_76 : BitVec 32 := 25#32
  let v120 : BitVec 32 := Scalar.addi v119 c25_i32_76
  let c0_i32_78 : BitVec 32 := 0#32
  let v122 : BitVec 1 := Scalar.cmpi .sgt v120 c0_i32_78
  let v123 : BitVec 32 := Scalar.extui v122
  let c0_i32_79 : BitVec 32 := 0#32
  let v124 : BitVec 1 := Scalar.cmpi .slt v120 c0_i32_79
  let v125 : BitVec 32 := Scalar.extui v124
  let v126 : BitVec 32 := Scalar.subi v123 v125
  let c32_i32_77 : BitVec 32 := 32#32
  let c0_i32_80 : BitVec 32 := 0#32
  let v127 : BitVec 1 := Scalar.cmpi .sgt c32_i32_77 c0_i32_80
  let v128 : BitVec 32 := Scalar.extui v127
  let c0_i32_81 : BitVec 32 := 0#32
  let v129 : BitVec 1 := Scalar.cmpi .slt c32_i32_77 c0_i32_81
  let v130 : BitVec 32 := Scalar.extui v129
  let v131 : BitVec 32 := Scalar.subi v128 v130
  let v132 : BitVec 1 := Scalar.cmpi .ne v126 v131
  let v133 : BitVec 32 := Scalar.remsi v120 c32_i32_77
  let c0_i32_82 : BitVec 32 := 0#32
  let v134 : BitVec 1 := Scalar.cmpi .ne v133 c0_i32_82
  let v135 : BitVec 1 := Scalar.andi v132 v134
  let v121 : BitVec 32 := Scalar.divsi v120 c32_i32_77
  let c1_i32_83 : BitVec 32 := 1#32
  let v136 : BitVec 32 := Scalar.subi v121 c1_i32_83
  let v137 : BitVec 32 := Scalar.select v135 v136 v121
  let c0_i32_92 : BitVec 32 := 0#32
  let c0_i32_93 : BitVec 32 := 0#32
  ![v137.toNat, 0, 0]
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_75 : BitVec 32 := 26#32
  let v119 : BitVec 32 := Scalar.muli v1 c26_i32_75
  let c25_i32_76 : BitVec 32 := 25#32
  let v120 : BitVec 32 := Scalar.addi v119 c25_i32_76
  let c32_i32_84 : BitVec 32 := 32#32
  let c0_i32_85 : BitVec 32 := 0#32
  let v138 : BitVec 1 := Scalar.cmpi .eq c32_i32_84 c0_i32_85
  let c1_i32_86 : BitVec 32 := 1#32
  let v139 : BitVec 32 := Scalar.select v138 c1_i32_86 c32_i32_84
  let v140 : BitVec 32 := Scalar.remsi v120 v139
  let c0_i32_88 : BitVec 32 := 0#32
  let v142 : BitVec 1 := Scalar.cmpi .slt v140 c0_i32_88
  let c0_i32_89 : BitVec 32 := 0#32
  let v143 : BitVec 1 := Scalar.cmpi .slt v139 c0_i32_89
  let v144 : BitVec 1 := Scalar.xori v142 v143
  let c0_i32_87 : BitVec 32 := 0#32
  let v141 : BitVec 1 := Scalar.cmpi .ne v140 c0_i32_87
  let v145 : BitVec 1 := Scalar.andi v144 v141
  let v146 : BitVec 32 := Scalar.addi v140 v139
  let v147 : BitVec 32 := Scalar.select v145 v146 v140
  let c128_i32_90 : BitVec 32 := 128#32
  let v148 : BitVec 32 := Scalar.muli v147 c128_i32_90
  let c0_i32_94 : BitVec 32 := 0#32
  ![v148.toNat, 0]
def k0_off20 : Fin 1 → Nat :=
  let c25_i32 : BitVec 32 := 25#32
  let c4_i32 : BitVec 32 := 4#32
  let v117 : BitVec 32 := Scalar.remsi c25_i32 c4_i32
  ![v117.toNat]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S26x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S13x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S13x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x768x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S43x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S26x4096_S32x26x128 : S26x4096.ShapeCasts S32x26x128
  squeezes_S1x26x128_S26x128 : S1x26x128.Squeezes S26x128
  inb_S512x128_S128x128_0_0 : ∀ a, (![0, 0] : Fin 2 → Nat) a + S128x128.size a ≤ S512x128.size a
  inb_S26x128_S1x128_0_0 : ∀ a, (![0, 0] : Fin 2 → Nat) a + S1x128.size a ≤ S26x128.size a
  squeezes_S1x128_S128 : S1x128.Squeezes S128
  squeezes_S1x100001x128_S100001x128 : S1x100001x128.Squeezes S100001x128
  inb_S100001x128_S100001x128_0_0 : ∀ a, (![0, 0] : Fin 2 → Nat) a + S100001x128.size a ≤ S100001x128.size a
  inb_S4_S1_0 : ∀ a, (![0] : Fin 1 → Nat) a + S1.size a ≤ S4.size a
  squeezes_S1_S_ : S1.Squeezes S_
  gathers_S100001x128_S128x128 : S100001x128.Gathers 0 S128x128
  inb_S512x128_S128x128_128_0 : ∀ a, (![128, 0] : Fin 2 → Nat) a + S128x128.size a ≤ S512x128.size a
  inb_S26x128_S1x128_1_0 : ∀ a, (![1, 0] : Fin 2 → Nat) a + S1x128.size a ≤ S26x128.size a
  inb_S4_S1_1 : ∀ a, (![1] : Fin 1 → Nat) a + S1.size a ≤ S4.size a
  inb_S512x128_S128x128_256_0 : ∀ a, (![256, 0] : Fin 2 → Nat) a + S128x128.size a ≤ S512x128.size a
  inb_S26x128_S1x128_2_0 : ∀ a, (![2, 0] : Fin 2 → Nat) a + S1x128.size a ≤ S26x128.size a
  inb_S4_S1_2 : ∀ a, (![2] : Fin 1 → Nat) a + S1.size a ≤ S4.size a
  squeezes_S1x4096x128_S4096x128 : S1x4096x128.Squeezes S4096x128
  shapeCasts_S13x4096x1_S13x4096 : S13x4096x1.ShapeCasts S13x4096
  shapeCasts_S13x1x128_S13x128 : S13x1x128.ShapeCasts S13x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  inb_S26x512x128_S26x512x128_0_0_0 : ∀ a, (![0, 0, 0] : Fin 3 → Nat) a + S26x512x128.size a ≤ S26x512x128.size a
  h_S26x512x128 : 0 < S26x512x128.numel
  shapeCasts_S26x512x128_S26x512x128 : S26x512x128.ShapeCasts S26x512x128
  reduces_S26x512x128_S26x512 : S26x512x128.Reduces [2] S26x512
  shapeCasts_S26x512_S26x512x1 : S26x512.ShapeCasts S26x512x1
  broadcasts_S26x512x1_S26x512x128 : S26x512x1.Broadcasts S26x512x128
  broadcasts_S1x1x128_S26x512x128 : S1x1x128.Broadcasts S26x512x128
  inb_S43x512x128_S26x512x128_0_0_0 : ∀ a, (![0, 0, 0] : Fin 3 → Nat) a + S26x512x128.size a ≤ S43x512x128.size a
  inb_S13x512_S13x512_0_0 : ∀ a, (![0, 0] : Fin 2 → Nat) a + S13x512.size a ≤ S13x512.size a
  h_S13x512 : 0 < S13x512.numel
  shapeCasts_S13x512_S13x512 : S13x512.ShapeCasts S13x512
  inb_S13x128_S13x128_0_0 : ∀ a, (![0, 0] : Fin 2 → Nat) a + S13x128.size a ≤ S13x128.size a
  h_S13x128 : 0 < S13x128.numel
  shapeCasts_S13x128_S13x128 : S13x128.ShapeCasts S13x128
  shapeCasts_S13x512_S13x512x1 : S13x512.ShapeCasts S13x512x1
  shapeCasts_S13x128_S13x1x128 : S13x128.ShapeCasts S13x1x128
  broadcasts_S13x512x1_S13x512x128 : S13x512x1.Broadcasts S13x512x128
  broadcasts_S13x1x128_S13x512x128 : S13x1x128.Broadcasts S13x512x128
  reduces_S13x512x128_S13x512 : S13x512x128.Reduces [2] S13x512
  broadcasts_S1x1x128_S13x512x128 : S1x1x128.Broadcasts S13x512x128
  inb_S43x512x128_S13x512x128_26_0_0 : ∀ a, (![26, 0, 0] : Fin 3 → Nat) a + S13x512x128.size a ≤ S43x512x128.size a
  h_S13x512x128 : 0 < S13x512x128.numel
  inb_S4x512x768_S1x512x768_0_0_0 : ∀ a, (![0, 0, 0] : Fin 3 → Nat) a + S1x512x768.size a ≤ S4x512x768.size a
  h_S1x512x768 : 0 < S1x512x768.numel
  shapeCasts_S1x512x768_S512x768 : S1x512x768.ShapeCasts S512x768
  inb_S4x768x128_S1x768x128_0_0_0 : ∀ a, (![0, 0, 0] : Fin 3 → Nat) a + S1x768x128.size a ≤ S4x768x128.size a
  h_S1x768x128 : 0 < S1x768x128.numel
  shapeCasts_S1x768x128_S768x128 : S1x768x128.ShapeCasts S768x128
  reduces_S512x128_S512 : S512x128.Reduces [1] S512
  shapeCasts_S512_S512x1 : S512.ShapeCasts S512x1
  broadcasts_S512x1_S512x128 : S512x1.Broadcasts S512x128
  broadcasts_S1x128_S512x128 : S1x128.Broadcasts S512x128
  inb_S43x512x128_S1x512x128_39_0_0 : ∀ a, (![39, 0, 0] : Fin 3 → Nat) a + S1x512x128.size a ≤ S43x512x128.size a
  h_S1x512x128 : 0 < S1x512x128.numel
  shapeCasts_S1x512x128_S512x128 : S1x512x128.ShapeCasts S512x128
  shapeCasts_S512x128_S1x512x128 : S512x128.ShapeCasts S1x512x128
  inb_S4x512x768_S1x512x768_1_0_0 : ∀ a, (![1, 0, 0] : Fin 3 → Nat) a + S1x512x768.size a ≤ S4x512x768.size a
  inb_S4x768x128_S1x768x128_1_0_0 : ∀ a, (![1, 0, 0] : Fin 3 → Nat) a + S1x768x128.size a ≤ S4x768x128.size a
  inb_S43x512x128_S1x512x128_40_0_0 : ∀ a, (![40, 0, 0] : Fin 3 → Nat) a + S1x512x128.size a ≤ S43x512x128.size a
  inb_S4x512x768_S1x512x768_2_0_0 : ∀ a, (![2, 0, 0] : Fin 3 → Nat) a + S1x512x768.size a ≤ S4x512x768.size a
  inb_S4x768x128_S1x768x128_2_0_0 : ∀ a, (![2, 0, 0] : Fin 3 → Nat) a + S1x768x128.size a ≤ S4x768x128.size a
  inb_S43x512x128_S1x512x128_41_0_0 : ∀ a, (![41, 0, 0] : Fin 3 → Nat) a + S1x512x128.size a ≤ S43x512x128.size a
  inb_S4x512x768_S1x512x768_3_0_0 : ∀ a, (![3, 0, 0] : Fin 3 → Nat) a + S1x512x768.size a ≤ S4x512x768.size a
  inb_S4x768x128_S1x768x128_3_0_0 : ∀ a, (![3, 0, 0] : Fin 3 → Nat) a + S1x768x128.size a ≤ S4x768x128.size a
  inb_S43x512x128_S1x512x128_42_0_0 : ∀ a, (![42, 0, 0] : Fin 3 → Nat) a + S1x512x128.size a ≤ S43x512x128.size a
  transposes_S43x4096x128_S4096x43x128_1_0_2 : S43x4096x128.Transposes [1, 0, 2] S4096x43x128
  dot_S512x768_S768x128_S512x128_1_0_0_1_n_n_wf : DotDims.WF S512x768 S768x128 S512x128 [1] [0] [0] [1] [] []
  hcc0_scratch2 : 0 + S4.numel ≤ 21
  hcc0_scratch3 : 4 + S4.numel ≤ 21
  hcc0_scoped0 : 8 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x26x128.size a ≤ S32x26x128.size a
  k0_off2_inb : ∀ i : grid0.Coords, ∀ (r : Fin 3), ∀ a, (k0_off2 i (BitVec.ofNat 32 r.val)) a + S1x100001x128.size a ≤ S26x100001x128.size a
  k0_t1_ok : k0_t1_loop.OK
  k0_off3_inb : ∀ k0_t1 : Fin k0_t1_loop.trips, ∀ (k0_h1 : k0_cond1 k0_t1 = 1#1), ∀ a, (k0_off3 k0_t1) a + S128x128.size a ≤ S512x128.size a
  k0_off4_inb : ∀ (i : grid0.Coords) (k0_t1 : Fin k0_t1_loop.trips), ∀ (k0_h1 : k0_cond1 k0_t1 = 1#1), ∀ a, (k0_off4 i k0_t1) a + S1x4096x128.size a ≤ S26x4096x128.size a
  k0_off5_inb : ∀ (i : grid0.Coords) (k0_t1 : Fin k0_t1_loop.trips), ∀ (k0_h1 : k0_cond1 k0_t1 = 1#1), ∀ a, (k0_off5 i k0_t1) a + S128x128.size a ≤ S4096x128.size a
  k0_off6_inb : ∀ k0_t1 : Fin k0_t1_loop.trips, ∀ (k0_h1 : k0_cond1 k0_t1 = 1#1), ∀ a, (k0_off6 k0_t1) a + S1.size a ≤ S4.size a
  k0_off7_inb : ∀ k0_t1 : Fin k0_t1_loop.trips, ∀ (k0_h2 : k0_cond2 k0_t1 = 1#1), ∀ a, (k0_off7 k0_t1) a + S128x128.size a ≤ S512x128.size a
  k0_off8_inb : ∀ k0_t1 : Fin k0_t1_loop.trips, ∀ (k0_h2 : k0_cond2 k0_t1 = 1#1), ∀ a, (k0_off8 k0_t1) a + S1x128.size a ≤ S26x128.size a
  k0_off9_inb : ∀ (i : grid0.Coords) (k0_t1 : Fin k0_t1_loop.trips), ∀ (k0_h2 : k0_cond2 k0_t1 = 1#1), ∀ a, (k0_off9 i k0_t1) a + S1x100001x128.size a ≤ S26x100001x128.size a
  k0_off10_inb : ∀ k0_t1 : Fin k0_t1_loop.trips, ∀ (k0_h2 : k0_cond2 k0_t1 = 1#1), ∀ a, (k0_off10 k0_t1) a + S1.size a ≤ S4.size a
  k0_off11_inb : ∀ k0_t1 : Fin k0_t1_loop.trips, ∀ a, (k0_off11 k0_t1) a + S128x128.size a ≤ S512x128.size a
  k0_off12_inb : ∀ k0_t1 : Fin k0_t1_loop.trips, ∀ a, (k0_off12 k0_t1) a + S1x128.size a ≤ S26x128.size a
  k0_off13_inb : ∀ (i : grid0.Coords) (k0_t1 : Fin k0_t1_loop.trips), ∀ a, (k0_off13 i k0_t1) a + S1x100001x128.size a ≤ S26x100001x128.size a
  k0_off14_inb : ∀ k0_t1 : Fin k0_t1_loop.trips, ∀ a, (k0_off14 k0_t1) a + S1.size a ≤ S4.size a
  k0_off15_inb : ∀ (i : grid0.Coords) (k0_t1 : Fin k0_t1_loop.trips), ∀ a, (k0_off15 i k0_t1) a + S1x4096x128.size a ≤ S26x4096x128.size a
  k0_off16_inb : ∀ (i : grid0.Coords) (k0_t1 : Fin k0_t1_loop.trips), ∀ a, (k0_off16 i k0_t1) a + S128x128.size a ≤ S4096x128.size a
  k0_off17_inb : ∀ a, k0_off17 a + S128x128.size a ≤ S512x128.size a
  k0_off18_inb : ∀ i : grid0.Coords, ∀ a, (k0_off18 i) a + S1x4096x128.size a ≤ S26x4096x128.size a
  k0_off19_inb : ∀ i : grid0.Coords, ∀ a, (k0_off19 i) a + S128x128.size a ≤ S4096x128.size a
  k0_off20_inb : ∀ a, k0_off20 a + S1.size a ≤ S4.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S26x512x128.size a ≤ S26x4096x128.size a
  hwx1_0 : ∀ i : grid1.Coords, EltTy.bits .f32 = 32 ∨ (Rect.block (s := S26x4096x128) S26x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S13x512.size a ≤ S13x4096.size a
  hwx1_1 : ∀ i : grid1.Coords, EltTy.bits .f32 = 32 ∨ (Rect.block (s := S13x4096) S13x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S13x128.size a ≤ S13x128.size a
  hwx1_2 : ∀ i : grid1.Coords, EltTy.bits .f32 = 32 ∨ (Rect.block (s := S13x128) S13x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x768.size a ≤ S4x4096x768.size a
  hwx1_3 : ∀ i : grid1.Coords, EltTy.bits .f32 = 32 ∨ (Rect.block (s := S4x4096x768) S4x512x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x768x128.size a ≤ S4x768x128.size a
  hwx1_4 : ∀ i : grid1.Coords, EltTy.bits .f32 = 32 ∨ (Rect.block (s := S4x768x128) S4x768x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S43x512x128.size a ≤ S43x4096x128.size a
  hwx1_7 : ∀ i : grid1.Coords, EltTy.bits .f32 = 32 ∨ (Rect.block (s := S43x4096x128) S43x512x128.size (cc1_transform_7 i) (hinb1_7 i)).WholeWords (EltTy.packing .f32)

variable [Facts₀]

abbrev cc0_scratch2 : DmaSems sig S4 := SemArray.consecutive 0 S4 hcc0_scratch2
abbrev cc0_scratch3 : DmaSems sig S4 := SemArray.consecutive 4 S4 hcc0_scratch3
abbrev cc0_scoped0 : DmaSems sig S_ := SemArray.consecutive 8 S_ hcc0_scoped0
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf

abbrev win1_0 : Pipeline.Window sig grid1 :=
  Pipeline.Window.ofSpec (Memref.whole main_v1) S26x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S13x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S13x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S4x512x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4x768x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S43x512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S13x4096x1 : Shape := ⟨3, ![13, 4096, 1]⟩
abbrev S26x4096 : Shape := ⟨2, ![26, 4096]⟩
abbrev S4x4096x768 : Shape := ⟨3, ![4, 4096, 768]⟩
abbrev S26x100001x128 : Shape := ⟨3, ![26, 100001, 128]⟩
abbrev S13x1x128 : Shape := ⟨3, ![13, 1, 128]⟩
abbrev S4x768x128 : Shape := ⟨3, ![4, 768, 128]⟩
abbrev S128 : Shape := ⟨1, ![128]⟩
abbrev S_ : Shape := ⟨0, ![]⟩
abbrev S26x4096x1 : Shape := ⟨3, ![26, 4096, 1]⟩
abbrev S1 : Shape := ⟨1, ![1]⟩
abbrev S1x1x1 : Shape := ⟨3, ![1, 1, 1]⟩
abbrev S26x4096x128 : Shape := ⟨3, ![26, 4096, 128]⟩
abbrev S4096x26x128 : Shape := ⟨3, ![4096, 26, 128]⟩
abbrev S4096x26 : Shape := ⟨2, ![4096, 26]⟩
abbrev S4096x26x1 : Shape := ⟨3, ![4096, 26, 1]⟩
abbrev S1x1x128 : Shape := ⟨3, ![1, 1, 128]⟩
abbrev S13x128x4096 : Shape := ⟨3, ![13, 128, 4096]⟩
abbrev S4096x13x128 : Shape := ⟨3, ![4096, 13, 128]⟩
abbrev S4096x13 : Shape := ⟨2, ![4096, 13]⟩
abbrev S4096x13x1 : Shape := ⟨3, ![4096, 13, 1]⟩
abbrev S4x128x4096 : Shape := ⟨3, ![4, 128, 4096]⟩
abbrev S4096x4x128 : Shape := ⟨3, ![4096, 4, 128]⟩
abbrev S4096x4 : Shape := ⟨2, ![4096, 4]⟩
abbrev S4096x4x1 : Shape := ⟨3, ![4096, 4, 1]⟩
abbrev S4096x43x128 : Shape := ⟨3, ![4096, 43, 128]⟩

abbrev nBuf : Space → Nat
  | .hbm => 169
  | .vmem => 0
  | .smem => 0
  | _ => 0

abbrev hbmTy0_0 (i : Nat) : BufTy := match i % 128 with
  | 0 => ⟨S13x4096x1, .f32⟩
  | 1 => ⟨S26x4096, .i32⟩
  | 2 => ⟨S4x4096x768, .f32⟩
  | 3 => ⟨S26x100001x128, .f32⟩
  | 4 => ⟨S13x1x128, .f32⟩
  | 5 => ⟨S4x768x128, .f32⟩
  | 6 => ⟨S128, .f32⟩
  | 7 => ⟨S128, .f32⟩
  | 8 => ⟨S_, .i32⟩
  | 9 => ⟨S26x4096, .i32⟩
  | 10 => ⟨S26x4096, .i1⟩
  | 11 => ⟨S_, .i32⟩
  | 12 => ⟨S26x4096, .i32⟩
  | 13 => ⟨S26x4096, .i32⟩
  | 14 => ⟨S26x4096, .i32⟩
  | 15 => ⟨S26x4096x1, .i32⟩
  | 16 => ⟨S1, .i32⟩
  | 17 => ⟨S_, .i32⟩
  | 18 => ⟨S26x4096x1, .i32⟩
  | 19 => ⟨S26x4096x1, .i1⟩
  | 20 => ⟨S1x1x1, .i32⟩
  | 21 => ⟨S26x4096x1, .i32⟩
  | 22 => ⟨S26x4096x1, .i1⟩
  | 23 => ⟨S26x4096x1, .i1⟩
  | 24 => ⟨S_, .i1⟩
  | 25 => ⟨S26x4096, .i1⟩
  | 26 => ⟨S26x4096x128, .f32⟩
  | 27 => ⟨S26x4096x128, .i1⟩
  | 28 => ⟨S_, .f32⟩
  | 29 => ⟨S26x4096x128, .f32⟩
  | 30 => ⟨S26x4096x128, .f32⟩
  | 31 => ⟨S4096x26x128, .f32⟩
  | 32 => ⟨S_, .f32⟩
  | 33 => ⟨S4096x26, .f32⟩
  | 34 => ⟨S4096x26x1, .f32⟩
  | 35 => ⟨S_, .f32⟩
  | 36 => ⟨S4096x26x1, .f32⟩
  | 37 => ⟨S4096x26x1, .f32⟩
  | 38 => ⟨S_, .i32⟩
  | 39 => ⟨S_, .f32⟩
  | 40 => ⟨S4096x26, .f32⟩
  | 41 => ⟨S4096x26x1, .f32⟩
  | 42 => ⟨S_, .f32⟩
  | 43 => ⟨S4096x26x1, .f32⟩
  | 44 => ⟨S4096x26x1, .f32⟩
  | 45 => ⟨S4096x26x128, .f32⟩
  | 46 => ⟨S4096x26x128, .f32⟩
  | 47 => ⟨S4096x26x128, .f32⟩
  | 48 => ⟨S_, .f32⟩
  | 49 => ⟨S_, .f32⟩
  | 50 => ⟨S_, .f32⟩
  | 51 => ⟨S_, .f32⟩
  | 52 => ⟨S4096x26, .f32⟩
  | 53 => ⟨S4096x26x1, .f32⟩
  | 54 => ⟨S4096x26x1, .f32⟩
  | 55 => ⟨S4096x26x1, .f32⟩
  | 56 => ⟨S_, .f32⟩
  | 57 => ⟨S_, .i1⟩
  | 58 => ⟨S_, .f32⟩
  | 59 => ⟨S_, .f32⟩
  | 60 => ⟨S4096x26x1, .f32⟩
  | 61 => ⟨S4096x26x1, .f32⟩
  | 62 => ⟨S4096x26x128, .f32⟩
  | 63 => ⟨S4096x26x128, .f32⟩
  | 64 => ⟨S_, .f32⟩
  | 65 => ⟨S4096x26x1, .f32⟩
  | 66 => ⟨S4096x26x1, .f32⟩
  | 67 => ⟨S4096x26x1, .f32⟩
  | 68 => ⟨S4096x26x128, .f32⟩
  | 69 => ⟨S4096x26x128, .f32⟩
  | 70 => ⟨S1x1x128, .f32⟩
  | 71 => ⟨S4096x26x128, .f32⟩
  | 72 => ⟨S4096x26x128, .f32⟩
  | 73 => ⟨S1x1x128, .f32⟩
  | 74 => ⟨S4096x26x128, .f32⟩
  | 75 => ⟨S4096x26x128, .f32⟩
  | 76 => ⟨S13x128x4096, .f32⟩
  | 77 => ⟨S4096x13x128, .f32⟩
  | 78 => ⟨S_, .f32⟩
  | 79 => ⟨S4096x13, .f32⟩
  | 80 => ⟨S4096x13x1, .f32⟩
  | 81 => ⟨S_, .f32⟩
  | 82 => ⟨S4096x13x1, .f32⟩
  | 83 => ⟨S4096x13x1, .f32⟩
  | 84 => ⟨S_, .i32⟩
  | 85 => ⟨S_, .f32⟩
  | 86 => ⟨S4096x13, .f32⟩
  | 87 => ⟨S4096x13x1, .f32⟩
  | 88 => ⟨S_, .f32⟩
  | 89 => ⟨S4096x13x1, .f32⟩
  | 90 => ⟨S4096x13x1, .f32⟩
  | 91 => ⟨S4096x13x128, .f32⟩
  | 92 => ⟨S4096x13x128, .f32⟩
  | 93 => ⟨S4096x13x128, .f32⟩
  | 94 => ⟨S_, .f32⟩
  | 95 => ⟨S_, .f32⟩
  | 96 => ⟨S_, .f32⟩
  | 97 => ⟨S_, .f32⟩
  | 98 => ⟨S4096x13, .f32⟩
  | 99 => ⟨S4096x13x1, .f32⟩
  | 100 => ⟨S4096x13x1, .f32⟩
  | 101 => ⟨S4096x13x1, .f32⟩
  | 102 => ⟨S_, .f32⟩
  | 103 => ⟨S_, .i1⟩
  | 104 => ⟨S_, .f32⟩
  | 105 => ⟨S_, .f32⟩
  | 106 => ⟨S4096x13x1, .f32⟩
  | 107 => ⟨S4096x13x1, .f32⟩
  | 108 => ⟨S4096x13x128, .f32⟩
  | 109 => ⟨S4096x13x128, .f32⟩
  | 110 => ⟨S_, .f32⟩
  | 111 => ⟨S4096x13x1, .f32⟩
  | 112 => ⟨S4096x13x1, .f32⟩
  | 113 => ⟨S4096x13x1, .f32⟩
  | 114 => ⟨S4096x13x128, .f32⟩
  | 115 => ⟨S4096x13x128, .f32⟩
  | 116 => ⟨S1x1x128, .f32⟩
  | 117 => ⟨S4096x13x128, .f32⟩
  | 118 => ⟨S4096x13x128, .f32⟩
  | 119 => ⟨S1x1x128, .f32⟩
  | 120 => ⟨S4096x13x128, .f32⟩
  | 121 => ⟨S4096x13x128, .f32⟩
  | 122 => ⟨S4x128x4096, .f32⟩
  | 123 => ⟨S4096x4x128, .f32⟩
  | 124 => ⟨S_, .f32⟩
  | 125 => ⟨S4096x4, .f32⟩
  | 126 => ⟨S4096x4x1, .f32⟩
  | 127 => ⟨S_, .f32⟩
  | _ => ⟨S13x4096x1, .f32⟩

abbrev hbmTy0_1 (i : Nat) : BufTy := match i % 128 with
  | 0 => ⟨S4096x4x1, .f32⟩
  | 1 => ⟨S4096x4x1, .f32⟩
  | 2 => ⟨S_, .i32⟩
  | 3 => ⟨S_, .f32⟩
  | 4 => ⟨S4096x4, .f32⟩
  | 5 => ⟨S4096x4x1, .f32⟩
  | 6 => ⟨S_, .f32⟩
  | 7 => ⟨S4096x4x1, .f32⟩
  | 8 => ⟨S4096x4x1, .f32⟩
  | 9 => ⟨S4096x4x128, .f32⟩
  | 10 => ⟨S4096x4x128, .f32⟩
  | 11 => ⟨S4096x4x128, .f32⟩
  | 12 => ⟨S_, .f32⟩
  | 13 => ⟨S_, .f32⟩
  | 14 => ⟨S_, .f32⟩
  | 15 => ⟨S_, .f32⟩
  | 16 => ⟨S4096x4, .f32⟩
  | 17 => ⟨S4096x4x1, .f32⟩
  | 18 => ⟨S4096x4x1, .f32⟩
  | 19 => ⟨S4096x4x1, .f32⟩
  | 20 => ⟨S_, .f32⟩
  | 21 => ⟨S_, .i1⟩
  | 22 => ⟨S_, .f32⟩
  | 23 => ⟨S_, .f32⟩
  | 24 => ⟨S4096x4x1, .f32⟩
  | 25 => ⟨S4096x4x1, .f32⟩
  | 26 => ⟨S4096x4x128, .f32⟩
  | 27 => ⟨S4096x4x128, .f32⟩
  | 28 => ⟨S_, .f32⟩
  | 29 => ⟨S4096x4x1, .f32⟩
  | 30 => ⟨S4096x4x1, .f32⟩
  | 31 => ⟨S4096x4x1, .f32⟩
  | 32 => ⟨S4096x4x128, .f32⟩
  | 33 => ⟨S4096x4x128, .f32⟩
  | 34 => ⟨S1x1x128, .f32⟩
  | 35 => ⟨S4096x4x128, .f32⟩
  | 36 => ⟨S4096x4x128, .f32⟩
  | 37 => ⟨S1x1x128, .f32⟩
  | 38 => ⟨S4096x4x128, .f32⟩
  | 39 => ⟨S4096x4x128, .f32⟩
  | 40 => ⟨S4096x43x128, .f32⟩
  | _ => ⟨S13x4096x1, .f32⟩

abbrev hbmTy (i : Nat) : BufTy := match i / 128 with
  | 0 => hbmTy0_0 i
  | 1 => hbmTy0_1 i
  | _ => ⟨S13x4096x1, .f32⟩

abbrev bufTy : (tb : Table) → Fin (tcTables nBuf tb) → BufTy
  | .hbm, ⟨i, _⟩ => hbmTy i
  | _, _ => ⟨S13x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_cst_3 : Ref sig .tc := ⟨.hbm, 56, rfl⟩
abbrev main_call1_v13 : Ref sig .tc := ⟨.hbm, 57, rfl⟩
abbrev main_call1_cst_4 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_cst_1 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_2 : Ref sig .tc := ⟨.hbm, 78, rfl⟩
abbrev main_v22 : Ref sig .tc := ⟨.hbm, 79, rfl⟩
abbrev main_v23 : Ref sig .tc := ⟨.hbm, 80, rfl⟩
abbrev main_cst_3 : Ref sig .tc := ⟨.hbm, 81, rfl⟩
abbrev main_v24 : Ref sig .tc := ⟨.hbm, 82, rfl⟩
abbrev main_v25 : Ref sig .tc := ⟨.hbm, 83, rfl⟩
abbrev main_c_4 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_v12 : Ref sig .tc := ⟨.hbm, 101, rfl⟩
abbrev main_call2_cst_3 : Ref sig .tc := ⟨.hbm, 102, rfl⟩
abbrev main_call2_v13 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_cst_5 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_cst_6 : Ref sig .tc := ⟨.hbm, 124, rfl⟩
abbrev main_v42 : Ref sig .tc := ⟨.hbm, 125, rfl⟩
abbrev main_v43 : Ref sig .tc := ⟨.hbm, 126, rfl⟩
abbrev main_cst_7 : Ref sig .tc := ⟨.hbm, 127, rfl⟩
abbrev main_v44 : Ref sig .tc := ⟨.hbm, 128, rfl⟩
abbrev main_v45 : Ref sig .tc := ⟨.hbm, 129, rfl⟩
abbrev main_c_8 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_cst_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_cst_1 : Ref sig .tc := ⟨.hbm, 141, rfl⟩
abbrev main_call3_v8 : Ref sig .tc := ⟨.hbm, 142, rfl⟩
abbrev main_call3_cst_2 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_v12 : Ref sig .tc := ⟨.hbm, 147, rfl⟩
abbrev main_call3_cst_3 : Ref sig .tc := ⟨.hbm, 148, rfl⟩
abbrev main_call3_v13 : Ref sig .tc := ⟨.hbm, 149, rfl⟩
abbrev main_call3_cst_4 : Ref sig .tc := ⟨.hbm, 150, rfl⟩
abbrev main_call3_call0_v0 : Ref sig .tc := ⟨.hbm, 151, rfl⟩
abbrev main_call3_call0_v1 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_cst_9 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩

abbrev nD : Nat := 1
abbrev τ : Topo := Topo.v7x

variable {F : FTy → Type} [FloatOps F]

class Facts₀ : Prop where
  bcast_S_S26x4096 : S_.BroadcastsInDim S26x4096 (![] : Fin 0 → Fin S26x4096.rank)
  bcast_S26x4096_S26x4096x1_0_1 : S26x4096.BroadcastsInDim S26x4096x1 (![0, 1] : Fin 2 → Fin S26x4096x1.rank)
  bcast_S_S26x4096x1 : S_.BroadcastsInDim S26x4096x1 (![] : Fin 0 → Fin S26x4096x1.rank)
  bcast_S1_S1x1x1_2 : S1.BroadcastsInDim S1x1x1 (![2] : Fin 1 → Fin S1x1x1.rank)
  bcast_S1x1x1_S26x4096x1_0_1_2 : S1x1x1.BroadcastsInDim S26x4096x1 (![0, 1, 2] : Fin 3 → Fin S26x4096x1.rank)
  reducesTo_S26x4096x1_S26x4096_d2 : S26x4096x1.ReducesTo [2] S26x4096
  h_S_ : 0 < S_.numel
  bcast_S26x4096_S26x4096x128_0_1 : S26x4096.BroadcastsInDim S26x4096x128 (![0, 1] : Fin 2 → Fin S26x4096x128.rank)
  bcast_S_S26x4096x128 : S_.BroadcastsInDim S26x4096x128 (![] : Fin 0 → Fin S26x4096x128.rank)
  transposes_S26x4096x128_S4096x26x128_1_0_2 : S26x4096x128.Transposes [1, 0, 2] S4096x26x128
  reducesTo_S4096x26x128_S4096x26_d2 : S4096x26x128.ReducesTo [2] S4096x26
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S4096x26x1_S4096x26x128_0_1_2 : S4096x26x1.BroadcastsInDim S4096x26x128 (![0, 1, 2] : Fin 3 → Fin S4096x26x128.rank)
  bcast_S128_S1x1x128_2 : S128.BroadcastsInDim S1x1x128 (![2] : Fin 1 → Fin S1x1x128.rank)
  bcast_S1x1x128_S4096x26x128_0_1_2 : S1x1x128.BroadcastsInDim S4096x26x128 (![0, 1, 2] : Fin 3 → Fin S4096x26x128.rank)
  transposes_S13x128x4096_S4096x13x128_2_0_1 : S13x128x4096.Transposes [2, 0, 1] S4096x13x128
  reducesTo_S4096x13x128_S4096x13_d2 : S4096x13x128.ReducesTo [2] S4096x13
  bcast_S4096x13_S4096x13x1_0_1 : S4096x13.BroadcastsInDim S4096x13x1 (![0, 1] : Fin 2 → Fin S4096x13x1.rank)
  bcast_S_S4096x13x1 : S_.BroadcastsInDim S4096x13x1 (![] : Fin 0 → Fin S4096x13x1.rank)
  bcast_S4096x13x1_S4096x13x128_0_1_2 : S4096x13x1.BroadcastsInDim S4096x13x128 (![0, 1, 2] : Fin 3 → Fin S4096x13x128.rank)
  bcast_S1x1x128_S4096x13x128_0_1_2 : S1x1x128.BroadcastsInDim S4096x13x128 (![0, 1, 2] : Fin 3 → Fin S4096x13x128.rank)
  transposes_S4x128x4096_S4096x4x128_2_0_1 : S4x128x4096.Transposes [2, 0, 1] S4096x4x128
  reducesTo_S4096x4x128_S4096x4_d2 : S4096x4x128.ReducesTo [2] S4096x4
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x128_0_1_2 : S4096x4x1.BroadcastsInDim S4096x4x128 (![0, 1, 2] : Fin 3 → Fin S4096x4x128.rank)
  bcast_S1x1x128_S4096x4x128_0_1_2 : S1x1x128.BroadcastsInDim S4096x4x128 (![0, 1, 2] : Fin 3 → Fin S4096x4x128.rank)
  concatenates_S4096x26x128_S4096x13x128_S4096x4x128_S4096x43x128_d1 : Shape.Concatenates [S4096x26x128, S4096x13x128, S4096x4x128] S4096x43x128 1
  gather_S26x100001x128_S26x4096x1_S26x4096x128_2_1_0_0_1_2_11128_wf : GatherDims.WF S26x100001x128 S26x4096x1 S26x4096x128 [2] [1] [0] [1] [0] 2 ![1, 1, 128]
  dot_S13x1x128_S13x4096x1_S13x128x4096_1_2_2_1_0_0_wf : DotDims.WF S13x1x128 S13x4096x1 S13x128x4096 [1] [2] [2] [1] [0] [0]
  dot_S4x768x128_S4x4096x768_S4x128x4096_1_2_2_1_0_0_wf : DotDims.WF S4x768x128 S4x4096x768 S4x128x4096 [1] [2] [2] [1] [0] [0]

variable [Facts₀]

def gather_S26x100001x128_S26x4096x1_S26x4096x128_2_1_0_0_1_2_11128 : GatherDims S26x100001x128 S26x4096x1 S26x4096x128 where
  offsetDims := [2]
  collapsedSliceDims := [1]
  operandBatchingDims := [0]
  startIndicesBatchingDims := [0]
  startIndexMap := [1]
  indexVectorDim := 2
  sliceSizes := ![1, 1, 128]
  wf := gather_S26x100001x128_S26x4096x1_S26x4096x128_2_1_0_0_1_2_11128_wf
def dot_S13x1x128_S13x4096x1_S13x128x4096_1_2_2_1_0_0 : DotDims S13x1x128 S13x4096x1 S13x128x4096 where
  lhsContracting := [1]
  rhsContracting := [2]
  lhsNonContracting := [2]
  rhsNonContracting := [1]
  lhsBatch := [0]
  rhsBatch := [0]
  wf := dot_S13x1x128_S13x4096x1_S13x128x4096_1_2_2_1_0_0_wf
def dot_S4x768x128_S4x4096x768_S4x128x4096_1_2_2_1_0_0 : DotDims S4x768x128 S4x4096x768 S4x128x4096 where
  lhsContracting := [1]
  rhsContracting := [2]
  lhsNonContracting := [2]
  rhsNonContracting := [1]
  lhsBatch := [0]
  rhsBatch := [0]
  wf := dot_S4x768x128_S4x4096x768_S4x128x4096_1_2_2_1_0_0_wf

class Facts : Prop extends Facts₀ where

variable [Facts]
-- ==== Proof.RefTerm.lean ====
import proofs.«206634_g85779086836150_cont_9to1c4b_256_28_alg».proof.ReferenceIdeal

/-! The reference program's result as one pure term of its eight arguments, built in named stages:
    the table lookup with its index normalisation, the two products, and per group of rows the mean,
    the centred rows, the variance and the normalised, scaled and shifted rows. -/

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F] [Facts]

/-- The lookup's row indices: a negative index has the table's row count 100001 added, then each
    index stands alone in a last axis of length one. -/
def takeIdx (a1 : IVec S26x4096 32) : IVec S26x4096x1 32 :=
  (broadcastInDim S26x4096x1 ![0, 1] bcast_S26x4096_S26x4096x1_0_1 (select (cmpi .slt a1 (broadcastInDim S26x4096 ![] bcast_S_S26x4096 (constantI S_ 32 0#32))) (addi a1 (broadcastInDim S26x4096 ![] bcast_S_S26x4096 (constantI S_ 32 100001#32))) a1))

/-- Where the normalised index lies in `0 ≤ i ≤ 100000`. -/
def takeOk (a1 : IVec S26x4096 32) : IVec S26x4096 1 :=
  (Host.reduce IntOp.andi (andi (cmpi .sge (takeIdx a1) (broadcastInDim S26x4096x1 ![] bcast_S_S26x4096x1 (constantI S_ 32 0#32))) (cmpi .sle (takeIdx a1) (broadcastInDim S26x4096x1 ![0, 1, 2] bcast_S1x1x1_S26x4096x1_0_1_2 (broadcastInDim S1x1x1 ![2] bcast_S1_S1x1x1_2 (constantI S1 32 100000#32))))) (constantI S_ 1 1#1) reducesTo_S26x4096x1_S26x4096_d2 h_S_)

/-- The looked-up rows, feature-major: row `takeIdx` of each feature's table where the index is in
    range, the not-a-number constant elsewhere. -/
def take (a3 : FVec F S26x100001x128 .f32) (a1 : IVec S26x4096 32) : FVec F S26x4096x128 .f32 :=
  (select (broadcastInDim S26x4096x128 ![0, 1] bcast_S26x4096_S26x4096x128_0_1 (takeOk a1)) (Host.gather gather_S26x100001x128_S26x4096x1_S26x4096x128_2_1_0_0_1_2_11128 a3 (takeIdx a1)) (broadcastInDim S26x4096x128 ![] bcast_S_S26x4096x128 (constant S_ .f32 0x7FC00000#32)))

/-- The categorical rows, batch-major. -/
def cat (a3 : FVec F S26x100001x128 .f32) (a1 : IVec S26x4096 32) : FVec F S4096x26x128 .f32 :=
  (transpose S4096x26x128 [1, 0, 2] (take a3 a1) transposes_S26x4096x128_S4096x26x128_1_0_2)

/-- The numerical rows, batch-major: each scalar feature times its weight row (a contraction over an axis of length one). -/
def num (a4 : FVec F S13x1x128 .f32) (a0 : FVec F S13x4096x1 .f32) : FVec F S4096x13x128 .f32 :=
  (transpose S4096x13x128 [2, 0, 1] (Host.dotGeneral dot_S13x1x128_S13x4096x1_S13x128x4096_1_2_2_1_0_0 none a4 a0) transposes_S13x128x4096_S4096x13x128_2_0_1)

/-- The projected embedding rows, batch-major: a contraction over the 768 input coordinates. -/
def emb (a5 : FVec F S4x768x128 .f32) (a2 : FVec F S4x4096x768 .f32) : FVec F S4096x4x128 .f32 :=
  (transpose S4096x4x128 [2, 0, 1] (Host.dotGeneral dot_S4x768x128_S4x4096x768_S4x128x4096_1_2_2_1_0_0 none a5 a2) transposes_S4x128x4096_S4096x4x128_2_0_1)

/-- The mean over the last axis (sum divided by 128), kept as an axis of length one. -/
def mean26 (x : FVec F S4096x26x128 .f32) : FVec F S4096x26x1 .f32 :=
  (Host.divf (broadcastInDim S4096x26x1 ![0, 1] bcast_S4096x26_S4096x26x1_0_1 (Host.reduceAdd x (constant S_ .f32 0x00000000#32) reducesTo_S4096x26x128_S4096x26_d2 h_S_)) (broadcastInDim S4096x26x1 ![] bcast_S_S4096x26x1 (constant S_ .f32 0x43000000#32)))

/-- The rows minus their mean. -/
def cen26 (x : FVec F S4096x26x128 .f32) : FVec F S4096x26x128 .f32 :=
  (subf x (broadcastInDim S4096x26x128 ![0, 1, 2] bcast_S4096x26x1_S4096x26x128_0_1_2 (mean26 x)))

/-- The variance over the last axis: the sum of the squared centred entries divided by `128 - 0`,
    under a selection against a non-positive divisor. -/
def var26 (x : FVec F S4096x26x128 .f32) : FVec F S4096x26x1 .f32 :=
  (select (broadcastInDim S4096x26x1 ![] bcast_S_S4096x26x1 (cmpf (F := F) .ogt (subf (constant S_ .f32 0x43000000#32) (sitofp .f32 (constantI S_ 32 0#32))) (constant S_ .f32 0x00000000#32))) (Host.divf (broadcastInDim S4096x26x1 ![0, 1] bcast_S4096x26_S4096x26x1_0_1 (Host.reduceAdd (mulf (cen26 x) (cen26 x)) (constant S_ .f32 0x00000000#32) reducesTo_S4096x26x128_S4096x26_d2 h_S_)) (broadcastInDim S4096x26x1 ![] bcast_S_S4096x26x1 (subf (constant S_ .f32 0x43000000#32) (sitofp .f32 (constantI S_ 32 0#32))))) (broadcastInDim S4096x26x1 ![] bcast_S_S4096x26x1 (constant S_ .f32 0x7FC00000#32)))

/-- The normalised rows: centred, divided by the square root of variance plus epsilon, times `g`, plus `b`. -/
def ln26 (x : FVec F S4096x26x128 .f32) (g b : FVec F S128 .f32) : FVec F S4096x26x128 .f32 :=
  (addf (mulf (Host.divf (cen26 x) (broadcastInDim S4096x26x128 ![0, 1, 2] bcast_S4096x26x1_S4096x26x128_0_1_2 (Host.sqrt (addf (var26 x) (broadcastInDim S4096x26x1 ![] bcast_S_S4096x26x1 (constant S_ .f32 0x3727C5AC#32)))))) (broadcastInDim S4096x26x128 ![0, 1, 2] bcast_S1x1x128_S4096x26x128_0_1_2 (broadcastInDim S1x1x128 ![2] bcast_S128_S1x1x128_2 g))) (broadcastInDim S4096x26x128 ![0, 1, 2] bcast_S1x1x128_S4096x26x128_0_1_2 (broadcastInDim S1x1x128 ![2] bcast_S128_S1x1x128_2 b)))

/-- The mean over the last axis (sum divided by 128), kept as an axis of length one. -/
def mean13 (x : FVec F S4096x13x128 .f32) : FVec F S4096x13x1 .f32 :=
  (Host.divf (broadcastInDim S4096x13x1 ![0, 1] bcast_S4096x13_S4096x13x1_0_1 (Host.reduceAdd x (constant S_ .f32 0x00000000#32) reducesTo_S4096x13x128_S4096x13_d2 h_S_)) (broadcastInDim S4096x13x1 ![] bcast_S_S4096x13x1 (constant S_ .f32 0x43000000#32)))

/-- The rows minus their mean. -/
def cen13 (x : FVec F S4096x13x128 .f32) : FVec F S4096x13x128 .f32 :=
  (subf x (broadcastInDim S4096x13x128 ![0, 1, 2] bcast_S4096x13x1_S4096x13x128_0_1_2 (mean13 x)))

/-- The variance over the last axis: the sum of the squared centred entries divided by `128 - 0`,
    under a selection against a non-positive divisor. -/
def var13 (x : FVec F S4096x13x128 .f32) : FVec F S4096x13x1 .f32 :=
  (select (broadcastInDim S4096x13x1 ![] bcast_S_S4096x13x1 (cmpf (F := F) .ogt (subf (constant S_ .f32 0x43000000#32) (sitofp .f32 (constantI S_ 32 0#32))) (constant S_ .f32 0x00000000#32))) (Host.divf (broadcastInDim S4096x13x1 ![0, 1] bcast_S4096x13_S4096x13x1_0_1 (Host.reduceAdd (mulf (cen13 x) (cen13 x)) (constant S_ .f32 0x00000000#32) reducesTo_S4096x13x128_S4096x13_d2 h_S_)) (broadcastInDim S4096x13x1 ![] bcast_S_S4096x13x1 (subf (constant S_ .f32 0x43000000#32) (sitofp .f32 (constantI S_ 32 0#32))))) (broadcastInDim S4096x13x1 ![] bcast_S_S4096x13x1 (constant S_ .f32 0x7FC00000#32)))

/-- The normalised rows: centred, divided by the square root of variance plus epsilon, times `g`, plus `b`. -/
def ln13 (x : FVec F S4096x13x128 .f32) (g b : FVec F S128 .f32) : FVec F S4096x13x128 .f32 :=
  (addf (mulf (Host.divf (cen13 x) (broadcastInDim S4096x13x128 ![0, 1, 2] bcast_S4096x13x1_S4096x13x128_0_1_2 (Host.sqrt (addf (var13 x) (broadcastInDim S4096x13x1 ![] bcast_S_S4096x13x1 (constant S_ .f32 0x3727C5AC#32)))))) (broadcastInDim S4096x13x128 ![0, 1, 2] bcast_S1x1x128_S4096x13x128_0_1_2 (broadcastInDim S1x1x128 ![2] bcast_S128_S1x1x128_2 g))) (broadcastInDim S4096x13x128 ![0, 1, 2] bcast_S1x1x128_S4096x13x128_0_1_2 (broadcastInDim S1x1x128 ![2] bcast_S128_S1x1x128_2 b)))

/-- The mean over the last axis (sum divided by 128), kept as an axis of length one. -/
def mean4 (x : FVec F S4096x4x128 .f32) : FVec F S4096x4x1 .f32 :=
  (Host.divf (broadcastInDim S4096x4x1 ![0, 1] bcast_S4096x4_S4096x4x1_0_1 (Host.reduceAdd x (constant S_ .f32 0x00000000#32) reducesTo_S4096x4x128_S4096x4_d2 h_S_)) (broadcastInDim S4096x4x1 ![] bcast_S_S4096x4x1 (constant S_ .f32 0x43000000#32)))

/-- The rows minus their mean. -/
def cen4 (x : FVec F S4096x4x128 .f32) : FVec F S4096x4x128 .f32 :=
  (subf x (broadcastInDim S4096x4x128 ![0, 1, 2] bcast_S4096x4x1_S4096x4x128_0_1_2 (mean4 x)))

/-- The variance over the last axis: the sum of the squared centred entries divided by `128 - 0`,
    under a selection against a non-positive divisor. -/
def var4 (x : FVec F S4096x4x128 .f32) : FVec F S4096x4x1 .f32 :=
  (select (broadcastInDim S4096x4x1 ![] bcast_S_S4096x4x1 (cmpf (F := F) .ogt (subf (constant S_ .f32 0x43000000#32) (sitofp .f32 (constantI S_ 32 0#32))) (constant S_ .f32 0x00000000#32))) (Host.divf (broadcastInDim S4096x4x1 ![0, 1] bcast_S4096x4_S4096x4x1_0_1 (Host.reduceAdd (mulf (cen4 x) (cen4 x)) (constant S_ .f32 0x00000000#32) reducesTo_S4096x4x128_S4096x4_d2 h_S_)) (broadcastInDim S4096x4x1 ![] bcast_S_S4096x4x1 (subf (constant S_ .f32 0x43000000#32) (sitofp .f32 (constantI S_ 32 0#32))))) (broadcastInDim S4096x4x1 ![] bcast_S_S4096x4x1 (constant S_ .f32 0x7FC00000#32)))

/-- The normalised rows: centred, divided by the square root of variance plus epsilon, times `g`, plus `b`. -/
def ln4 (x : FVec F S4096x4x128 .f32) (g b : FVec F S128 .f32) : FVec F S4096x4x128 .f32 :=
  (addf (mulf (Host.divf (cen4 x) (broadcastInDim S4096x4x128 ![0, 1, 2] bcast_S4096x4x1_S4096x4x128_0_1_2 (Host.sqrt (addf (var4 x) (broadcastInDim S4096x4x1 ![] bcast_S_S4096x4x1 (constant S_ .f32 0x3727C5AC#32)))))) (broadcastInDim S4096x4x128 ![0, 1, 2] bcast_S1x1x128_S4096x4x128_0_1_2 (broadcastInDim S1x1x128 ![2] bcast_S128_S1x1x128_2 g))) (broadcastInDim S4096x4x128 ![0, 1, 2] bcast_S1x1x128_S4096x4x128_0_1_2 (broadcastInDim S1x1x128 ![2] bcast_S128_S1x1x128_2 b)))

/-- The reference's result: the three normalised groups of rows joined along the feature axis. -/
def out (a0 : FVec F S13x4096x1 .f32) (a1 : IVec S26x4096 32) (a2 : FVec F S4x4096x768 .f32)
    (a3 : FVec F S26x100001x128 .f32) (a4 : FVec F S13x1x128 .f32) (a5 : FVec F S4x768x128 .f32)
    (a6 a7 : FVec F S128 .f32) : FVec F S4096x43x128 .f32 :=
  (concatenate S4096x43x128 1 [⟨S4096x26x128, (ln26 (cat a3 a1) a6 a7)⟩, ⟨S4096x13x128, (ln13 (num a4 a0) a6 a7)⟩, ⟨S4096x4x128, (ln4 (emb a5 a2) a6 a7)⟩] concatenates_S4096x26x128_S4096x13x128_S4096x4x128_S4096x43x128_d1)

end Cert.ReferenceIdeal.RefRun

end
-- ==== Proof.RefRun.lean ====
import proofs.«206634_g85779086836150_cont_9to1c4b_256_28_alg».proof.Proof.RefTerm
import proofs.«206634_g85779086836150_cont_9to1c4b_256_28_alg».proof.Proof.Gen.ReferenceIdeal
import Idealize.ShloMosaic.Lib.StableHlo.Run
import proofs.«206634_g85779086836150_cont_9to1c4b_256_28_alg».proof.Defs
import proofs.«206634_g85779086836150_cont_9to1c4b_256_28_alg».proof.Proof.Gen.Pre_input_domain
/-! The reference program's @main as the list of its 161 operations (the outlined functions' operations standing at
    their calls), cut into five consecutive segments: the table lookup up to the batch-major categorical rows; the
    normalisation of those rows; the numerical rows and their normalisation; the embedding rows and theirs; the join.
    Each segment's effect on any contents is one equation at the reference it leaves and the identity at every
    reference it does not write; composed, the whole list takes the arguments' contents to `out` of them at the
    result and leaves the arguments. The run then says every weakly fair execution of @main ends there. -/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A three-operand operation's result with each operand's contents at its own reference. -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Contents moved to a reference's own type and back are unchanged. -/
theorem ofBuf_toBuf {T : BufTy} (x : TRef sig T) (v : T.Contents (Elt F)) : x.ofBuf (x.toBuf v) = v := by
  obtain ⟨r, rfl, _, _⟩ := x; rfl

abbrev seg1 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S26x4096, .i32⟩) main_call0_v0) (broadcastInDim S26x4096 ![] bcast_S_S26x4096),
    TRef.binary (TRef.of (T := ⟨S26x4096, .i32⟩) main_arg1) (TRef.of (T := ⟨S26x4096, .i32⟩) main_call0_v0) (TRef.of (T := ⟨S26x4096, .i1⟩) main_call0_v1) (cmpi .slt),
    TRef.nullary (TRef.of (T := ⟨S_, .i32⟩) main_call0_c_0) (constantI S_ 32 100001#32),
    TRef.unary (TRef.of (T := ⟨S_, .i32⟩) main_call0_c_0) (TRef.of (T := ⟨S26x4096, .i32⟩) main_call0_v2) (broadcastInDim S26x4096 ![] bcast_S_S26x4096),
    TRef.binary (TRef.of (T := ⟨S26x4096, .i32⟩) main_arg1) (TRef.of (T := ⟨S26x4096, .i32⟩) main_call0_v2) (TRef.of (T := ⟨S26x4096, .i32⟩) main_call0_v3) addi,
    TRef.ternary (TRef.of (T := ⟨S26x4096, .i1⟩) main_call0_v1) (TRef.of (T := ⟨S26x4096, .i32⟩) main_call0_v3) (TRef.of (T := ⟨S26x4096, .i32⟩) main_arg1) (TRef.of (T := ⟨S26x4096, .i32⟩) main_call0_v4) select,
    TRef.unary (TRef.of (T := ⟨S26x4096, .i32⟩) main_call0_v4) (TRef.of (T := ⟨S26x4096x1, .i32⟩) main_call0_v5) (broadcastInDim S26x4096x1 ![0, 1] bcast_S26x4096_S26x4096x1_0_1),
    TRef.nullary (TRef.of (T := ⟨S1, .i32⟩) main_call0_c_1) (constantI S1 32 100000#32),
    TRef.nullary (TRef.of (T := ⟨S_, .i32⟩) main_call0_c_2) (constantI S_ 32 0#32),
    TRef.unary (TRef.of (T := ⟨S_, .i32⟩) main_call0_c_2) (TRef.of (T := ⟨S26x4096x1, .i32⟩) main_call0_v6) (broadcastInDim S26x4096x1 ![] bcast_S_S26x4096x1),
    TRef.binary (TRef.of (T := ⟨S26x4096x1, .i32⟩) main_call0_v5) (TRef.of (T := ⟨S26x4096x1, .i32⟩) main_call0_v6) (TRef.of (T := ⟨S26x4096x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S26x4096x1, .i32⟩) main_call0_v9) (broadcastInDim S26x4096x1 ![0, 1, 2] bcast_S1x1x1_S26x4096x1_0_1_2),
    TRef.binary (TRef.of (T := ⟨S26x4096x1, .i32⟩) main_call0_v5) (TRef.of (T := ⟨S26x4096x1, .i32⟩) main_call0_v9) (TRef.of (T := ⟨S26x4096x1, .i1⟩) main_call0_v10) (cmpi .sle),
    TRef.binary (TRef.of (T := ⟨S26x4096x1, .i1⟩) main_call0_v7) (TRef.of (T := ⟨S26x4096x1, .i1⟩) main_call0_v10) (TRef.of (T := ⟨S26x4096x1, .i1⟩) main_call0_v11) andi,
    TRef.nullary (TRef.of (T := ⟨S_, .i1⟩) main_call0_c_3) (constantI S_ 1 1#1),
    TRef.binary (TRef.of (T := ⟨S26x4096x1, .i1⟩) main_call0_v11) (TRef.of (T := ⟨S_, .i1⟩) main_call0_c_3) (TRef.of (T := ⟨S26x4096, .i1⟩) main_call0_v12) (fun x v => Host.reduce IntOp.andi x v reducesTo_S26x4096x1_S26x4096_d2 h_S_),
    TRef.binary (TRef.of (T := ⟨S26x100001x128, .f32⟩) main_arg3) (TRef.of (T := ⟨S26x4096x1, .i32⟩) main_call0_v5) (TRef.of (T := ⟨S26x4096x128, .f32⟩) main_call0_v13) (fun x i => Host.gather gather_S26x100001x128_S26x4096x1_S26x4096x128_2_1_0_0_1_2_11128 x i),
    TRef.unary (TRef.of (T := ⟨S26x4096, .i1⟩) main_call0_v12) (TRef.of (T := ⟨S26x4096x128, .i1⟩) main_call0_v14) (broadcastInDim S26x4096x128 ![0, 1] bcast_S26x4096_S26x4096x128_0_1),
    TRef.nullary (TRef.of (T := ⟨S_, .f32⟩) main_call0_cst) (constant S_ .f32 0x7FC00000#32),
    TRef.unary (TRef.of (T := ⟨S_, .f32⟩) main_call0_cst) (TRef.of (T := ⟨S26x4096x128, .f32⟩) main_call0_v15) (broadcastInDim S26x4096x128 ![] bcast_S_S26x4096x128),
    TRef.ternary (TRef.of (T := ⟨S26x4096x128, .i1⟩) main_call0_v14) (TRef.of (T := ⟨S26x4096x128, .f32⟩) main_call0_v13) (TRef.of (T := ⟨S26x4096x128, .f32⟩) main_call0_v15) (TRef.of (T := ⟨S26x4096x128, .f32⟩) main_v0) select,
    unary main_v0 main_v1 ((transpose S4096x26x128 [1, 0, 2] · transposes_S26x4096x128_S4096x26x128_1_0_2) : (⟨S26x4096x128, .f32⟩ : BufTy).Contents (Elt F) → (⟨S4096x26x128, .f32⟩ : BufTy).Contents (Elt F)) ]

abbrev seg2 : List (HloOp τ sig (Elt F)) :=
  [ nullary main_cst (constant S_ .f32 0x00000000#32),
    binary main_v1 main_cst main_v2 ((fun x v => Host.reduceAdd x v reducesTo_S4096x26x128_S4096x26_d2 h_S_) : (⟨S4096x26x128, .f32⟩ : BufTy).Contents (Elt F) → (⟨S_, .f32⟩ : BufTy).Contents (Elt F) → (⟨S4096x26, .f32⟩ : BufTy).Contents (Elt F)),
    unary main_v2 main_v3 (broadcastInDim S4096x26x1 ![0, 1] bcast_S4096x26_S4096x26x1_0_1 : (⟨S4096x26, .f32⟩ : BufTy).Contents (Elt F) → (⟨S4096x26x1, .f32⟩ : BufTy).Contents (Elt F)),
    nullary main_cst_0 (constant S_ .f32 0x43000000#32),
    unary main_cst_0 main_v4 (broadcastInDim S4096x26x1 ![] bcast_S_S4096x26x1 : (⟨S_, .f32⟩ : BufTy).Contents (Elt F) → (⟨S4096x26x1, .f32⟩ : BufTy).Contents (Elt F)),
    binary main_v3 main_v4 main_v5 (Host.divf : (⟨S4096x26x1, .f32⟩ : BufTy).Contents (Elt F) → (⟨S4096x26x1, .f32⟩ : BufTy).Contents (Elt F) → (⟨S4096x26x1, .f32⟩ : BufTy).Contents (Elt F)),
    nullary main_c (constantI S_ 32 0#32),
    TRef.nullary (TRef.of (T := ⟨S_, .f32⟩) main_call1_cst) (constant S_ .f32 0x00000000#32),
    TRef.binary (TRef.of (T := ⟨S4096x26x128, .f32⟩) main_v1) (TRef.of (T := ⟨S_, .f32⟩) main_call1_cst) (TRef.of (T := ⟨S4096x26, .f32⟩) main_call1_v0) (fun x v => Host.reduceAdd x v reducesTo_S4096x26x128_S4096x26_d2 h_S_),
    TRef.unary (TRef.of (T := ⟨S4096x26, .f32⟩) main_call1_v0) (TRef.of (T := ⟨S4096x26x1, .f32⟩) main_call1_v1) (broadcastInDim S4096x26x1 ![0, 1] bcast_S4096x26_S4096x26x1_0_1),
    TRef.nullary (TRef.of (T := ⟨S_, .f32⟩) main_call1_cst_0) (constant S_ .f32 0x43000000#32),
    TRef.unary (TRef.of (T := ⟨S_, .f32⟩) main_call1_cst_0) (TRef.of (T := ⟨S4096x26x1, .f32⟩) main_call1_v2) (broadcastInDim S4096x26x1 ![] bcast_S_S4096x26x1),
    TRef.binary (TRef.of (T := ⟨S4096x26x1, .f32⟩) main_call1_v1) (TRef.of (T := ⟨S4096x26x1, .f32⟩) main_call1_v2) (TRef.of (T := ⟨S4096x26x1, .f32⟩) main_call1_v3) Host.divf,
    TRef.unary (TRef.of (T := ⟨S4096x26x1, .f32⟩) main_call1_v3) (TRef.of (T := ⟨S4096x26x128, .f32⟩) main_call1_v4) (broadcastInDim S4096x26x128 ![0, 1, 2] bcast_S4096x26x1_S4096x26x128_0_1_2),
    TRef.binary (TRef.of (T := ⟨S4096x26x128, .f32⟩) main_v1) (TRef.of (T := ⟨S4096x26x128, .f32⟩) main_call1_v4) (TRef.of (T := ⟨S4096x26x128, .f32⟩) main_call1_v5) subf,
    TRef.binary (TRef.of (T := ⟨S4096x26x128, .f32⟩) main_call1_v5) (TRef.of (T := ⟨S4096x26x128, .f32⟩) main_call1_v5) (TRef.of (T := ⟨S4096x26x128, .f32⟩) main_call1_v6) mulf,
    TRef.unary (TRef.of (T := ⟨S_, .i32⟩) main_c) (TRef.of (T := ⟨S_, .f32⟩) main_call1_v7) (sitofp .f32),
    TRef.nullary (TRef.of (T := ⟨S_, .f32⟩) main_call1_cst_1) (constant S_ .f32 0x43000000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S4096x26x128, .f32⟩) main_call1_v6) (TRef.of (T := ⟨S_, .f32⟩) main_call1_cst_2) (TRef.of (T := ⟨S4096x26, .f32⟩) main_call1_v9) (fun x v => Host.reduceAdd x v reducesTo_S4096x26x128_S4096x26_d2 h_S_),
    TRef.unary (TRef.of (T := ⟨S4096x26, .f32⟩) main_call1_v9) (TRef.of (T := ⟨S4096x26x1, .f32⟩) main_call1_v10) (broadcastInDim S4096x26x1 ![0, 1] bcast_S4096x26_S4096x26x1_0_1),
    TRef.unary (TRef.of (T := ⟨S_, .f32⟩) main_call1_v8) (TRef.of (T := ⟨S4096x26x1, .f32⟩) main_call1_v11) (broadcastInDim S4096x26x1 ![] bcast_S_S4096x26x1),
    TRef.binary (TRef.of (T := ⟨S4096x26x1, .f32⟩) main_call1_v10) (TRef.of (T := ⟨S4096x26x1, .f32⟩) main_call1_v11) (TRef.of (T := ⟨S4096x26x1, .f32⟩) main_call1_v12) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v13) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S4096x26x1, .f32⟩) main_call1_call0_v1) (broadcastInDim S4096x26x1 ![] bcast_S_S4096x26x1),
    TRef.ternary (TRef.of (T := ⟨S_, .i1⟩) main_call1_v13) (TRef.of (T := ⟨S4096x26x1, .f32⟩) main_call1_v12) (TRef.of (T := ⟨S4096x26x1, .f32⟩) main_call1_call0_v1) (TRef.of (T := ⟨S4096x26x1, .f32⟩) main_v6) (fun p a b => select (broadcastInDim S4096x26x1 ![] bcast_S_S4096x26x1 p) a b),
    unary main_v5 main_v7 (broadcastInDim S4096x26x128 ![0, 1, 2] bcast_S4096x26x1_S4096x26x128_0_1_2 : (⟨S4096x26x1, .f32⟩ : BufTy).Contents (Elt F) → (⟨S4096x26x128, .f32⟩ : BufTy).Contents (Elt F)),
    binary main_v1 main_v7 main_v8 (subf : (⟨S4096x26x128, .f32⟩ : BufTy).Contents (Elt F) → (⟨S4096x26x128, .f32⟩ : BufTy).Contents (Elt F) → (⟨S4096x26x128, .f32⟩ : BufTy).Contents (Elt F)),
    nullary main_cst_1 (constant S_ .f32 0x3727C5AC#32),
    unary main_cst_1 main_v9 (broadcastInDim S4096x26x1 ![] bcast_S_S4096x26x1 : (⟨S_, .f32⟩ : BufTy).Contents (Elt F) → (⟨S4096x26x1, .f32⟩ : BufTy).Contents (Elt F)),
    binary main_v6 main_v9 main_v10 (addf : (⟨S4096x26x1, .f32⟩ : BufTy).Contents (Elt F) → (⟨S4096x26x1, .f32⟩ : BufTy).Contents (Elt F) → (⟨S4096x26x1, .f32⟩ : BufTy).Contents (Elt F)),
    unary main_v10 main_v11 (Host.sqrt : (⟨S4096x26x1, .f32⟩ : BufTy).Contents (Elt F) → (⟨S4096x26x1, .f32⟩ : BufTy).Contents (Elt F)),
    unary main_v11 main_v12 (broadcastInDim S4096x26x128 ![0, 1, 2] bcast_S4096x26x1_S4096x26x128_0_1_2 : (⟨S4096x26x1, .f32⟩ : BufTy).Contents (Elt F) → (⟨S4096x26x128, .f32⟩ : BufTy).Contents (Elt F)),
    binary main_v8 main_v12 main_v13 (Host.divf : (⟨S4096x26x128, .f32⟩ : BufTy).Contents (Elt F) → (⟨S4096x26x128, .f32⟩ : BufTy).Contents (Elt F) → (⟨S4096x26x128, .f32⟩ : BufTy).Contents (Elt F)),
    unary main_arg6 main_v14 (broadcastInDim S1x1x128 ![2] bcast_S128_S1x1x128_2 : (⟨S128, .f32⟩ : BufTy).Contents (Elt F) → (⟨S1x1x128, .f32⟩ : BufTy).Contents (Elt F)),
    unary main_v14 main_v15 (broadcastInDim S4096x26x128 ![0, 1, 2] bcast_S1x1x128_S4096x26x128_0_1_2 : (⟨S1x1x128, .f32⟩ : BufTy).Contents (Elt F) → (⟨S4096x26x128, .f32⟩ : BufTy).Contents (Elt F)),
    binary main_v13 main_v15 main_v16 (mulf : (⟨S4096x26x128, .f32⟩ : BufTy).Contents (Elt F) → (⟨S4096x26x128, .f32⟩ : BufTy).Contents (Elt F) → (⟨S4096x26x128, .f32⟩ : BufTy).Contents (Elt F)),
    unary main_arg7 main_v17 (broadcastInDim S1x1x128 ![2] bcast_S128_S1x1x128_2 : (⟨S128, .f32⟩ : BufTy).Contents (Elt F) → (⟨S1x1x128, .f32⟩ : BufTy).Contents (Elt F)),
    unary main_v17 main_v18 (broadcastInDim S4096x26x128 ![0, 1, 2] bcast_S1x1x128_S4096x26x128_0_1_2 : (⟨S1x1x128, .f32⟩ : BufTy).Contents (Elt F) → (⟨S4096x26x128, .f32⟩ : BufTy).Contents (Elt F)),
    binary main_v16 main_v18 main_v19 (addf : (⟨S4096x26x128, .f32⟩ : BufTy).Contents (Elt F) → (⟨S4096x26x128, .f32⟩ : BufTy).Contents (Elt F) → (⟨S4096x26x128, .f32⟩ : BufTy).Contents (Elt F)) ]

abbrev seg3 : List (HloOp τ sig (Elt F)) :=
  [ binary main_arg4 main_arg0 main_v20 ((fun l r => Host.dotGeneral dot_S13x1x128_S13x4096x1_S13x128x4096_1_2_2_1_0_0 none l r) : (⟨S13x1x128, .f32⟩ : BufTy).Contents (Elt F) → (⟨S13x4096x1, .f32⟩ : BufTy).Contents (Elt F) → (⟨S13x128x4096, .f32⟩ : BufTy).Contents (Elt F)),
    unary main_v20 main_v21 ((transpose S4096x13x128 [2, 0, 1] · transposes_S13x128x4096_S4096x13x128_2_0_1) : (⟨S13x128x4096, .f32⟩ : BufTy).Contents (Elt F) → (⟨S4096x13x128, .f32⟩ : BufTy).Contents (Elt F)),
    nullary main_cst_2 (constant S_ .f32 0x00000000#32),
    binary main_v21 main_cst_2 main_v22 ((fun x v => Host.reduceAdd x v reducesTo_S4096x13x128_S4096x13_d2 h_S_) : (⟨S4096x13x128, .f32⟩ : BufTy).Contents (Elt F) → (⟨S_, .f32⟩ : BufTy).Contents (Elt F) → (⟨S4096x13, .f32⟩ : BufTy).Contents (Elt F)),
    unary main_v22 main_v23 (broadcastInDim S4096x13x1 ![0, 1] bcast_S4096x13_S4096x13x1_0_1 : (⟨S4096x13, .f32⟩ : BufTy).Contents (Elt F) → (⟨S4096x13x1, .f32⟩ : BufTy).Contents (Elt F)),
    nullary main_cst_3 (constant S_ .f32 0x43000000#32),
    unary main_cst_3 main_v24 (broadcastInDim S4096x13x1 ![] bcast_S_S4096x13x1 : (⟨S_, .f32⟩ : BufTy).Contents (Elt F) → (⟨S4096x13x1, .f32⟩ : BufTy).Contents (Elt F)),
    binary main_v23 main_v24 main_v25 (Host.divf : (⟨S4096x13x1, .f32⟩ : BufTy).Contents (Elt F) → (⟨S4096x13x1, .f32⟩ : BufTy).Contents (Elt F) → (⟨S4096x13x1, .f32⟩ : BufTy).Contents (Elt F)),
    nullary main_c_4 (constantI S_ 32 0#32),
    TRef.nullary (TRef.of (T := ⟨S_, .f32⟩) main_call2_cst) (constant S_ .f32 0x00000000#32),
    TRef.binary (TRef.of (T := ⟨S4096x13x128, .f32⟩) main_v21) (TRef.of (T := ⟨S_, .f32⟩) main_call2_cst) (TRef.of (T := ⟨S4096x13, .f32⟩) main_call2_v0) (fun x v => Host.reduceAdd x v reducesTo_S4096x13x128_S4096x13_d2 h_S_),
    TRef.unary (TRef.of (T := ⟨S4096x13, .f32⟩) main_call2_v0) (TRef.of (T := ⟨S4096x13x1, .f32⟩) main_call2_v1) (broadcastInDim S4096x13x1 ![0, 1] bcast_S4096x13_S4096x13x1_0_1),
    TRef.nullary (TRef.of (T := ⟨S_, .f32⟩) main_call2_cst_0) (constant S_ .f32 0x43000000#32),
    TRef.unary (TRef.of (T := ⟨S_, .f32⟩) main_call2_cst_0) (TRef.of (T := ⟨S4096x13x1, .f32⟩) main_call2_v2) (broadcastInDim S4096x13x1 ![] bcast_S_S4096x13x1),
    TRef.binary (TRef.of (T := ⟨S4096x13x1, .f32⟩) main_call2_v1) (TRef.of (T := ⟨S4096x13x1, .f32⟩) main_call2_v2) (TRef.of (T := ⟨S4096x13x1, .f32⟩) main_call2_v3) Host.divf,
    TRef.unary (TRef.of (T := ⟨S4096x13x1, .f32⟩) main_call2_v3) (TRef.of (T := ⟨S4096x13x128, .f32⟩) main_call2_v4) (broadcastInDim S4096x13x128 ![0, 1, 2] bcast_S4096x13x1_S4096x13x128_0_1_2),
    TRef.binary (TRef.of (T := ⟨S4096x13x128, .f32⟩) main_v21) (TRef.of (T := ⟨S4096x13x128, .f32⟩) main_call2_v4) (TRef.of (T := ⟨S4096x13x128, .f32⟩) main_call2_v5) subf,
    TRef.binary (TRef.of (T := ⟨S4096x13x128, .f32⟩) main_call2_v5) (TRef.of (T := ⟨S4096x13x128, .f32⟩) main_call2_v5) (TRef.of (T := ⟨S4096x13x128, .f32⟩) main_call2_v6) mulf,
    TRef.unary (TRef.of (T := ⟨S_, .i32⟩) main_c_4) (TRef.of (T := ⟨S_, .f32⟩) main_call2_v7) (sitofp .f32),
    TRef.nullary (TRef.of (T := ⟨S_, .f32⟩) main_call2_cst_1) (constant S_ .f32 0x43000000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S4096x13x128, .f32⟩) main_call2_v6) (TRef.of (T := ⟨S_, .f32⟩) main_call2_cst_2) (TRef.of (T := ⟨S4096x13, .f32⟩) main_call2_v9) (fun x v => Host.reduceAdd x v reducesTo_S4096x13x128_S4096x13_d2 h_S_),
    TRef.unary (TRef.of (T := ⟨S4096x13, .f32⟩) main_call2_v9) (TRef.of (T := ⟨S4096x13x1, .f32⟩) main_call2_v10) (broadcastInDim S4096x13x1 ![0, 1] bcast_S4096x13_S4096x13x1_0_1),
    TRef.unary (TRef.of (T := ⟨S_, .f32⟩) main_call2_v8) (TRef.of (T := ⟨S4096x13x1, .f32⟩) main_call2_v11) (broadcastInDim S4096x13x1 ![] bcast_S_S4096x13x1),
    TRef.binary (TRef.of (T := ⟨S4096x13x1, .f32⟩) main_call2_v10) (TRef.of (T := ⟨S4096x13x1, .f32⟩) main_call2_v11) (TRef.of (T := ⟨S4096x13x1, .f32⟩) main_call2_v12) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v13) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S4096x13x1, .f32⟩) main_call2_call0_v1) (broadcastInDim S4096x13x1 ![] bcast_S_S4096x13x1),
    TRef.ternary (TRef.of (T := ⟨S_, .i1⟩) main_call2_v13) (TRef.of (T := ⟨S4096x13x1, .f32⟩) main_call2_v12) (TRef.of (T := ⟨S4096x13x1, .f32⟩) main_call2_call0_v1) (TRef.of (T := ⟨S4096x13x1, .f32⟩) main_v26) (fun p a b => select (broadcastInDim S4096x13x1 ![] bcast_S_S4096x13x1 p) a b),
    unary main_v25 main_v27 (broadcastInDim S4096x13x128 ![0, 1, 2] bcast_S4096x13x1_S4096x13x128_0_1_2 : (⟨S4096x13x1, .f32⟩ : BufTy).Contents (Elt F) → (⟨S4096x13x128, .f32⟩ : BufTy).Contents (Elt F)),
    binary main_v21 main_v27 main_v28 (subf : (⟨S4096x13x128, .f32⟩ : BufTy).Contents (Elt F) → (⟨S4096x13x128, .f32⟩ : BufTy).Contents (Elt F) → (⟨S4096x13x128, .f32⟩ : BufTy).Contents (Elt F)),
    nullary main_cst_5 (constant S_ .f32 0x3727C5AC#32),
    unary main_cst_5 main_v29 (broadcastInDim S4096x13x1 ![] bcast_S_S4096x13x1 : (⟨S_, .f32⟩ : BufTy).Contents (Elt F) → (⟨S4096x13x1, .f32⟩ : BufTy).Contents (Elt F)),
    binary main_v26 main_v29 main_v30 (addf : (⟨S4096x13x1, .f32⟩ : BufTy).Contents (Elt F) → (⟨S4096x13x1, .f32⟩ : BufTy).Contents (Elt F) → (⟨S4096x13x1, .f32⟩ : BufTy).Contents (Elt F)),
    unary main_v30 main_v31 (Host.sqrt : (⟨S4096x13x1, .f32⟩ : BufTy).Contents (Elt F) → (⟨S4096x13x1, .f32⟩ : BufTy).Contents (Elt F)),
    unary main_v31 main_v32 (broadcastInDim S4096x13x128 ![0, 1, 2] bcast_S4096x13x1_S4096x13x128_0_1_2 : (⟨S4096x13x1, .f32⟩ : BufTy).Contents (Elt F) → (⟨S4096x13x128, .f32⟩ : BufTy).Contents (Elt F)),
    binary main_v28 main_v32 main_v33 (Host.divf : (⟨S4096x13x128, .f32⟩ : BufTy).Contents (Elt F) → (⟨S4096x13x128, .f32⟩ : BufTy).Contents (Elt F) → (⟨S4096x13x128, .f32⟩ : BufTy).Contents (Elt F)),
    unary main_arg6 main_v34 (broadcastInDim S1x1x128 ![2] bcast_S128_S1x1x128_2 : (⟨S128, .f32⟩ : BufTy).Contents (Elt F) → (⟨S1x1x128, .f32⟩ : BufTy).Contents (Elt F)),
    unary main_v34 main_v35 (broadcastInDim S4096x13x128 ![0, 1, 2] bcast_S1x1x128_S4096x13x128_0_1_2 : (⟨S1x1x128, .f32⟩ : BufTy).Contents (Elt F) → (⟨S4096x13x128, .f32⟩ : BufTy).Contents (Elt F)),
    binary main_v33 main_v35 main_v36 (mulf : (⟨S4096x13x128, .f32⟩ : BufTy).Contents (Elt F) → (⟨S4096x13x128, .f32⟩ : BufTy).Contents (Elt F) → (⟨S4096x13x128, .f32⟩ : BufTy).Contents (Elt F)),
    unary main_arg7 main_v37 (broadcastInDim S1x1x128 ![2] bcast_S128_S1x1x128_2 : (⟨S128, .f32⟩ : BufTy).Contents (Elt F) → (⟨S1x1x128, .f32⟩ : BufTy).Contents (Elt F)),
    unary main_v37 main_v38 (broadcastInDim S4096x13x128 ![0, 1, 2] bcast_S1x1x128_S4096x13x128_0_1_2 : (⟨S1x1x128, .f32⟩ : BufTy).Contents (Elt F) → (⟨S4096x13x128, .f32⟩ : BufTy).Contents (Elt F)),
    binary main_v36 main_v38 main_v39 (addf : (⟨S4096x13x128, .f32⟩ : BufTy).Contents (Elt F) → (⟨S4096x13x128, .f32⟩ : BufTy).Contents (Elt F) → (⟨S4096x13x128, .f32⟩ : BufTy).Contents (Elt F)) ]

abbrev seg4 : List (HloOp τ sig (Elt F)) :=
  [ binary main_arg5 main_arg2 main_v40 ((fun l r => Host.dotGeneral dot_S4x768x128_S4x4096x768_S4x128x4096_1_2_2_1_0_0 none l r) : (⟨S4x768x128, .f32⟩ : BufTy).Contents (Elt F) → (⟨S4x4096x768, .f32⟩ : BufTy).Contents (Elt F) → (⟨S4x128x4096, .f32⟩ : BufTy).Contents (Elt F)),
    unary main_v40 main_v41 ((transpose S4096x4x128 [2, 0, 1] · transposes_S4x128x4096_S4096x4x128_2_0_1) : (⟨S4x128x4096, .f32⟩ : BufTy).Contents (Elt F) → (⟨S4096x4x128, .f32⟩ : BufTy).Contents (Elt F)),
    nullary main_cst_6 (constant S_ .f32 0x00000000#32),
    binary main_v41 main_cst_6 main_v42 ((fun x v => Host.reduceAdd x v reducesTo_S4096x4x128_S4096x4_d2 h_S_) : (⟨S4096x4x128, .f32⟩ : BufTy).Contents (Elt F) → (⟨S_, .f32⟩ : BufTy).Contents (Elt F) → (⟨S4096x4, .f32⟩ : BufTy).Contents (Elt F)),
    unary main_v42 main_v43 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_7 (constant S_ .f32 0x43000000#32),
    unary main_cst_7 main_v44 (broadcastInDim S4096x4x1 ![] bcast_S_S4096x4x1 : (⟨S_, .f32⟩ : BufTy).Contents (Elt F) → (⟨S4096x4x1, .f32⟩ : BufTy).Contents (Elt F)),
    binary main_v43 main_v44 main_v45 (Host.divf : (⟨S4096x4x1, .f32⟩ : BufTy).Contents (Elt F) → (⟨S4096x4x1, .f32⟩ : BufTy).Contents (Elt F) → (⟨S4096x4x1, .f32⟩ : BufTy).Contents (Elt F)),
    nullary main_c_8 (constantI S_ 32 0#32),
    TRef.nullary (TRef.of (T := ⟨S_, .f32⟩) main_call3_cst) (constant S_ .f32 0x00000000#32),
    TRef.binary (TRef.of (T := ⟨S4096x4x128, .f32⟩) main_v41) (TRef.of (T := ⟨S_, .f32⟩) main_call3_cst) (TRef.of (T := ⟨S4096x4, .f32⟩) main_call3_v0) (fun x v => Host.reduceAdd x v reducesTo_S4096x4x128_S4096x4_d2 h_S_),
    TRef.unary (TRef.of (T := ⟨S4096x4, .f32⟩) main_call3_v0) (TRef.of (T := ⟨S4096x4x1, .f32⟩) main_call3_v1) (broadcastInDim S4096x4x1 ![0, 1] bcast_S4096x4_S4096x4x1_0_1),
    TRef.nullary (TRef.of (T := ⟨S_, .f32⟩) main_call3_cst_0) (constant S_ .f32 0x43000000#32),
    TRef.unary (TRef.of (T := ⟨S_, .f32⟩) main_call3_cst_0) (TRef.of (T := ⟨S4096x4x1, .f32⟩) main_call3_v2) (broadcastInDim S4096x4x1 ![] bcast_S_S4096x4x1),
    TRef.binary (TRef.of (T := ⟨S4096x4x1, .f32⟩) main_call3_v1) (TRef.of (T := ⟨S4096x4x1, .f32⟩) main_call3_v2) (TRef.of (T := ⟨S4096x4x1, .f32⟩) main_call3_v3) Host.divf,
    TRef.unary (TRef.of (T := ⟨S4096x4x1, .f32⟩) main_call3_v3) (TRef.of (T := ⟨S4096x4x128, .f32⟩) main_call3_v4) (broadcastInDim S4096x4x128 ![0, 1, 2] bcast_S4096x4x1_S4096x4x128_0_1_2),
    TRef.binary (TRef.of (T := ⟨S4096x4x128, .f32⟩) main_v41) (TRef.of (T := ⟨S4096x4x128, .f32⟩) main_call3_v4) (TRef.of (T := ⟨S4096x4x128, .f32⟩) main_call3_v5) subf,
    TRef.binary (TRef.of (T := ⟨S4096x4x128, .f32⟩) main_call3_v5) (TRef.of (T := ⟨S4096x4x128, .f32⟩) main_call3_v5) (TRef.of (T := ⟨S4096x4x128, .f32⟩) main_call3_v6) mulf,
    TRef.unary (TRef.of (T := ⟨S_, .i32⟩) main_c_8) (TRef.of (T := ⟨S_, .f32⟩) main_call3_v7) (sitofp .f32),
    TRef.nullary (TRef.of (T := ⟨S_, .f32⟩) main_call3_cst_1) (constant S_ .f32 0x43000000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S4096x4x128, .f32⟩) main_call3_v6) (TRef.of (T := ⟨S_, .f32⟩) main_call3_cst_2) (TRef.of (T := ⟨S4096x4, .f32⟩) main_call3_v9) (fun x v => Host.reduceAdd x v reducesTo_S4096x4x128_S4096x4_d2 h_S_),
    TRef.unary (TRef.of (T := ⟨S4096x4, .f32⟩) main_call3_v9) (TRef.of (T := ⟨S4096x4x1, .f32⟩) main_call3_v10) (broadcastInDim S4096x4x1 ![0, 1] bcast_S4096x4_S4096x4x1_0_1),
    TRef.unary (TRef.of (T := ⟨S_, .f32⟩) main_call3_v8) (TRef.of (T := ⟨S4096x4x1, .f32⟩) main_call3_v11) (broadcastInDim S4096x4x1 ![] bcast_S_S4096x4x1),
    TRef.binary (TRef.of (T := ⟨S4096x4x1, .f32⟩) main_call3_v10) (TRef.of (T := ⟨S4096x4x1, .f32⟩) main_call3_v11) (TRef.of (T := ⟨S4096x4x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S4096x4x1, .f32⟩) main_call3_call0_v1) (broadcastInDim S4096x4x1 ![] bcast_S_S4096x4x1),
    TRef.ternary (TRef.of (T := ⟨S_, .i1⟩) main_call3_v13) (TRef.of (T := ⟨S4096x4x1, .f32⟩) main_call3_v12) (TRef.of (T := ⟨S4096x4x1, .f32⟩) main_call3_call0_v1) (TRef.of (T := ⟨S4096x4x1, .f32⟩) main_v46) (fun p a b => select (broadcastInDim S4096x4x1 ![] bcast_S_S4096x4x1 p) a b),
    unary main_v45 main_v47 (broadcastInDim S4096x4x128 ![0, 1, 2] bcast_S4096x4x1_S4096x4x128_0_1_2 : (⟨S4096x4x1, .f32⟩ : BufTy).Contents (Elt F) → (⟨S4096x4x128, .f32⟩ : BufTy).Contents (Elt F)),
    binary main_v41 main_v47 main_v48 (subf : (⟨S4096x4x128, .f32⟩ : BufTy).Contents (Elt F) → (⟨S4096x4x128, .f32⟩ : BufTy).Contents (Elt F) → (⟨S4096x4x128, .f32⟩ : BufTy).Contents (Elt F)),
    nullary main_cst_9 (constant S_ .f32 0x3727C5AC#32),
    unary main_cst_9 main_v49 (broadcastInDim S4096x4x1 ![] bcast_S_S4096x4x1 : (⟨S_, .f32⟩ : BufTy).Contents (Elt F) → (⟨S4096x4x1, .f32⟩ : BufTy).Contents (Elt F)),
    binary main_v46 main_v49 main_v50 (addf : (⟨S4096x4x1, .f32⟩ : BufTy).Contents (Elt F) → (⟨S4096x4x1, .f32⟩ : BufTy).Contents (Elt F) → (⟨S4096x4x1, .f32⟩ : BufTy).Contents (Elt F)),
    unary main_v50 main_v51 (Host.sqrt : (⟨S4096x4x1, .f32⟩ : BufTy).Contents (Elt F) → (⟨S4096x4x1, .f32⟩ : BufTy).Contents (Elt F)),
    unary main_v51 main_v52 (broadcastInDim S4096x4x128 ![0, 1, 2] bcast_S4096x4x1_S4096x4x128_0_1_2 : (⟨S4096x4x1, .f32⟩ : BufTy).Contents (Elt F) → (⟨S4096x4x128, .f32⟩ : BufTy).Contents (Elt F)),
    binary main_v48 main_v52 main_v53 (Host.divf : (⟨S4096x4x128, .f32⟩ : BufTy).Contents (Elt F) → (⟨S4096x4x128, .f32⟩ : BufTy).Contents (Elt F) → (⟨S4096x4x128, .f32⟩ : BufTy).Contents (Elt F)),
    unary main_arg6 main_v54 (broadcastInDim S1x1x128 ![2] bcast_S128_S1x1x128_2 : (⟨S128, .f32⟩ : BufTy).Contents (Elt F) → (⟨S1x1x128, .f32⟩ : BufTy).Contents (Elt F)),
    unary main_v54 main_v55 (broadcastInDim S4096x4x128 ![0, 1, 2] bcast_S1x1x128_S4096x4x128_0_1_2 : (⟨S1x1x128, .f32⟩ : BufTy).Contents (Elt F) → (⟨S4096x4x128, .f32⟩ : BufTy).Contents (Elt F)),
    binary main_v53 main_v55 main_v56 (mulf : (⟨S4096x4x128, .f32⟩ : BufTy).Contents (Elt F) → (⟨S4096x4x128, .f32⟩ : BufTy).Contents (Elt F) → (⟨S4096x4x128, .f32⟩ : BufTy).Contents (Elt F)),
    unary main_arg7 main_v57 (broadcastInDim S1x1x128 ![2] bcast_S128_S1x1x128_2 : (⟨S128, .f32⟩ : BufTy).Contents (Elt F) → (⟨S1x1x128, .f32⟩ : BufTy).Contents (Elt F)),
    unary main_v57 main_v58 (broadcastInDim S4096x4x128 ![0, 1, 2] bcast_S1x1x128_S4096x4x128_0_1_2 : (⟨S1x1x128, .f32⟩ : BufTy).Contents (Elt F) → (⟨S4096x4x128, .f32⟩ : BufTy).Contents (Elt F)),
    binary main_v56 main_v58 main_v59 (addf : (⟨S4096x4x128, .f32⟩ : BufTy).Contents (Elt F) → (⟨S4096x4x128, .f32⟩ : BufTy).Contents (Elt F) → (⟨S4096x4x128, .f32⟩ : BufTy).Contents (Elt F)) ]

abbrev seg5 : List (HloOp τ sig (Elt F)) :=
  [ nary ![main_v19, main_v39, main_v59] main_v60 (fun u => concatenate S4096x43x128 1 [⟨S4096x26x128, u 0⟩, ⟨S4096x13x128, u 1⟩, ⟨S4096x4x128, u 2⟩] concatenates_S4096x26x128_S4096x13x128_S4096x4x128_S4096x43x128_d1) ]

abbrev ops : List (HloOp τ sig (Elt F)) := seg1 ++ (seg2 ++ (seg3 ++ (seg4 ++ seg5)))

set_option maxRecDepth 8192 in
set_option maxHeartbeats 4000000 in
/-- @main is that straight line: the outlined functions' definitions unfolded at their calls, both sides are one chain
    of steps once sequencing is reassociated. -/
theorem main_eq (c : Dev nD) : main (F := F) c = seq ops := by
  simp only [main, main_part0, main_part1, fn_take.body, fn_where.body, fn_var.body, fn_where_0.body, fn_var_1.body, fn_where_2.body,
    fn_var_3.body, fn_where_4.body, ops, seg1, seg2, seg3, seg4, seg5, List.cons_append, List.nil_append, seq, bind_assoc, pure_bind]

/-- The references segment 1 writes. -/
abbrev seg1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_v1]

set_option maxRecDepth 8192 in
theorem seg1_writes : (seg1 : List (HloOp τ sig (Elt F))).Forall fun op => op.writes ⊆ (seg1_W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A reference segment 1 does not write keeps its contents through it. -/
theorem seg1_keep (W : Valuation τ sig (Elt F)) (r : Ref sig .tc) (h : r ∉ seg1_W) :
    after seg1 W (Proc.devRef .tc r) = W (Proc.devRef .tc r) :=
  after_of_writes_sub seg1 W seg1_writes h

/-- The references segment 2 writes. -/
abbrev seg2_W : List (Ref sig .tc) := [main_cst, main_v2, main_v3, main_cst_0, main_v4, main_v5, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v6, main_v7, main_v8, main_cst_1, main_v9, main_v10, main_v11, main_v12, main_v13, main_v14, main_v15, main_v16, main_v17, main_v18, main_v19]

set_option maxRecDepth 8192 in
theorem seg2_writes : (seg2 : List (HloOp τ sig (Elt F))).Forall fun op => op.writes ⊆ (seg2_W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A reference segment 2 does not write keeps its contents through it. -/
theorem seg2_keep (W : Valuation τ sig (Elt F)) (r : Ref sig .tc) (h : r ∉ seg2_W) :
    after seg2 W (Proc.devRef .tc r) = W (Proc.devRef .tc r) :=
  after_of_writes_sub seg2 W seg2_writes h

/-- The references segment 3 writes. -/
abbrev seg3_W : List (Ref sig .tc) := [main_v20, main_v21, main_cst_2, main_v22, main_v23, main_cst_3, main_v24, main_v25, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v26, main_v27, main_v28, main_cst_5, main_v29, main_v30, main_v31, main_v32, main_v33, main_v34, main_v35, main_v36, main_v37, main_v38, main_v39]

set_option maxRecDepth 8192 in
theorem seg3_writes : (seg3 : List (HloOp τ sig (Elt F))).Forall fun op => op.writes ⊆ (seg3_W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A reference segment 3 does not write keeps its contents through it. -/
theorem seg3_keep (W : Valuation τ sig (Elt F)) (r : Ref sig .tc) (h : r ∉ seg3_W) :
    after seg3 W (Proc.devRef .tc r) = W (Proc.devRef .tc r) :=
  after_of_writes_sub seg3 W seg3_writes h

/-- The references segment 4 writes. -/
abbrev seg4_W : List (Ref sig .tc) := [main_v40, main_v41, main_cst_6, main_v42, main_v43, main_cst_7, main_v44, main_v45, main_c_8, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v46, main_v47, main_v48, main_cst_9, main_v49, main_v50, main_v51, main_v52, main_v53, main_v54, main_v55, main_v56, main_v57, main_v58, main_v59]

set_option maxRecDepth 8192 in
theorem seg4_writes : (seg4 : List (HloOp τ sig (Elt F))).Forall fun op => op.writes ⊆ (seg4_W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A reference segment 4 does not write keeps its contents through it. -/
theorem seg4_keep (W : Valuation τ sig (Elt F)) (r : Ref sig .tc) (h : r ∉ seg4_W) :
    after seg4 W (Proc.devRef .tc r) = W (Proc.devRef .tc r) :=
  after_of_writes_sub seg4 W seg4_writes h

/-- The references segment 5 writes. -/
abbrev seg5_W : List (Ref sig .tc) := [main_v60]

set_option maxRecDepth 8192 in
theorem seg5_writes : (seg5 : List (HloOp τ sig (Elt F))).Forall fun op => op.writes ⊆ (seg5_W.map (Proc.devRef (τ := τ) .tc)).toFinset := by
  simp only [List.Forall]
  exact (by simp only [nullary_writes, unary_writes, binary_writes, ternary_writes, nary_writes, Finset.singleton_subset_iff, List.mem_toFinset]; exact List.mem_map_of_mem (by decide))

/-- A reference segment 5 does not write keeps its contents through it. -/
theorem seg5_keep (W : Valuation τ sig (Elt F)) (r : Ref sig .tc) (h : r ∉ seg5_W) :
    after seg5 W (Proc.devRef .tc r) = W (Proc.devRef .tc r) :=
  after_of_writes_sub seg5 W seg5_writes h

attribute [local irreducible] select in
set_option maxRecDepth 8192 in
set_option maxHeartbeats 4000000 in
/-- Segment 1 leaves the categorical rows, batch-major, at `main_v1`. -/
theorem seg1_v1 (W : Valuation τ sig (Elt F)) :
    after seg1 W (Proc.devRef .tc main_v1) = cat (W (Proc.devRef .tc main_arg3)) (W (Proc.devRef .tc main_arg1)) := by
  simp only [seg1]
  after_results_simp
  simp only [ofBuf_toBuf]
  rfl

set_option maxRecDepth 8192 in
set_option maxHeartbeats 4000000 in
/-- Segment 2 leaves the normalised categorical rows at `main_v19`. -/
theorem seg2_v19 (W : Valuation τ sig (Elt F)) :
    after seg2 W (Proc.devRef .tc main_v19) = ln26 (W (Proc.devRef .tc main_v1)) (W (Proc.devRef .tc main_arg6)) (W (Proc.devRef .tc main_arg7)) := by
  simp only [seg2]
  after_results_simp
  rfl

set_option maxRecDepth 8192 in
set_option maxHeartbeats 4000000 in
/-- Segment 3 leaves the normalised numerical rows at `main_v39`. -/
theorem seg3_v39 (W : Valuation τ sig (Elt F)) :
    after seg3 W (Proc.devRef .tc main_v39) = ln13 (num (W (Proc.devRef .tc main_arg4)) (W (Proc.devRef .tc main_arg0))) (W (Proc.devRef .tc main_arg6)) (W (Proc.devRef .tc main_arg7)) := by
  simp only [seg3]
  after_results_simp
  rfl

set_option maxRecDepth 8192 in
set_option maxHeartbeats 4000000 in
/-- Segment 4 leaves the normalised embedding rows at `main_v59`. -/
theorem seg4_v59 (W : Valuation τ sig (Elt F)) :
    after seg4 W (Proc.devRef .tc main_v59) = ln4 (emb (W (Proc.devRef .tc main_arg5)) (W (Proc.devRef .tc main_arg2))) (W (Proc.devRef .tc main_arg6)) (W (Proc.devRef .tc main_arg7)) := by
  simp only [seg4]
  after_results_simp
  rfl

/-- Segment 5 joins the three groups along the feature axis at `main_v60`. -/
theorem seg5_v60 (W : Valuation τ sig (Elt F)) :
    after seg5 W (Proc.devRef .tc main_v60) = concatenate S4096x43x128 1 [⟨S4096x26x128, (W (Proc.devRef .tc main_v19))⟩, ⟨S4096x13x128, (W (Proc.devRef .tc main_v39))⟩, ⟨S4096x4x128, (W (Proc.devRef .tc main_v59))⟩] concatenates_S4096x26x128_S4096x13x128_S4096x4x128_S4096x43x128_d1 := by
  simp only [seg5, after_cons, after_nil, nary3_result']
  rfl

/-- The contents after the first k segments. -/
def val1 (V : Valuation τ sig (Elt F)) : Valuation τ sig (Elt F) := after seg1 V
def val2 (V : Valuation τ sig (Elt F)) : Valuation τ sig (Elt F) := after seg2 (val1 V)
def val3 (V : Valuation τ sig (Elt F)) : Valuation τ sig (Elt F) := after seg3 (val2 V)
def val4 (V : Valuation τ sig (Elt F)) : Valuation τ sig (Elt F) := after seg4 (val3 V)
def val5 (V : Valuation τ sig (Elt F)) : Valuation τ sig (Elt F) := after seg5 (val4 V)

theorem after_ops (V : Valuation τ sig (Elt F)) : after ops V = val5 V := by
  simp only [ops, after_app]
  rfl

theorem val1_main_arg0 (V : Valuation τ sig (Elt F)) : val1 V (Proc.devRef .tc main_arg0) = (V (Proc.devRef .tc main_arg0)) :=
  seg1_keep V main_arg0 (by decide)
theorem val1_main_arg1 (V : Valuation τ sig (Elt F)) : val1 V (Proc.devRef .tc main_arg1) = (V (Proc.devRef .tc main_arg1)) :=
  seg1_keep V main_arg1 (by decide)
theorem val1_main_arg2 (V : Valuation τ sig (Elt F)) : val1 V (Proc.devRef .tc main_arg2) = (V (Proc.devRef .tc main_arg2)) :=
  seg1_keep V main_arg2 (by decide)
theorem val1_main_arg3 (V : Valuation τ sig (Elt F)) : val1 V (Proc.devRef .tc main_arg3) = (V (Proc.devRef .tc main_arg3)) :=
  seg1_keep V main_arg3 (by decide)
theorem val1_main_arg4 (V : Valuation τ sig (Elt F)) : val1 V (Proc.devRef .tc main_arg4) = (V (Proc.devRef .tc main_arg4)) :=
  seg1_keep V main_arg4 (by decide)
theorem val1_main_arg5 (V : Valuation τ sig (Elt F)) : val1 V (Proc.devRef .tc main_arg5) = (V (Proc.devRef .tc main_arg5)) :=
  seg1_keep V main_arg5 (by decide)
theorem val1_main_arg6 (V : Valuation τ sig (Elt F)) : val1 V (Proc.devRef .tc main_arg6) = (V (Proc.devRef .tc main_arg6)) :=
  seg1_keep V main_arg6 (by decide)
theorem val1_main_arg7 (V : Valuation τ sig (Elt F)) : val1 V (Proc.devRef .tc main_arg7) = (V (Proc.devRef .tc main_arg7)) :=
  seg1_keep V main_arg7 (by decide)
theorem val1_main_v1 (V : Valuation τ sig (Elt F)) : val1 V (Proc.devRef .tc main_v1) = (cat (V (Proc.devRef .tc main_arg3)) (V (Proc.devRef .tc main_arg1))) :=
  seg1_v1 V

theorem val2_main_arg0 (V : Valuation τ sig (Elt F)) : val2 V (Proc.devRef .tc main_arg0) = (V (Proc.devRef .tc main_arg0)) :=
  (seg2_keep _ main_arg0 (by decide)).trans (val1_main_arg0 V)
theorem val2_main_arg1 (V : Valuation τ sig (Elt F)) : val2 V (Proc.devRef .tc main_arg1) = (V (Proc.devRef .tc main_arg1)) :=
  (seg2_keep _ main_arg1 (by decide)).trans (val1_main_arg1 V)
theorem val2_main_arg2 (V : Valuation τ sig (Elt F)) : val2 V (Proc.devRef .tc main_arg2) = (V (Proc.devRef .tc main_arg2)) :=
  (seg2_keep _ main_arg2 (by decide)).trans (val1_main_arg2 V)
theorem val2_main_arg3 (V : Valuation τ sig (Elt F)) : val2 V (Proc.devRef .tc main_arg3) = (V (Proc.devRef .tc main_arg3)) :=
  (seg2_keep _ main_arg3 (by decide)).trans (val1_main_arg3 V)
theorem val2_main_arg4 (V : Valuation τ sig (Elt F)) : val2 V (Proc.devRef .tc main_arg4) = (V (Proc.devRef .tc main_arg4)) :=
  (seg2_keep _ main_arg4 (by decide)).trans (val1_main_arg4 V)
theorem val2_main_arg5 (V : Valuation τ sig (Elt F)) : val2 V (Proc.devRef .tc main_arg5) = (V (Proc.devRef .tc main_arg5)) :=
  (seg2_keep _ main_arg5 (by decide)).trans (val1_main_arg5 V)
theorem val2_main_arg6 (V : Valuation τ sig (Elt F)) : val2 V (Proc.devRef .tc main_arg6) = (V (Proc.devRef .tc main_arg6)) :=
  (seg2_keep _ main_arg6 (by decide)).trans (val1_main_arg6 V)
theorem val2_main_arg7 (V : Valuation τ sig (Elt F)) : val2 V (Proc.devRef .tc main_arg7) = (V (Proc.devRef .tc main_arg7)) :=
  (seg2_keep _ main_arg7 (by decide)).trans (val1_main_arg7 V)
theorem val2_main_v19 (V : Valuation τ sig (Elt F)) : val2 V (Proc.devRef .tc main_v19) = (ln26 (cat (V (Proc.devRef .tc main_arg3)) (V (Proc.devRef .tc main_arg1))) (V (Proc.devRef .tc main_arg6)) (V (Proc.devRef .tc main_arg7))) := by
  unfold val2
  rw [seg2_v19, val1_main_v1, val1_main_arg6, val1_main_arg7]

theorem val3_main_arg0 (V : Valuation τ sig (Elt F)) : val3 V (Proc.devRef .tc main_arg0) = (V (Proc.devRef .tc main_arg0)) :=
  (seg3_keep _ main_arg0 (by decide)).trans (val2_main_arg0 V)
theorem val3_main_arg1 (V : Valuation τ sig (Elt F)) : val3 V (Proc.devRef .tc main_arg1) = (V (Proc.devRef .tc main_arg1)) :=
  (seg3_keep _ main_arg1 (by decide)).trans (val2_main_arg1 V)
theorem val3_main_arg2 (V : Valuation τ sig (Elt F)) : val3 V (Proc.devRef .tc main_arg2) = (V (Proc.devRef .tc main_arg2)) :=
  (seg3_keep _ main_arg2 (by decide)).trans (val2_main_arg2 V)
theorem val3_main_arg3 (V : Valuation τ sig (Elt F)) : val3 V (Proc.devRef .tc main_arg3) = (V (Proc.devRef .tc main_arg3)) :=
  (seg3_keep _ main_arg3 (by decide)).trans (val2_main_arg3 V)
theorem val3_main_arg4 (V : Valuation τ sig (Elt F)) : val3 V (Proc.devRef .tc main_arg4) = (V (Proc.devRef .tc main_arg4)) :=
  (seg3_keep _ main_arg4 (by decide)).trans (val2_main_arg4 V)
theorem val3_main_arg5 (V : Valuation τ sig (Elt F)) : val3 V (Proc.devRef .tc main_arg5) = (V (Proc.devRef .tc main_arg5)) :=
  (seg3_keep _ main_arg5 (by decide)).trans (val2_main_arg5 V)
theorem val3_main_arg6 (V : Valuation τ sig (Elt F)) : val3 V (Proc.devRef .tc main_arg6) = (V (Proc.devRef .tc main_arg6)) :=
  (seg3_keep _ main_arg6 (by decide)).trans (val2_main_arg6 V)
theorem val3_main_arg7 (V : Valuation τ sig (Elt F)) : val3 V (Proc.devRef .tc main_arg7) = (V (Proc.devRef .tc main_arg7)) :=
  (seg3_keep _ main_arg7 (by decide)).trans (val2_main_arg7 V)
theorem val3_main_v19 (V : Valuation τ sig (Elt F)) : val3 V (Proc.devRef .tc main_v19) = (ln26 (cat (V (Proc.devRef .tc main_arg3)) (V (Proc.devRef .tc main_arg1))) (V (Proc.devRef .tc main_arg6)) (V (Proc.devRef .tc main_arg7))) :=
  (seg3_keep _ main_v19 (by decide)).trans (val2_main_v19 V)
theorem val3_main_v39 (V : Valuation τ sig (Elt F)) : val3 V (Proc.devRef .tc main_v39) = (ln13 (num (V (Proc.devRef .tc main_arg4)) (V (Proc.devRef .tc main_arg0))) (V (Proc.devRef .tc main_arg6)) (V (Proc.devRef .tc main_arg7))) := by
  unfold val3
  rw [seg3_v39, val2_main_arg4, val2_main_arg0, val2_main_arg6, val2_main_arg7]

theorem val4_main_arg0 (V : Valuation τ sig (Elt F)) : val4 V (Proc.devRef .tc main_arg0) = (V (Proc.devRef .tc main_arg0)) :=
  (seg4_keep _ main_arg0 (by decide)).trans (val3_main_arg0 V)
theorem val4_main_arg1 (V : Valuation τ sig (Elt F)) : val4 V (Proc.devRef .tc main_arg1) = (V (Proc.devRef .tc main_arg1)) :=
  (seg4_keep _ main_arg1 (by decide)).trans (val3_main_arg1 V)
theorem val4_main_arg2 (V : Valuation τ sig (Elt F)) : val4 V (Proc.devRef .tc main_arg2) = (V (Proc.devRef .tc main_arg2)) :=
  (seg4_keep _ main_arg2 (by decide)).trans (val3_main_arg2 V)
theorem val4_main_arg3 (V : Valuation τ sig (Elt F)) : val4 V (Proc.devRef .tc main_arg3) = (V (Proc.devRef .tc main_arg3)) :=
  (seg4_keep _ main_arg3 (by decide)).trans (val3_main_arg3 V)
theorem val4_main_arg4 (V : Valuation τ sig (Elt F)) : val4 V (Proc.devRef .tc main_arg4) = (V (Proc.devRef .tc main_arg4)) :=
  (seg4_keep _ main_arg4 (by decide)).trans (val3_main_arg4 V)
theorem val4_main_arg5 (V : Valuation τ sig (Elt F)) : val4 V (Proc.devRef .tc main_arg5) = (V (Proc.devRef .tc main_arg5)) :=
  (seg4_keep _ main_arg5 (by decide)).trans (val3_main_arg5 V)
theorem val4_main_arg6 (V : Valuation τ sig (Elt F)) : val4 V (Proc.devRef .tc main_arg6) = (V (Proc.devRef .tc main_arg6)) :=
  (seg4_keep _ main_arg6 (by decide)).trans (val3_main_arg6 V)
theorem val4_main_arg7 (V : Valuation τ sig (Elt F)) : val4 V (Proc.devRef .tc main_arg7) = (V (Proc.devRef .tc main_arg7)) :=
  (seg4_keep _ main_arg7 (by decide)).trans (val3_main_arg7 V)
theorem val4_main_v19 (V : Valuation τ sig (Elt F)) : val4 V (Proc.devRef .tc main_v19) = (ln26 (cat (V (Proc.devRef .tc main_arg3)) (V (Proc.devRef .tc main_arg1))) (V (Proc.devRef .tc main_arg6)) (V (Proc.devRef .tc main_arg7))) :=
  (seg4_keep _ main_v19 (by decide)).trans (val3_main_v19 V)
theorem val4_main_v39 (V : Valuation τ sig (Elt F)) : val4 V (Proc.devRef .tc main_v39) = (ln13 (num (V (Proc.devRef .tc main_arg4)) (V (Proc.devRef .tc main_arg0))) (V (Proc.devRef .tc main_arg6)) (V (Proc.devRef .tc main_arg7))) :=
  (seg4_keep _ main_v39 (by decide)).trans (val3_main_v39 V)
theorem val4_main_v59 (V : Valuation τ sig (Elt F)) : val4 V (Proc.devRef .tc main_v59) = (ln4 (emb (V (Proc.devRef .tc main_arg5)) (V (Proc.devRef .tc main_arg2))) (V (Proc.devRef .tc main_arg6)) (V (Proc.devRef .tc main_arg7))) := by
  unfold val4
  rw [seg4_v59, val3_main_arg5, val3_main_arg2, val3_main_arg6, val3_main_arg7]

theorem val5_main_arg0 (V : Valuation τ sig (Elt F)) : val5 V (Proc.devRef .tc main_arg0) = (V (Proc.devRef .tc main_arg0)) :=
  (seg5_keep _ main_arg0 (by decide)).trans (val4_main_arg0 V)
theorem val5_main_arg1 (V : Valuation τ sig (Elt F)) : val5 V (Proc.devRef .tc main_arg1) = (V (Proc.devRef .tc main_arg1)) :=
  (seg5_keep _ main_arg1 (by decide)).trans (val4_main_arg1 V)
theorem val5_main_arg2 (V : Valuation τ sig (Elt F)) : val5 V (Proc.devRef .tc main_arg2) = (V (Proc.devRef .tc main_arg2)) :=
  (seg5_keep _ main_arg2 (by decide)).trans (val4_main_arg2 V)
theorem val5_main_arg3 (V : Valuation τ sig (Elt F)) : val5 V (Proc.devRef .tc main_arg3) = (V (Proc.devRef .tc main_arg3)) :=
  (seg5_keep _ main_arg3 (by decide)).trans (val4_main_arg3 V)
theorem val5_main_arg4 (V : Valuation τ sig (Elt F)) : val5 V (Proc.devRef .tc main_arg4) = (V (Proc.devRef .tc main_arg4)) :=
  (seg5_keep _ main_arg4 (by decide)).trans (val4_main_arg4 V)
theorem val5_main_arg5 (V : Valuation τ sig (Elt F)) : val5 V (Proc.devRef .tc main_arg5) = (V (Proc.devRef .tc main_arg5)) :=
  (seg5_keep _ main_arg5 (by decide)).trans (val4_main_arg5 V)
theorem val5_main_arg6 (V : Valuation τ sig (Elt F)) : val5 V (Proc.devRef .tc main_arg6) = (V (Proc.devRef .tc main_arg6)) :=
  (seg5_keep _ main_arg6 (by decide)).trans (val4_main_arg6 V)
theorem val5_main_arg7 (V : Valuation τ sig (Elt F)) : val5 V (Proc.devRef .tc main_arg7) = (V (Proc.devRef .tc main_arg7)) :=
  (seg5_keep _ main_arg7 (by decide)).trans (val4_main_arg7 V)
theorem val5_main_v60 (V : Valuation τ sig (Elt F)) : val5 V (Proc.devRef .tc main_v60) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val5
  rw [seg5_v60, val4_main_v19, val4_main_v39, val4_main_v59]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub ..⟩

set_option maxRecDepth 8192 in
theorem seg2_sub : (seg2 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem seg3_sub : (seg3 : List (HloOp τ sig (Elt F))).Forall fun op => op.bufs ⊆ tcRefs τ sig :=
  ⟨binary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem seg4_sub : (seg4 : List (HloOp τ sig (Elt F))).Forall fun op => op.bufs ⊆ tcRefs τ sig :=
  ⟨binary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem seg5_sub : (seg5 : List (HloOp τ sig (Elt F))).Forall fun op => op.bufs ⊆ tcRefs τ sig :=
  nary_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp seg1_sub op h, List.forall_iff_forall_mem.mp seg2_sub op h, List.forall_iff_forall_mem.mp seg3_sub op h,
      List.forall_iff_forall_mem.mp seg4_sub op h, List.forall_iff_forall_mem.mp seg5_sub op h]

set_option maxRecDepth 8192 in
set_option maxHeartbeats 4000000 in
/-- On every device, for any float values, from any memory with zero counters: every weakly fair execution of
    @main terminates with the result at `out` of the arguments' launch contents and the arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v60) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v60).trans (by rw [after_ops]; exact val5_main_v60 _),
      (h c main_arg0).trans (by rw [after_ops]; exact val5_main_arg0 _),
      (h c main_arg1).trans (by rw [after_ops]; exact val5_main_arg1 _),
      (h c main_arg2).trans (by rw [after_ops]; exact val5_main_arg2 _),
      (h c main_arg3).trans (by rw [after_ops]; exact val5_main_arg3 _),
      (h c main_arg4).trans (by rw [after_ops]; exact val5_main_arg4 _),
      (h c main_arg5).trans (by rw [after_ops]; exact val5_main_arg5 _),
      (h c main_arg6).trans (by rw [after_ops]; exact val5_main_arg6 _),
      (h c main_arg7).trans (by rw [after_ops]; exact val5_main_arg7 _)⟩)
    (run_seq scopedRefs_eq scopedSems_eq defs main (fun _ => ops) main_eq (fun _ => ops_sub) m g)

/-- The reference runs from every memory and leaves its arguments unchanged: the run with the result's value dropped. -/
theorem frame : Cert.frame_ReferenceIdeal := fun m g _ =>
  (θ_run _ _ _).mono (fun _ h c => (h c).2) (run m g)

end Cert.ReferenceIdeal.RefRun

end
-- ==== Proof.Assembly.lean ====
/-
  The two idealized programs end with equal results, and the certificate's claim.

  The kernel program's run (every thread of the device: the TensorCore, the SparseCores' sequencers and subcores)
  ends with its result array at the reference's own term of the argument arrays: the gather leaves the rows of the
  tables the categorical features pick, the layer-norm call normalises the 43 rows of every batch row, and under the
  precondition (every float entry a real, every categorical index in range) each normalised row is the
  reference's. The reference's run ends with its result at the same term of ITS arguments, which are the kernel's.
  So both runs are stated with ONE term for the result, and that term is the claim's common value.
-/
import proofs.«206634_g85779086836150_cont_9to1c4b_256_28_alg».proof.Defs
import proofs.«206634_g85779086836150_cont_9to1c4b_256_28_alg».proof.Proof.RefRun
import proofs.«206634_g85779086836150_cont_9to1c4b_256_28_alg».proof.Proof.Gen.KernelIdeal
import proofs.«206634_g85779086836150_cont_9to1c4b_256_28_alg».proof.Proof.Gen.ReferenceIdeal
import proofs.«206634_g85779086836150_cont_9to1c4b_256_28_alg».proof.Proof.Gen.Pre_input_domain

set_option maxRecDepth 16384

noncomputable section

namespace Cert.KernelIdeal.Assembly

open Cert.KernelIdeal
open Idealize.ShloMosaic
open Idealize.SL.Sem

/-- What the kernel program's run is asked for: from a memory of which the precondition holds, every weakly fair
    execution of all its threads ends, the result at the reference's term of the arguments, the arguments unchanged. -/
def KerRun : Prop :=
  ∀ (m : (ℓ : Loc nD τ sig) → Buf (Elt Ideal) ℓ) (g : Dev nD → PrngReg), Cert.Pre_KernelIdeal m →
    θ_run (Cert.KernelIdeal.defs (F := Ideal)) (Cert.KernelIdeal.threads (F := Ideal)) ⟨m, fun _ => 0, g⟩ (fun r => ∀ c : Dev nD,
      r.2.mem ((c.tc : Thread nD τ).loc main_v7)
          = Cert.ReferenceIdeal.RefRun.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))

/-- The kernel program's frame is its run with the result's value dropped. -/
theorem frame_of (hker : KerRun) : Cert.frame_KernelIdeal := fun m g hpre =>
  (θ_run _ _ _).mono (fun _ h c => (h c).2) (hker m g hpre)

/-- The two programs' results are equal: the kernel's run as it stands, the reference's run with its arguments
    rewritten to the kernel's, which they equal. -/
theorem algebraic_of (hker : KerRun) : Cert.algebraic_KernelIdeal_ReferenceIdeal := by
  intro m g m' g' hpre hagree
  refine ⟨fun c => Cert.ReferenceIdeal.RefRun.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), hker m g hpre, ?_⟩
  refine (θ_run _ _ _).mono ?_ (Cert.ReferenceIdeal.RefRun.run (F := Ideal) m' g')
  intro r h c
  obtain ⟨h60, h0, h1, h2, h3, h4, h5, h6, h7⟩ := h c
  obtain ⟨e0, e1, e2, e3, e4, e5, e6, e7⟩ := hagree c
  refine ⟨h60.trans ?_, h0, h1, h2, h3, h4, h5, h6, h7⟩
  rw [e0, e1, e2, e3, e4, e5, e6, e7]

end Cert.KernelIdeal.Assembly

end
-- ==== Proof.ScCommon.lean ====
/-
  The launch set-up shared by every module about the idealized kernel program's threads: the program as the
  SparseCore launch theorem sees it (its call table, body table, variants), the side conditions of the launch
  protocol's four semaphores, and the resource algebra the proof runs in: the handshakes' rounds, one more copy of
  the rounds algebra for the TensorCore region's staging cells, and the exclusive counters the local copies of the
  gather kernel are tracked with.
-/
import proofs.«206634_g85779086836150_cont_9to1c4b_256_28_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«206634_g85779086836150_cont_9to1c4b_256_28_alg».proof.Proof.Gen.KernelIdeal
import proofs.«206634_g85779086836150_cont_9to1c4b_256_28_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL

/-- The region's staging cells' rounds: the left factor of the right factor. -/
def ER : Emb UP (MT nD τ sig (HIx 1) (Elt F) ℕ UU ℕ) := (Emb.inl : Emb UP (UP × Counters)).trans embR

instance ER_landsIn : (ER : Emb UP (MT nD τ sig (HIx 1) (Elt F) ℕ UU ℕ)).LandsIn (upEmb : UEmb _ (MT nD τ sig (HIx 1) (Elt F) ℕ UU ℕ)) := by
  unfold ER; infer_instance

end Cert.KernelIdeal.Sc

end
-- ==== Proof.ScPay.lean ====
/-
  What one vector subcore is handed for the gather kernel and what it hands back, named once for the kernel body's
  proof and for the launch: the subcore's thread, its row of the index array (the 26 lists of 128 row numbers it
  fetches), its 26 output slabs (128 batch rows of one feature each) and its read token of the embedding tables.
-/
import proofs.«206634_g85779086836150_cont_9to1c4b_256_28_alg».proof.Proof.ScCommon
import Idealize.ShloMosaic.Lib.SparseCore.Stream
import Idealize.ShloMosaic.Lib.SparseCore.Ops

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The tables, the index array as the kernel reads it (32 workers × 26 lists × 128), the gathered rows; the two
    scratches of a vector subcore: its 26 lists, its four slots of 128 rows. -/
abbrev tV : Memref sig .scVector .hbm S26x100001x128 .f32 := Memref.whole main_arg3_scv
abbrev iV : Memref sig .scVector .hbm S32x26x128 .i32 := Memref.whole main_v0_scv
abbrev oV : Memref sig .scVector .hbm S26x4096x128 .f32 := Memref.whole main_v1_scv
abbrev sI : Memref sig .scVector .vmem S26x128 .i32 := Memref.whole cc0_scratch0
abbrev sB : Memref sig .scVector .vmem S512x128 .f32 := Memref.whole cc0_scratch1

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev tLoc (d : Dev nD) : Loc nD τ sig := (SparseCore.T d).loc main_arg3
abbrev iLoc (d : Dev nD) : Loc nD τ sig := (SparseCore.T d).loc main_v0
abbrev oLoc (d : Dev nD) : Loc nD τ sig := (SparseCore.T d).loc main_v1

/-- The worker number of a vector subcore: twice its subcore index plus its core index. -/
def wOf (L : grid0.Coords) : ℕ := 2 * (L 1).val + (L 0).val

/-- The worker's row of the index array, as the kernel slices it. -/
abbrev iRowK (L : grid0.Coords) : Memref sig .scVector .hbm S26x128 .i32 :=
  ((iV).slice (Rect.unit (s := S32x26x128) (k0_off1 L) S1x26x128.size (k0_off1_inb L)) (fun _ => rfl)).squeeze S26x128 squeezes_S1x26x128_S26x128

/-- The slab chunk `k` of the worker is stored to: 128 batch rows of one feature, as the kernel slices it. -/
abbrev slabI (L : grid0.Coords) (k : Fin k0_t1_loop.trips) : Memref sig .scVector .hbm S128x128 .f32 :=
  (((oV).slice (Rect.unit (s := S26x4096x128) (k0_off15 L k) S1x4096x128.size (k0_off15_inb L k)) (fun _ => rfl)).squeeze S4096x128 squeezes_S1x4096x128_S4096x128).slice
    (Rect.unit (s := S4096x128) (k0_off16 L k) S128x128.size (k0_off16_inb L k)) (fun _ => rfl)

/-- The worker's share of the gathered rows: its 26 slabs. -/
def oSetL (L : grid0.Coords) : Finset S26x4096x128.Idx := Finset.univ.biUnion fun k : Fin k0_t1_loop.trips => (slabI L k).view.set

/-- The worker's read token of the tables (one of 32 cut off the full share). -/
abbrev tokQ (w : ℕ) : PosShare TreeShare := Transfers.shareTokN fullShare w

end Cert.KernelIdeal.Sc

end
-- ==== Proof.ScOffsets.lean ====
/-
  The gather kernel's output slices in closed form, and how the 32 vector subcores share its arrays. A worker
  `w = 2 * subcore + core` stores 26 chunks, numbered `26 * w + k`; chunk `q` is 128 batch rows of one feature: feature
  `q / 32`, rows `128 * (q % 32)` on. From the two offset functions' closed forms: a chunk's slab is one rectangle of
  the gathered rows, an element lies in it exactly when `32 * feature + row / 128 = q`, so the 832 slabs are pairwise
  disjoint and cover the array, and so do the 32 workers' shares of 26 slabs each; likewise the 32 rows of the index array.
-/
import proofs.«206634_g85779086836150_cont_9to1c4b_256_28_alg».proof.Proof.ScPay
import Idealize.ShloMosaic.Lib.Affine

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first slice's offsets in closed form: chunk `26 * w + k` of worker `w = 2 * (i 1) + (i 0)` lies in feature `(26 * w + k) / 32`. -/
theorem k0_off15_eq : ∀ (i : grid0.Coords) (k0_t1 : Fin k0_t1_loop.trips), k0_off15 i k0_t1 = ![(52 * (i 1).val + 26 * (i 0).val + k0_t1.val) / 32, 0, 0] := by
  intro i k0_t1
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c26_i32_129 : Affine.IsInt 26#32 (26) := Affine.ofNat _ (by omega)
  have h_v209 : Affine.IsInt _ (52 * ((i 1).val : Int) + 26 * ((i 0).val : Int)) := Affine.muli h_v1 h_c26_i32_129 (by omega)
  have h_c0_i32_70 : Affine.IsInt 0#32 (0) := Affine.ofNat _ (by omega)
  have h_c1_i32_72 : Affine.IsInt 1#32 (1) := Affine.ofNat _ (by omega)
  have r_k0_t1 : k0_t1.val < 26 := Nat.lt_of_lt_of_le k0_t1.isLt k0_t1_abs.2.1
  have h_arg9 : Affine.IsInt _ ((k0_t1.val : Int)) := Affine.iv h_c0_i32_70 h_c1_i32_72 k0_t1.val (by omega)
  have c_arg9 : (k0_t1.val : Int) ≤ 26 - 1 := Affine.iv_lt k0_t1_abs.1 k0_t1.isLt k0_t1_abs.2.2 h_arg9
  have h_v210 : Affine.IsInt _ (52 * ((i 1).val : Int) + 26 * ((i 0).val : Int) + (k0_t1.val : Int)) := Affine.addi h_v209 h_arg9 (by omega)
  have h_c0_i32_131 : Affine.IsInt 0#32 (0) := Affine.ofNat _ (by omega)
  rcases (show 52 * ((i 1).val : Int) + 26 * ((i 0).val : Int) + (k0_t1.val : Int) ≤ 0 ∨ 1 ≤ 52 * ((i 1).val : Int) + 26 * ((i 0).val : Int) + (k0_t1.val : Int) by omega) with hs | hs
  · have h_v212 : Affine.Fails _ := Affine.sgt_fails h_v210 h_c0_i32_131 (by omega)
    have h_v213 : Affine.IsInt _ (0) := Affine.extui_fails h_v212 (by omega)
    have h_c0_i32_132 : Affine.IsInt 0#32 (0) := Affine.ofNat _ (by omega)
    have h_v214 : Affine.Fails _ := Affine.slt_fails h_v210 h_c0_i32_132 (by omega)
    have h_v215 : Affine.IsInt _ (0) := Affine.extui_fails h_v214 (by omega)
    have h_v216 : Affine.IsInt _ (0) := Affine.subi h_v213 h_v215 (by omega)
    have h_c32_i32_130 : Affine.IsInt 32#32 (32) := Affine.ofNat _ (by omega)
    have h_c0_i32_133 : Affine.IsInt 0#32 (0) := Affine.ofNat _ (by omega)
    have h_v217 : Affine.Holds _ := Affine.sgt_holds h_c32_i32_130 h_c0_i32_133 (by omega)
    have h_v218 : Affine.IsInt _ (1) := Affine.extui_holds h_v217 (by omega)
    have h_c0_i32_134 : Affine.IsInt 0#32 (0) := Affine.ofNat _ (by omega)
    have h_v219 : Affine.Fails _ := Affine.slt_fails h_c32_i32_130 h_c0_i32_134 (by omega)
    have h_v220 : Affine.IsInt _ (0) := Affine.extui_fails h_v219 (by omega)
    have h_v221 : Affine.IsInt _ (1) := Affine.subi h_v218 h_v220 (by omega)
    have h_v222 : Affine.Holds _ := Affine.ne_holds h_v216 h_v221 (by omega)
    have h_v223 : Affine.IsInt _ (52 * ((i 1).val : Int) + 26 * ((i 0).val : Int) + (k0_t1.val : Int)) := Affine.remsi h_v210 h_c32_i32_130 (by omega)
    have h_c0_i32_135 : Affine.IsInt 0#32 (0) := Affine.ofNat _ (by omega)
    have h_v224 : Affine.Fails _ := Affine.ne_fails h_v223 h_c0_i32_135 (by omega)
    have h_v225 : Affine.Fails _ := Affine.andi_fails_right (Affine.tH h_v222) h_v224
    have h_v211 : Affine.IsInt _ (((52 * ((i 1).val : Int) + 26 * ((i 0).val : Int) + (k0_t1.val : Int)) / 32)) := Affine.divsi h_v210 h_c32_i32_130 (by omega)
    have h_c1_i32_136 : Affine.IsInt 1#32 (1) := Affine.ofNat _ (by omega)
    have h_v226 : Affine.IsInt _ (((52 * ((i 1).val : Int) + 26 * ((i 0).val : Int) + (k0_t1.val : Int)) / 32) - 1) := Affine.subi h_v211 h_c1_i32_136 (by omega)
    have h_v227 : Affine.IsInt _ (((52 * ((i 1).val : Int) + 26 * ((i 0).val : Int) + (k0_t1.val : Int)) / 32)) := Affine.select_fails h_v225 h_v226 h_v211 (by omega)
    have h_c0_i32_145 : Affine.IsInt 0#32 (0) := Affine.ofNat _ (by omega)
    have h_c0_i32_146 : Affine.IsInt 0#32 (0) := Affine.ofNat _ (by omega)
    exact Affine.vec_cons h_v227 (by omega) <| Affine.vec_cons (Affine.ofNat 0 (by omega) : Affine.IsInt 0#32 0) (by omega) <| Affine.vec_cons (Affine.ofNat 0 (by omega) : Affine.IsInt 0#32 0) (by omega) <| Affine.vec_nil
  · have h_v212 : Affine.Holds _ := Affine.sgt_holds h_v210 h_c0_i32_131 (by omega)
    have h_v213 : Affine.IsInt _ (1) := Affine.extui_holds h_v212 (by omega)
    have h_c0_i32_132 : Affine.IsInt 0#32 (0) := Affine.ofNat _ (by omega)
    have h_v214 : Affine.Fails _ := Affine.slt_fails h_v210 h_c0_i32_132 (by omega)
    have h_v215 : Affine.IsInt _ (0) := Affine.extui_fails h_v214 (by omega)
    have h_v216 : Affine.IsInt _ (1) := Affine.subi h_v213 h_v215 (by omega)
    have h_c32_i32_130 : Affine.IsInt 32#32 (32) := Affine.ofNat _ (by omega)
    have h_c0_i32_133 : Affine.IsInt 0#32 (0) := Affine.ofNat _ (by omega)
    have h_v217 : Affine.Holds _ := Affine.sgt_holds h_c32_i32_130 h_c0_i32_133 (by omega)
    have h_v218 : Affine.IsInt _ (1) := Affine.extui_holds h_v217 (by omega)
    have h_c0_i32_134 : Affine.IsInt 0#32 (0) := Affine.ofNat _ (by omega)
    have h_v219 : Affine.Fails _ := Affine.slt_fails h_c32_i32_130 h_c0_i32_134 (by omega)
    have h_v220 : Affine.IsInt _ (0) := Affine.extui_fails h_v219 (by omega)
    have h_v221 : Affine.IsInt _ (1) := Affine.subi h_v218 h_v220 (by omega)
    have h_v222 : Affine.Fails _ := Affine.ne_fails h_v216 h_v221 (by omega)
    have h_v223 : Affine.IsInt _ (((52 * ((i 1).val : Int) + 26 * ((i 0).val : Int) + (k0_t1.val : Int)) % 32)) := Affine.remsi h_v210 h_c32_i32_130 (by omega)
    have h_c0_i32_135 : Affine.IsInt 0#32 (0) := Affine.ofNat _ (by omega)
    have h_v224 : Affine.Term _ := Affine.cmpi_term .ne h_v223 h_c0_i32_135
    have h_v225 : Affine.Fails _ := Affine.andi_fails_left h_v222 h_v224
    have h_v211 : Affine.IsInt _ (((52 * ((i 1).val : Int) + 26 * ((i 0).val : Int) + (k0_t1.val : Int)) / 32)) := Affine.divsi h_v210 h_c32_i32_130 (by omega)
    have h_c1_i32_136 : Affine.IsInt 1#32 (1) := Affine.ofNat _ (by omega)
    have h_v226 : Affine.IsInt _ (((52 * ((i 1).val : Int) + 26 * ((i 0).val : Int) + (k0_t1.val : Int)) / 32) - 1) := Affine.subi h_v211 h_c1_i32_136 (by omega)
    have h_v227 : Affine.IsInt _ (((52 * ((i 1).val : Int) + 26 * ((i 0).val : Int) + (k0_t1.val : Int)) / 32)) := Affine.select_fails h_v225 h_v226 h_v211 (by omega)
    have h_c0_i32_145 : Affine.IsInt 0#32 (0) := Affine.ofNat _ (by omega)
    have h_c0_i32_146 : Affine.IsInt 0#32 (0) := Affine.ofNat _ (by omega)
    exact Affine.vec_cons h_v227 (by omega) <| Affine.vec_cons (Affine.ofNat 0 (by omega) : Affine.IsInt 0#32 0) (by omega) <| Affine.vec_cons (Affine.ofNat 0 (by omega) : Affine.IsInt 0#32 0) (by omega) <| Affine.vec_nil

/-- The second slice's offsets in closed form: the chunk's 128 batch rows start at row `128 * ((26 * w + k) % 32)`. -/
theorem k0_off16_eq : ∀ (i : grid0.Coords) (k0_t1 : Fin k0_t1_loop.trips), k0_off16 i k0_t1 = ![128 * ((52 * (i 1).val + 26 * (i 0).val + k0_t1.val) % 32), 0] := by
  intro i k0_t1
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c26_i32_129 : Affine.IsInt 26#32 (26) := Affine.ofNat _ (by omega)
  have h_v209 : Affine.IsInt _ (52 * ((i 1).val : Int) + 26 * ((i 0).val : Int)) := Affine.muli h_v1 h_c26_i32_129 (by omega)
  have h_c0_i32_70 : Affine.IsInt 0#32 (0) := Affine.ofNat _ (by omega)
  have h_c1_i32_72 : Affine.IsInt 1#32 (1) := Affine.ofNat _ (by omega)
  have r_k0_t1 : k0_t1.val < 26 := Nat.lt_of_lt_of_le k0_t1.isLt k0_t1_abs.2.1
  have h_arg9 : Affine.IsInt _ ((k0_t1.val : Int)) := Affine.iv h_c0_i32_70 h_c1_i32_72 k0_t1.val (by omega)
  have c_arg9 : (k0_t1.val : Int) ≤ 26 - 1 := Affine.iv_lt k0_t1_abs.1 k0_t1.isLt k0_t1_abs.2.2 h_arg9
  have h_v210 : Affine.IsInt _ (52 * ((i 1).val : Int) + 26 * ((i 0).val : Int) + (k0_t1.val : Int)) := Affine.addi h_v209 h_arg9 (by omega)
  have h_c32_i32_137 : Affine.IsInt 32#32 (32) := Affine.ofNat _ (by omega)
  have h_c0_i32_138 : Affine.IsInt 0#32 (0) := Affine.ofNat _ (by omega)
  have h_v228 : Affine.Fails _ := Affine.eq_fails h_c32_i32_137 h_c0_i32_138 (by omega)
  have h_c1_i32_139 : Affine.IsInt 1#32 (1) := Affine.ofNat _ (by omega)
  have h_v229 : Affine.IsInt _ (32) := Affine.select_fails h_v228 h_c1_i32_139 h_c32_i32_137 (by omega)
  have h_v230 : Affine.IsInt _ (((52 * ((i 1).val : Int) + 26 * ((i 0).val : Int) + (k0_t1.val : Int)) % 32)) := Affine.remsi h_v210 h_v229 (by omega)
  have h_c0_i32_141 : Affine.IsInt 0#32 (0) := Affine.ofNat _ (by omega)
  have h_v232 : Affine.Fails _ := Affine.slt_fails h_v230 h_c0_i32_141 (by omega)
  have h_c0_i32_142 : Affine.IsInt 0#32 (0) := Affine.ofNat _ (by omega)
  have h_v233 : Affine.Fails _ := Affine.slt_fails h_v229 h_c0_i32_142 (by omega)
  have h_v234 : Affine.Fails _ := Affine.xori_ff h_v232 h_v233
  have h_c0_i32_140 : Affine.IsInt 0#32 (0) := Affine.ofNat _ (by omega)
  have h_v231 : Affine.Term _ := Affine.cmpi_term .ne h_v230 h_c0_i32_140
  have h_v235 : Affine.Fails _ := Affine.andi_fails_left h_v234 h_v231
  have h_v236 : Affine.IsInt _ (((52 * ((i 1).val : Int) + 26 * ((i 0).val : Int) + (k0_t1.val : Int)) % 32) + 32) := Affine.addi h_v230 h_v229 (by omega)
  have h_v237 : Affine.IsInt _ (((52 * ((i 1).val : Int) + 26 * ((i 0).val : Int) + (k0_t1.val : Int)) % 32)) := Affine.select_fails h_v235 h_v236 h_v230 (by omega)
  have h_c128_i32_143 : Affine.IsInt 128#32 (128) := Affine.ofNat _ (by omega)
  have h_v238 : Affine.IsInt _ (128 * ((52 * ((i 1).val : Int) + 26 * ((i 0).val : Int) + (k0_t1.val : Int)) % 32)) := Affine.muli h_v237 h_c128_i32_143 (by omega)
  have h_c0_i32_147 : Affine.IsInt 0#32 (0) := Affine.ofNat _ (by omega)
  exact Affine.vec_cons h_v238 (by omega) <| Affine.vec_cons (Affine.ofNat 0 (by omega) : Affine.IsInt 0#32 0) (by omega) <| Affine.vec_nil
/-- The chunk number of worker `L`'s trip `k`: chunks are dealt 26 to a worker, in order. -/
def qOf (L : grid0.Coords) (k : Fin k0_t1_loop.trips) : ℕ := 26 * wOf L + k.val

theorem trip_lt (k : Fin k0_t1_loop.trips) : k.val < 26 := Nat.lt_of_lt_of_le k.isLt k0_t1_abs.2.1
theorem L0_lt (L : grid0.Coords) : (L 0).val < 2 := (L 0).isLt
theorem L1_lt (L : grid0.Coords) : (L 1).val < 16 := (L 1).isLt
theorem wOf_lt (L : grid0.Coords) : wOf L < 32 := by unfold wOf; have := L0_lt L; have := L1_lt L; omega
theorem qOf_lt (L : grid0.Coords) (k : Fin k0_t1_loop.trips) : qOf L k < 832 := by
  unfold qOf; have := trip_lt k; have := wOf_lt L; omega
theorem qOf_eq (L : grid0.Coords) (k : Fin k0_t1_loop.trips) : 52 * (L 1).val + 26 * (L 0).val + k.val = qOf L k := by
  unfold qOf wOf; omega

/-- A worker is its number: the core index is the number's parity, the subcore index its half. -/
theorem wOf_inj {L L' : grid0.Coords} (h : wOf L = wOf L') : L = L' := by
  unfold wOf at h
  have := L0_lt L; have := L0_lt L'
  funext a
  apply Fin.ext
  match a with
  | ⟨0, _⟩ => show (L 0).val = (L' 0).val; omega
  | ⟨1, _⟩ => show (L 1).val = (L' 1).val; omega

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem wOf_coordsV (c : Fin (grid0.bound 0)) (s : Fin (grid0.bound 1)) : wOf (coordsV c s) = 2 * s.val + c.val := rfl

theorem coordsV_eta (L : grid0.Coords) : coordsV (L 0) (L 1) = L := by
  funext a
  match a with
  | ⟨0, _⟩ => rfl
  | ⟨1, _⟩ => rfl

theorem coordsV_inj {c c' : Fin (grid0.bound 0)} {s s' : Fin (grid0.bound 1)} (h : coordsV c s = coordsV c' s') : c = c' ∧ s = s' :=
  ⟨congrFun h 0, congrFun h 1⟩

abbrev r15 (L : grid0.Coords) (k : Fin k0_t1_loop.trips) : Rect S26x4096x128 :=
  Rect.unit (s := S26x4096x128) (k0_off15 L k) S1x4096x128.size (k0_off15_inb L k)
abbrev r16 (L : grid0.Coords) (k : Fin k0_t1_loop.trips) : Rect S4096x128 :=
  Rect.unit (s := S4096x128) (k0_off16 L k) S128x128.size (k0_off16_inb L k)

theorem slabR_inb (L : grid0.Coords) (k : Fin k0_t1_loop.trips) :
    ∀ a, (![qOf L k / 32, 128 * (qOf L k % 32), 0] : Fin 3 → ℕ) a + (![1, 128, 128] : Fin 3 → ℕ) a ≤ S26x4096x128.size a := by
  have := qOf_lt L k
  intro a
  match a with
  | ⟨0, _⟩ => show qOf L k / 32 + 1 ≤ 26; omega
  | ⟨1, _⟩ => show 128 * (qOf L k % 32) + 128 ≤ 4096; omega
  | ⟨2, _⟩ => show 0 + 128 ≤ 128; omega

/-- Chunk `q`'s slab as one rectangle of the gathered rows: feature `q / 32`, batch rows `128 * (q % 32)` and the
    127 after it, all 128 lanes. -/
abbrev slabR (L : grid0.Coords) (k : Fin k0_t1_loop.trips) : Rect S26x4096x128 :=
  Rect.unit (s := S26x4096x128) ![qOf L k / 32, 128 * (qOf L k % 32), 0] ![1, 128, 128] (slabR_inb L k)

/-- The slab as the kernel slices it (one feature's plane, its leading axis dropped, then 128 of its rows) lies in that
    rectangle: an element of the second slice at `y` sits at `(feature, y 0, y 1)`. -/
theorem slab_subset (L : grid0.Coords) (k : Fin k0_t1_loop.trips) : (slabI L k).view.set ⊆ (slabR L k).set := by
  intro x hx
  have hx' : x ∈ (((((View.whole main_v1_scv : View sig .scVector _ _ _).slice (r15 L k)).reshape S4096x128 squeezes_S1x4096x128_S4096x128.numel_eq).slice (r16 L k)).set) := hx
  rw [View.set_slice] at hx'
  obtain ⟨y, hy, rfl⟩ := Finset.mem_map.mp hx'
  have e : ((((View.whole main_v1_scv : View sig .scVector _ _ _).slice (r15 L k)).reshape S4096x128 squeezes_S1x4096x128_S4096x128.numel_eq)).emb y
      = (r15 L k).emb (Shape.reshapeEquiv squeezes_S1x4096x128_S4096x128.numel_eq y) := rfl
  rw [e, Shape.reshapeEquiv_cons_one]
  have h15 := k0_off15_eq L k
  have h16 := k0_off16_eq L k
  have hq := qOf_eq L k
  have o0 : k0_off15 L k 0 = qOf L k / 32 := by rw [h15, hq]; rfl
  have o1 : k0_off15 L k 1 = 0 := by rw [h15]; rfl
  have o2 : k0_off15 L k 2 = 0 := by rw [h15]; rfl
  have p0 : k0_off16 L k 0 = 128 * (qOf L k % 32) := by rw [h16, hq]; rfl
  have p1 : k0_off16 L k 1 = 0 := by rw [h16]; rfl
  rw [Rect.mem_set_unit] at hy
  have hy0 : k0_off16 L k 0 ≤ (y 0).val ∧ (y 0).val < k0_off16 L k 0 + 128 := hy 0
  have hy1 : (y 1).val < 128 := (y 1).isLt
  rw [Rect.mem_set_unit]
  intro a
  match a with
  | ⟨0, _⟩ =>
    show qOf L k / 32 ≤ k0_off15 L k 0 + 1 * 0 ∧ k0_off15 L k 0 + 1 * 0 < qOf L k / 32 + 1
    omega
  | ⟨1, _⟩ =>
    show 128 * (qOf L k % 32) ≤ k0_off15 L k 1 + 1 * (y 0).val ∧ k0_off15 L k 1 + 1 * (y 0).val < 128 * (qOf L k % 32) + 128
    omega
  | ⟨2, _⟩ =>
    show 0 ≤ k0_off15 L k 2 + 1 * (y 1).val ∧ k0_off15 L k 2 + 1 * (y 1).val < 0 + 128
    omega

/-- The slab is that rectangle: both have 128 × 128 elements. -/
theorem slab_set_eq (L : grid0.Coords) (k : Fin k0_t1_loop.trips) : (slabI L k).view.set = (slabR L k).set :=
  Finset.eq_of_subset_of_card_le (slab_subset L k) (by
    rw [Rect.card_set, View.card_set]
    show Shape.numel ⟨3, ![1, 128, 128]⟩ ≤ Shape.numel ⟨2, ![128, 128]⟩
    simp [Shape.numel, Fin.prod_univ_succ])

/-- An element of the gathered rows lies in chunk `q`'s slab exactly when its feature and 128-row block number `q`. -/
theorem mem_slabI (L : grid0.Coords) (k : Fin k0_t1_loop.trips) (x : S26x4096x128.Idx) :
    x ∈ (slabI L k).view.set ↔ (x 0).val * 32 + (x 1).val / 128 = 26 * wOf L + k.val := by
  rw [slab_set_eq, Rect.mem_set_unit]
  have hlt := qOf_lt L k
  have hdef : qOf L k = 26 * wOf L + k.val := rfl
  have h0 : (x 0).val < 26 := (x 0).isLt
  have h1 : (x 1).val < 4096 := (x 1).isLt
  have h2 : (x 2).val < 128 := (x 2).isLt
  constructor
  · intro h
    have a0 : qOf L k / 32 ≤ (x 0).val ∧ (x 0).val < qOf L k / 32 + 1 := h 0
    have a1 : 128 * (qOf L k % 32) ≤ (x 1).val ∧ (x 1).val < 128 * (qOf L k % 32) + 128 := h 1
    omega
  · intro h a
    match a with
    | ⟨0, _⟩ => show qOf L k / 32 ≤ (x 0).val ∧ (x 0).val < qOf L k / 32 + 1; omega
    | ⟨1, _⟩ => show 128 * (qOf L k % 32) ≤ (x 1).val ∧ (x 1).val < 128 * (qOf L k % 32) + 128; omega
    | ⟨2, _⟩ => show 0 ≤ (x 2).val ∧ (x 2).val < 0 + 128; omega

/-- The slabs of distinct (worker, trip) pairs are disjoint. -/
theorem slab_disjoint {L L' : grid0.Coords} {k k' : Fin k0_t1_loop.trips} (h : L ≠ L' ∨ k ≠ k') :
    Disjoint (slabI L k).view.set (slabI L' k').view.set := by
  rw [Finset.disjoint_left]
  intro x hx hx'
  rw [mem_slabI] at hx hx'
  have := trip_lt k; have := trip_lt k'
  have hw : wOf L = wOf L' := by omega
  have hk : k.val = k'.val := by omega
  rcases h with h | h
  · exact h (wOf_inj hw)
  · exact h (Fin.ext hk)

/-- An element lies in worker `L`'s share exactly when its chunk number, divided by 26, is the worker's number. -/
theorem mem_oSetL (L : grid0.Coords) (x : S26x4096x128.Idx) :
    x ∈ oSetL L ↔ ((x 0).val * 32 + (x 1).val / 128) / 26 = wOf L := by
  unfold oSetL
  rw [Finset.mem_biUnion]
  have h0 : (x 0).val < 26 := (x 0).isLt
  have h1 : (x 1).val < 4096 := (x 1).isLt
  constructor
  · rintro ⟨k, _, hk⟩
    rw [mem_slabI] at hk
    have := trip_lt k
    omega
  · intro h
    have hw := wOf_lt L
    have ht : ((x 0).val * 32 + (x 1).val / 128) % 26 < k0_t1_loop.trips := by
      have : k0_t1_loop.trips = 26 := by decide
      omega
    refine ⟨⟨((x 0).val * 32 + (x 1).val / 128) % 26, ht⟩, Finset.mem_univ _, ?_⟩
    rw [mem_slabI]
    show (x 0).val * 32 + (x 1).val / 128 = 26 * wOf L + ((x 0).val * 32 + (x 1).val / 128) % 26
    omega

theorem oSetL_disjoint : ∀ L L' : grid0.Coords, L ≠ L' → Disjoint (oSetL L) (oSetL L') := by
  intro L L' h
  rw [Finset.disjoint_left]
  intro x hx hx'
  rw [mem_oSetL] at hx hx'
  exact h (wOf_inj (hx.symm.trans hx'))

theorem oSetL_cover : (Finset.univ : Finset grid0.Coords).biUnion oSetL = Finset.univ := by
  ext x
  simp only [Finset.mem_biUnion, Finset.mem_univ, true_and, iff_true]
  have h0 : (x 0).val < 26 := (x 0).isLt
  have h1 : (x 1).val < 4096 := (x 1).isLt
  have hw : ((x 0).val * 32 + (x 1).val / 128) / 26 < 32 := by omega
  refine ⟨coordsV ⟨(((x 0).val * 32 + (x 1).val / 128) / 26) % 2, by show _ < 2; omega⟩
    ⟨(((x 0).val * 32 + (x 1).val / 128) / 26) / 2, by show _ < 16; omega⟩, ?_⟩
  rw [mem_oSetL, wOf_coordsV]
  show _ = 2 * ((((x 0).val * 32 + (x 1).val / 128) / 26) / 2) + (((x 0).val * 32 + (x 1).val / 128) / 26) % 2
  omega

/-- The worker's row of the index array as a rectangle: row `wOf L`, all 26 lists, all 128 entries. -/
abbrev r1 (L : grid0.Coords) : Rect S32x26x128 := Rect.unit (s := S32x26x128) (k0_off1 L) S1x26x128.size (k0_off1_inb L)

theorem set_iRowK (L : grid0.Coords) : (iRowK L).view.set = (r1 L).set := by
  show ((((View.whole main_v0_scv : View sig .scVector _ _ _).slice (r1 L)).reshape S26x128 squeezes_S1x26x128_S26x128.numel_eq)).set = _
  rw [View.set_reshape, View.set_slice_whole]

/-- An element of the index array lies in worker `L`'s row exactly when its first coordinate is the worker's number. -/
theorem mem_iRowK (L : grid0.Coords) (x : S32x26x128.Idx) : x ∈ (iRowK L).view.set ↔ (x 0).val = wOf L := by
  rw [set_iRowK, Rect.mem_set_unit]
  have h1 := k0_off1_eq L
  have o0 : k0_off1 L 0 = wOf L := by rw [h1]; rfl
  have o1 : k0_off1 L 1 = 0 := by rw [h1]; rfl
  have o2 : k0_off1 L 2 = 0 := by rw [h1]; rfl
  have x1 : (x 1).val < 26 := (x 1).isLt
  have x2 : (x 2).val < 128 := (x 2).isLt
  constructor
  · intro h
    have a0 : k0_off1 L 0 ≤ (x 0).val ∧ (x 0).val < k0_off1 L 0 + 1 := h 0
    omega
  · intro h a
    match a with
    | ⟨0, _⟩ => show k0_off1 L 0 ≤ (x 0).val ∧ (x 0).val < k0_off1 L 0 + 1; omega
    | ⟨1, _⟩ => show k0_off1 L 1 ≤ (x 1).val ∧ (x 1).val < k0_off1 L 1 + 26; omega
    | ⟨2, _⟩ => show k0_off1 L 2 ≤ (x 2).val ∧ (x 2).val < k0_off1 L 2 + 128; omega

/-- The worker's row of the index array, as a set of its elements. -/
abbrev iSetL (L : grid0.Coords) : Finset S32x26x128.Idx := (iRowK L).view.set

theorem iRow_disjoint : ∀ L L' : grid0.Coords, L ≠ L' → Disjoint (iSetL L) (iSetL L') := by
  intro L L' h
  rw [Finset.disjoint_left]
  intro x hx hx'
  rw [mem_iRowK] at hx hx'
  exact h (wOf_inj (hx.symm.trans hx'))

theorem iRow_cover : (Finset.univ : Finset grid0.Coords).biUnion iSetL = Finset.univ := by
  ext x
  simp only [Finset.mem_biUnion, Finset.mem_univ, true_and, iff_true]
  have h0 : (x 0).val < 32 := (x 0).isLt
  refine ⟨coordsV ⟨(x 0).val % 2, by show _ < 2; omega⟩ ⟨(x 0).val / 2, by show _ < 16; omega⟩, ?_⟩
  rw [mem_iRowK, wOf_coordsV]
  show (x 0).val = 2 * ((x 0).val / 2) + (x 0).val % 2
  omega

/-! The same, with a worker named by its (core, subcore) pair. -/

theorem pair_ne {p p' : Fin 2 × Fin 16} (h : p ≠ p') : coordsV p.1 p.2 ≠ coordsV p'.1 p'.2 :=
  fun e => h (Prod.ext (coordsV_inj e).1 (coordsV_inj e).2)

theorem iRow_disjoint₂ : ∀ p ∈ (Finset.univ : Finset (Fin 2 × Fin 16)), ∀ p' ∈ (Finset.univ : Finset (Fin 2 × Fin 16)), p ≠ p' →
    Disjoint (iSetL (coordsV p.1 p.2)) (iSetL (coordsV p'.1 p'.2)) :=
  fun _ _ _ _ h => iRow_disjoint _ _ (pair_ne h)

theorem iRow_cover₂ : (Finset.univ : Finset (Fin 2 × Fin 16)).biUnion (fun p => iSetL (coordsV p.1 p.2)) = Finset.univ := by
  ext x
  simp only [Finset.mem_biUnion, Finset.mem_univ, true_and, iff_true]
  have hx : x ∈ (Finset.univ : Finset grid0.Coords).biUnion iSetL := by
    rw [iRow_cover]; exact Finset.mem_univ x
  obtain ⟨L, _, hL⟩ := Finset.mem_biUnion.mp hx
  exact ⟨(L 0, L 1), by rw [coordsV_eta]; exact hL⟩

theorem oSetL_disjoint₂ : ∀ p ∈ (Finset.univ : Finset (Fin 2 × Fin 16)), ∀ p' ∈ (Finset.univ : Finset (Fin 2 × Fin 16)), p ≠ p' →
    Disjoint (oSetL (coordsV p.1 p.2)) (oSetL (coordsV p'.1 p'.2)) :=
  fun _ _ _ _ h => oSetL_disjoint _ _ (pair_ne h)

theorem oSetL_cover₂ : (Finset.univ : Finset (Fin 2 × Fin 16)).biUnion (fun p => oSetL (coordsV p.1 p.2)) = Finset.univ := by
  ext x
  simp only [Finset.mem_biUnion, Finset.mem_univ, true_and, iff_true]
  have hx : x ∈ (Finset.univ : Finset grid0.Coords).biUnion oSetL := by
    rw [oSetL_cover]; exact Finset.mem_univ x
  obtain ⟨L, _, hL⟩ := Finset.mem_biUnion.mp hx
  exact ⟨(L 0, L 1), by rw [coordsV_eta]; exact hL⟩

/-- The workers' numbers are 0 … 31, each once. -/
def wEmb : Fin 2 × Fin 16 ↪ ℕ where
  toFun p := 2 * p.2.val + p.1.val
  inj' p p' h := by
    have := p.1.isLt; have := p'.1.isLt
    have h' : 2 * p.2.val + p.1.val = 2 * p'.2.val + p'.1.val := h
    exact Prod.ext (Fin.ext (by omega)) (Fin.ext (by omega))

theorem wEmb_apply (p : Fin 2 × Fin 16) : wEmb p = wOf (coordsV p.1 p.2) := rfl

theorem map_wEmb : (Finset.univ : Finset (Fin 2 × Fin 16)).map wEmb = Finset.range 32 := by
  ext n
  simp only [Finset.mem_map, Finset.mem_univ, true_and, Finset.mem_range]
  constructor
  · rintro ⟨p, rfl⟩
    have := p.1.isLt; have := p.2.isLt
    show 2 * p.2.val + p.1.val < 32
    omega
  · intro h
    exact ⟨(⟨n % 2, by omega⟩, ⟨n / 2, by omega⟩), by show 2 * (n / 2) + n % 2 = n; omega⟩

end Cert.KernelIdeal.Sc

end
-- ==== Proof.ScSplit.lean ====
/-
  How the TensorCore's three arrays are dealt to the gather kernel's 32 vector subcores and collected again: the tables
  as 32 read tokens cut off the full share (the remainder kept meanwhile), the index array as its 32 rows, the gathered
  rows as the 32 shares of 26 slabs each; and back, the output's pieces, each with contents of its own satisfying a
  property that only reads the piece, joined into one array satisfying the property for every worker.
-/
import proofs.«206634_g85779086836150_cont_9to1c4b_256_28_alg».proof.Proof.ScOffsets

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tables at the full share are the remainder after 32 read tokens and the tokens, one per worker. -/
theorem tSplit (d : Dev nD) (ft : Buf (Elt F) (tLoc d)) :
    (tLoc d ↦{fullShare} ft : sProp 𝕄) ⊣⊢ iprop((tLoc d ↦{Transfers.shareDrop fullShare 32} ft)
      ∗ bigSep Finset.univ fun p : Fin 2 × Fin 16 => tLoc d ↦{tokQ (wOf (coordsV p.1 p.2))} ft) := by
  have h : (tLoc d ↦{fullShare} ft : sProp 𝕄) ⊣⊢ iprop((tLoc d ↦{Transfers.shareDrop fullShare 32} ft)
      ∗ bigSep (Finset.range 32) (fun w => tLoc d ↦{Transfers.shareTokN fullShare w} ft)) := Transfers.pointsTo_toks_range fullShare 32
  rw [← map_wEmb, bigSep_map] at h
  exact h

/-- The index array whole is its 32 rows. -/
theorem iPts_rows (d : Dev nD) (f : Buf (Elt F) (iLoc d)) :
    (iLoc d ↦{fullShare} f : sProp 𝕄) = bigSep Finset.univ fun p : Fin 2 × Fin 16 => iLoc d ↦[iSetL (coordsV p.1 p.2)]{fullShare} f := by
  rw [← pointsTo_biUnion Finset.univ (ℓ := iLoc d) (fun p : Fin 2 × Fin 16 => iSetL (coordsV p.1 p.2)) iRow_disjoint₂, iRow_cover₂]

/-- The gathered rows whole are the 32 workers' shares. -/
theorem oPts_shares (d : Dev nD) (f : Buf (Elt F) (oLoc d)) :
    (oLoc d ↦{fullShare} f : sProp 𝕄) = bigSep Finset.univ fun p : Fin 2 × Fin 16 => oLoc d ↦[oSetL (coordsV p.1 p.2)]{fullShare} f := by
  rw [← pointsTo_biUnion Finset.univ (ℓ := oLoc d) (fun p : Fin 2 × Fin 16 => oSetL (coordsV p.1 p.2)) oSetL_disjoint₂, oSetL_cover₂]

/-- The shares, each at contents of its own of which a property holds that reads the share only, join into the whole
    array at contents of which the property holds for every worker. -/
theorem oJoin (d : Dev nD) (Ok : Fin 2 × Fin 16 → Buf (Elt F) (oLoc d) → Prop)
    (hloc : ∀ p f f', (∀ x ∈ oSetL (coordsV p.1 p.2), f x = f' x) → Ok p f → Ok p f') :
    (bigSep Finset.univ fun p : Fin 2 × Fin 16 => iprop(∃ f, ⌜Ok p f⌝ ∗ oLoc d ↦[oSetL (coordsV p.1 p.2)]{fullShare} f))
      ⊢ (iprop(∃ f, ⌜∀ (c : Fin 2) (i : Fin 16), Ok (c, i) f⌝ ∗ oLoc d ↦{fullShare} f) : sProp 𝕄) := by
  refine (bigSep_exists_pi Finset.univ (fun p (f : Buf (Elt F) (oLoc d)) => iprop(⌜Ok p f⌝ ∗ oLoc d ↦[oSetL (coordsV p.1 p.2)]{fullShare} f))).trans ?_
  iintro ⟨%fs, H⟩
  ihave H1 := (bigSep_pure_sep Finset.univ (fun p => Ok p (fs p)) (fun p => (oLoc d ↦[oSetL (coordsV p.1 p.2)]{fullShare} fs p : sProp 𝕄))) $$ H
  icases H1 with ⟨%hok, H2⟩
  ihave H3 := (pointsTo_biUnion_join Finset.univ (fun p : Fin 2 × Fin 16 => oSetL (coordsV p.1 p.2)) fs (fs (0, 0)) oSetL_disjoint₂) $$ H2
  icases H3 with ⟨%g, %hg, Hg⟩
  rw [oSetL_cover₂]
  iexists g
  isplitr
  · ipureintro
    intro c i
    exact hloc (c, i) (fs (c, i)) g (fun x hx => (hg (c, i) (Finset.mem_univ _) x hx).symm) (hok (c, i) (Finset.mem_univ _))
  · iexact Hg

/-- The deal and the collection, with a worker named by its pair. -/
theorem splitJoin₂ (d : Dev nD) (Ok : Fin 2 × Fin 16 → Buf (Elt F) (oLoc d) → Prop)
    (hloc : ∀ p f f', (∀ x ∈ oSetL (coordsV p.1 p.2), f x = f' x) → Ok p f → Ok p f')
    (ft : Buf (Elt F) (tLoc d)) (fi : Buf (Elt F) (iLoc d)) (fo : Buf (Elt F) (oLoc d)) :
    iprop((tLoc d ↦{fullShare} ft) ∗ (iLoc d ↦{fullShare} fi) ∗ (oLoc d ↦{fullShare} fo))
      ⊢ (iprop((bigSep Finset.univ fun p : Fin 2 × Fin 16 =>
            iprop((tLoc d ↦{tokQ (wOf (coordsV p.1 p.2))} ft) ∗ (iLoc d ↦[iSetL (coordsV p.1 p.2)]{fullShare} fi) ∗ (oLoc d ↦[oSetL (coordsV p.1 p.2)]{fullShare} fo)))
          ∗ ((bigSep Finset.univ fun p : Fin 2 × Fin 16 =>
              iprop((tLoc d ↦{tokQ (wOf (coordsV p.1 p.2))} ft) ∗ (iLoc d ↦[iSetL (coordsV p.1 p.2)]{fullShare} fi) ∗ ∃ f, ⌜Ok p f⌝ ∗ oLoc d ↦[oSetL (coordsV p.1 p.2)]{fullShare} f))
            -∗ iprop((tLoc d ↦{fullShare} ft) ∗ (iLoc d ↦{fullShare} fi) ∗ ∃ f, ⌜∀ (c : Fin 2) (i : Fin 16), Ok (c, i) f⌝ ∗ oLoc d ↦{fullShare} f))) : sProp 𝕄) := by
  rw [bigSep_sep', bigSep_sep', bigSep_sep', bigSep_sep', iPts_rows d fi, oPts_shares d fo]
  iintro ⟨Ht, Hi, Ho⟩
  ihave Ht' := (tSplit d ft).1 $$ Ht
  icases Ht' with ⟨Hrest, Htoks⟩
  isplitl [Htoks Hi Ho]
  · isplitl [Htoks]; · iexact Htoks
    isplitl [Hi]; · iexact Hi
    iexact Ho
  iintro ⟨Htoks, Hi, Ho⟩
  isplitl [Hrest Htoks]
  · iapply (tSplit d ft).2
    isplitl [Hrest]; · iexact Hrest
    iexact Htoks
  isplitl [Hi]; · iexact Hi
  iapply (oJoin d Ok hloc); iexact Ho

/-- The deal and the collection, by core and subcore. -/
theorem splitJoin (OutOk : (d : Dev nD) → Buf (Elt F) (tLoc d) → Buf (Elt F) (iLoc d) → grid0.Coords → Buf (Elt F) (oLoc d) → Prop)
    (hloc : ∀ d ft fi L f f', (∀ x ∈ oSetL L, f x = f' x) → OutOk d ft fi L f → OutOk d ft fi L f')
    (d : Dev nD) (ft : Buf (Elt F) (tLoc d)) (fi : Buf (Elt F) (iLoc d)) (fo : Buf (Elt F) (oLoc d)) :
    iprop((tLoc d ↦{fullShare} ft) ∗ (iLoc d ↦{fullShare} fi) ∗ (oLoc d ↦{fullShare} fo))
      ⊢ (iprop((bigSep Finset.univ fun c : Fin 2 => bigSep Finset.univ fun i : Fin 16 =>
            iprop((tLoc d ↦{tokQ (wOf (coordsV c i))} ft) ∗ (iLoc d ↦[(iRowK (coordsV c i)).view.set]{fullShare} fi) ∗ (oLoc d ↦[oSetL (coordsV c i)]{fullShare} fo)))
          ∗ ((bigSep Finset.univ fun c : Fin 2 => bigSep Finset.univ fun i : Fin 16 =>
              iprop((tLoc d ↦{tokQ (wOf (coordsV c i))} ft) ∗ (iLoc d ↦[(iRowK (coordsV c i)).view.set]{fullShare} fi) ∗ ∃ f, ⌜OutOk d ft fi (coordsV c i) f⌝ ∗ oLoc d ↦[oSetL (coordsV c i)]{fullShare} f))
            -∗ iprop((tLoc d ↦{fullShare} ft) ∗ (iLoc d ↦{fullShare} fi) ∗ ∃ f, ⌜∀ c i, OutOk d ft fi (coordsV c i) f⌝ ∗ oLoc d ↦{fullShare} f))) : sProp 𝕄) := by
  have h := splitJoin₂ (F := F) d (fun p f => OutOk d ft fi (coordsV p.1 p.2) f) (fun p f f' hx ho => hloc d ft fi _ f f' hx ho) ft fi fo
  rw [bigSep_univ_prod, bigSep_univ_prod] at h
  exact h

end Cert.KernelIdeal.Sc

end
-- ==== Proof.PreFacts.lean ====
/-
  What the precondition says of the argument arrays.

  The precondition is a conjunction, folded by and, of eight tests each of which is an all-reduction by and of
  an elementwise comparison: for each of the seven float arrays, that the absolute value of every element is
  below plus infinity; for the integer array, that every element lies between 0 and 99999 read signed. Read
  back: every categorical index is in [0, 99999] (at any float instance), and at the extended reals every
  element of every float array is a real number.
-/
import proofs.«206634_g85779086836150_cont_9to1c4b_256_28_alg».proof.Pre_input_domain
import proofs.«206634_g85779086836150_cont_9to1c4b_256_28_alg».proof.Proof.Gen.Pre_input_domain
import Idealize.ShloMosaic.Lib.ReduceAll
import Idealize.ShloMosaic.Lib.ValueIdx
import Idealize.ShloMosaic.PureOps.Ideal.Laws

open Idealize.ShloMosaic Idealize.ShloMosaic.ValueIdx
open Cert.Pre_input_domain Cert.Pre_input_domain.Facts

namespace Cert.PreFacts

instance : Subsingleton S_.Idx := ⟨fun _ _ => funext fun d => d.elim0⟩

/-- An extended real whose absolute value is below the plus-infinity word is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- An all-reduction of the finiteness test of a float array that came out 1: every element is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = (r : EReal) :=
  real_of_abs_lt_inf (a i) (Host.reduce_andi_all _ _ hr hu ix0 e i)

/-- Every categorical index lies in [0, 99999], read signed: at any float instance. -/
theorem range {F : FTy → Type} [FloatOps F]
    (a0 : FVec F S13x4096x1 .f32) (a1 : IVec S26x4096 32) (a2 : FVec F S4x4096x768 .f32)
    (a3 : FVec F S26x100001x128 .f32) (a4 : FVec F S13x1x128 .f32) (a5 : FVec F S4x768x128 .f32)
    (a6 : FVec F S128 .f32) (a7 : FVec F S128 .f32)
    (h : Cert.Pre_input_domain.fn (F := F) a0 a1 a2 a3 a4 a5 a6 a7 = fun _ => 1#1) (i : S26x4096.Idx) :
    0 ≤ (a1 i).toInt ∧ (a1 i).toInt ≤ 99999 := by
  have e := congrFun h ix0
  dsimp only [fn, fn_part1, fn_part2] at e
  obtain ⟨-, e1⟩ := IntOp.andi_eq_one.1 e
  have ei := Host.reduce_andi_all _ _ reducesTo_S26x4096_S_d0_1 h_S_ ix0 e1 i
  obtain ⟨hge, hle⟩ := IntOp.andi_eq_one.1 ei
  have hge' := IntOp.cmpi_sge.1 hge
  have hle' := IntOp.cmpi_sle.1 hle
  exact ⟨hge', hle'⟩

/-- At the extended reals every element of every float argument is a real. -/
theorem reals
    (a0 : FVec Ideal S13x4096x1 .f32) (a1 : IVec S26x4096 32) (a2 : FVec Ideal S4x4096x768 .f32)
    (a3 : FVec Ideal S26x100001x128 .f32) (a4 : FVec Ideal S13x1x128 .f32) (a5 : FVec Ideal S4x768x128 .f32)
    (a6 : FVec Ideal S128 .f32) (a7 : FVec Ideal S128 .f32)
    (h : Cert.Pre_input_domain.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) := by
  have e := congrFun h ix0
  dsimp only [fn, fn_part1, fn_part2] at e
  obtain ⟨e, -⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7⟩

end Cert.PreFacts
-- ==== Proof.TcBody.lean ====
/-
  The layer-norm body of the TensorCore call, run once at a symbolic grid point on whole staging buffers.

  The body reads seven staging buffers (the 26 gathered rows of a batch block, the 13 numerical features and their
  weight rows, the 4 pretrained embeddings and their projection matrices, the scale and the shift of the norm)
  and fills the output staging buffer by six stores that tile it along the feature axis: features 0-25 the normed
  gathered rows, 26-38 the normed products feature * weight row, 39-42 one normed projection each. What the output
  buffer holds afterwards is therefore a closed function of the seven inputs, `outBlk`: at each index the payload of
  the store whose rows hold it. The values the body loads from the output buffer before each store feed no store.
-/
import proofs.«206634_g85779086836150_cont_9to1c4b_256_28_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body loads and stores through -/

abbrev rI1 : Rect S26x512x128 := Rect.unit (s := S26x512x128) ![0, 0, 0] S26x512x128.size inb_S26x512x128_S26x512x128_0_0_0
abbrev rI2 : Rect S13x512 := Rect.unit (s := S13x512) ![0, 0] S13x512.size inb_S13x512_S13x512_0_0
abbrev rI3 : Rect S13x128 := Rect.unit (s := S13x128) ![0, 0] S13x128.size inb_S13x128_S13x128_0_0
abbrev rI4_0 : Rect S4x512x768 := Rect.unit (s := S4x512x768) ![0, 0, 0] S1x512x768.size inb_S4x512x768_S1x512x768_0_0_0
abbrev rI4_1 : Rect S4x512x768 := Rect.unit (s := S4x512x768) ![1, 0, 0] S1x512x768.size inb_S4x512x768_S1x512x768_1_0_0
abbrev rI4_2 : Rect S4x512x768 := Rect.unit (s := S4x512x768) ![2, 0, 0] S1x512x768.size inb_S4x512x768_S1x512x768_2_0_0
abbrev rI4_3 : Rect S4x512x768 := Rect.unit (s := S4x512x768) ![3, 0, 0] S1x512x768.size inb_S4x512x768_S1x512x768_3_0_0
abbrev rI5_0 : Rect S4x768x128 := Rect.unit (s := S4x768x128) ![0, 0, 0] S1x768x128.size inb_S4x768x128_S1x768x128_0_0_0
abbrev rI5_1 : Rect S4x768x128 := Rect.unit (s := S4x768x128) ![1, 0, 0] S1x768x128.size inb_S4x768x128_S1x768x128_1_0_0
abbrev rI5_2 : Rect S4x768x128 := Rect.unit (s := S4x768x128) ![2, 0, 0] S1x768x128.size inb_S4x768x128_S1x768x128_2_0_0
abbrev rI5_3 : Rect S4x768x128 := Rect.unit (s := S4x768x128) ![3, 0, 0] S1x768x128.size inb_S4x768x128_S1x768x128_3_0_0
abbrev rI6 : Rect S1x128 := Rect.unit (s := S1x128) ![0, 0] S1x128.size inb_S1x128_S1x128_0_0
abbrev rO0 : Rect S43x512x128 := Rect.unit (s := S43x512x128) ![0, 0, 0] S26x512x128.size inb_S43x512x128_S26x512x128_0_0_0
abbrev rO26 : Rect S43x512x128 := Rect.unit (s := S43x512x128) ![26, 0, 0] S13x512x128.size inb_S43x512x128_S13x512x128_26_0_0
abbrev rO39 : Rect S43x512x128 := Rect.unit (s := S43x512x128) ![39, 0, 0] S1x512x128.size inb_S43x512x128_S1x512x128_39_0_0
abbrev rO40 : Rect S43x512x128 := Rect.unit (s := S43x512x128) ![40, 0, 0] S1x512x128.size inb_S43x512x128_S1x512x128_40_0_0
abbrev rO41 : Rect S43x512x128 := Rect.unit (s := S43x512x128) ![41, 0, 0] S1x512x128.size inb_S43x512x128_S1x512x128_41_0_0
abbrev rO42 : Rect S43x512x128 := Rect.unit (s := S43x512x128) ![42, 0, 0] S1x512x128.size inb_S43x512x128_S1x512x128_42_0_0

/-! ## What the body leaves in the output buffer -/

/-- The six stores as pieces, last first, over the seven inputs' contents. -/
def outPieces (x1 : Vec F S26x512x128 .f32) (x2 : Vec F S13x512 .f32) (x3 : Vec F S13x128 .f32) (x4 : Vec F S4x512x768 .f32)
    (x5 : Vec F S4x768x128 .f32) (x6 x7 : Vec F S1x128 .f32) : List (View.Piece (Elt F) S43x512x128 .f32) :=
  [⟨rO42, k1_pay18 (View.ld x4 rI4_3) (View.ld x5 rI5_3) (View.ld x6 rI6) (View.ld x7 rI6)⟩,
   ⟨rO41, k1_pay17 (k1_pay16 (View.ld x4 rI4_2) (View.ld x5 rI5_2) (View.ld x6 rI6) (View.ld x7 rI6))⟩,
   ⟨rO40, k1_pay15 (k1_pay11 (View.ld x6 rI6)) (k1_pay12 (View.ld x7 rI6)) (k1_pay13 (View.ld x4 rI4_1) (View.ld x5 rI5_1)) (k1_pay14 (View.ld x4 rI4_1) (View.ld x5 rI5_1))⟩,
   ⟨rO39, k1_pay10 (k1_pay6 (View.ld x6 rI6)) (k1_pay7 (View.ld x7 rI6)) (k1_pay8 (View.ld x4 rI4_0) (View.ld x5 rI5_0)) (k1_pay9 (View.ld x4 rI4_0) (View.ld x5 rI5_0))⟩,
   ⟨rO26, k1_pay5 (k1_pay1 (View.ld x6 rI6)) (k1_pay2 (View.ld x7 rI6)) (k1_pay4 (View.ld x2 rI2) (View.ld x3 rI3))⟩,
   ⟨rO0, k1_pay3 (View.ld x6 rI6) (View.ld x7 rI6) (View.ld x1 rI1)⟩]

/-- The output staging buffer after the body: at each index the payload of the store whose feature rows hold it. -/
def outBlk (x1 : Vec F S26x512x128 .f32) (x2 : Vec F S13x512 .f32) (x3 : Vec F S13x128 .f32) (x4 : Vec F S4x512x768 .f32)
    (x5 : Vec F S4x768x128 .f32) (x6 x7 : Vec F S1x128 .f32) : Vec F S43x512x128 .f32 :=
  View.canon (outPieces x1 x2 x3 x4 x5 x6 x7)

/-- The six stores cover the buffer: cut into single feature rows they tile it. -/
theorem cover (p42 p41 p40 p39 : Vec F S1x512x128 .f32) (p26 : Vec F S13x512x128 .f32) (p0 : Vec F S26x512x128 .f32) (y : S43x512x128.Idx) :
    ∃ pc ∈ ([⟨rO42, p42⟩, ⟨rO41, p41⟩, ⟨rO40, p40⟩, ⟨rO39, p39⟩, ⟨rO26, p26⟩, ⟨rO0, p0⟩] : List (View.Piece (Elt F) S43x512x128 .f32)), y ∈ pc.1.set :=
  View.cover_of_tiledBy _ ![1, 512, 128] (by sl_kernel_rfl) y

/-! ## The body's run -/

set_option maxHeartbeats 4000000 in
/-- The body on whole staging memrefs, the seven inputs' at contents `x1 … x7` and the output's at anything, runs to the
    continuation holding the inputs' as they were and the output's at `outBlk` of them. -/
theorem sound_kernel (𝒱₀ : Variants) (c : Dev nD) (E : Set Name) (i : grid1.Coords)
    (arg1 : Memref sig .tc .vmem S26x512x128 .f32) (harg1 : arg1.IsWhole) (arg2 : Memref sig .tc .vmem S13x512 .f32) (harg2 : arg2.IsWhole)
    (arg3 : Memref sig .tc .vmem S13x128 .f32) (harg3 : arg3.IsWhole) (arg4 : Memref sig .tc .vmem S4x512x768 .f32) (harg4 : arg4.IsWhole)
    (arg5 : Memref sig .tc .vmem S4x768x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S43x512x128 .f32) (harg8 : arg8.IsWhole)
    (x1 : Vec F S26x512x128 .f32) (x2 : Vec F S13x512 .f32) (x3 : Vec F S13x128 .f32) (x4 : Vec F S4x512x768 .f32)
    (x5 : Vec F S4x768x128 .f32) (x6 x7 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (outBlk x1 x2 x3 x4 x5 x6 x7)) -∗ K ⟨⟩))
      ⊢ wp frame (wpE (defs₀ (F := F)) 𝒱₀ c none) E (cc1__tc_body i arg1 harg1 arg2 harg2 arg3 harg3 arg4 harg4 arg5 harg5 arg6 harg6 arg7 harg7 arg8 harg8) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _ _ _ _ _ _)

end Cert.KernelIdeal.TcBody

end
-- ==== Proof.TcRegion.lean ====
/-
  The TensorCore call of the program, as one step of the TensorCore's thread: the pipeline over 8 blocks of 512 batch
  rows stages the blocks of the seven operands, runs the layer-norm body on each, and writes each block of the result
  back. Stated once for the whole call: from the TensorCore's arrays at contents `V`, the call ends with every array
  as it was but the result, which holds ONE function of the operands, `regionOut`: at batch row `b` the body's output
  block for the block `b / 512` of the operands, read at row `b % 512`.
-/
import proofs.«206634_g85779086836150_cont_9to1c4b_256_28_alg».proof.Proof.ScCommon
import proofs.«206634_g85779086836150_cont_9to1c4b_256_28_alg».proof.Proof.TcBody
import proofs.«206634_g85779086836150_cont_9to1c4b_256_28_alg».proof.Proof.Gen.KernelIdeal.Launch
import proofs.«206634_g85779086836150_cont_9to1c4b_256_28_alg».proof.Proof.Gen.KernelIdeal.Points
import Idealize.ShloMosaic.Lib.Pipeline.Regions
import Idealize.ShloMosaic.Lib.Pipeline.Value
import Idealize.ShloMosaic.Lib.Pipeline.FrameBody

set_option maxRecDepth 16384

noncomputable section

namespace Cert.KernelIdeal.TcRegion

open Cert.KernelIdeal Cert.KernelIdeal.Gen Cert.KernelIdeal.Sc Cert.KernelIdeal.TcBody

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- The TensorCore's arrays when the call is reached, per device; what the TensorCore owes through the call.
variable (V : (c : Dev nD) → (b : Ref sig .tc) → Buf (Elt F) ((c : Thread nD τ).loc b))
variable (O : Dev nD → CellTallies nD τ sig (HIx 1))
-- A bound on the (own cell, index) pairs the core's waits have recorded, kept through the call.
variable (B : Dev nD → Set (SemLoc sig × HIx 1))

/-! ## The windows' blocks and the pipeline's proof data -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on device `c`: the arrays as found; after the body at point `t` each operand's staging buffer at its
    block and the result's at `outBlk` of the operands' blocks; no invariant of the body's own; the tallies owed unchanged. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (iblk V c 0 t) (iblk V c 1 t) (iblk V c 2 t) (iblk V c 3 t) (iblk V c 4 t) (iblk V c 5 t) (iblk V c 6 t)
  Φ _ := iprop(emp)
  q _ := fullShare
  owed _ := O c
  recorded _ := B c

theorem A_eq (c : Dev nD) (w : Fin cfg1.W) : (dats V O B 0 c).A w = V c (Pipeline.arrRef spec1 w) := by
  dsimp only [dats]

theorem after1_0 (c : Dev nD) (t : Fin cfg1.N) : (dats V O B 0 c).after 0 t = iblk V c 0 t := by dsimp only [dats]
theorem after1_1 (c : Dev nD) (t : Fin cfg1.N) : (dats V O B 0 c).after 1 t = iblk V c 1 t := by dsimp only [dats]
theorem after1_2 (c : Dev nD) (t : Fin cfg1.N) : (dats V O B 0 c).after 2 t = iblk V c 2 t := by dsimp only [dats]
theorem after1_3 (c : Dev nD) (t : Fin cfg1.N) : (dats V O B 0 c).after 3 t = iblk V c 3 t := by dsimp only [dats]
theorem after1_4 (c : Dev nD) (t : Fin cfg1.N) : (dats V O B 0 c).after 4 t = iblk V c 4 t := by dsimp only [dats]
theorem after1_5 (c : Dev nD) (t : Fin cfg1.N) : (dats V O B 0 c).after 5 t = iblk V c 5 t := by dsimp only [dats]
theorem after1_6 (c : Dev nD) (t : Fin cfg1.N) : (dats V O B 0 c).after 6 t = iblk V c 6 t := by dsimp only [dats]
theorem after1_7 (c : Dev nD) (t : Fin cfg1.N) : (dats V O B 0 c).after 7 t
    = outBlk (iblk V c 0 t) (iblk V c 1 t) (iblk V c 2 t) (iblk V c 3 t) (iblk V c 4 t) (iblk V c 5 t) (iblk V c 6 t) := by dsimp only [dats]

/-- Each operand's current staging buffer holds its block at every point, fetched there or not. -/
theorem before1_0 (c : Dev nD) (t : Fin cfg1.N) (d) : (dats V O B 0 c).before 0 t d = iblk V c 0 t :=
  ((dats V O B 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats V O B 0 c).before 1 t d = iblk V c 1 t :=
  ((dats V O B 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats V O B 0 c).before 2 t d = iblk V c 2 t :=
  ((dats V O B 0 c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats V O B 0 c).before 3 t d = iblk V c 3 t :=
  ((dats V O B 0 c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats V O B 0 c).before 4 t d = iblk V c 4 t :=
  ((dats V O B 0 c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dats V O B 0 c).before 5 t d = iblk V c 5 t :=
  ((dats V O B 0 c).before_in_eq_fetched 5 rfl (fun _ => rfl) (fun _ _ _ => rfl)
    (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dats V O B 0 c).before 6 t d = iblk V c 6 t :=
  ((dats V O B 0 c).before_in_eq_fetched 6 rfl (fun _ => rfl) (fun _ _ _ => rfl)
    (fun t => by rw [after1_6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats V O B 0 c).Φ t.castSucc ∗ (dats V O B 0 c).owesAt none t.castSucc
    ∗ (∃ d, owns (c : Thread nD τ) (st1_0 t) fullShare ((dats V O B 0 c).before 0 t d))
    ∗ (∃ d, owns (c : Thread nD τ) (st1_1 t) fullShare ((dats V O B 0 c).before 1 t d))
    ∗ (∃ d, owns (c : Thread nD τ) (st1_2 t) fullShare ((dats V O B 0 c).before 2 t d))
    ∗ (∃ d, owns (c : Thread nD τ) (st1_3 t) fullShare ((dats V O B 0 c).before 3 t d))
    ∗ (∃ d, owns (c : Thread nD τ) (st1_4 t) fullShare ((dats V O B 0 c).before 4 t d))
    ∗ (∃ d, owns (c : Thread nD τ) (st1_5 t) fullShare ((dats V O B 0 c).before 5 t d))
    ∗ (∃ d, owns (c : Thread nD τ) (st1_6 t) fullShare ((dats V O B 0 c).before 6 t d))
    ∗ (∃ d, owns (c : Thread nD τ) (st1_7 t) fullShare ((dats V O B 0 c).before 7 t d)))

/-- and what it returns. -/
def bodyPost (c : Dev nD) (t : Fin cfg1.N) : sProp 𝕄 :=
  iprop((dats V O B 0 c).Φ t.succ ∗ (dats V O B 0 c).owesAt none t.succ
    ∗ owns (c : Thread nD τ) (st1_0 t) fullShare ((dats V O B 0 c).after 0 t)
    ∗ owns (c : Thread nD τ) (st1_1 t) fullShare ((dats V O B 0 c).after 1 t)
    ∗ owns (c : Thread nD τ) (st1_2 t) fullShare ((dats V O B 0 c).after 2 t)
    ∗ owns (c : Thread nD τ) (st1_3 t) fullShare ((dats V O B 0 c).after 3 t)
    ∗ owns (c : Thread nD τ) (st1_4 t) fullShare ((dats V O B 0 c).after 4 t)
    ∗ owns (c : Thread nD τ) (st1_5 t) fullShare ((dats V O B 0 c).after 5 t)
    ∗ owns (c : Thread nD τ) (st1_6 t) fullShare ((dats V O B 0 c).after 6 t)
    ∗ owns (c : Thread nD τ) (st1_7 t) fullShare ((dats V O B 0 c).after 7 t))

/-- The body at any point: the operands' staging buffers hold their blocks, so the body's run applies; the invariant
    and what the core owes pass through unread. -/
theorem sound_body (c : Dev nD) (t : Fin cfg1.N) :
    bodyPre V O B c t ⊢ wp frame (wpE (defs₀ (F := F)) 𝒱₀ c none) Set.univ (bodyAt1 t) (fun _ => bodyPost V O B c t) := by
  unfold bodyPre bodyPost bodyAt1
  simp only [before1_0, before1_1, before1_2, before1_3, before1_4, before1_5, before1_6]
  rw [show (dats V O B 0 c).Φ t.succ = (dats V O B 0 c).Φ t.castSucc from rfl,
    show (dats V O B 0 c).owesAt none t.succ = (dats V O B 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ (grid1.coords t) _ _ _ _ _ _ _ _ _ _ _ _ _ _ _ _
    (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats V O B 0 c) (defs₀ (F := F)) 𝒱₀ none Set.univ := fun t => by
  rw [bigSep_W1, bigSep_W1]
  exact sound_body V O B c t

/-! ## The result array as one function of the operands -/

/-- The result window's printed index map over the grid: its block at point `t` is batch rows `[512 t, 512 t + 512)`,
    every feature, every lane. -/
theorem idx_facts7 : ∀ t : Fin cfg1.N, win1_7.index t (0 : Fin 3) = 0 ∧ win1_7.index t (1 : Fin 3) = t.val ∧ win1_7.index t (2 : Fin 3) = 0 :=
  (by decide +kernel : ∀ t : Fin grid1.N, win1_7.index t (0 : Fin 3) = 0 ∧ win1_7.index t (1 : Fin 3) = t.val ∧ win1_7.index t (2 : Fin 3) = 0)

/-- The grid point whose block holds batch row `i 1`, -/
def tOf (i : S43x4096x128.Idx) : Fin cfg1.N :=
  ⟨(i 1).val / 512, by have h : (i 1).val < 4096 := (i 1).isLt; have := N_1; show _ < grid1.N; omega⟩

/-- and the index inside that block. -/
def jOf (i : S43x4096x128.Idx) : S43x512x128.Idx := fun a =>
  match a with
  | ⟨0, _⟩ => ⟨(i 0).val, (i 0).isLt⟩
  | ⟨1, _⟩ => ⟨(i 1).val % 512, Nat.mod_lt _ (by decide)⟩
  | ⟨2, _⟩ => ⟨(i 2).val, (i 2).isLt⟩

/-- THE RESULT of the call as one function of its seven operands: at batch row `b`, the body's output block for the
    operands' blocks at point `b / 512` (the gathered rows, the numerical features and the pretrained embeddings move
    with the point; the weight rows, the projections, the scale and the shift are whole), read at row `b % 512`. -/
def regionOut (v1 : Vec F S26x4096x128 .f32) (v2 : Vec F S13x4096 .f32) (v3 : Vec F S13x128 .f32) (a2 : Vec F S4x4096x768 .f32)
    (a5 : Vec F S4x768x128 .f32) (v4 v5 : Vec F S1x128 .f32) : Vec F S43x4096x128 .f32 := fun i =>
  outBlk (((cfg1.win 0).blk (tOf i)).view.read (Elt F) v1) (((cfg1.win 1).blk (tOf i)).view.read (Elt F) v2)
    (((cfg1.win 2).blk (tOf i)).view.read (Elt F) v3) (((cfg1.win 3).blk (tOf i)).view.read (Elt F) a2)
    (((cfg1.win 4).blk (tOf i)).view.read (Elt F) a5) (((cfg1.win 5).blk (tOf i)).view.read (Elt F) v4)
    (((cfg1.win 6).blk (tOf i)).view.read (Elt F) v5) (jOf i)

/-- The same, of the arrays as the call finds them on device `c`. -/
def regionOutV (c : Dev nD) : Vec F S43x4096x128 .f32 :=
  regionOut (V c main_v1) (V c main_v2) (V c main_v3) (V c main_arg2) (V c main_arg5) (V c main_v4) (V c main_v5)

theorem tOf_emb (t : Fin cfg1.N) (j : S43x512x128.Idx) : tOf (((cfg1.win 7).blk t).view.emb j) = t := by
  obtain ⟨e0, e1, e2⟩ := idx_facts7 t
  apply Fin.ext
  show (win1_7.index t (1 : Fin 3) * 512 + 1 * (j 1).val) / 512 = t.val
  have hj : (j 1).val < 512 := (j 1).isLt
  omega

theorem jOf_emb (t : Fin cfg1.N) (j : S43x512x128.Idx) : jOf (((cfg1.win 7).blk t).view.emb j) = j := by
  obtain ⟨e0, e1, e2⟩ := idx_facts7 t
  funext a; apply Fin.ext
  match a with
  | ⟨0, _⟩ => show win1_7.index t (0 : Fin 3) * 43 + 1 * (j 0).val = (j 0).val; omega
  | ⟨1, _⟩ => show (win1_7.index t (1 : Fin 3) * 512 + 1 * (j 1).val) % 512 = (j 1).val; have hj : (j 1).val < 512 := (j 1).isLt; omega
  | ⟨2, _⟩ => show win1_7.index t (2 : Fin 3) * 128 + 1 * (j 2).val = (j 2).val; omega

theorem regionOut_emb (v1 : Vec F S26x4096x128 .f32) (v2 : Vec F S13x4096 .f32) (v3 : Vec F S13x128 .f32) (a2 : Vec F S4x4096x768 .f32)
    (a5 : Vec F S4x768x128 .f32) (v4 v5 : Vec F S1x128 .f32) (t : Fin cfg1.N) (j : S43x512x128.Idx) :
    regionOut v1 v2 v3 a2 a5 v4 v5 (((cfg1.win 7).blk t).view.emb j)
      = outBlk (((cfg1.win 0).blk t).view.read (Elt F) v1) (((cfg1.win 1).blk t).view.read (Elt F) v2)
          (((cfg1.win 2).blk t).view.read (Elt F) v3) (((cfg1.win 3).blk t).view.read (Elt F) a2)
          (((cfg1.win 4).blk t).view.read (Elt F) a5) (((cfg1.win 5).blk t).view.read (Elt F) v4)
          (((cfg1.win 6).blk t).view.read (Elt F) v5) j := by
  unfold regionOut; rw [tOf_emb, jOf_emb]

/-- Reading block `t` of any contents of the result array: the contents at the block's indices. -/
theorem read_blk7 (G : Vec F S43x4096x128 .f32) (t : Fin cfg1.N) (j : S43x512x128.Idx) :
    ((cfg1.win 7).blk t).view.read (Elt F) G j = G (((cfg1.win 7).blk t).view.emb j) := rfl

/-- The result's blocks tile its array: the write-back moves the whole staging buffer. -/
theorem cut7 (X : Vec F S43x512x128 .f32) (t : Fin cfg1.N) (j : S43x512x128.Idx) : (cfg1.win 7).cut (grid1.coords t) X j = X j := rfl

/-- WHAT POINT `t` WRITES BACK is block `t` of `regionOut` of the arrays as the call finds them. -/
theorem flushed7_eq (c : Dev nD) (t : Fin cfg1.N) :
    (dats V O B 0 c).flushed 7 t = ((cfg1.win 7).blk t).view.read (Elt F) (regionOutV V c) := by
  show (cfg1.win 7).cut (grid1.coords t) ((dats V O B 0 c).after 7 t) = _
  rw [after1_7]
  funext j
  rw [cut7, read_blk7]
  unfold regionOutV
  rw [regionOut_emb]
  unfold iblk
  rfl

/-- An index of the result is in point `t`'s block iff each coordinate is in the block's range on its axis. -/
theorem mem_blk7 (t : Fin cfg1.N) (i : S43x4096x128.Idx) :
    i ∈ ((cfg1.win 7).blk t).view.set ↔ ∀ a : Fin 3, win1_7.index t a * S43x512x128.size a ≤ (i a).val ∧ (i a).val < win1_7.index t a * S43x512x128.size a + S43x512x128.size a := by
  show i ∈ ((View.whole main_v6).slice (win1_7.rect t)).set ↔ _
  rw [View.set_slice_whole, Rect.mem_set_unit]
  exact Iff.rfl

/-- Every index of the result is in some point's block: the point of its batch row. -/
theorem cover7 (i : S43x4096x128.Idx) : ∃ t : Fin cfg1.N, (cfg1.win 7).flush t = true ∧ i ∈ ((cfg1.win 7).blk t).view.set := by
  refine ⟨tOf i, flush1_7 _, ?_⟩
  rw [mem_blk7]
  obtain ⟨e0, e1, e2⟩ := idx_facts7 (tOf i)
  have ht : (tOf i).val = (i 1).val / 512 := rfl
  have h0 : (i 0).val < 43 := (i 0).isLt
  have h1 : (i 1).val < 4096 := (i 1).isLt
  have h2 : (i 2).val < 128 := (i 2).isLt
  intro a
  match a with
  | ⟨0, _⟩ => show win1_7.index (tOf i) (0 : Fin 3) * 43 ≤ (i 0).val ∧ (i 0).val < win1_7.index (tOf i) (0 : Fin 3) * 43 + 43; omega
  | ⟨1, _⟩ => show win1_7.index (tOf i) (1 : Fin 3) * 512 ≤ (i 1).val ∧ (i 1).val < win1_7.index (tOf i) (1 : Fin 3) * 512 + 512; omega
  | ⟨2, _⟩ => show win1_7.index (tOf i) (2 : Fin 3) * 128 ≤ (i 2).val ∧ (i 2).val < win1_7.index (tOf i) (2 : Fin 3) * 128 + 128; omega

/-- THE RESULT ARRAY after the call. -/
theorem final7 (c : Dev nD) : (dats V O B 0 c).arrAt 7 cfg1.N = regionOutV V c :=
  (dats V O B 0 c).arrAt_eq_of_cover 7 (regionOutV V c) (fun t _ => flushed7_eq V O B c t) (cover7)

/-! ## The arrays after the call -/

/-- The TensorCore's arrays after the call: as found, but the result's. -/
def regionPost (c : Dev nD) : (b : Ref sig .tc) → Buf (Elt F) ((c : Thread nD τ).loc b) :=
  Function.update (V c) main_v6 (regionOutV V c)

theorem post_v6 (c : Dev nD) : regionPost V c main_v6 = regionOutV V c := by
  unfold regionPost; generalize regionOutV V c = G; exact Function.update_self _ _ _

theorem post_ne (c : Dev nD) (b : Ref sig .tc) (h : b ≠ main_v6) : regionPost V c b = V c b := by
  unfold regionPost; generalize regionOutV V c = G; exact Function.update_of_ne h _ _

/-- Each window's array after the last point is what `regionPost` says: an operand's as found, the result's by the cover. -/
theorem arrAt_post (c : Dev nD) : ∀ w : Fin cfg1.W, (dats V O B 0 c).arrAt w cfg1.N = regionPost V c (Pipeline.arrRef spec1 w)
  | ⟨0, _⟩ => ((dats V O B 0 c).arrAt_in 0 rfl _).trans ((A_eq V O B c 0).trans (post_ne V c _ (by decide)).symm)
  | ⟨1, _⟩ => ((dats V O B 0 c).arrAt_in 1 rfl _).trans ((A_eq V O B c 1).trans (post_ne V c _ (by decide)).symm)
  | ⟨2, _⟩ => ((dats V O B 0 c).arrAt_in 2 rfl _).trans ((A_eq V O B c 2).trans (post_ne V c _ (by decide)).symm)
  | ⟨3, _⟩ => ((dats V O B 0 c).arrAt_in 3 rfl _).trans ((A_eq V O B c 3).trans (post_ne V c _ (by decide)).symm)
  | ⟨4, _⟩ => ((dats V O B 0 c).arrAt_in 4 rfl _).trans ((A_eq V O B c 4).trans (post_ne V c _ (by decide)).symm)
  | ⟨5, _⟩ => ((dats V O B 0 c).arrAt_in 5 rfl _).trans ((A_eq V O B c 5).trans (post_ne V c _ (by decide)).symm)
  | ⟨6, _⟩ => ((dats V O B 0 c).arrAt_in 6 rfl _).trans ((A_eq V O B c 6).trans (post_ne V c _ (by decide)).symm)
  | ⟨7, _⟩ => (final7 V O B c).trans (post_v6 V c).symm

/-! ## The call as a region of the TensorCore's program -/

/-- The prefetched tables' admissible contents: no table. -/
abbrev adm : (p : Fin 1) → (pcfgs (F := F) p).Adm := fun p => (cfgs p).toPCfg_adm

/-- What the core owes, its recorded pairs within the bound: it rides through the call untouched. -/
abbrev R (c : Dev nD) : sProp 𝕄 := iprop(∃ W, ⌜↑W ⊆ B c⌝ ∗ owes (c : Thread nD τ) (O c) W)

/-- The windows' arrays at their final contents and the arrays no window stages are the TensorCore's arrays at
    `regionPost`. -/
theorem exit_bufs (c : Dev nD) :
    iprop((dats V O B 0 c).arrays ((dats V O B 0 c).arrAt · cfg1.N) ∗ Pipeline.unscopedRest (Ix := HIx 1) (Name := ℕ) (U := UU) (Lvl := ℕ) spec1 c (V c))
      ⊢ (unscopedBufs c (regionPost V c) : sProp 𝕄) := by
  rw [Pipeline.unscopedBufs_split cfgs 0 launch1.win.arr_unscoped launch1.win.arr_inj c (regionPost V c),
    Pipeline.arrays_eq cfgs (dats V O B) 0 c launch1.arr_whole ((dats V O B 0 c).share_full fun _ => rfl)]
  refine sep_mono (Entails.of_eq (bigSep_congr fun w _ => by rw [arrAt_post])) (Entails.of_eq ?_)
  rw [unscopedRest1_eq, unscopedRest1_eq]
  rw [post_ne V c main_arg0 (by decide), post_ne V c main_arg1 (by decide), post_ne V c main_arg3 (by decide), post_ne V c main_arg4 (by decide),
    post_ne V c main_arg6 (by decide), post_ne V c main_arg7 (by decide), post_ne V c main_v0 (by decide), post_ne V c main_v7 (by decide)]

variable (L : GSem nD τ sig → Finset (HIx 1)) (lv : GSem nD τ sig → HIx 1 → ℕ)

set_option backward.isDefEq.respectTransparency.types false in
/-- THE REGION: the generated layout, no semaphore of the kernel's own, the body obligation; entered from the
    TensorCore's arrays at `V` and what the core owes, left with the arrays at `regionPost` and the same owed. The waits
    of the pipeline's staging cells sit at index `none`, below everything the core owes (`hO`). -/
def reg (hB : ∀ (c : Dev nD) (sm : SemLoc sig), (sm, (none : HIx 1)) ∈ B c)
    (hO : ∀ (c : Dev nD) (sm : SemLoc sig), (levAts L lv : sProp 𝕄) ⊢ MayWait (c : Thread nD τ) sm none (O c)) :
    Pipeline.RegionSeg (pcfgs (F := F)) adm (dats V O B) none defs₀ 𝒱₀ L lv 0 where
  win := launch1.win.to₀
  block_pos := launch1.block_pos
  stage_whole := launch1.stage_whole
  K := PEmpty
  osem := fun k => k.elim
  ho := Pipeline.OwnSemFacts.none _
  hbody c := (body_obligation V O B c).loose
  hwaits c := Pipeline.cellsWaits_intro _ _ _ _ c fun w s t => hO c _
  pre c := iprop(unscopedBufs c (V c) ∗ R O B c)
  post c := iprop(unscopedBufs c (regionPost V c) ∗ R O B c)
  X _ := iprop(emp)
  Y _ := iprop(emp)
  Z c := Pipeline.unscopedRest spec1 c (V c)
  hentry c := by
    have hsplit := Pipeline.arrays_of_unscopedBufs (pcfgs (F := F)) adm (dats V O B) launch1.win launch1.arr_whole c
      ((dats V O B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hrest
  hin c := by
    rw [show (dats V O B 0 c).Φ 0 = iprop(emp) from rfl]
    iintro -; iempintro
  hout c := by
    rw [Pipeline.ownSems0_none, scopedRest1_eq, show (dats V O B 0 c).Φ (Fin.last cfg1.N) = iprop(emp) from rfl]
    iintro -
    isplitr; · iempintro
    isplitr <;> iempintro
  hexit c := by
    iintro ⟨Ha, HO, -, HZ⟩
    imodintro
    isplitr [HO]
    · iapply (exit_bufs V O B c); isplitl [Ha] <;> iassumption
    · unfold Pipeline.Dat.owesAt Pipeline.owesWithin
      icases HO with ⟨%W, %hW, HO⟩; iexists W; isplitr
      · ipureintro
        intro p hp
        rcases hW hp with h | ⟨w, s, rfl⟩
        · exact h
        · exact hB c _
      iexact HO

set_option backward.isDefEq.respectTransparency.types false in
/-- The call in the pipeline's own signature. -/
theorem wp_tcRegion₀ (hB : ∀ (c : Dev nD) (sm : SemLoc sig), (sm, (none : HIx 1)) ∈ B c)
    (hO : ∀ (c : Dev nD) (sm : SemLoc sig), (levAts L lv : sProp 𝕄) ⊢ MayWait (c : Thread nD τ) sm none (O c))
    (d : Dev nD) (Φ : PUnit → sProp 𝕄) :
    iprop(boundary (T d) ∗ unscopedBufs d (V d) ∗ (∃ W, ⌜↑W ⊆ B d⌝ ∗ owes (T d) (O d) W) ∗ levAts L lv
        ∗ Pipeline.cellsGhost cfgs ER 0 d ∗ Pipeline.toksInit cfgs ER 0 d
        ∗ (iprop(boundary (T d) ∗ unscopedBufs d (regionPost V d) ∗ ∃ W, ⌜↑W ⊆ B d⌝ ∗ owes (T d) (O d) W) -∗ Φ ⟨⟩))
      ⊢ wp frame (wpE (D (F := F)) 𝒱 (T d) none) Set.univ (Prog.lift (.customCall (Pipeline.entry 0) ())) Φ := by
  have h := Pipeline.RegionSeg.wp (pcfgs (F := F)) adm (dats V O B) none cellOf_inj ER defs₀ 𝒱₀ L lv (reg V O B L lv hB hO) d none
    (fun _ h => nomatch h) (fun _ => Prog.ret ⟨⟩) Φ
  have hpost : (reg V O B L lv hB hO).post d = iprop(unscopedBufs d (regionPost V d) ∗ R O B d) := rfl
  have hpre : (reg V O B L lv hB hO).pre d = iprop(unscopedBufs d (V d) ∗ R O B d) := rfl
  rw [hpost, hpre] at h
  refine BIBase.Entails.trans ?_ h
  iintro ⟨Hb, Hub, HO, #Hlev, Hg, Ht, Hk⟩
  isplitl [Hk]
  · iintro ⟨Hb, Hub, HO⟩
    rw [wp_ret]; imodintro
    iapply Hk
    isplitl [Hb]; · iexact Hb
    isplitl [Hub] <;> iassumption
  isplitl [Hb]; · iexact Hb
  isplitl [Hub HO]
  · isplitl [Hub] <;> iassumption
  isplitr; · iexact Hlev
  isplitl [Hg] <;> iassumption

/-- The call line of the program is the pipeline's call, lifted to the program's signature. -/
theorem lift_call : (SparseCore.liftProg (Q := 1) (Prog.lift (.customCall (Pipeline.entry (0 : Fin 1)) ())
      : Prog (TpuEff nD τ sig (Elt F) (ΛP (F := F)) .tc) PUnit))
    = Prog.lift (.customCall (SparseCore.inner (Pipeline.entry 0)) ()) := rfl

/-- THE CALL on the TensorCore of device `d`, in the program's own signature: from the region boundary, the TensorCore's
    arrays at `V d`, what the core owes, the level facts and the ghost state of the pipeline's staging cells, the call
    line runs to the boundary, the arrays at `regionPost V d` (only the result's buffer changed) and the same owed. -/
theorem wp_tcRegion (hB : ∀ (c : Dev nD) (sm : SemLoc sig), (sm, (none : HIx 1)) ∈ B c)
    (hO : ∀ (c : Dev nD) (sm : SemLoc sig), (levAts L lv : sProp 𝕄) ⊢ MayWait (c : Thread nD τ) sm none (O c))
    (d : Dev nD) (Φ : PUnit → sProp 𝕄) :
    iprop(boundary (T d) ∗ unscopedBufs d (V d) ∗ (∃ W, ⌜↑W ⊆ B d⌝ ∗ owes (T d) (O d) W) ∗ levAts L lv
        ∗ Pipeline.cellsGhost cfgs ER 0 d ∗ Pipeline.toksInit cfgs ER 0 d
        ∗ (iprop(boundary (T d) ∗ unscopedBufs d (regionPost V d) ∗ ∃ W, ⌜↑W ⊆ B d⌝ ∗ owes (T d) (O d) W) -∗ Φ ⟨⟩))
      ⊢ wp frame (wpE ((K (F := F)).defs D) 𝒱 (T d) none) Set.univ
          (Prog.lift (.customCall (SparseCore.inner (Pipeline.entry 0)) ())) Φ := by
  have hl := (K (F := F)).wp_liftProg (nD := nD) (Name := ℕ) (U := UU) D 𝒱 (T d) Set.univ none (Prog.lift (.customCall (Pipeline.entry 0) ())) Φ
  rw [lift_call] at hl
  exact (wp_tcRegion₀ V O B L lv hB hO d Φ).trans hl

end Cert.KernelIdeal.TcRegion

end
-- ==== Proof.ScLaunch.lean ====
/-
  The launch of the idealized kernel program: the gather kernel's thirty-two vector subcores each run the kernel body
  once on their own row of the index array, their own twenty-six output slabs and a read share of the tables; the
  TensorCore reshapes the index array, starts the SparseCores and waits for them, reshapes four more arguments, runs
  the layer-norm call and transposes its result. From a proof of one subcore's body, a proof of the layer-norm call
  and the split of the three arrays among the subcores, every weakly fair execution of all the threads terminates
  with the eight argument arrays unchanged.
-/
import proofs.«206634_g85779086836150_cont_9to1c4b_256_28_alg».proof.Defs
import proofs.«206634_g85779086836150_cont_9to1c4b_256_28_alg».proof.Proof.ScSplit
import proofs.«206634_g85779086836150_cont_9to1c4b_256_28_alg».proof.Proof.PreFacts
import proofs.«206634_g85779086836150_cont_9to1c4b_256_28_alg».proof.Proof.Gen.KernelIdeal.Launch
import proofs.«206634_g85779086836150_cont_9to1c4b_256_28_alg».proof.Proof.TcRegion
import Idealize.ShloMosaic.Lib.SparseCore.Launch
import Idealize.ShloMosaic.Lib.StableHlo.Run
import Idealize.ShloMosaic.Lib.Pipeline.Kit
import Idealize.ShloMosaic.Lib.Pipeline.Sound
import Idealize.ShloMosaic.Lib.Pipeline.Frame
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type} [FloatOps F]

local notation "𝕄" => MT nD τ sig (HIx 1) (Elt F) ℕ UU ℕ

/-! ## The launch memory, and what the index array holds when the SparseCores are started -/

variable (m : (ℓ : Loc nD τ sig) → Buf (Elt F) ℓ) (ρ : Dev nD → PrngReg)

/-- The launch valuation of device `d`. -/
def W0 (d : Dev nD) : Valuation τ sig (Elt F) := fun b => m (d, b)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev v0' : DevRef τ sig := Proc.devRef .tc (main_v0 : Ref sig .tc)
abbrev v1' : DevRef τ sig := Proc.devRef .tc (main_v1 : Ref sig .tc)
abbrev v6' : DevRef τ sig := Proc.devRef .tc (main_v6 : Ref sig .tc)

/-- @main's host operations. -/
abbrev opR0 : HloOp τ sig (Elt F) := StableHlo.reshape main_arg1 main_v0 rfl shapeCasts_S26x4096_S32x26x128
abbrev opR2 : HloOp τ sig (Elt F) := StableHlo.reshape main_arg0 main_v2 rfl shapeCasts_S13x4096x1_S13x4096
abbrev opR3 : HloOp τ sig (Elt F) := StableHlo.reshape main_arg4 main_v3 rfl shapeCasts_S13x1x128_S13x128
abbrev opR4 : HloOp τ sig (Elt F) := StableHlo.reshape main_arg6 main_v4 rfl shapeCasts_S128_S1x128
abbrev opR5 : HloOp τ sig (Elt F) := StableHlo.reshape main_arg7 main_v5 rfl shapeCasts_S128_S1x128
abbrev opT7 : HloOp τ sig (Elt F) := StableHlo.unary main_v6 main_v7 ((transpose S4096x43x128 [1, 0, 2] · transposes_S43x4096x128_S4096x43x128_1_0_2) : (⟨S43x4096x128, .f32⟩ : BufTy).Contents (Elt F) → (⟨S4096x43x128, .f32⟩ : BufTy).Contents (Elt F))

/-- The valuation after the first reshape. -/
def W1 (d : Dev nD) : Valuation τ sig (Elt F) := (opR0 (F := F)).result (W0 m d)

/-- The index array as the kernel reads it: the reshape of the categorical features. -/
def fI (d : Dev nD) : Buf (Elt F) (iLoc d) := W1 m d v0'

/-! ## What the handshakes carry -/

-- What "the worker's slabs hold the gathered rows" says of the output array; abstract here.
variable (OutOk : (d : Dev nD) → Buf (Elt F) (tLoc d) → Buf (Elt F) (iLoc d) → grid0.Coords → Buf (Elt F) (oLoc d) → Prop)

/-- What a vector subcore is handed: its read token of the tables, its row of the index array, its slabs. -/
def goR (d : Dev nD) (L : grid0.Coords) : sProp 𝕄 :=
  iprop((tLoc d ↦{tokQ (wOf L)} m (tLoc d)) ∗ (iLoc d ↦[(iRowK L).view.set]{fullShare} fI m d) ∗ (oLoc d ↦[oSetL L]{fullShare} m (oLoc d)))

/-- What it hands back: the same, its slabs at the gathered rows. -/
def tdR (d : Dev nD) (L : grid0.Coords) : sProp 𝕄 :=
  iprop((tLoc d ↦{tokQ (wOf L)} m (tLoc d)) ∗ (iLoc d ↦[(iRowK L).view.set]{fullShare} fI m d)
    ∗ (∃ f, ⌜OutOk d (m (tLoc d)) (fI m d) L f⌝ ∗ oLoc d ↦[oSetL L]{fullShare} f))

/-- A SparseCore is handed its sixteen subcores' shares, and hands them back. -/
def P : (K (F := F)).Pay (nD := nD) (Val := Elt F) (Name := ℕ) (U := UU) where
  st := fun q d c => match q with
    | 0 => bigSep Finset.univ fun i : Fin ((K (F := F)).nSub 0) => goR m d (coordsV (Fin.cast nCore_zero c) (Fin.cast nSub_zero i))
  dn := fun q d c => match q with
    | 0 => bigSep Finset.univ fun i : Fin ((K (F := F)).nSub 0) => tdR m OutOk d (coordsV (Fin.cast nCore_zero c) (Fin.cast nSub_zero i))
  go := fun q d c i => match q with
    | 0 => goR m d (coordsV (Fin.cast nCore_zero c) (Fin.cast nSub_zero i))
  td := fun q d c i => match q with
    | 0 => tdR m OutOk d (coordsV (Fin.cast nCore_zero c) (Fin.cast nSub_zero i))
  x := fun _ _ => iprop(emp)

instance goR_storable (d : Dev nD) (L : grid0.Coords) : BI.Storable (upEmb : UEmb _ 𝕄) (goR m d L) := by unfold goR; infer_instance
instance tdR_storable (d : Dev nD) (L : grid0.Coords) : BI.Storable (upEmb : UEmb _ 𝕄) (tdR m OutOk d L) := by unfold tdR; infer_instance

instance P_storable : (P (F := F) m OutOk).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## The subcore's task -/

/-- The kernel body's proof at one vector subcore, as the launch takes it. -/
def TileBody : Prop :=
  ∀ (hF : (K (F := F)).Facts) (d : Dev nD) (L : grid0.Coords) (ft : Buf (Elt F) (tLoc d)) (fi : Buf (Elt F) (iLoc d)) (fo : Buf (Elt F) (oLoc d))
    (hin : ∀ j, (fi j).toNat < 100001) (O : CellTallies nD τ sig (HIx 1)) (W : Waits sig (HIx 1)) (hO : ∀ g, O g none = 0),
    iprop((levAts (K (F := F)).L (K (F := F)).lev : sProp 𝕄) ∗ emp
        ∗ ((tLoc d ↦{tokQ (wOf L)} ft) ∗ (iLoc d ↦[(iRowK L).view.set]{fullShare} fi) ∗ (oLoc d ↦[oSetL L]{fullShare} fo))
        ∗ scopedBufs (VT d L) ∗ scopedSems0 (VT d L) ∗ owes (VT d L) O W)
      ⊢ wp frame (wpE (defs₀ (F := F)) 𝒱₀ (VT d L) none) Set.univ
          (cc0_k L tV (Memref.isWhole_whole _) iV (Memref.isWhole_whole _) oV (Memref.isWhole_whole _) sI (Memref.isWhole_whole _) sB (Memref.isWhole_whole _) cc0_scratch2 cc0_scratch3 cc0_scoped0)
          fun _ => iprop(((tLoc d ↦{tokQ (wOf L)} ft) ∗ (iLoc d ↦[(iRowK L).view.set]{fullShare} fi) ∗ (∃ f, ⌜OutOk d ft fi L f⌝ ∗ oLoc d ↦[oSetL L]{fullShare} f))
            ∗ scopedBufs (VT d L) ∗ scopedSems0 (VT d L) ∗ ∃ W', ⌜∀ p ∈ W', p ∈ W ∨ p.2 = none⌝ ∗ owes (VT d L) O W')

/-- It speaks of the output array on the worker's slabs only. -/
def OkLocal : Prop :=
  ∀ (d : Dev nD) (ft : Buf (Elt F) (tLoc d)) (fi : Buf (Elt F) (iLoc d)) (L : grid0.Coords) (f f' : Buf (Elt F) (oLoc d)),
    (∀ x ∈ oSetL L, f x = f' x) → OutOk d ft fi L f → OutOk d ft fi L f'

/-- Every row number the kernel reads names a row of its table. -/
def PreOK : Prop := ∀ (d : Dev nD) (j : S32x26x128.Idx), (fI m d j).toNat < 100001

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sI (Memref.isWhole_whole _) sB (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBody (F := F) OutOk) (hF : (K (F := F)).Facts) (hpre : PreOK m) :
    (K (F := F)).TileObl (D (F := F)) 𝒱 (P m OutOk) v₀ 0 := by
  intro d c i O W hO _ _
  simp only [show (P m OutOk).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile hF d (coordsV ⟨_, hc.1⟩ ⟨_, hc.2⟩) (m (tLoc d)) (fI m d) (m (oLoc d)) (hpre d) O W hO).trans (wp_mono frame _ _ fun _ => obl_post)

theorem vecSplit : (K (F := F)).VecSplit' (P m OutOk) 0 := by
  intro d c
  show (bigSep Finset.univ fun i : Fin ((K (F := F)).nSub 0) => goR m d (coordsV (Fin.cast nCore_zero c) (Fin.cast nSub_zero i)))
    ⊢ |={Set.univ}=> iprop((bigSep Finset.univ fun i : Fin ((K (F := F)).nSub 0) => goR m d (coordsV (Fin.cast nCore_zero c) (Fin.cast nSub_zero i)))
      ∗ ((bigSep Finset.univ fun i : Fin ((K (F := F)).nSub 0) => tdR m OutOk d (coordsV (Fin.cast nCore_zero c) (Fin.cast nSub_zero i)))
          -∗ bigSep Finset.univ fun i : Fin ((K (F := F)).nSub 0) => tdR m OutOk d (coordsV (Fin.cast nCore_zero c) (Fin.cast nSub_zero i))))
  iintro H; imodintro
  isplitl [H]; · iexact H
  iintro H; iexact H

/-! ## The launch element: the handshakes' rounds, the layer-norm call's staging cells; the counters are dropped -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside the launch's deal: the staging cells' ghost state and duty tokens. -/
abbrev G (d : Dev nD) : sProp 𝕄 := iprop(Pipeline.cellsGhost cfgs ER 0 d ∗ Pipeline.toksInit cfgs ER 0 d)

omit [FloatOps F] in
theorem bigSep_emp' {I : Type} (s : Finset I) : (bigSep s fun _ => iprop(emp)) = (iprop(emp) : sProp 𝕄) := bigSep_emp_const s

omit [FloatOps F] in
theorem own_ER (x : UP) : (BI.own (((Emb.inl : Emb UP (UP × Counters)).trans embR : Emb UP 𝕄) x) : sProp 𝕄) ⊢ BI.own ((ER : Emb UP 𝕄) x) := by
  unfold ER; exact BI.Entails.refl _

theorem G_eq : (bigSep Finset.univ fun d : Dev nD => G (F := F) d)
    = iprop((bigSep Finset.univ fun c : Dev nD => bigSep Finset.univ fun p : Fin 1 => Pipeline.cellsGhost cfgs (ER (F := F)) p c)
        ∗ (bigSep Finset.univ fun c : Dev nD => bigSep Finset.univ fun p : Fin 1 => (Pipeline.toksInit cfgs (ER (F := F)) p c : sProp 𝕄))) := by
  unfold G
  rw [bigSep_sep']
  congr 1
  · exact (bigSep_congr fun d _ => (bigSep_univ_of_subsingleton (0 : Fin 1) (Φ := fun p : Fin 1 => (Pipeline.cellsGhost cfgs (ER (F := F)) p d : sProp 𝕄)))).symm
  · exact (bigSep_congr fun d _ => (bigSep_univ_of_subsingleton (0 : Fin 1) (Φ := fun p : Fin 1 => (Pipeline.toksInit cfgs (ER (F := F)) p d : sProp 𝕄)))).symm

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m OutOk).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨Hup, -⟩
  ihave Hup2 := (own_ER (F := F) _) $$ Hup
  imod (Pipeline.fund_ghost (nD := nD) (τ := τ) cfgs (ER (F := F)) cellOf_inj) $$ Hup2 with ⟨Hg, Ht⟩
  imodintro
  isplitl [HH]; · iexact HH
  isplitl [Hg Ht]
  · rw [G_eq]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays: all sixteen are unscoped. -/
abbrev UC : Finset (DevRef τ sig) := Pipeline.ucRefs τ sig

omit [FloatOps F] in
theorem mem_UC (b : Ref sig .tc) (h : (Proc.devRef (τ := τ) .tc b).isScoped = false) : Proc.devRef .tc b ∈ UC :=
  Finset.mem_filter.mpr ⟨StableHlo.devRef_mem_tcRefs b, by rw [h]; exact Bool.false_ne_true⟩

/-- The three arrays the SparseCores work on; the eight arguments. -/
abbrev S3 : Finset (DevRef τ sig) := {a3', v0', v1'}
abbrev S8 : Finset (DevRef τ sig) := {a0', a1', a2', a3', a4', a5', a6', a7'}

omit [FloatOps F] in
theorem S3_sub : (S3 : Finset (DevRef τ sig)) ⊆ UC :=
  Finset.insert_subset (mem_UC _ (by decide)) (Finset.insert_subset (mem_UC _ (by decide)) (Finset.singleton_subset_iff.mpr (mem_UC _ (by decide))))
omit [FloatOps F] in
theorem S8_sub : (S8 : Finset (DevRef τ sig)) ⊆ UC :=
  Finset.insert_subset (mem_UC _ (by decide)) (Finset.insert_subset (mem_UC _ (by decide)) (Finset.insert_subset (mem_UC _ (by decide))
    (Finset.insert_subset (mem_UC _ (by decide)) (Finset.insert_subset (mem_UC _ (by decide)) (Finset.insert_subset (mem_UC _ (by decide))
      (Finset.insert_subset (mem_UC _ (by decide)) (Finset.singleton_subset_iff.mpr (mem_UC _ (by decide)))))))))

omit [FloatOps F] in
theorem held_S3 (d : Dev nD) (W : Valuation τ sig (Elt F)) :
    (held (T d) S3 W : sProp 𝕄) = iprop((tLoc d ↦{fullShare} W a3') ∗ (iLoc d ↦{fullShare} W v0') ∗ (oLoc d ↦{fullShare} W v1')) := by
  unfold held S3
  rw [SparseCore.bigSep_insert' (by decide), SparseCore.bigSep_insert' (by decide), bigSep_singleton]

/-- The valuations @main passes through: the output array at what the kernel left, the four reshapes, the layer-norm
    call's result, the transpose. -/
def W2 (d : Dev nD) (f : Buf (Elt F) (oLoc d)) : Valuation τ sig (Elt F) := Function.update (W1 m d) v1' f
def W3 (d : Dev nD) (f : Buf (Elt F) (oLoc d)) : Valuation τ sig (Elt F) := (opR2 (F := F)).result (W2 m d f)
def W4 (d : Dev nD) (f : Buf (Elt F) (oLoc d)) : Valuation τ sig (Elt F) := (opR3 (F := F)).result (W3 m d f)
def W5 (d : Dev nD) (f : Buf (Elt F) (oLoc d)) : Valuation τ sig (Elt F) := (opR4 (F := F)).result (W4 m d f)
def W6 (d : Dev nD) (f : Buf (Elt F) (oLoc d)) : Valuation τ sig (Elt F) := (opR5 (F := F)).result (W5 m d f)
/-- The TensorCore's arrays when the layer-norm call is reached. -/
def VR (d : Dev nD) (f : Buf (Elt F) (oLoc d)) : (c : Dev nD) → (b : Ref sig .tc) → Buf (Elt F) ((SparseCore.T c : Thread nD τ).loc b) :=
  fun _ b => W6 m d f (Proc.devRef .tc b)
def W7 (d : Dev nD) (f : Buf (Elt F) (oLoc d)) : Valuation τ sig (Elt F) :=
  Function.update (W6 m d f) v6' (TcRegion.regionPost (VR m d f) d main_v6)
def W8 (d : Dev nD) (f : Buf (Elt F) (oLoc d)) : Valuation τ sig (Elt F) := (opT7 (F := F)).result (W7 m d f)

theorem W1_eq (d : Dev nD) : (opR0 (F := F)).result (W0 m d) = W1 m d := rfl
theorem W3_eq (d : Dev nD) (f : Buf (Elt F) (oLoc d)) : (opR2 (F := F)).result (W2 m d f) = W3 m d f := rfl
theorem W4_eq (d : Dev nD) (f : Buf (Elt F) (oLoc d)) : (opR3 (F := F)).result (W3 m d f) = W4 m d f := rfl
theorem W5_eq (d : Dev nD) (f : Buf (Elt F) (oLoc d)) : (opR4 (F := F)).result (W4 m d f) = W5 m d f := rfl
theorem W6_eq (d : Dev nD) (f : Buf (Elt F) (oLoc d)) : (opR5 (F := F)).result (W5 m d f) = W6 m d f := rfl
theorem W8_eq (d : Dev nD) (f : Buf (Elt F) (oLoc d)) : (opT7 (F := F)).result (W7 m d f) = W8 m d f := rfl

theorem hR0 : (opR0 (F := F)).bufs ⊆ UC := Pipeline.sub_ucRefs _ (StableHlo.reshape_bufs_sub _ _ _ _ _ _)
theorem hR2 : (opR2 (F := F)).bufs ⊆ UC := Pipeline.sub_ucRefs _ (StableHlo.reshape_bufs_sub _ _ _ _ _ _)
theorem hR3 : (opR3 (F := F)).bufs ⊆ UC := Pipeline.sub_ucRefs _ (StableHlo.reshape_bufs_sub _ _ _ _ _ _)
theorem hR4 : (opR4 (F := F)).bufs ⊆ UC := Pipeline.sub_ucRefs _ (StableHlo.reshape_bufs_sub _ _ _ _ _ _)
theorem hR5 : (opR5 (F := F)).bufs ⊆ UC := Pipeline.sub_ucRefs _ (StableHlo.reshape_bufs_sub _ _ _ _ _ _)
theorem hT7 : (opT7 (F := F)).bufs ⊆ UC := Pipeline.sub_ucRefs _ (StableHlo.unary_bufs_sub _ _ _ _ _)

theorem W1_v0 (d : Dev nD) : W1 m d v0' = fI m d := rfl
theorem W1_a3 (d : Dev nD) : W1 m d a3' = m (tLoc d) :=
  StableHlo.reshape_result_ne _ _ _ _ _ _ (W0 m d) (show (main_arg3 : Ref sig .tc) ≠ main_v0 by decide)
theorem W1_v1 (d : Dev nD) : W1 m d v1' = m (oLoc d) :=
  StableHlo.reshape_result_ne _ _ _ _ _ _ (W0 m d) (show (main_v1 : Ref sig .tc) ≠ main_v0 by decide)
theorem W2_a3 (d : Dev nD) (f : Buf (Elt F) (oLoc d)) : W2 m d f a3' = m (tLoc d) :=
  (Function.update_of_ne (show a3' ≠ v1' by decide) _ _).trans (W1_a3 m d)
theorem W2_v0 (d : Dev nD) (f : Buf (Elt F) (oLoc d)) : W2 m d f v0' = fI m d := Function.update_of_ne (show v0' ≠ v1' by decide) _ _
theorem W2_v1 (d : Dev nD) (f : Buf (Elt F) (oLoc d)) : W2 m d f v1' = f := Function.update_self _ _ _

omit [FloatOps F] in
theorem v1_mem_S3 : (v1' : DevRef τ sig) ∈ (S3 : Finset (DevRef τ sig)) := by decide

theorem held_rest (d : Dev nD) (f : Buf (Elt F) (oLoc d)) :
    (held (T d) (UC \ S3) (W2 m d f) : sProp 𝕄) = held (T d) (UC \ S3) (W1 m d) :=
  held_congr (T d) fun b hb => show Function.update (W1 m d) v1' f b = W1 m d b from
    Function.update_of_ne (fun (e : b = v1') => (Finset.mem_sdiff.mp hb).2 (by rw [e]; exact v1_mem_S3)) _ _

/-- An argument array is at its launch contents all along. -/
theorem W8_arg (d : Dev nD) (f : Buf (Elt F) (oLoc d)) (r : Ref sig .tc) (h0 : r ≠ main_v0) (h1 : r ≠ main_v1) (h2 : r ≠ main_v2) (h3 : r ≠ main_v3)
    (h4 : r ≠ main_v4) (h5 : r ≠ main_v5) (h6 : r ≠ main_v6) (h7 : r ≠ main_v7) : W8 m d f (Proc.devRef .tc r) = W0 m d (Proc.devRef .tc r) := by
  unfold W8 W7 W6 W5 W4 W3 W2 W1
  rw [StableHlo.unary_result_ne _ _ _ _ _ _ h7, Function.update_of_ne (StableHlo.devRef_ne_of_ne h6), StableHlo.reshape_result_ne _ _ _ _ _ _ _ h5,
    StableHlo.reshape_result_ne _ _ _ _ _ _ _ h4, StableHlo.reshape_result_ne _ _ _ _ _ _ _ h3, StableHlo.reshape_result_ne _ _ _ _ _ _ _ h2,
    Function.update_of_ne (StableHlo.devRef_ne_of_ne h1), StableHlo.reshape_result_ne _ _ _ _ _ _ _ h0]

theorem held_S8 (d : Dev nD) (f : Buf (Elt F) (oLoc d)) : (held (T d) S8 (W8 m d f) : sProp 𝕄) = held (T d) S8 (W0 m d) :=
  held_congr (T d) fun b hb => by
    simp only [S8, Finset.mem_insert, Finset.mem_singleton] at hb
    rcases hb with rfl | rfl | rfl | rfl | rfl | rfl | rfl | rfl <;>
      exact W8_arg m d f _ (by decide) (by decide) (by decide) (by decide) (by decide) (by decide) (by decide) (by decide)

theorem pre_held (d : Dev nD) (f : Buf (Elt F) (oLoc d)) :
    (held (T d) UC (W6 m d f) : sProp 𝕄) = unscopedBufs d (VR m d f d) := (Pipeline.unscopedBufs_held d (W6 m d f)).symm

/-- The layer-norm call changes the result's buffer only. -/
theorem post_held (d : Dev nD) (f : Buf (Elt F) (oLoc d)) :
    (unscopedBufs d (TcRegion.regionPost (VR m d f) d) : sProp 𝕄) = held (T d) UC (W7 m d f) := by
  rw [← Pipeline.unscopedBufs_held d (W7 m d f)]
  refine congrArg (fun X => (unscopedBufs d X : sProp 𝕄)) (funext fun b => ?_)
  by_cases h : b = main_v6
  · subst h; unfold W7
    exact (Function.update_self (β := fun b : DevRef τ sig => b.ty.Contents (Elt F)) v6' _ (W6 m d f)).symm
  · rw [TcRegion.post_ne _ _ _ h]; unfold W7
    exact (Function.update_of_ne (β := fun b : DevRef τ sig => b.ty.Contents (Elt F)) (StableHlo.devRef_ne_of_ne h) _ (W6 m d f)).symm

theorem st0_eq (d : Dev nD) :
    (bigSep Finset.univ fun c : Fin ((K (F := F)).nCore 0) => (P m OutOk).st 0 d c)
      = bigSep Finset.univ fun c : Fin 2 => bigSep Finset.univ fun i : Fin 16 =>
          iprop((tLoc d ↦{tokQ (wOf (coordsV c i))} m (tLoc d)) ∗ (iLoc d ↦[(iRowK (coordsV c i)).view.set]{fullShare} fI m d) ∗ (oLoc d ↦[oSetL (coordsV c i)]{fullShare} m (oLoc d))) :=
  bigSep_congr fun c _ => (show (P m OutOk).st 0 d c = bigSep Finset.univ (fun i : Fin ((K (F := F)).nSub 0) => goR m d (coordsV (Fin.cast nCore_zero c) (Fin.cast nSub_zero i))) from rfl).trans
    (bigSep_congr fun i _ => rfl)
theorem dn0_eq (d : Dev nD) :
    (bigSep Finset.univ fun c : Fin ((K (F := F)).nCore 0) => (P m OutOk).dn 0 d c)
      = bigSep Finset.univ fun c : Fin 2 => bigSep Finset.univ fun i : Fin 16 =>
          iprop((tLoc d ↦{tokQ (wOf (coordsV c i))} m (tLoc d)) ∗ (iLoc d ↦[(iRowK (coordsV c i)).view.set]{fullShare} fI m d)
            ∗ ∃ f, ⌜OutOk d (m (tLoc d)) (fI m d) (coordsV c i) f⌝ ∗ oLoc d ↦[oSetL (coordsV c i)]{fullShare} f) :=
  bigSep_congr fun c _ => (show (P m OutOk).dn 0 d c = bigSep Finset.univ (fun i : Fin ((K (F := F)).nSub 0) => tdR m OutOk d (coordsV (Fin.cast nCore_zero c) (Fin.cast nSub_zero i))) from rfl).trans
    (bigSep_congr fun i _ => rfl)

abbrev v7' : DevRef τ sig := Proc.devRef .tc (main_v7 : Ref sig .tc)

/-- Every worker's slabs hold what `OutOk` says. -/
def OkAll (d : Dev nD) (f : Buf (Elt F) (oLoc d)) : Prop := ∀ c i, OutOk d (m (tLoc d)) (fI m d) (coordsV c i) f

/-- The eight argument arrays at their launch contents. -/
abbrev FIN0 (d : Dev nD) : sProp 𝕄 := held (T d) S8 (W0 m d)

/-- What @main leaves the claim: the arguments as launched, and the result at the transpose of the layer-norm call's
    output, computed from gathered rows `f` of which `OutOk` holds on every worker's slabs. -/
abbrev FIN (d : Dev nD) : sProp 𝕄 :=
  iprop(FIN0 m d ∗ ∃ f, ⌜OkAll m OutOk d f⌝ ∗ ((SparseCore.T d : Thread nD τ).loc main_v7 ↦{fullShare} W8 m d f v7'))

omit [FloatOps F] in
theorem v7_mem_rest : (v7' : DevRef τ sig) ∈ (UC \ S8 : Finset (DevRef τ sig)) :=
  Finset.mem_sdiff.mpr ⟨mem_UC _ (by decide), by decide⟩

theorem held_v7 (d : Dev nD) (f : Buf (Elt F) (oLoc d)) :
    (held (T d) (UC \ S8) (W8 m d f) : sProp 𝕄) ⊢ ((SparseCore.T d : Thread nD τ).loc main_v7 ↦{fullShare} W8 m d f v7') := by
  unfold held
  exact bigSep_elim (Φ := fun b : DevRef τ sig => (((SparseCore.T d : Thread nD τ).1, b) ↦{fullShare} W8 m d f b : sProp 𝕄)) v7_mem_rest

/-- The bound on the TensorCore's recorded waits after the SparseCore call. -/
def BT (c : Dev nD) : Set (SemLoc sig × HIx 1) := {p | (K (F := F)).lev ((SparseCore.T c : Thread nD τ), p.1) p.2 ≤ 8 * 1}

omit [FloatOps F] in
theorem hB (c : Dev nD) (sm : SemLoc sig) : (sm, (none : HIx 1)) ∈ BT (F := F) c := Nat.zero_le _

theorem hOw (c : Dev nD) (sm : SemLoc sig) :
    (levAts (K (F := F)).L (K (F := F)).lev : sProp 𝕄) ⊢ MayWait (T c) sm none ((K (F := F)).Otc c 1) :=
  (K (F := F)).mayWait_none sm (by rw [(K (F := F)).Otc_end c le_rfl]; intro g; rfl)

set_option maxHeartbeats 1600000 in
/-- @main on device `d`'s TensorCore. -/
theorem hmain (hloc : OkLocal (F := F) OutOk) (κ : GSem nD τ sig → ℕ) (d : Dev nD) :
    iprop((K (F := F)).ctx EH (P m OutOk) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m OutOk d) := by
  unfold SparseCore.Cfg.tcRes
  rw [show (unscopedBufs d (fun b => m ((SparseCore.T d).loc b)) : sProp 𝕄) = held (T d) UC (W0 m d) from Pipeline.unscopedBufs_held d (W0 m d)]
  simp only [main, wp_bind, wp_pure]
  iintro ⟨#Hctx, Hst, ⟨Hb, Hheld, -, -⟩, ⟨Hg, Ht⟩⟩
  -- the index array reshaped
  iapply (wp_hlo_within 𝒱 (SparseCore.T d) none Set.univ (op := opR0) (S := UC) hR0 (V := W0 m d)) $$ [Hb Hheld]
  · isplitl [Hb]; · iexact Hb
    iexact Hheld
  iintro ⟨Hb, Hheld⟩
  rw [wp_ret, W1_eq]; imodintro
  -- the SparseCore call: the three arrays out of the sixteen, split among the subcores, joined, put back
  ihave Hh := (Entails.of_eq (held_sub_split (T d) S3_sub (W1 m d))) $$ Hheld
  icases Hh with ⟨H3, Hrest⟩
  ihave H3' := (Entails.of_eq (held_S3 (F := F) d (W1 m d))) $$ H3
  rw [W1_a3, W1_v1, W1_v0]
  ihave Hs := (splitJoin OutOk hloc d (m (tLoc d)) (fI m d) (m (oLoc d))) $$ H3'
  icases Hs with ⟨Hgo, Hback⟩
  iapply ((K (F := F)).wp_run (D (F := F)) 𝒱 (EH := EH) (P := P m OutOk) κ d 0) $$ [Hst Hgo Hback Hb Hrest Hg Ht]
  isplitr; · iexact Hctx
  isplitl [Hst]; · iexact Hst
  isplitl [Hgo]
  · rw [st0_eq]; iexact Hgo
  iintro ⟨Hst, Hdn⟩
  ihave Hdn' := (Entails.of_eq (dn0_eq m OutOk d)) $$ Hdn
  ihave Hj := Hback $$ Hdn'
  icases Hj with ⟨Ht3, Hi3, %f, %hf, Ho3⟩
  ihave Hheld : held (T d) UC (W2 m d f) $$ [Ht3 Hi3 Ho3 Hrest]
  · iapply (Entails.of_eq (held_sub_split (T d) S3_sub (W2 m d f)).symm)
    isplitr [Hrest]
    · rw [held_S3, W2_a3, W2_v0, W2_v1]
      isplitl [Ht3]; · iexact Ht3
      isplitl [Hi3]; · iexact Hi3
      iexact Ho3
    · rw [held_rest]; iexact Hrest
  -- four more reshapes
  iapply (wp_hlo_within 𝒱 (SparseCore.T d) none Set.univ (op := opR2) (S := UC) hR2 (V := W2 m d f)) $$ [Hb Hheld]
  · isplitl [Hb]; · iexact Hb
    iexact Hheld
  iintro ⟨Hb, Hheld⟩
  rw [wp_ret, W3_eq]; imodintro
  iapply (wp_hlo_within 𝒱 (SparseCore.T d) none Set.univ (op := opR3) (S := UC) hR3 (V := W3 m d f)) $$ [Hb Hheld]
  · isplitl [Hb]; · iexact Hb
    iexact Hheld
  iintro ⟨Hb, Hheld⟩
  rw [wp_ret, W4_eq]; imodintro
  iapply (wp_hlo_within 𝒱 (SparseCore.T d) none Set.univ (op := opR4) (S := UC) hR4 (V := W4 m d f)) $$ [Hb Hheld]
  · isplitl [Hb]; · iexact Hb
    iexact Hheld
  iintro ⟨Hb, Hheld⟩
  rw [wp_ret, W5_eq]; imodintro
  iapply (wp_hlo_within 𝒱 (SparseCore.T d) none Set.univ (op := opR5) (S := UC) hR5 (V := W5 m d f)) $$ [Hb Hheld]
  · isplitl [Hb]; · iexact Hb
    iexact Hheld
  iintro ⟨Hb, Hheld⟩
  rw [wp_ret, W6_eq]; imodintro
  -- the layer-norm call
  unfold SparseCore.Cfg.tcSt
  icases Hst with ⟨⟨%Wt, %hWt, HO⟩, Hstrest⟩
  ihave Hlev := ((K (F := F)).ctx_levAts κ) $$ Hctx
  iapply (TcRegion.wp_tcRegion (VR m d f) (fun c => (K (F := F)).Otc c 1) (BT (F := F)) (K (F := F)).L (K (F := F)).lev hB hOw d) $$ [Hb Hheld HO Hg Ht Hstrest]
  isplitl [Hb]; · iexact Hb
  isplitl [Hheld]
  · iapply (Entails.of_eq (pre_held m d f)); iexact Hheld
  isplitl [HO]
  · iexists Wt; isplitr
    · ipureintro; exact fun p hp => hWt p (Finset.mem_coe.mp hp)
    · iexact HO
  isplitr; · iexact Hlev
  isplitl [Hg]; · iexact Hg
  isplitl [Ht]; · iexact Ht
  iintro ⟨Hb, Hub, %Wr, %hWr, HO⟩
  ihave Hheld := (Entails.of_eq (post_held m d f)) $$ Hub
  -- the transpose
  iapply (wp_hlo_within 𝒱 (SparseCore.T d) none Set.univ (op := opT7) (S := UC) hT7 (V := W7 m d f)) $$ [Hb Hheld]
  · isplitl [Hb]; · iexact Hb
    iexact Hheld
  iintro ⟨Hb, Hheld⟩
  rw [wp_ret, W8_eq]; imodintro; imodintro
  isplitl [HO Hstrest]
  · isplitl [HO]
    · iexists Wr; isplitr
      · ipureintro; exact fun p hp => hWr (Finset.mem_coe.mpr hp)
      · iexact HO
    · iexact Hstrest
  ihave Hh := (Entails.of_eq (held_sub_split (T d) S8_sub (W8 m d f))) $$ Hheld
  icases Hh with ⟨H8, Hr8⟩
  ihave H8' := (Entails.of_eq (held_S8 m d f)) $$ H8
  isplitl [H8']; · iexact H8'
  iexists f; isplitr
  · ipureintro; exact hf
  · iapply (held_v7 m d f); iexact Hr8

/-! ## The final memory and the claim -/

def fq (c : Dev nD) (s' : Phys nD τ sig (Elt F)) : Prop :=
  (s'.mem.mem ((SparseCore.T c : Thread nD τ).loc main_arg0) = m ((SparseCore.T c : Thread nD τ).loc main_arg0)
    ∧ s'.mem.mem ((SparseCore.T c : Thread nD τ).loc main_arg1) = m ((SparseCore.T c : Thread nD τ).loc main_arg1)
    ∧ s'.mem.mem ((SparseCore.T c : Thread nD τ).loc main_arg2) = m ((SparseCore.T c : Thread nD τ).loc main_arg2)
    ∧ s'.mem.mem ((SparseCore.T c : Thread nD τ).loc main_arg3) = m ((SparseCore.T c : Thread nD τ).loc main_arg3)
    ∧ s'.mem.mem ((SparseCore.T c : Thread nD τ).loc main_arg4) = m ((SparseCore.T c : Thread nD τ).loc main_arg4)
    ∧ s'.mem.mem ((SparseCore.T c : Thread nD τ).loc main_arg5) = m ((SparseCore.T c : Thread nD τ).loc main_arg5)
    ∧ s'.mem.mem ((SparseCore.T c : Thread nD τ).loc main_arg6) = m ((SparseCore.T c : Thread nD τ).loc main_arg6)
    ∧ s'.mem.mem ((SparseCore.T c : Thread nD τ).loc main_arg7) = m ((SparseCore.T c : Thread nD τ).loc main_arg7))
    ∧ ∃ f, OkAll m OutOk c f ∧ s'.mem.mem ((SparseCore.T c : Thread nD τ).loc main_v7) = W8 m c f v7'

theorem fin_agree (d : Dev nD) (s' : Phys nD τ sig (Elt F)) (b : DevRef τ sig) (hb : b ∈ (S8 : Finset (DevRef τ sig))) :
    iprop(FIN0 m d ∗ SI s') ⊢ (⌜s'.mem.mem (d, b) = W0 m d b⌝ : sProp 𝕄) := by
  show iprop(held (T d) S8 (W0 m d) ∗ SI s') ⊢ _
  unfold held
  iintro ⟨HF, HSI⟩
  ihave Hb := (SparseCore.ent (bigSep_elim (Φ := fun b : DevRef τ sig => (((SparseCore.T d : Thread nD τ).1, b) ↦{fullShare} W0 m d b : sProp 𝕄)) hb)) $$ HF
  ihave H := (SI_pointsTo_agree (st := s') (ℓ := (d, b)) (I := Finset.univ) (q := fullShare) (f := W0 m d b)) $$ [HSI Hb]
  · isplitl [HSI] <;> iassumption
  icases H with %h
  ipureintro; exact funext fun i => h i (Finset.mem_univ i)

theorem hfin (d : Dev nD) (s' : Phys nD τ sig (Elt F)) : iprop(FIN m OutOk d ∗ SI s') ⊢ (⌜fq m OutOk d s'⌝ : sProp 𝕄) := by
  iintro ⟨⟨H8, %f, %hf, Hv⟩, HSI⟩
  ihave Hx := (persistent_entails_right (SI_pointsTo_agree (st := s') (ℓ := (SparseCore.T d : Thread nD τ).loc main_v7) (I := Finset.univ) (q := fullShare) (f := W8 m d f v7'))) $$ [HSI Hv]
  · isplitl [HSI] <;> iassumption
  icases Hx with ⟨%hv, HSI, -⟩
  ihave H : iprop(FIN0 m d ∗ SI s') $$ [H8 HSI]
  · isplitl [H8] <;> iassumption
  ihave H := (persistent_entails_right (fin_agree m d s' a0' (by decide))) $$ H
  icases H with ⟨%h0, H⟩
  ihave H := (persistent_entails_right (fin_agree m d s' a1' (by decide))) $$ H
  icases H with ⟨%h1, H⟩
  ihave H := (persistent_entails_right (fin_agree m d s' a2' (by decide))) $$ H
  icases H with ⟨%h2, H⟩
  ihave H := (persistent_entails_right (fin_agree m d s' a3' (by decide))) $$ H
  icases H with ⟨%h3, H⟩
  ihave H := (persistent_entails_right (fin_agree m d s' a4' (by decide))) $$ H
  icases H with ⟨%h4, H⟩
  ihave H := (persistent_entails_right (fin_agree m d s' a5' (by decide))) $$ H
  icases H with ⟨%h5, H⟩
  ihave H := (persistent_entails_right (fin_agree m d s' a6' (by decide))) $$ H
  icases H with ⟨%h6, H⟩
  ihave H := (fin_agree m d s' a7' (by decide)) $$ H
  icases H with %h7
  ipureintro; exact ⟨⟨h0, h1, h2, h3, h4, h5, h6, h7⟩, f, hf, funext fun i => hv i (Finset.mem_univ i)⟩

def QC : PUnit × MemSt nD τ sig (Elt F) → Prop := fun r => ∀ c : Dev nD,
  (r.2.mem ((SparseCore.T c : Thread nD τ).loc main_arg0) = m ((SparseCore.T c : Thread nD τ).loc main_arg0)
    ∧ r.2.mem ((SparseCore.T c : Thread nD τ).loc main_arg1) = m ((SparseCore.T c : Thread nD τ).loc main_arg1)
    ∧ r.2.mem ((SparseCore.T c : Thread nD τ).loc main_arg2) = m ((SparseCore.T c : Thread nD τ).loc main_arg2)
    ∧ r.2.mem ((SparseCore.T c : Thread nD τ).loc main_arg3) = m ((SparseCore.T c : Thread nD τ).loc main_arg3)
    ∧ r.2.mem ((SparseCore.T c : Thread nD τ).loc main_arg4) = m ((SparseCore.T c : Thread nD τ).loc main_arg4)
    ∧ r.2.mem ((SparseCore.T c : Thread nD τ).loc main_arg5) = m ((SparseCore.T c : Thread nD τ).loc main_arg5)
    ∧ r.2.mem ((SparseCore.T c : Thread nD τ).loc main_arg6) = m ((SparseCore.T c : Thread nD τ).loc main_arg6)
    ∧ r.2.mem ((SparseCore.T c : Thread nD τ).loc main_arg7) = m ((SparseCore.T c : Thread nD τ).loc main_arg7))
    ∧ ∃ f, OkAll m OutOk c f ∧ r.2.mem ((SparseCore.T c : Thread nD τ).loc main_v7) = W8 m c f v7'

/-- The program's run: every weakly fair execution of all its threads terminates, the arguments unchanged, the result as `FIN` says. -/
theorem run_main [∀ e, Nonempty (Elt F e)] (hloc : OkLocal (F := F) OutOk) (htile : TileBody (F := F) OutOk) (hpre : PreOK m) :
    θ_run (Cert.KernelIdeal.defs (F := F)) (Cert.KernelIdeal.threads (F := F)) ⟨m, fun _ => 0, ρ⟩ (QC m OutOk) :=
  SparseCore.Cfg.θ_run_sc (K := K (F := F)) (D := D (F := F)) (𝒱 := 𝒱) (EH := EH) (P := P m OutOk) facts v₀
    (fun q hq => match q with | 0 => nomatch hq)
    (fun q _ => match q with | 0 => tileObl m OutOk htile facts hpre)
    (fun q _ => match q with | 0 => SparseCore.Cfg.VecSplit.of_plain (vecSplit m OutOk))
    m ρ main (fun d => G (F := F) d) (FIN m OutOk) (u₀ (F := F)) (sep_elim_left.trans (hu₀ m OutOk)) (hmain m ρ OutOk hloc) (fq m OutOk) (hfin m OutOk) (QC m OutOk) (fun _ h => h)

/-! ## The precondition's index range -/

theorem fI_apply (d : Dev nD) (j : S32x26x128.Idx) :
    fI m d j = m ((SparseCore.T d : Thread nD τ).loc main_arg1) (Shape.reshapeEquiv shapeCasts_S26x4096_S32x26x128 j) := by
  unfold fI W1
  rw [StableHlo.reshape_result]; rfl

theorem toNat_lt_of_range (v : BitVec 32) (h : 0 ≤ v.toInt ∧ v.toInt ≤ 99999) : v.toNat < 100001 := by
  have := v.isLt
  rw [BitVec.toInt_eq_toNat_cond] at h
  split at h <;> omega

theorem ok_of_pre (m : (ℓ : Loc nD τ sig) → Buf (Elt Ideal) ℓ) (h : Cert.Pre_KernelIdeal m) : PreOK (F := Ideal) m := by
  intro d j
  rw [fI_apply]
  exact toNat_lt_of_range _ (Cert.PreFacts.range _ _ _ _ _ _ _ _ (h d) _)

/-- `Cert.frame_KernelIdeal` (Defs.lean), from the body's proof at one subcore. -/
theorem frame (htile : TileBody (F := Ideal) fun _ _ _ _ _ => True) : Cert.frame_KernelIdeal := fun m ρ hpre =>
  (θ_run Cert.KernelIdeal.defs _ _).mono (fun _ h c => (h c).1)
    (run_main (F := Ideal) m ρ (fun _ _ _ _ _ => True) (fun _ _ _ _ _ _ _ _ => trivial) htile (ok_of_pre m hpre))

end Cert.KernelIdeal.Sc

end
-- ==== Proof.ScResult.lean ====
/-
  What the program's result holds, read off the launch's valuations: the layer-norm call reads the gathered rows, the
  reshaped numerical features, weights, scale and shift, and the pretrained embeddings and their matrices as
  launched; the result is the transpose of its output.
-/
import proofs.«206634_g85779086836150_cont_9to1c4b_256_28_alg».proof.Proof.ScLaunch

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.SL.Sem

variable {F : FTy → Type} [FloatOps F]

variable (m : (ℓ : Loc nD τ sig) → Buf (Elt F) ℓ)

/-- An array neither the first reshape nor the kernel writes is as launched when the four reshapes begin. -/
theorem W2_arg (d : Dev nD) (f : Buf (Elt F) (oLoc d)) (r : Ref sig .tc) (h0 : r ≠ main_v0) (h1 : r ≠ main_v1) :
    W2 m d f (Proc.devRef .tc r) = m ((SparseCore.T d : Thread nD τ).loc r) := by
  unfold W2 W1
  rw [Function.update_of_ne (StableHlo.devRef_ne_of_ne h1), StableHlo.reshape_result_ne _ _ _ _ _ _ _ h0]
  rfl

theorem VR_v1 (d : Dev nD) (f : Buf (Elt F) (oLoc d)) : VR m d f d main_v1 = f := by
  unfold VR W6 W5 W4 W3
  rw [StableHlo.reshape_result_ne _ _ _ _ _ _ _ (show (main_v1 : Ref sig .tc) ≠ main_v5 by decide),
    StableHlo.reshape_result_ne _ _ _ _ _ _ _ (show (main_v1 : Ref sig .tc) ≠ main_v4 by decide),
    StableHlo.reshape_result_ne _ _ _ _ _ _ _ (show (main_v1 : Ref sig .tc) ≠ main_v3 by decide),
    StableHlo.reshape_result_ne _ _ _ _ _ _ _ (show (main_v1 : Ref sig .tc) ≠ main_v2 by decide)]
  exact W2_v1 m d f

theorem VR_v2 (d : Dev nD) (f : Buf (Elt F) (oLoc d)) :
    VR m d f d main_v2 = shapeCast S13x4096 (m ((SparseCore.T d : Thread nD τ).loc main_arg0)) shapeCasts_S13x4096x1_S13x4096 := by
  unfold VR W6 W5 W4 W3
  rw [StableHlo.reshape_result_ne _ _ _ _ _ _ _ (show (main_v2 : Ref sig .tc) ≠ main_v5 by decide),
    StableHlo.reshape_result_ne _ _ _ _ _ _ _ (show (main_v2 : Ref sig .tc) ≠ main_v4 by decide),
    StableHlo.reshape_result_ne _ _ _ _ _ _ _ (show (main_v2 : Ref sig .tc) ≠ main_v3 by decide),
    StableHlo.reshape_result, W2_arg m d f main_arg0 (by decide) (by decide)]
  rfl

theorem VR_v3 (d : Dev nD) (f : Buf (Elt F) (oLoc d)) :
    VR m d f d main_v3 = shapeCast S13x128 (m ((SparseCore.T d : Thread nD τ).loc main_arg4)) shapeCasts_S13x1x128_S13x128 := by
  unfold VR W6 W5 W4
  rw [StableHlo.reshape_result_ne _ _ _ _ _ _ _ (show (main_v3 : Ref sig .tc) ≠ main_v5 by decide),
    StableHlo.reshape_result_ne _ _ _ _ _ _ _ (show (main_v3 : Ref sig .tc) ≠ main_v4 by decide),
    StableHlo.reshape_result]
  unfold W3
  rw [StableHlo.reshape_result_ne _ _ _ _ _ _ _ (show (main_arg4 : Ref sig .tc) ≠ main_v2 by decide), W2_arg m d f main_arg4 (by decide) (by decide)]
  rfl

theorem VR_v4 (d : Dev nD) (f : Buf (Elt F) (oLoc d)) :
    VR m d f d main_v4 = shapeCast S1x128 (m ((SparseCore.T d : Thread nD τ).loc main_arg6)) shapeCasts_S128_S1x128 := by
  unfold VR W6 W5
  rw [StableHlo.reshape_result_ne _ _ _ _ _ _ _ (show (main_v4 : Ref sig .tc) ≠ main_v5 by decide), StableHlo.reshape_result]
  unfold W4 W3
  rw [StableHlo.reshape_result_ne _ _ _ _ _ _ _ (show (main_arg6 : Ref sig .tc) ≠ main_v3 by decide),
    StableHlo.reshape_result_ne _ _ _ _ _ _ _ (show (main_arg6 : Ref sig .tc) ≠ main_v2 by decide), W2_arg m d f main_arg6 (by decide) (by decide)]
  rfl

theorem VR_v5 (d : Dev nD) (f : Buf (Elt F) (oLoc d)) :
    VR m d f d main_v5 = shapeCast S1x128 (m ((SparseCore.T d : Thread nD τ).loc main_arg7)) shapeCasts_S128_S1x128 := by
  unfold VR W6
  rw [StableHlo.reshape_result]
  unfold W5 W4 W3
  rw [StableHlo.reshape_result_ne _ _ _ _ _ _ _ (show (main_arg7 : Ref sig .tc) ≠ main_v4 by decide),
    StableHlo.reshape_result_ne _ _ _ _ _ _ _ (show (main_arg7 : Ref sig .tc) ≠ main_v3 by decide),
    StableHlo.reshape_result_ne _ _ _ _ _ _ _ (show (main_arg7 : Ref sig .tc) ≠ main_v2 by decide), W2_arg m d f main_arg7 (by decide) (by decide)]
  rfl

/-- An array none of the four reshapes writes is, at the layer-norm call, what it was after the kernel. -/
theorem VR_arg (d : Dev nD) (f : Buf (Elt F) (oLoc d)) (r : Ref sig .tc) (h0 : r ≠ main_v0) (h1 : r ≠ main_v1) (h2 : r ≠ main_v2) (h3 : r ≠ main_v3)
    (h4 : r ≠ main_v4) (h5 : r ≠ main_v5) : VR m d f d r = m ((SparseCore.T d : Thread nD τ).loc r) := by
  unfold VR W6 W5 W4 W3
  rw [StableHlo.reshape_result_ne _ _ _ _ _ _ _ h5, StableHlo.reshape_result_ne _ _ _ _ _ _ _ h4, StableHlo.reshape_result_ne _ _ _ _ _ _ _ h3,
    StableHlo.reshape_result_ne _ _ _ _ _ _ _ h2, W2_arg m d f r h0 h1]

theorem VR_a2 (d : Dev nD) (f : Buf (Elt F) (oLoc d)) : VR m d f d main_arg2 = m ((SparseCore.T d : Thread nD τ).loc main_arg2) :=
  VR_arg m d f main_arg2 (by decide) (by decide) (by decide) (by decide) (by decide) (by decide)
theorem VR_a5 (d : Dev nD) (f : Buf (Elt F) (oLoc d)) : VR m d f d main_arg5 = m ((SparseCore.T d : Thread nD τ).loc main_arg5) :=
  VR_arg m d f main_arg5 (by decide) (by decide) (by decide) (by decide) (by decide) (by decide)

/-- The result: the transpose of the layer-norm call's output. -/
theorem W8_v7 (d : Dev nD) (f : Buf (Elt F) (oLoc d)) :
    W8 m d f v7' = transpose S4096x43x128 [1, 0, 2] (TcRegion.regionOutV (VR m d f) d) transposes_S43x4096x128_S4096x43x128_1_0_2 := by
  unfold W8
  rw [StableHlo.unary_result]
  unfold W7
  rw [Function.update_self, TcRegion.post_v6]

/-! ## A pointwise statement of what the slabs hold pins the whole output array -/

/-- On the worker's slabs the output array is `g` of the tables and the index array. -/
def OutAt (g : (d : Dev nD) → Buf (Elt F) (tLoc d) → Buf (Elt F) (iLoc d) → Buf (Elt F) (oLoc d)) :
    (d : Dev nD) → Buf (Elt F) (tLoc d) → Buf (Elt F) (iLoc d) → grid0.Coords → Buf (Elt F) (oLoc d) → Prop :=
  fun d ft fi L f => ∀ x ∈ oSetL L, f x = g d ft fi x

theorem OutAt_local (g : (d : Dev nD) → Buf (Elt F) (tLoc d) → Buf (Elt F) (iLoc d) → Buf (Elt F) (oLoc d)) : OkLocal (F := F) (OutAt g) :=
  fun d ft fi L f f' hff' h x hx => (hff' x hx).symm.trans (h x hx)

/-- The thirty-two workers' slabs cover the output array: if each holds `g`, the array is `g`. -/
theorem eq_of_OkAll (g : (d : Dev nD) → Buf (Elt F) (tLoc d) → Buf (Elt F) (iLoc d) → Buf (Elt F) (oLoc d)) (d : Dev nD)
    (f : Buf (Elt F) (oLoc d)) (h : OkAll m (OutAt g) d f) : f = g d (m (tLoc d)) (fI m d) := by
  funext x
  have hx : x ∈ (Finset.univ : Finset grid0.Coords).biUnion oSetL := by rw [oSetL_cover]; exact Finset.mem_univ x
  obtain ⟨L, -, hL⟩ := Finset.mem_biUnion.mp hx
  exact h (L 0) (L 1) x (by rw [coordsV_eta]; exact hL)

end Cert.KernelIdeal.Sc

end
-- ==== Proof.ScSlots.lean ====
/-
  The four slots of a vector subcore's row scratch and their two rings of DMA semaphores, named once: slot `j` is
  rows [128 j, 128 j + 128) of the scratch; chunk `c` of a worker's 26 chunks lives in slot `c mod 4`, is gathered
  on the first ring's semaphore `c mod 4` and stored on the second ring's. The kernel names a slot by integer
  chains over the loop counter, a different chain at each place it slices; each chain is the slot's name here.
-/
import proofs.«206634_g85779086836150_cont_9to1c4b_256_28_alg».proof.Proof.ScPay

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Slot number of chunk `n`. -/
def sl (n : ℕ) : Fin 4 := ⟨n % 4, Nat.mod_lt _ (by decide)⟩
theorem sl_val (n : ℕ) : (sl n).val = n % 4 := rfl
theorem sl_add4 (n : ℕ) : sl (n + 4) = sl n := Fin.ext (by simp [sl])

abbrev csem (k : Nat) (hk : k < 21 := by omega) : DmaSem sig := ⟨k, hk⟩
/-- Slot `j`'s gather semaphore and its store semaphore. -/
abbrev gcell (j : Fin 4) : DmaSem sig := csem j.val (by have := j.isLt; omega)
abbrev scell (j : Fin 4) : DmaSem sig := csem (4 + j.val) (by have := j.isLt; omega)

theorem slotK_inb (j : Fin 4) : ∀ a, (![128 * j.val, 0] : Fin 2 → Nat) a + S128x128.size a ≤ S512x128.size a := by
  have := j.isLt; intro a; fin_cases a
  · show 128 * j.val + 128 ≤ 512; omega
  · show 0 + 128 ≤ 128; omega
/-- Slot `j` of the row scratch. -/
abbrev slotK (j : Fin 4) : Memref sig .scVector .vmem S128x128 .f32 :=
  (sB).slice (Rect.unit (s := S512x128) ![128 * j.val, 0] S128x128.size (slotK_inb j)) (fun _ => rfl)

theorem slot_of_off {off : Fin 2 → Nat} (j : Fin 4) (h : off = ![128 * j.val, 0]) (inb : ∀ a, off a + S128x128.size a ≤ S512x128.size a) :
    (sB).slice (Rect.unit (s := S512x128) off S128x128.size inb) (fun _ => rfl) = slotK j := by
  subst h; rfl

theorem cellK_inb (j : Fin 4) : ∀ a, (![j.val] : Fin 1 → Nat) a + S1.size a ≤ S4.size a := by
  have := j.isLt; intro a; fin_cases a; show j.val + 1 ≤ 4; omega

theorem gsemK : ∀ j : Fin 4, ((cc0_scratch2.slice (Rect.unit (s := S4) ![j.val] S1.size (cellK_inb j))).squeeze S_ squeezes_S1_S_).sem = gcell j := by
  decide +kernel
theorem ssemK : ∀ j : Fin 4, ((cc0_scratch3.slice (Rect.unit (s := S4) ![j.val] S1.size (cellK_inb j))).squeeze S_ squeezes_S1_S_).sem = scell j := by
  decide +kernel

theorem gsem_of_off {off : Fin 1 → Nat} (j : Fin 4) (h : off = ![j.val]) (inb : ∀ a, off a + S1.size a ≤ S4.size a) :
    ((cc0_scratch2.slice (Rect.unit (s := S4) off S1.size inb)).squeeze S_ squeezes_S1_S_).sem = gcell j := by
  rw [SemArray.slice_unit_congr cc0_scratch2 h inb (cellK_inb j)]; exact gsemK j
theorem ssem_of_off {off : Fin 1 → Nat} (j : Fin 4) (h : off = ![j.val]) (inb : ∀ a, off a + S1.size a ≤ S4.size a) :
    ((cc0_scratch3.slice (Rect.unit (s := S4) off S1.size inb)).squeeze S_ squeezes_S1_S_).sem = scell j := by
  rw [SemArray.slice_unit_congr cc0_scratch3 h inb (cellK_inb j)]; exact ssemK j

variable (k : Fin k0_t1_loop.trips)

/-! The kernel's spellings at trip `k`: the slot and semaphores of chunk `k + 3` where its gather is issued (and
    where the store of chunk `k - 1`, which had the slot before, is waited for), those of chunk `k` where its gather
    is waited for and its store issued. -/
abbrev ssemW (hc1 : k0_cond1 k = 1#1) : DmaSem sig := ((cc0_scratch3.slice (Rect.unit (s := S4) (k0_off6 k) S1.size (k0_off6_inb k hc1))).squeeze S_ squeezes_S1_S_).sem
abbrev gsemI (hc2 : k0_cond2 k = 1#1) : DmaSem sig := ((cc0_scratch2.slice (Rect.unit (s := S4) (k0_off10 k) S1.size (k0_off10_inb k hc2))).squeeze S_ squeezes_S1_S_).sem
abbrev gsemW : DmaSem sig := ((cc0_scratch2.slice (Rect.unit (s := S4) (k0_off14 k) S1.size (k0_off14_inb k))).squeeze S_ squeezes_S1_S_).sem
abbrev ssemI : DmaSem sig := ((cc0_scratch3.slice (Rect.unit (s := S4) (k0_off14 k) S1.size (k0_off14_inb k))).squeeze S_ squeezes_S1_S_).sem
abbrev slotA (hc2 : k0_cond2 k = 1#1) : Memref sig .scVector .vmem S128x128 .f32 := (sB).slice (Rect.unit (s := S512x128) (k0_off7 k) S128x128.size (k0_off7_inb k hc2)) (fun _ => rfl)
abbrev slotB : Memref sig .scVector .vmem S128x128 .f32 := (sB).slice (Rect.unit (s := S512x128) (k0_off11 k) S128x128.size (k0_off11_inb k)) (fun _ => rfl)

theorem slotA_eq (hc2 : k0_cond2 k = 1#1) : slotA k hc2 = slotK (sl (k.val + 3)) := slot_of_off _ (k0_off7_eq k) _
theorem slotB_eq : slotB k = slotK (sl k.val) := slot_of_off _ (k0_off11_eq k) _
theorem gsemI_eq (hc2 : k0_cond2 k = 1#1) : gsemI k hc2 = gcell (sl (k.val + 3)) := gsem_of_off _ (k0_off10_eq k) _
theorem gsemW_eq : gsemW k = gcell (sl k.val) := gsem_of_off _ (k0_off14_eq k) _
theorem ssemW_eq (hc1 : k0_cond1 k = 1#1) : ssemW k hc1 = scell (sl (k.val + 3)) := ssem_of_off _ (k0_off6_eq k) _
theorem ssemI_eq : ssemI k = scell (sl k.val) := ssem_of_off _ (k0_off14_eq k) _

/-- The two guards of a trip, read off the counter: the store of chunk `k - 1` is waited for from trip 1 on; chunk
    `k + 3` is gathered while it exists. -/
theorem cond1_iff : ∀ k : Fin k0_t1_loop.trips, k0_cond1 k = 1#1 ↔ 1 ≤ k.val := by decide +kernel
theorem cond2_iff : ∀ k : Fin k0_t1_loop.trips, k0_cond2 k = 1#1 ↔ k.val + 3 < 26 := by decide +kernel
theorem trips_eq : k0_t1_loop.trips = 26 := by decide

end Cert.KernelIdeal.Sc

end
-- ==== Proof.LibRealOps.lean ====
/-
  The extended-real float operations restricted to the reals.

  Every operation below, applied to coercions of real numbers under the side condition that keeps it away
  from its corner (a nonzero divisor, a nonnegative radicand, a positive argument of the reciprocal square
  root), answers the coercion of the real operation. A computation whose inputs are real and whose divisors
  and radicands are kept positive is therefore the coercion of ONE real expression, and an equation between
  two such computations is an equation of real numbers: no case analysis on the infinities is left.

  The second half states, over the reals, the three rearrangements by which a normalised adjacency product
  may be written:
    * a sum divided by a nonzero number is the sum of the divided terms;
    * the positive part of a sum, times the reciprocal of a positive number, is the positive part of the
      sum of the divided terms;
    * a product divided by a square root is the product with the reciprocal square root.
-/
import Idealize.ShloMosaic.PureOps.Ideal
import Idealize.ShloMosaic.PureOps.Ideal.Laws

open Idealize.ShloMosaic

namespace RealOps

/-! ## The operations at real arguments -/

/-- The quotient of two reals, the divisor nonzero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of two reals is the real maximum. -/
theorem max_coe_coe (a b : ℝ) : max (a : EReal) (b : EReal) = ((max a b : ℝ) : EReal) :=
  (EReal.coe_strictMono.monotone.map_max).symm

/-- A finite sum of reals is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The square root of a nonnegative real is the real square root. -/
theorem sqrt_coe_of_nonneg {r : ℝ} (h : 0 ≤ r) : Ideal.sqrt (r : EReal) = ((Real.sqrt r : ℝ) : EReal) := by
  rw [Ideal.sqrt_coe, if_neg (not_lt.mpr h)]

/-- The reciprocal square root of a positive real is the reciprocal of the real square root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- Dividing a real by the square root of a positive real is multiplying it by the reciprocal square root:
    the two ways a variance normalisation is written. -/
theorem div_sqrt_eq_mul_rsqrt (a : ℝ) {v : ℝ} (hv : 0 < v) :
    Ideal.div (a : EReal) (Ideal.sqrt (v : EReal)) = (a : EReal) * Ideal.rsqrt (v : EReal) := by
  have hs : Real.sqrt v ≠ 0 := (Real.sqrt_pos.mpr hv).ne'
  rw [sqrt_coe_of_nonneg hv.le, rsqrt_coe_of_pos hv, div_coe_coe a hs, ← EReal.coe_mul, div_eq_mul_inv]

/-! ## The rearrangements, over the reals -/

/-- A sum of products divided by a number is the sum of the products of the divided first factors. -/
theorem sum_mul_div {ι : Type*} (s : Finset ι) (f g : ι → ℝ) (δ : ℝ) :
    (∑ i ∈ s, f i * g i) / δ = ∑ i ∈ s, (f i / δ) * g i := by
  rw [Finset.sum_div]
  exact Finset.sum_congr rfl fun i _ => by ring

/-- The positive part commutes with division by a positive number. -/
theorem max_zero_div {x δ : ℝ} (hδ : 0 < δ) : max (x / δ) 0 = max x 0 / δ := by
  rcases le_total x 0 with hx | hx
  · rw [max_eq_right hx, max_eq_right (div_nonpos_of_nonpos_of_nonneg hx hδ.le), zero_div]
  · rw [max_eq_left hx, max_eq_left (div_nonneg hx hδ.le)]

/-- The positive part of a sum of products, scaled by the reciprocal of a positive number, is the positive
    part of the sum of the products of the divided first factors. -/
theorem max_zero_sum_mul_recip {ι : Type*} (s : Finset ι) (f g : ι → ℝ) {δ : ℝ} (hδ : 0 < δ) :
    max (∑ i ∈ s, f i * g i) 0 * (1 / δ) = max (∑ i ∈ s, (f i / δ) * g i) 0 := by
  rw [← sum_mul_div, max_zero_div hδ, mul_one_div]

end RealOps
-- ==== Proof.Spec.lean ====
/-
  The specification both programs are read against.

  Every one of the 43 rows of length 128 that the two programs normalise is a function Fin 128 → EReal of the
  argument arrays: a row of an embedding table picked by a categorical feature (catRow), a numerical feature
  times a weight row (numRow), or a pretrained embedding times a matrix (embRow). The row is then normalised:
  its mean is subtracted, the result is scaled by the reciprocal of the square root of the variance plus a
  small constant, multiplied by a gain and shifted by a bias. The two programs arrange this differently:

    * lnRef divides by the square root, takes the variance as the sum of squares divided by 128 minus a
      degrees-of-freedom count that is the integer 0 converted to a float, under a select that answers a
      junk value when that difference is not positive, and its sums start from the zero word;
    * lnKer multiplies by the reciprocal square root, divides the sum of squares by the literal 128, and its
      sums have no initial term.

  lnKer_eq_lnRef says the two agree on a row of reals: then the mean and the variance are reals, the variance
  is nonnegative, the added constant is a positive real, so the radicand is a positive real and dividing by
  its square root is multiplying by its reciprocal square root. The gain and the bias enter both sides in the
  same place and play no part.
-/
import Idealize.ShloMosaic.PureOps.Ideal
import Idealize.ShloMosaic.PureOps.Ideal.Laws
import Idealize.ShloMosaic.Lib.ValueIdx
import proofs.«206634_g85779086836150_cont_9to1c4b_256_28_alg».proof.Proof.LibRealOps

noncomputable section

open scoped BigOperators
open Idealize.ShloMosaic Idealize.ShloMosaic.ValueIdx

namespace Cert.Spec

/-! ## The literals -/

/-- The word 0x43000000 denotes 128. -/
theorem w128_eq : Ideal.ofBits .f32 0x43000000#32 = ((128 : ℝ) : EReal) := by
  simp [Ideal.ofBits, Ideal.ieee, -EReal.coe_mul]; norm_num

/-- The word 0x3727C5AC (the float nearest 1e-5) denotes a positive real. -/
theorem weps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The integer word 0 converted to a float is 0. -/
theorem conv_zero : (((0#32 : BitVec 32).toInt : ℝ) : EReal) = 0 := by simp

/-! ## The reference's arrangement -/

/-- The mean as the reference takes it: the sum from the zero word, divided by the literal 128. -/
def meanRef (x : Fin 128 → EReal) : EReal :=
  Ideal.div (Ideal.ofBits .f32 0x00000000#32 + ∑ k : Fin 128, x k) (Ideal.ofBits .f32 0x43000000#32)

/-- The variance as the reference's outlined function takes it: the sum of the squared deviations divided by
    128 minus the converted degrees-of-freedom count 0, kept only where that difference is positive. -/
def varRef (x : Fin 128 → EReal) : EReal :=
  Scalar.select
    (Ideal.cmp .ogt (Ideal.ofBits .f32 0x43000000#32 - (((0#32 : BitVec 32).toInt : ℝ) : EReal))
      (Ideal.ofBits .f32 0x00000000#32))
    (Ideal.div
      (Ideal.ofBits .f32 0x00000000#32 + ∑ k : Fin 128, (x k - meanRef x) * (x k - meanRef x))
      (Ideal.ofBits .f32 0x43000000#32 - (((0#32 : BitVec 32).toInt : ℝ) : EReal)))
    (Ideal.ofBits .f32 0x7FC00000#32)

/-- The reference's normalised row at a lane. -/
def lnRef (x g b : Fin 128 → EReal) (d : Fin 128) : EReal :=
  Ideal.div (x d - meanRef x) (Ideal.sqrt (varRef x + Ideal.ofBits .f32 0x3727C5AC#32)) * g d + b d

/-! ## The kernel's arrangement -/

/-- The mean as the kernel takes it: the lane sum divided by the literal 128. -/
def meanKer (x : Fin 128 → EReal) : EReal :=
  Ideal.div (∑ k : Fin 128, x k) (Ideal.ofBits .f32 0x43000000#32)

/-- The variance as the kernel takes it: the lane sum of the squared deviations divided by the literal 128. -/
def varKer (x : Fin 128 → EReal) : EReal :=
  Ideal.div (∑ k : Fin 128, (x k - meanKer x) * (x k - meanKer x)) (Ideal.ofBits .f32 0x43000000#32)

/-- The kernel's normalised row at a lane. -/
def lnKer (x g b : Fin 128 → EReal) (d : Fin 128) : EReal :=
  (x d - meanKer x) * Ideal.rsqrt (varKer x + Ideal.ofBits .f32 0x3727C5AC#32) * g d + b d

/-! ## The two arrangements on a row of reals -/

/-- The real mean of a row. -/
def mu (X : Fin 128 → ℝ) : ℝ := (∑ k : Fin 128, X k) / 128

/-- The real variance of a row. -/
def sigma2 (X : Fin 128 → ℝ) : ℝ := (∑ k : Fin 128, (X k - mu X) * (X k - mu X)) / 128

theorem sigma2_nonneg (X : Fin 128 → ℝ) : 0 ≤ sigma2 X :=
  div_nonneg (Finset.sum_nonneg fun k _ => mul_self_nonneg _) (by norm_num)

theorem meanRef_coe (X : Fin 128 → ℝ) : meanRef (fun k => (X k : EReal)) = ((mu X : ℝ) : EReal) := by
  unfold meanRef mu
  rw [Ideal.ofBits_zero_f32, zero_add, RealOps.sum_coe, w128_eq, RealOps.div_coe_coe _ (by norm_num)]

theorem meanKer_coe (X : Fin 128 → ℝ) : meanKer (fun k => (X k : EReal)) = ((mu X : ℝ) : EReal) := by
  unfold meanKer mu
  rw [RealOps.sum_coe, w128_eq, RealOps.div_coe_coe _ (by norm_num)]

theorem varKer_coe (X : Fin 128 → ℝ) : varKer (fun k => (X k : EReal)) = ((sigma2 X : ℝ) : EReal) := by
  unfold varKer sigma2
  rw [meanKer_coe]
  simp only [← EReal.coe_sub, ← EReal.coe_mul]
  rw [RealOps.sum_coe, w128_eq, RealOps.div_coe_coe _ (by norm_num)]

theorem varRef_coe (X : Fin 128 → ℝ) : varRef (fun k => (X k : EReal)) = ((sigma2 X : ℝ) : EReal) := by
  unfold varRef sigma2
  rw [meanRef_coe, conv_zero, sub_zero, Ideal.ofBits_zero_f32, w128_eq]
  have hc : Ideal.cmp .ogt ((128 : ℝ) : EReal) 0 = 1#1 := by
    have : (0 : EReal) < ((128 : ℝ) : EReal) := by exact_mod_cast (by norm_num : (0 : ℝ) < 128)
    simp [Ideal.cmp, this]
  rw [hc, select_one, zero_add]
  simp only [← EReal.coe_sub, ← EReal.coe_mul]
  rw [RealOps.sum_coe, RealOps.div_coe_coe _ (by norm_num)]

/-- On a row of reals the kernel's arrangement is the reference's. -/
theorem lnKer_eq_lnRef (x g b : Fin 128 → EReal) (hx : ∀ d, ∃ r : ℝ, x d = (r : EReal))
    (hg : ∀ d, ∃ r : ℝ, g d = (r : EReal)) (hb : ∀ d, ∃ r : ℝ, b d = (r : EReal)) (d : Fin 128) :
    lnKer x g b d = lnRef x g b d := by
  choose X hX using hx
  obtain rfl : x = fun k => ((X k : ℝ) : EReal) := funext hX
  obtain ⟨e, he, hw⟩ := weps_pos
  unfold lnKer lnRef
  rw [varKer_coe, varRef_coe, meanKer_coe, meanRef_coe, hw, ← EReal.coe_add, ← EReal.coe_sub,
    RealOps.div_sqrt_eq_mul_rsqrt _ (add_pos_of_nonneg_of_pos (sigma2_nonneg X) he)]

/-! ## The rows before normalisation -/

/-- The row of table f picked by the categorical feature f of batch row b (the stored index read signed and
    kept inside the table, which changes nothing when it is in range). -/
def catRow (a1 : (⟨2, ![26, 4096]⟩ : Shape).Idx → BitVec 32) (a3 : (⟨3, ![26, 100001, 128]⟩ : Shape).Idx → EReal)
    (f : Fin 26) (b : Fin 4096) : Fin 128 → EReal :=
  fun d => a3 (ix3 f (⟨min (a1 (ix2 f b)).toInt.toNat 100000, by omega⟩ : Fin 100001) d)

/-- In range, the picked row is the row at the stored index read as a natural number. -/
theorem catRow_eq (a1 : (⟨2, ![26, 4096]⟩ : Shape).Idx → BitVec 32) (a3 : (⟨3, ![26, 100001, 128]⟩ : Shape).Idx → EReal)
    (f : Fin 26) (b : Fin 4096) (h0 : 0 ≤ (a1 (ix2 f b)).toInt) (h1 : (a1 (ix2 f b)).toInt ≤ 99999)
    (hlt : (a1 (ix2 f b)).toNat < 100001) (d : Fin 128) :
    catRow a1 a3 f b d = a3 (ix3 f (⟨(a1 (ix2 f b)).toNat, hlt⟩ : Fin 100001) d) := by
  unfold catRow
  have hn : (a1 (ix2 f b)).toInt = ((a1 (ix2 f b)).toNat : ℤ) := by
    rw [BitVec.toInt_eq_msb_cond] at h0 ⊢
    split
    · rename_i hm
      exfalso
      rw [if_pos hm] at h0
      have := (a1 (ix2 f b)).isLt
      omega
    · rfl
  have : min (a1 (ix2 f b)).toInt.toNat 100000 = (a1 (ix2 f b)).toNat := by
    rw [hn] at h1 ⊢
    rw [Int.toNat_natCast]
    omega
  simp only [this]

/-- Numerical feature n of batch row b times its weight row. -/
def numRow (a0 : (⟨3, ![13, 4096, 1]⟩ : Shape).Idx → EReal) (a4 : (⟨3, ![13, 1, 128]⟩ : Shape).Idx → EReal)
    (n : Fin 13) (b : Fin 4096) : Fin 128 → EReal :=
  fun d => a0 (ix3 n b (0 : Fin 1)) * a4 (ix3 n (0 : Fin 1) d)

/-- Pretrained embedding n of batch row b times its matrix. -/
def embRow (a2 : (⟨3, ![4, 4096, 768]⟩ : Shape).Idx → EReal) (a5 : (⟨3, ![4, 768, 128]⟩ : Shape).Idx → EReal)
    (n : Fin 4) (b : Fin 4096) : Fin 128 → EReal :=
  fun d => ∑ k : Fin 768, a2 (ix3 n b k) * a5 (ix3 n k d)

/-- A vector of 128 lanes read as a function of the lane. -/
def lane (a : (⟨1, ![128]⟩ : Shape).Idx → EReal) : Fin 128 → EReal := fun d => a (ix1 d)

end Cert.Spec

end
-- ==== Proof.ScPayload.lean ====
/-
  The values the gather kernel moves. Chunk `c` of a worker is the 128 × 128 block whose row `r` is the row of the
  chunk's table that entry `r` of the worker's list `c` names. What the indirect gather lands in a slot is that block;
  what the store through a slab writes is the slot, at the slab's place, and nothing elsewhere; a worker that leaves
  every one of its 26 slabs holding its chunk has, with the other 31, left the gathered rows equal to the
  specification's picked rows: element (feature, batch row, lane) lies in chunk 32·feature + row / 128 at row
  `row % 128`, and the index array is the categorical features re-indexed by flat position.
-/
import proofs.«206634_g85779086836150_cont_9to1c4b_256_28_alg».proof.Proof.ScOffsets
import proofs.«206634_g85779086836150_cont_9to1c4b_256_28_alg».proof.Proof.ScSlots
import proofs.«206634_g85779086836150_cont_9to1c4b_256_28_alg».proof.Proof.Spec
import Idealize.ShloMosaic.Lib.SparseCore.Stream
import Idealize.ShloMosaic.Lib.ValueIdx
import Idealize.ShloMosaic.Lib.Pipeline.Value

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-! ## Where the kernel's slices sit in their arrays -/

theorem off15_0 (L : grid0.Coords) (k : Fin k0_t1_loop.trips) : k0_off15 L k 0 = qOf L k / 32 := by rw [k0_off15_eq, qOf_eq]; rfl
theorem off15_1 (L : grid0.Coords) (k : Fin k0_t1_loop.trips) : k0_off15 L k 1 = 0 := by rw [k0_off15_eq]; rfl
theorem off15_2 (L : grid0.Coords) (k : Fin k0_t1_loop.trips) : k0_off15 L k 2 = 0 := by rw [k0_off15_eq]; rfl
theorem off16_0 (L : grid0.Coords) (k : Fin k0_t1_loop.trips) : k0_off16 L k 0 = 128 * (qOf L k % 32) := by rw [k0_off16_eq, qOf_eq]; rfl
theorem off16_1 (L : grid0.Coords) (k : Fin k0_t1_loop.trips) : k0_off16 L k 1 = 0 := by rw [k0_off16_eq]; rfl
theorem off1_0 (L : grid0.Coords) : k0_off1 L 0 = wOf L := by rw [k0_off1_eq]; rfl
theorem off1_1 (L : grid0.Coords) : k0_off1 L 1 = 0 := by rw [k0_off1_eq]; rfl
theorem off1_2 (L : grid0.Coords) : k0_off1 L 2 = 0 := by rw [k0_off1_eq]; rfl

theorem slab_feat_lt (L : grid0.Coords) (k : Fin k0_t1_loop.trips) : qOf L k / 32 < 26 := by have := qOf_lt L k; omega
theorem slab_row_lt (L : grid0.Coords) (k : Fin k0_t1_loop.trips) (r : Fin 128) : 128 * (qOf L k % 32) + r.val < 4096 := by
  have := r.isLt; omega

/-- Element `x` of chunk `q`'s slab sits at feature `q / 32`, batch row `128 * (q % 32) + x 0`, lane `x 1`. -/
theorem slab_emb (L : grid0.Coords) (k : Fin k0_t1_loop.trips) (x : S128x128.Idx) :
    (slabI L k).view.emb x = (ix3 (⟨qOf L k / 32, slab_feat_lt L k⟩ : Fin 26) (⟨128 * (qOf L k % 32) + (x 0).val, slab_row_lt L k (x 0)⟩ : Fin 4096) (x 1) : S26x4096x128.Idx) := by
  have e : (slabI L k).view.emb x = (r15 L k).emb (Shape.reshapeEquiv squeezes_S1x4096x128_S4096x128.numel_eq ((r16 L k).emb x)) := rfl
  rw [e, Shape.reshapeEquiv_cons_one]
  have o0 := off15_0 L k; have o1 := off15_1 L k; have o2 := off15_2 L k; have p0 := off16_0 L k; have p1 := off16_1 L k
  funext a
  apply Fin.ext
  rw [Rect.emb_apply]
  match a with
  | ⟨0, _⟩ => show k0_off15 L k 0 + 1 * 0 = qOf L k / 32; omega
  | ⟨1, _⟩ => show k0_off15 L k 1 + 1 * (k0_off16 L k 0 + 1 * (x 0).val) = 128 * (qOf L k % 32) + (x 0).val; omega
  | ⟨2, _⟩ => show k0_off15 L k 2 + 1 * (k0_off16 L k 1 + 1 * (x 1).val) = (x 1).val; omega

/-- Entry `j` of list `c` of the worker's row of the index array sits at `(wOf L, c, j)`. -/
theorem iRow_emb (L : grid0.Coords) (c : Fin 26) (j : Fin 128) :
    (iRowK L).view.emb (ix2 c j) = (ix3 (⟨wOf L, wOf_lt L⟩ : Fin 32) c j : S32x26x128.Idx) := by
  have e : (iRowK L).view.emb (ix2 c j) = (r1 L).emb (Shape.reshapeEquiv squeezes_S1x26x128_S26x128.numel_eq (ix2 c j)) := rfl
  rw [e, Shape.reshapeEquiv_cons_one]
  have o0 := off1_0 L; have o1 := off1_1 L; have o2 := off1_2 L
  funext a
  apply Fin.ext
  rw [Rect.emb_apply]
  match a with
  | ⟨0, _⟩ => show k0_off1 L 0 + 1 * 0 = wOf L; omega
  | ⟨1, _⟩ => show k0_off1 L 1 + 1 * c.val = c.val; omega
  | ⟨2, _⟩ => show k0_off1 L 2 + 1 * j.val = j.val; omega

theorem slab_emb_mem (L : grid0.Coords) (k : Fin k0_t1_loop.trips) (x : S128x128.Idx) : (slabI L k).view.emb x ∈ oSetL L := by
  have hm : (slabI L k).view.emb x ∈ (slabI L k).view.set := View.emb_mem_set _ x
  have h := (mem_slabI L k _).mp hm
  have := trip_lt k
  exact (mem_oSetL L _).mpr (by omega)

/-! ## The gathered values -/

/-- The table chunk `c` of worker `L` is gathered from. -/
def tabOf (L : grid0.Coords) (c : ℕ) : Fin 26 := ⟨((26 * wOf L + c) / 32) % 26, Nat.mod_lt _ (by decide)⟩

theorem tabOf_val (L : grid0.Coords) {c : ℕ} (hc : c < 26) : (tabOf L c).val = (26 * wOf L + c) / 32 := by
  have := wOf_lt L
  show ((26 * wOf L + c) / 32) % 26 = _
  omega

variable (d : Dev nD) (L : grid0.Coords) (ft : Buf (Elt F) (tLoc d)) (fi : Buf (Elt F) (iLoc d))

/-- Chunk `c` of worker `L`, as the 128 × 128 block the kernel stores: row `x 0` is the row of the chunk's table that entry
    `x 0` of the worker's list `c` names (kept inside the table, which changes nothing when it is in range). -/
def payC (c : ℕ) : S128x128.Idx → Elt F .f32 :=
  fun x => ft (ix3 (tabOf L c) (⟨min (fi ((iRowK L).view.emb (ix2 (⟨c % 26, Nat.mod_lt _ (by decide)⟩ : Fin 26) (x 0)))).toNat 100000, by omega⟩ : Fin 100001) (x 1))

/-- What a worker leaves in the gathered rows: each of its 26 slabs holds its chunk. -/
def OutOk (d : Dev nD) (ft : Buf (Elt F) (tLoc d)) (fi : Buf (Elt F) (iLoc d)) (L : grid0.Coords) (f : Buf (Elt F) (oLoc d)) : Prop :=
  ∀ (k : Fin k0_t1_loop.trips) (x : S128x128.Idx), f ((slabI L k).view.emb x) = payC d L ft fi k.val x

/-- It reads the gathered rows on the worker's share only. -/
theorem OutOk_local : ∀ (d : Dev nD) (ft : Buf (Elt F) (tLoc d)) (fi : Buf (Elt F) (iLoc d)) (L : grid0.Coords) (f f' : Buf (Elt F) (oLoc d)),
    (∀ x ∈ oSetL L, f x = f' x) → OutOk d ft fi L f → OutOk d ft fi L f' := by
  intro d ft fi L f f' hag h k x
  rw [← h k x]
  exact (hag _ (slab_emb_mem L k x)).symm

/-! ## The gathered rows against the specification's picked rows -/

theorem toInt_eq_toNat_of_nonneg (v : BitVec 32) (h0 : 0 ≤ v.toInt) : v.toInt = (v.toNat : ℤ) := by
  rw [BitVec.toInt_eq_msb_cond] at h0 ⊢
  split
  · rename_i hm
    exfalso
    rw [if_pos hm] at h0
    have := v.isLt
    omega
  · rfl

/-- The index array is the categorical features re-indexed by flat position: entry `(w, c, j)` is feature row
    `((26 w + c) 128 + j) / 4096`, batch row the remainder. -/
theorem fi_apply (a1 : IVec S26x4096 32) (hsc : S26x4096.ShapeCasts S32x26x128) (w : Fin 32) (c : Fin 26) (j : Fin 128)
    (f' : Fin 26) (b : Fin 4096) (h : f'.val * 4096 + b.val = (w.val * 26 + c.val) * 128 + j.val) :
    shapeCast S32x26x128 a1 hsc (ix3 w c j) = a1 (ix2 f' b) :=
  shapeCast_apply a1 hsc _ _ (by
    rw [Shape.rowMajor_val_two, Shape.rowMajor_val_three]
    show f'.val * 4096 + b.val = (w.val * 26 + c.val) * 128 + j.val
    exact h)

/-- If every worker left its chunks in its slabs, the gathered rows are the specification's picked rows: element
    `(f', b, d')` lies in chunk `32 f' + b / 128`, row `b % 128`, whose list entry is the feature's index at batch row `b`. -/
theorem hv1_of_OutOk (d : Dev nD) (a1 : IVec S26x4096 32) (a3 : FVec Ideal S26x100001x128 .f32) (hsc : S26x4096.ShapeCasts S32x26x128)
    (fi : Buf (Elt Ideal) (iLoc d)) (hfi : fi = shapeCast S32x26x128 a1 hsc)
    (hr : ∀ (f' : Fin 26) (b : Fin 4096), 0 ≤ (a1 (ix2 f' b)).toInt ∧ (a1 (ix2 f' b)).toInt ≤ 99999)
    (f : Buf (Elt Ideal) (oLoc d)) (h : ∀ c i, OutOk (F := Ideal) d a3 fi (coordsV c i) f) :
    ∀ (f' : Fin 26) (b : Fin 4096) (d' : Fin 128), f (ix3 f' b d') = Cert.Spec.catRow a1 a3 f' b d' := by
  intro f' b d'
  have hf := f'.isLt
  have hb := b.isLt
  obtain ⟨c, hc⟩ : ∃ c : Fin (grid0.bound 0), c.val = ((f'.val * 32 + b.val / 128) / 26) % 2 := ⟨⟨_, by show _ < 2; omega⟩, rfl⟩
  obtain ⟨i, hi⟩ : ∃ i : Fin (grid0.bound 1), i.val = ((f'.val * 32 + b.val / 128) / 26) / 2 := ⟨⟨_, by show _ < 16; omega⟩, rfl⟩
  obtain ⟨k, hk⟩ : ∃ k : Fin k0_t1_loop.trips, k.val = (f'.val * 32 + b.val / 128) % 26 := ⟨⟨_, by rw [trips_eq]; omega⟩, rfl⟩
  obtain ⟨r, hrr⟩ : ∃ r : Fin 128, r.val = b.val % 128 := ⟨⟨_, by omega⟩, rfl⟩
  have hw : wOf (coordsV c i) = (f'.val * 32 + b.val / 128) / 26 := by
    show 2 * i.val + c.val = _
    omega
  have hq : qOf (coordsV c i) k = f'.val * 32 + b.val / 128 := by unfold qOf; rw [hw]; omega
  have hemb : (slabI (coordsV c i) k).view.emb (ix2 r d') = (ix3 f' b d' : S26x4096x128.Idx) := by
    rw [slab_emb]
    funext a
    apply Fin.ext
    match a with
    | ⟨0, _⟩ => show qOf (coordsV c i) k / 32 = f'.val; omega
    | ⟨1, _⟩ => show 128 * (qOf (coordsV c i) k % 32) + r.val = b.val; omega
    | ⟨2, _⟩ => rfl
  have h1 := h c i k (ix2 r d')
  rw [hemb] at h1
  rw [h1]
  have h0 := (hr f' b).1
  have h99 := (hr f' b).2
  have hn := toInt_eq_toNat_of_nonneg _ h0
  have hlt : (a1 (ix2 f' b)).toNat < 100001 := by omega
  rw [Cert.Spec.catRow_eq a1 a3 f' b h0 h99 hlt d']
  unfold payC
  have hkl : k.val < 26 := trip_lt k
  have hfi' : fi ((iRowK (coordsV c i)).view.emb (ix2 (⟨k.val % 26, Nat.mod_lt _ (by decide)⟩ : Fin 26) r)) = a1 (ix2 f' b) := by
    rw [iRow_emb, hfi]
    exact fi_apply a1 hsc _ _ _ f' b (by
      show f'.val * 4096 + b.val = (wOf (coordsV c i) * 26 + k.val % 26) * 128 + r.val
      omega)
  have htab : (tabOf (coordsV c i) k.val).val = f'.val := by rw [tabOf_val _ hkl, hw]; omega
  refine congrArg a3 (funext fun a => Fin.ext ?_)
  match a with
  | ⟨0, _⟩ => exact htab
  | ⟨1, _⟩ =>
    show min (fi ((iRowK (coordsV c i)).view.emb (ix2 (⟨k.val % 26, Nat.mod_lt _ (by decide)⟩ : Fin 26) r))).toNat 100000 = (a1 (ix2 f' b)).toNat
    rw [hfi']
    omega
  | ⟨2, _⟩ => rfl

/-! ## The store through a slab -/

/-- A block stored through a slab is read back at the slab's place of each of its elements, -/
theorem store_at (L : grid0.Coords) (k : Fin k0_t1_loop.trips) (fo : Buf (Elt F) (oLoc d)) (pay : S128x128.Idx → Elt F .f32) (x : S128x128.Idx) :
    View.write (Elt F) (slabI L k).view fo pay Finset.univ ((slabI L k).view.emb x) = pay x := by
  rw [View.write_emb_of_mem _ _ (Finset.mem_univ x)]
  rfl

/-- and every element outside the slab keeps what it held. -/
theorem store_off (L : grid0.Coords) (k : Fin k0_t1_loop.trips) (fo : Buf (Elt F) (oLoc d)) (pay : S128x128.Idx → Elt F .f32)
    (i : S26x4096x128.Idx) (hi : i ∉ (slabI L k).view.set) :
    View.write (Elt F) (slabI L k).view fo pay Finset.univ i = fo i :=
  View.write_of_not_mem _ _ _ (by rw [View.setOn_univ]; exact hi)

/-- What a slot's view reads of the row scratch: the scratch at the slot's place. -/
theorem slot_read (j : Fin 4) (fB : Buf (Elt F) ((sB).view.loc (VT d L))) :
    ReadAs.same.apply ((slotK j).view.read (Elt F) fB) = fun x => fB ((slotK j).view.emb x) := rfl

/-- Element `x` of slot `j` sits at row `128 * j + x 0`, lane `x 1` of the row scratch. -/
theorem slot_emb (j : Fin 4) (x : S128x128.Idx) :
    (slotK j).view.emb x = (ix2 (⟨128 * j.val + (x 0).val, by have := j.isLt; have : (x 0).val < 128 := (x 0).isLt; omega⟩ : Fin 512) (x 1) : S512x128.Idx) := by
  funext a
  apply Fin.ext
  match a with
  | ⟨0, _⟩ => show 128 * j.val + 1 * (x 0).val = 128 * j.val + (x 0).val; omega
  | ⟨1, _⟩ => show 0 + 1 * (x 1).val = (x 1).val; omega

/-! ## What the indirect gather lands -/

theorem k0_off2_eq : ∀ (i : grid0.Coords) (r : Fin 3), k0_off2 i (BitVec.ofNat 32 r.val) = ![(52 * (i 1).val + 26 * (i 0).val + r.val) / 32, 0, 0] := by
  decide +kernel

/-- One table's plane of the tables, its leading axis dropped, whole: the gather's indexed array. -/
abbrev tabV (off : Fin 3 → ℕ) (inb : ∀ a, off a + S1x100001x128.size a ≤ S26x100001x128.size a) : Memref sig .scVector .hbm S100001x128 .f32 :=
  (((tV).slice (Rect.unit (s := S26x100001x128) off S1x100001x128.size inb) (fun _ => rfl)).squeeze S100001x128 squeezes_S1x100001x128_S100001x128).slice
    (Rect.unit (s := S100001x128) ![0, 0] S100001x128.size inb_S100001x128_S100001x128_0_0) (fun _ => rfl)

/-- One list of the list scratch, its leading axis dropped: the gather's offsets. -/
abbrev rowV (off : Fin 2 → ℕ) (inb : ∀ a, off a + S1x128.size a ≤ S26x128.size a) : Memref sig .scVector .vmem S128 .i32 :=
  ((sI).slice (Rect.unit (s := S26x128) off S1x128.size inb) (fun _ => rfl)).squeeze S128 squeezes_S1x128_S128

theorem tab_emb (off : Fin 3 → ℕ) (t : Fin 26) (h : off = ![t.val, 0, 0]) (inb : ∀ a, off a + S1x100001x128.size a ≤ S26x100001x128.size a)
    (y : S100001x128.Idx) : (tabV off inb).view.emb y = (ix3 t (y 0) (y 1) : S26x100001x128.Idx) := by
  subst h
  have e : (tabV ![t.val, 0, 0] inb).view.emb y = (Rect.unit (s := S26x100001x128) ![t.val, 0, 0] S1x100001x128.size inb).emb
      (Shape.reshapeEquiv squeezes_S1x100001x128_S100001x128.numel_eq ((Rect.unit (s := S100001x128) ![0, 0] S100001x128.size inb_S100001x128_S100001x128_0_0).emb y)) := rfl
  rw [e, Shape.reshapeEquiv_cons_one]
  funext a
  apply Fin.ext
  rw [Rect.emb_apply]
  match a with
  | ⟨0, _⟩ => show t.val + 1 * 0 = t.val; omega
  | ⟨1, _⟩ => show 0 + 1 * (0 + 1 * (y 0).val) = (y 0).val; omega
  | ⟨2, _⟩ => show 0 + 1 * (0 + 1 * (y 1).val) = (y 1).val; omega

theorem row_emb (off : Fin 2 → ℕ) (c : Fin 26) (h : off = ![c.val, 0]) (inb : ∀ a, off a + S1x128.size a ≤ S26x128.size a) (j : S128.Idx) :
    (rowV off inb).view.emb j = (ix2 c (j 0) : S26x128.Idx) := by
  subst h
  have e : (rowV ![c.val, 0] inb).view.emb j = (Rect.unit (s := S26x128) ![c.val, 0] S1x128.size inb).emb
      (Shape.reshapeEquiv squeezes_S1x128_S128.numel_eq j) := rfl
  rw [e, Shape.reshapeEquiv_cons_one]
  funext a
  apply Fin.ext
  rw [Rect.emb_apply]
  match a with
  | ⟨0, _⟩ => show c.val + 1 * 0 = c.val; omega
  | ⟨1, _⟩ => show 0 + 1 * (j 0).val = (j 0).val; omega

/-- Entry `n` of a list's words in row-major order is its entry at coordinate `n`. -/
theorem rows_val (idx : S128.Idx → Elt F .i32) {o z : ℕ} (hn : S128.numel = o) (h : ∀ x, (idx x).toNat < z) (n : Fin o) (hn' : n.val < 128) :
    (SparseCore.rows idx hn h n).val = (idx (ix1 (⟨n.val, hn'⟩ : Fin 128))).toNat := by
  unfold SparseCore.rows
  show (idx (S128.rowMajor.symm (n.cast hn.symm))).toNat = _
  congr 2
  rw [Equiv.symm_apply_eq]
  apply Fin.ext
  rw [Shape.rowMajor_val_one]
  rfl

/-- The gather's payload, entry by entry: the indexed array at the row the list names for the entry's row, at the entry's lane. -/
theorem gatherPayload_apply (g : S100001x128.Idx → Elt F .f32) (r : Fin (S128x128.size gathers_S100001x128_S128x128.axis') → Fin (S100001x128.size gathers_S100001x128_S128x128.axis))
    (x : S128x128.Idx) :
    SparseCore.gatherPayload gathers_S100001x128_S128x128 g r x = g (ix2 (⟨(r (x 0)).val, (r (x 0)).isLt⟩ : Fin 100001) (x 1)) := by
  unfold SparseCore.gatherPayload
  refine congrArg g (funext fun a => Fin.ext ?_)
  match a with
  | ⟨0, _⟩ => exact congrArg Fin.val (Shape.Gathers.idx_axis gathers_S100001x128_S128x128 r x)
  | ⟨1, _⟩ => exact Shape.Gathers.idx_of_ne gathers_S100001x128_S128x128 r x ⟨1, by decide⟩ (by decide)

/-- The gather of list `c` from the plane of chunk `c`'s table lands chunk `c`: whatever the kernel's spelling of the two
    slices' offsets, once they are the table's number and the list's. -/
theorem gather_core (c : ℕ) (hc : c < 26)
    (offT : Fin 3 → ℕ) (inbT : ∀ a, offT a + S1x100001x128.size a ≤ S26x100001x128.size a) (hT : offT = ![(26 * wOf L + c) / 32, 0, 0])
    (offR : Fin 2 → ℕ) (inbR : ∀ a, offR a + S1x128.size a ≤ S26x128.size a) (hR : offR = ![c, 0])
    (F0 : Buf (Elt F) ((sI).view.loc (VT d L)))
    (hF0 : ∀ (c : Fin 26) (j : Fin 128), F0 (ix2 c j) = fi ((iRowK L).view.emb (ix2 c j)))
    (hin : ∀ j, (fi j).toNat < 100001)
    (hn : S128.numel = S128x128.size gathers_S100001x128_S128x128.axis')
    (hin' : ∀ x, (View.read (Elt F) (rowV offR inbR).view F0 x).toNat < S100001x128.size gathers_S100001x128_S128x128.axis) :
    SparseCore.gatherPayload gathers_S100001x128_S128x128 (View.read (Elt F) (tabV offT inbT).view ft)
      (SparseCore.rows (View.read (Elt F) (rowV offR inbR).view F0) hn hin') = payC d L ft fi c := by
  have hw := wOf_lt L
  have htl : (26 * wOf L + c) / 32 < 26 := by omega
  funext x
  rw [gatherPayload_apply]
  have x0 : (x 0).val < 128 := (x 0).isLt
  have hrow : (SparseCore.rows (View.read (Elt F) (rowV offR inbR).view F0) hn hin' (x 0)).val
      = (fi ((iRowK L).view.emb (ix2 (⟨c, hc⟩ : Fin 26) (x 0)))).toNat := by
    rw [rows_val _ hn hin' (x 0) x0]
    show (F0 ((rowV offR inbR).view.emb (ix1 (⟨(x 0).val, x0⟩ : Fin 128)))).toNat = _
    rw [row_emb offR ⟨c, hc⟩ hR inbR, hF0]
    rfl
  show ft ((tabV offT inbT).view.emb (ix2 (⟨(SparseCore.rows (View.read (Elt F) (rowV offR inbR).view F0) hn hin' (x 0)).val, _⟩ : Fin 100001) (x 1))) = _
  rw [tab_emb offT ⟨(26 * wOf L + c) / 32, htl⟩ hT inbT]
  unfold payC
  have hcm : (⟨c % 26, Nat.mod_lt _ (by decide)⟩ : Fin 26) = ⟨c, hc⟩ := Fin.ext (Nat.mod_eq_of_lt hc)
  have hle := hin ((iRowK L).view.emb (ix2 (⟨c, hc⟩ : Fin 26) (x 0)))
  refine congrArg ft (funext fun a => Fin.ext ?_)
  match a with
  | ⟨0, _⟩ => exact (tabOf_val L hc).symm
  | ⟨1, _⟩ =>
    show (SparseCore.rows (View.read (Elt F) (rowV offR inbR).view F0) hn hin' (x 0)).val
      = min (fi ((iRowK L).view.emb (ix2 (⟨c % 26, Nat.mod_lt _ (by decide)⟩ : Fin 26) (x 0)))).toNat 100000
    rw [hrow, hcm]
    omega
  | ⟨2, _⟩ => rfl

/-- Trip `k` of the loop gathers chunk `k + 3` (while it exists). -/
theorem gather_loop (k : Fin k0_t1_loop.trips) (hc2 : k0_cond2 k = 1#1)
    (F0 : Buf (Elt F) ((sI).view.loc (VT d L)))
    (hF0 : ∀ (c : Fin 26) (j : Fin 128), F0 (ix2 c j) = fi ((iRowK L).view.emb (ix2 c j)))
    (hin : ∀ j, (fi j).toNat < 100001)
    (hn : S128.numel = S128x128.size gathers_S100001x128_S128x128.axis')
    (hin' : ∀ x, (View.read (Elt F) (rowV (k0_off8 k) (k0_off8_inb k hc2)).view F0 x).toNat < S100001x128.size gathers_S100001x128_S128x128.axis) :
    SparseCore.gatherPayload gathers_S100001x128_S128x128 (View.read (Elt F) (tabV (k0_off9 L k) (k0_off9_inb L k hc2)).view ft)
      (SparseCore.rows (View.read (Elt F) (rowV (k0_off8 k) (k0_off8_inb k hc2)).view F0) hn hin') = payC d L ft fi (k.val + 3) :=
  gather_core d L ft fi (k.val + 3) ((cond2_iff k).mp hc2) _ _
    (by rw [k0_off9_eq]; congr 2; unfold wOf; omega) _ _ (k0_off8_eq k) F0 hF0 hin hn hin'

/-- The three gathers before the loop: chunk `r`, for `r` = 0, 1, 2. -/
theorem gather_pro (r : Fin 3) (inbR : ∀ a, (![r.val, 0] : Fin 2 → ℕ) a + S1x128.size a ≤ S26x128.size a)
    (F0 : Buf (Elt F) ((sI).view.loc (VT d L)))
    (hF0 : ∀ (c : Fin 26) (j : Fin 128), F0 (ix2 c j) = fi ((iRowK L).view.emb (ix2 c j)))
    (hin : ∀ j, (fi j).toNat < 100001)
    (hn : S128.numel = S128x128.size gathers_S100001x128_S128x128.axis')
    (hin' : ∀ x, (View.read (Elt F) (rowV ![r.val, 0] inbR).view F0 x).toNat < S100001x128.size gathers_S100001x128_S128x128.axis) :
    SparseCore.gatherPayload gathers_S100001x128_S128x128 (View.read (Elt F) (tabV (k0_off2 L (BitVec.ofNat 32 r.val)) (k0_off2_inb L r)).view ft)
      (SparseCore.rows (View.read (Elt F) (rowV ![r.val, 0] inbR).view F0) hn hin') = payC d L ft fi r.val :=
  gather_core d L ft fi r.val (by have := r.isLt; omega) _ _
    (by rw [k0_off2_eq]; congr 2; unfold wOf; omega) _ _ rfl F0 hF0 hin hn hin'

/-! ## The list scratch after the index fetch -/

/-- The fetch copies the worker's row of the index array over the whole list scratch: entry `j` of list `c` is then the
    index array's entry at the row's place of `(c, j)`. -/
theorem lists_after_fetch (f0 : Buf (Elt F) ((sI).view.loc (VT d L))) : ∀ (c : Fin 26) (j : Fin 128),
    (View.write (Elt F) (sI).view f0 (ReadAs.same.apply ((iRowK L).view.read (Elt F) fi)) Finset.univ) (ix2 c j)
      = fi ((iRowK L).view.emb (ix2 c j)) := by
  intro c j
  have h := View.write_emb_of_mem (v := (sI).view) (Val := Elt F) f0 (ReadAs.same.apply ((iRowK L).view.read (Elt F) fi))
    (M := Finset.univ) (x := ix2 c j) (Finset.mem_univ _)
  exact h.trans rfl

/-- One worker's slabs are pairwise disjoint. -/
theorem slabs_disjoint (L : grid0.Coords) : ∀ a b : Fin k0_t1_loop.trips, a ≠ b →
    Disjoint ((slabI L a).view.set : Finset S26x4096x128.Idx) (slabI L b).view.set :=
  fun _ _ h => slab_disjoint (Or.inr h)

end Cert.KernelIdeal.Sc

end
-- ==== Proof.TcRegionValue.lean ====
/-
  The result of the TensorCore call read at an index of the whole array.

  The pipeline hands the body, at grid point `t`, batch rows `[512 t, 512 t + 512)` of the three operands that move with
  the point (the gathered rows, the numerical features, the pretrained embeddings) and the four others whole. Read at an
  index, a block of a moving operand is the array at the row `512 t + r`; so the call's result at batch row `b` is the
  body's output block for the rows of block `b / 512`, read at row `b % 512`.
-/
import proofs.«206634_g85779086836150_cont_9to1c4b_256_28_alg».proof.Proof.TcRegion
import Idealize.ShloMosaic.Lib.ValueIdx

set_option maxRecDepth 16384

noncomputable section

namespace Cert.KernelIdeal.TcRegionValue

open Cert.KernelIdeal Cert.KernelIdeal.Gen Cert.KernelIdeal.TcBody Cert.KernelIdeal.TcRegion
open Idealize.ShloMosaic Idealize.ShloMosaic.ValueIdx

variable {F : FTy → Type} [FloatOps F]

/-! ## The index maps of the windows, decided over the grid -/

theorem idx_facts0 : ∀ t : Fin cfg1.N, win1_0.index t (0 : Fin 3) = 0 ∧ win1_0.index t (1 : Fin 3) = t.val ∧ win1_0.index t (2 : Fin 3) = 0 :=
  (by decide +kernel : ∀ t : Fin grid1.N, win1_0.index t (0 : Fin 3) = 0 ∧ win1_0.index t (1 : Fin 3) = t.val ∧ win1_0.index t (2 : Fin 3) = 0)
theorem idx_facts1 : ∀ t : Fin cfg1.N, win1_1.index t (0 : Fin 2) = 0 ∧ win1_1.index t (1 : Fin 2) = t.val :=
  (by decide +kernel : ∀ t : Fin grid1.N, win1_1.index t (0 : Fin 2) = 0 ∧ win1_1.index t (1 : Fin 2) = t.val)
theorem idx_facts2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_facts3 : ∀ t : Fin cfg1.N, win1_3.index t (0 : Fin 3) = 0 ∧ win1_3.index t (1 : Fin 3) = t.val ∧ win1_3.index t (2 : Fin 3) = 0 :=
  (by decide +kernel : ∀ t : Fin grid1.N, win1_3.index t (0 : Fin 3) = 0 ∧ win1_3.index t (1 : Fin 3) = t.val ∧ win1_3.index t (2 : Fin 3) = 0)
theorem idx_facts4 : ∀ t : Fin cfg1.N, win1_4.index t (0 : Fin 3) = 0 ∧ win1_4.index t (1 : Fin 3) = 0 ∧ win1_4.index t (2 : Fin 3) = 0 :=
  (by decide +kernel : ∀ t : Fin grid1.N, win1_4.index t (0 : Fin 3) = 0 ∧ win1_4.index t (1 : Fin 3) = 0 ∧ win1_4.index t (2 : Fin 3) = 0)
theorem idx_facts5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_facts6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

theorem t_lt (t : Fin cfg1.N) : t.val < 8 := by have h : t.val < grid1.N := t.isLt; rw [N_1] at h; exact h

/-! ## The blocks of the operands that move with the point -/

/-- Batch rows `[512 t, 512 t + 512)` of the gathered rows, -/
def X1 (v1 : Vec F S26x4096x128 .f32) (t : Fin cfg1.N) : Vec F S26x512x128 .f32 := fun j =>
  v1 (ix3 (j 0) (⟨512 * t.val + (j 1).val, by have := t_lt t; have h : (j 1).val < 512 := (j 1).isLt; omega⟩ : Fin 4096) (j 2))
/-- of the numerical features, -/
def X2 (v2 : Vec F S13x4096 .f32) (t : Fin cfg1.N) : Vec F S13x512 .f32 := fun j =>
  v2 (ix2 (j 0) (⟨512 * t.val + (j 1).val, by have := t_lt t; have h : (j 1).val < 512 := (j 1).isLt; omega⟩ : Fin 4096))
/-- of the pretrained embeddings. -/
def X4 (a2 : Vec F S4x4096x768 .f32) (t : Fin cfg1.N) : Vec F S4x512x768 .f32 := fun j =>
  a2 (ix3 (j 0) (⟨512 * t.val + (j 1).val, by have := t_lt t; have h : (j 1).val < 512 := (j 1).isLt; omega⟩ : Fin 4096) (j 2))

theorem read_blk0 (v1 : Vec F S26x4096x128 .f32) (t : Fin cfg1.N) : ((cfg1.win 0).blk t).view.read (Elt F) v1 = X1 v1 t := by
  obtain ⟨e0, e1, e2⟩ := idx_facts0 t
  funext j
  show v1 (((cfg1.win 0).blk t).view.emb j) = _
  unfold X1
  refine congrArg v1 (funext fun a => Fin.ext ?_)
  match a with
  | ⟨0, _⟩ => show win1_0.index t (0 : Fin 3) * 26 + 1 * (j 0).val = (j 0).val; omega
  | ⟨1, _⟩ => show win1_0.index t (1 : Fin 3) * 512 + 1 * (j 1).val = 512 * t.val + (j 1).val; omega
  | ⟨2, _⟩ => show win1_0.index t (2 : Fin 3) * 128 + 1 * (j 2).val = (j 2).val; omega

theorem read_blk1 (v2 : Vec F S13x4096 .f32) (t : Fin cfg1.N) : ((cfg1.win 1).blk t).view.read (Elt F) v2 = X2 v2 t := by
  obtain ⟨e0, e1⟩ := idx_facts1 t
  funext j
  show v2 (((cfg1.win 1).blk t).view.emb j) = _
  unfold X2
  refine congrArg v2 (funext fun a => Fin.ext ?_)
  match a with
  | ⟨0, _⟩ => show win1_1.index t (0 : Fin 2) * 13 + 1 * (j 0).val = (j 0).val; omega
  | ⟨1, _⟩ => show win1_1.index t (1 : Fin 2) * 512 + 1 * (j 1).val = 512 * t.val + (j 1).val; omega

theorem read_blk3 (a2 : Vec F S4x4096x768 .f32) (t : Fin cfg1.N) : ((cfg1.win 3).blk t).view.read (Elt F) a2 = X4 a2 t := by
  obtain ⟨e0, e1, e2⟩ := idx_facts3 t
  funext j
  show a2 (((cfg1.win 3).blk t).view.emb j) = _
  unfold X4
  refine congrArg a2 (funext fun a => Fin.ext ?_)
  match a with
  | ⟨0, _⟩ => show win1_3.index t (0 : Fin 3) * 4 + 1 * (j 0).val = (j 0).val; omega
  | ⟨1, _⟩ => show win1_3.index t (1 : Fin 3) * 512 + 1 * (j 1).val = 512 * t.val + (j 1).val; omega
  | ⟨2, _⟩ => show win1_3.index t (2 : Fin 3) * 768 + 1 * (j 2).val = (j 2).val; omega

/-! ## The operands staged whole -/

theorem read_blk2 (v3 : Vec F S13x128 .f32) (t : Fin cfg1.N) : ((cfg1.win 2).blk t).view.read (Elt F) v3 = v3 := by
  obtain ⟨e0, e1⟩ := idx_facts2 t
  funext j
  show v3 (((cfg1.win 2).blk t).view.emb j) = v3 j
  refine congrArg v3 (funext fun a => Fin.ext ?_)
  match a with
  | ⟨0, _⟩ => show win1_2.index t (0 : Fin 2) * 13 + 1 * (j 0).val = (j 0).val; omega
  | ⟨1, _⟩ => show win1_2.index t (1 : Fin 2) * 128 + 1 * (j 1).val = (j 1).val; omega

theorem read_blk4 (a5 : Vec F S4x768x128 .f32) (t : Fin cfg1.N) : ((cfg1.win 4).blk t).view.read (Elt F) a5 = a5 := by
  obtain ⟨e0, e1, e2⟩ := idx_facts4 t
  funext j
  show a5 (((cfg1.win 4).blk t).view.emb j) = a5 j
  refine congrArg a5 (funext fun a => Fin.ext ?_)
  match a with
  | ⟨0, _⟩ => show win1_4.index t (0 : Fin 3) * 4 + 1 * (j 0).val = (j 0).val; omega
  | ⟨1, _⟩ => show win1_4.index t (1 : Fin 3) * 768 + 1 * (j 1).val = (j 1).val; omega
  | ⟨2, _⟩ => show win1_4.index t (2 : Fin 3) * 128 + 1 * (j 2).val = (j 2).val; omega

theorem read_blk5 (v4 : Vec F S1x128 .f32) (t : Fin cfg1.N) : ((cfg1.win 5).blk t).view.read (Elt F) v4 = v4 := by
  obtain ⟨e0, e1⟩ := idx_facts5 t
  funext j
  show v4 (((cfg1.win 5).blk t).view.emb j) = v4 j
  refine congrArg v4 (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

theorem read_blk6 (v5 : Vec F S1x128 .f32) (t : Fin cfg1.N) : ((cfg1.win 6).blk t).view.read (Elt F) v5 = v5 := by
  obtain ⟨e0, e1⟩ := idx_facts6 t
  funext j
  show v5 (((cfg1.win 6).blk t).view.emb j) = v5 j
  refine congrArg v5 (funext fun a => Fin.ext ?_)
  match a with
  | ⟨0, _⟩ => show win1_6.index t (0 : Fin 2) * 1 + 1 * (j 0).val = (j 0).val; omega
  | ⟨1, _⟩ => show win1_6.index t (1 : Fin 2) * 128 + 1 * (j 1).val = (j 1).val; omega

/-! ## The result at an index -/

/-- The grid point of batch row `b`, -/
def tB (b : Fin 4096) : Fin cfg1.N := ⟨b.val / 512, by have := b.isLt; have h := N_1; show _ < grid1.N; omega⟩
/-- and the row inside its block. -/
def rB (b : Fin 4096) : Fin 512 := ⟨b.val % 512, Nat.mod_lt _ (by decide)⟩

theorem tOf_ix3 (fb : Fin 43) (b : Fin 4096) (d : Fin 128) : tOf (ix3 fb b d) = tB b := rfl
theorem jOf_ix3 (fb : Fin 43) (b : Fin 4096) (d : Fin 128) : jOf (ix3 fb b d) = ix3 fb (rB b) d := by
  funext a
  match a with
  | ⟨0, _⟩ => rfl
  | ⟨1, _⟩ => rfl
  | ⟨2, _⟩ => rfl

/-- THE RESULT AT AN INDEX: feature row `fb`, batch row `b`, lane `d` of the call's result is the body's output block
    for the rows of block `b / 512`, at feature row `fb`, row `b % 512`, lane `d`. -/
theorem regionOut_apply (v1 : Vec F S26x4096x128 .f32) (v2 : Vec F S13x4096 .f32) (v3 : Vec F S13x128 .f32) (a2 : Vec F S4x4096x768 .f32)
    (a5 : Vec F S4x768x128 .f32) (v4 v5 : Vec F S1x128 .f32) (fb : Fin 43) (b : Fin 4096) (d : Fin 128) :
    regionOut v1 v2 v3 a2 a5 v4 v5 (ix3 fb b d)
      = outBlk (X1 v1 (tB b)) (X2 v2 (tB b)) v3 (X4 a2 (tB b)) a5 v4 v5 (ix3 fb (rB b) d) := by
  unfold regionOut
  rw [tOf_ix3, jOf_ix3, read_blk0, read_blk1, read_blk2, read_blk3, read_blk4, read_blk5, read_blk6]

/-- A moving operand's block read at a row is the array at that batch row. -/
theorem row_eq (b : Fin 4096) : 512 * (tB b).val + (rB b).val = b.val := by
  show 512 * (b.val / 512) + b.val % 512 = b.val; omega

theorem X1_apply (v1 : Vec F S26x4096x128 .f32) (b : Fin 4096) (f : Fin 26) (d' : Fin 128) :
    X1 v1 (tB b) (ix3 f (rB b) d') = v1 (ix3 f b d') := by
  unfold X1
  refine congrArg v1 (funext fun a => Fin.ext ?_)
  match a with
  | ⟨0, _⟩ => rfl
  | ⟨1, _⟩ => exact row_eq b
  | ⟨2, _⟩ => rfl

theorem X2_apply (v2 : Vec F S13x4096 .f32) (b : Fin 4096) (n : Fin 13) :
    X2 v2 (tB b) (ix2 n (rB b)) = v2 (ix2 n b) := by
  unfold X2
  refine congrArg v2 (funext fun a => Fin.ext ?_)
  match a with
  | ⟨0, _⟩ => rfl
  | ⟨1, _⟩ => exact row_eq b

theorem X4_apply (a2 : Vec F S4x4096x768 .f32) (b : Fin 4096) (n : Fin 4) (k : Fin 768) :
    X4 a2 (tB b) (ix3 n (rB b) k) = a2 (ix3 n b k) := by
  unfold X4
  refine congrArg a2 (funext fun a => Fin.ext ?_)
  match a with
  | ⟨0, _⟩ => rfl
  | ⟨1, _⟩ => exact row_eq b
  | ⟨2, _⟩ => rfl

end Cert.KernelIdeal.TcRegionValue

end
-- ==== Proof.KerLayout.lean ====
/-
  Vector operations of rank two and three read at an index given by coordinates.

  Lane sums into the zero word as plain sums over the last axis; the shape casts that restore a summed axis as
  an axis of length one, or insert a unit axis in the middle or in front; the broadcasts that copy such a column
  along the last axis, a [1, 1, n] or [1, n] row over the leading axes, a [n0, 1, n2] slab over the middle
  axis; and the plain matrix product into a zero accumulator as the sum over the contracted coordinate.
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.KerLayout

variable {α : Type}

/-! ## Rank three -/

/-- Entry (p, q) with k put back on the dropped last axis is the index (p, q, k). -/
theorem lift3 {n0 n1 n2 : ℕ} (h : (⟨3, ![n0, n1, n2]⟩ : Shape).Reduces [2] ⟨2, ![n0, n1]⟩) (p : Fin n0)
    (q : Fin n1) (k : Fin n2) : h.lift (ix2 p q) k = ix3 p q k := by
  funext a
  apply Fin.ext
  match a with
  | ⟨0, _⟩ => rfl
  | ⟨1, _⟩ => rfl
  | ⟨2, _⟩ => rfl

/-- The lane sum along the last axis into the zero word, at (p, q): the sum of the entries (p, q, k). -/
theorem laneSum3 {n0 n1 n2 : ℕ} (x : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (p : Fin n0) (q : Fin n1) :
    multiReduction .add [2] ⟨2, ![n0, n1]⟩ x 0x00000000#32 h hφ hacc (ix2 p q) = ∑ k : Fin n2, x (ix3 p q k) :=
  (Ideal.multiReduction_add_single x 0x00000000#32 h hφ hacc (ix2 p q)).trans
    (Finset.sum_congr rfl fun k _ => congrArg x (lift3 h p q k))

/-- A [n0, n1] array given a last axis of length one reads, at (p, q, z), its entry (p, q). -/
theorem cast_keepdim3 {n0 n1 : ℕ} (v : (⟨2, ![n0, n1]⟩ : Shape).Idx → α)
    (h : (⟨2, ![n0, n1]⟩ : Shape).ShapeCasts ⟨3, ![n0, n1, 1]⟩) (p : Fin n0) (q : Fin n1) (z : Fin 1) :
    shapeCast ⟨3, ![n0, n1, 1]⟩ v h (ix3 p q z) = v (ix2 p q) :=
  shapeCast_apply v h _ _ (by
    have hz : z.val = 0 := by omega
    rw [Shape.rowMajor_val_two, Shape.rowMajor_val_three]
    show p.val * n1 + q.val = (p.val * n1 + q.val) * 1 + z.val
    rw [hz, Nat.mul_one, Nat.add_zero])

/-- A [n0, n2] array given a middle axis of length one reads, at (p, z, r), its entry (p, r). -/
theorem cast_mid3 {n0 n2 : ℕ} (v : (⟨2, ![n0, n2]⟩ : Shape).Idx → α)
    (h : (⟨2, ![n0, n2]⟩ : Shape).ShapeCasts ⟨3, ![n0, 1, n2]⟩) (p : Fin n0) (z : Fin 1) (r : Fin n2) :
    shapeCast ⟨3, ![n0, 1, n2]⟩ v h (ix3 p z r) = v (ix2 p r) :=
  shapeCast_apply v h _ _ (by
    have hz : z.val = 0 := by omega
    rw [Shape.rowMajor_val_two, Shape.rowMajor_val_three]
    show p.val * n2 + r.val = (p.val * 1 + z.val) * n2 + r.val
    rw [hz, Nat.mul_one, Nat.add_zero])

/-- A [n0, n1, 1] column copied along the last axis reads, at (p, q, r), its entry (p, q, 0). -/
theorem bto_lastaxis3 {n0 n1 n2 : ℕ} (v : (⟨3, ![n0, n1, 1]⟩ : Shape).Idx → α)
    (h : (⟨3, ![n0, n1, 1]⟩ : Shape).Broadcasts ⟨3, ![n0, n1, n2]⟩) (p : Fin n0) (q : Fin n1) (r : Fin n2) :
    broadcastTo ⟨3, ![n0, n1, n2]⟩ v h (ix3 p q r) = v (ix3 p q (0 : Fin 1)) :=
  broadcastTo_apply v h _ _ fun a => match a with
    | ⟨0, _⟩ => by
      have := p.isLt
      show p.val = if n0 = 1 then 0 else p.val
      split <;> omega
    | ⟨1, _⟩ => by
      have := q.isLt
      show q.val = if n1 = 1 then 0 else q.val
      split <;> omega
    | ⟨2, _⟩ => rfl

/-- A [1, 1, n2] row copied over the first two axes reads, at (p, q, r), its entry (0, 0, r). -/
theorem bto_lane3 {n0 n1 n2 : ℕ} (v : (⟨3, ![1, 1, n2]⟩ : Shape).Idx → α)
    (h : (⟨3, ![1, 1, n2]⟩ : Shape).Broadcasts ⟨3, ![n0, n1, n2]⟩) (p : Fin n0) (q : Fin n1) (r : Fin n2) :
    broadcastTo ⟨3, ![n0, n1, n2]⟩ v h (ix3 p q r) = v (ix3 (0 : Fin 1) (0 : Fin 1) r) :=
  broadcastTo_apply v h _ _ fun a => match a with
    | ⟨0, _⟩ => rfl
    | ⟨1, _⟩ => rfl
    | ⟨2, _⟩ => by
      have := r.isLt
      show r.val = if n2 = 1 then 0 else r.val
      split <;> omega

/-- A [n0, 1, n2] slab copied over the middle axis reads, at (p, q, r), its entry (p, 0, r). -/
theorem bto_mid3 {n0 n1 n2 : ℕ} (v : (⟨3, ![n0, 1, n2]⟩ : Shape).Idx → α)
    (h : (⟨3, ![n0, 1, n2]⟩ : Shape).Broadcasts ⟨3, ![n0, n1, n2]⟩) (p : Fin n0) (q : Fin n1) (r : Fin n2) :
    broadcastTo ⟨3, ![n0, n1, n2]⟩ v h (ix3 p q r) = v (ix3 p (0 : Fin 1) r) :=
  broadcastTo_apply v h _ _ fun a => match a with
    | ⟨0, _⟩ => by
      have := p.isLt
      show p.val = if n0 = 1 then 0 else p.val
      split <;> omega
    | ⟨1, _⟩ => rfl
    | ⟨2, _⟩ => by
      have := r.isLt
      show r.val = if n2 = 1 then 0 else r.val
      split <;> omega

/-- A [1, n] row given a second leading unit axis reads, at (u, z, d), its entry (0, d). -/
theorem cast_1n_11n {n : ℕ} (v : (⟨2, ![1, n]⟩ : Shape).Idx → α)
    (h : (⟨2, ![1, n]⟩ : Shape).ShapeCasts ⟨3, ![1, 1, n]⟩) (u z : Fin 1) (d : Fin n) :
    shapeCast ⟨3, ![1, 1, n]⟩ v h (ix3 u z d) = v (ix2 (0 : Fin 1) d) :=
  shapeCast_apply v h _ _ (by
    have hu : u.val = 0 := by omega
    have hz : z.val = 0 := by omega
    rw [Shape.rowMajor_val_two, Shape.rowMajor_val_three]
    show 0 * n + d.val = (u.val * 1 + z.val) * n + d.val
    rw [hu, hz])

/-! ## Rank two -/

/-- Row p with the column k put back on the dropped second axis is the index (p, k). -/
theorem lift2 {n0 n1 : ℕ} (h : (⟨2, ![n0, n1]⟩ : Shape).Reduces [1] ⟨1, ![n0]⟩) (p : Fin n0) (k : Fin n1) :
    h.lift (ix1 p) k = ix2 p k := by
  funext a
  apply Fin.ext
  match a with
  | ⟨0, _⟩ => rfl
  | ⟨1, _⟩ => rfl

/-- The lane sum along the second axis into the zero word, at row p: the sum of the row's entries. -/
theorem laneSum2 {n0 n1 : ℕ} (x : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (p : Fin n0) :
    multiReduction .add [1] ⟨1, ![n0]⟩ x 0x00000000#32 h hφ hacc (ix1 p) = ∑ k : Fin n1, x (ix2 p k) :=
  (Ideal.multiReduction_add_single x 0x00000000#32 h hφ hacc (ix1 p)).trans
    (Finset.sum_congr rfl fun k _ => congrArg x (lift2 h p k))

/-- A vector of length n0 given a last axis of length one reads, at (p, z), its entry p. -/
theorem cast_keepdim2 {n0 : ℕ} (v : (⟨1, ![n0]⟩ : Shape).Idx → α)
    (h : (⟨1, ![n0]⟩ : Shape).ShapeCasts ⟨2, ![n0, 1]⟩) (p : Fin n0) (z : Fin 1) :
    shapeCast ⟨2, ![n0, 1]⟩ v h (ix2 p z) = v (ix1 p) :=
  shapeCast_apply v h _ _ (by
    have hz : z.val = 0 := by omega
    rw [Shape.rowMajor_val_one, Shape.rowMajor_val_two]
    show p.val = p.val * 1 + z.val
    rw [hz, Nat.mul_one, Nat.add_zero])

/-- A [n0, 1] column copied along the last axis reads, at (p, q), its entry (p, 0). -/
theorem bto_lastaxis2 {n0 n1 : ℕ} (v : (⟨2, ![n0, 1]⟩ : Shape).Idx → α)
    (h : (⟨2, ![n0, 1]⟩ : Shape).Broadcasts ⟨2, ![n0, n1]⟩) (p : Fin n0) (q : Fin n1) :
    broadcastTo ⟨2, ![n0, n1]⟩ v h (ix2 p q) = v (ix2 p (0 : Fin 1)) :=
  broadcastTo_apply v h _ _ fun a => match a with
    | ⟨0, _⟩ => by
      have := p.isLt
      show p.val = if n0 = 1 then 0 else p.val
      split <;> omega
    | ⟨1, _⟩ => rfl

/-- The plain product of an m×k by a k×n matrix into the zero accumulator, at (a, b): the sum over the
    contracted coordinate of the products of the entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32)
        (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx] <;> rfl
    | ⟨1, _⟩ => simp [DotDims.lhsIdx] <;> exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx] <;> exact c2
    | ⟨1, _⟩ => simp [DotDims.rhsIdx] <;> rfl
  rw [l2, r2]

end Cert.KerLayout

end
-- ==== Proof.KerChain.lean ====
/-
  The kernel's arrangement of the normalisation, as a chain of vector operations, read at an entry.

  For a rank-three vector X of rows of 128 lanes: the lane sum, restored as a column, divided by the literal
  128, copied back along the lanes and subtracted; the lane sum of the squares of that, restored as a column,
  divided by 128, the small constant added, the reciprocal square root taken, copied back along the lanes and
  multiplied in; then a [1, 1, 128] gain row multiplied in and a [1, 1, 128] bias row added. At (p, q, d) this
  is the specification's kernel arrangement of the row X(p, q, ·). The same for a rank-two vector of rows with
  [1, 128] gain and bias rows.
-/
import proofs.«206634_g85779086836150_cont_9to1c4b_256_28_alg».proof.Proof.Spec
import proofs.«206634_g85779086836150_cont_9to1c4b_256_28_alg».proof.Proof.KerLayout

noncomputable section

open scoped BigOperators
open Idealize.ShloMosaic Idealize.ShloMosaic.ValueIdx
open Cert.KerLayout

namespace Cert.KerChain

/-- The chain over rows that are the last axis of a rank-three vector. -/
theorem chain3 {n0 n1 : ℕ} (X : FVec Ideal ⟨3, ![n0, n1, 128]⟩ .f32) (G B : FVec Ideal ⟨3, ![1, 1, 128]⟩ .f32)
    (hr : (⟨3, ![n0, n1, 128]⟩ : Shape).Reduces [2] ⟨2, ![n0, n1]⟩) (hφ : FKind.Formats .f32)
    (hacc : (0x00000000#32 : BitVec 32) = 0x00000000#32)
    (hc : (⟨2, ![n0, n1]⟩ : Shape).ShapeCasts ⟨3, ![n0, n1, 1]⟩) (hb : (⟨3, ![n0, n1, 1]⟩ : Shape).Broadcasts ⟨3, ![n0, n1, 128]⟩)
    (hg : (⟨3, ![1, 1, 128]⟩ : Shape).Broadcasts ⟨3, ![n0, n1, 128]⟩) (p : Fin n0) (q : Fin n1) (d : Fin 128)
    (X' G' B' : Fin 128 → EReal) (hX : ∀ k, X (ix3 p q k) = X' k)
    (hG : ∀ k, G (ix3 (0 : Fin 1) (0 : Fin 1) k) = G' k) (hB : ∀ k, B (ix3 (0 : Fin 1) (0 : Fin 1) k) = B' k) :
    (addf (mulf (mulf (subf X (broadcastTo ⟨3, ![n0, n1, 128]⟩ (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) hb)) (broadcastTo ⟨3, ![n0, n1, 128]⟩ (rsqrt (addf (divf (shapeCast ⟨3, ![n0, n1, 1]⟩ (multiReduction .add [2] ⟨2, ![n0, n1]⟩ (mulf (subf X (broadcastTo ⟨3, ![n0, n1, 128]⟩ (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) hb)) (subf X (broadcastTo ⟨3, ![n0, n1, 128]⟩ (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) hb))) 0x00000000#32 hr hφ hacc) hc) (broadcast ⟨3, ![n0, n1, 1]⟩ (Scalar.ofBits .f32 0x43000000#32))) (broadcast ⟨3, ![n0, n1, 1]⟩ (Scalar.ofBits .f32 0x3727C5AC#32)))) hb)) (broadcastTo ⟨3, ![n0, n1, 128]⟩ G hg)) (broadcastTo ⟨3, ![n0, n1, 128]⟩ B hg)) (ix3 p q d) = Spec.lnKer X' G' B' d := by
  obtain rfl : X' = fun k => X (ix3 p q k) := funext fun k => (hX k).symm
  obtain rfl : G' = fun k => G (ix3 (0 : Fin 1) (0 : Fin 1) k) := funext fun k => (hG k).symm
  obtain rfl : B' = fun k => B (ix3 (0 : Fin 1) (0 : Fin 1) k) := funext fun k => (hB k).symm
  have hmean : ∀ z : Fin 1, (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) (ix3 p q z) = Spec.meanKer (fun k => X (ix3 p q k)) := fun z => by
    unfold Spec.meanKer
    exact congrArg₂ Ideal.div ((cast_keepdim3 _ hc p q z).trans (laneSum3 X hr hφ hacc p q)) rfl
  have hcen : ∀ k : Fin 128, (subf X (broadcastTo ⟨3, ![n0, n1, 128]⟩ (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) hb)) (ix3 p q k)
      = X (ix3 p q k) - Spec.meanKer (fun k => X (ix3 p q k)) := fun k =>
    congrArg (X (ix3 p q k) - ·) ((bto_lastaxis3 _ hb p q k).trans (hmean 0))
  have hvar : ∀ z : Fin 1, (divf (shapeCast ⟨3, ![n0, n1, 1]⟩ (multiReduction .add [2] ⟨2, ![n0, n1]⟩ (mulf (subf X (broadcastTo ⟨3, ![n0, n1, 128]⟩ (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) hb)) (subf X (broadcastTo ⟨3, ![n0, n1, 128]⟩ (divf (shapeCast ⟨3, ![n0, n1, 1]⟩ (multiReduction .add [2] ⟨2, ![n0, n1]⟩ X 0x00000000#32 hr hφ hacc) hc) (broadcast ⟨3, ![n0, n1, 1]⟩ (Scalar.ofBits .f32 0x43000000#32))) hb))) 0x00000000#32 hr hφ hacc) hc) (broadcast ⟨3, ![n0, n1, 1]⟩ (Scalar.ofBits .f32 0x43000000#32))) (ix3 p q z) = Spec.varKer (fun k => X (ix3 p q k)) := fun z => by
    unfold Spec.varKer
    exact congrArg₂ Ideal.div ((cast_keepdim3 _ hc p q z).trans ((laneSum3 _ hr hφ hacc p q).trans
      (Finset.sum_congr rfl fun k _ => congrArg₂ (· * ·) (hcen k) (hcen k)))) rfl
  unfold Spec.lnKer
  exact congrArg₂ (· + ·) (congrArg₂ (· * ·) (congrArg₂ (· * ·) (hcen d)
    ((bto_lastaxis3 _ hb p q d).trans (congrArg Ideal.rsqrt (congrArg₂ (· + ·) (hvar 0) rfl))))
    (bto_lane3 G hg p q d)) (bto_lane3 B hg p q d)

/-- The chain over rows that are the last axis of a rank-two vector. -/
theorem chain2 {n0 : ℕ} (M : FVec Ideal ⟨2, ![n0, 128]⟩ .f32) (G B : FVec Ideal ⟨2, ![1, 128]⟩ .f32)
    (hr : (⟨2, ![n0, 128]⟩ : Shape).Reduces [1] ⟨1, ![n0]⟩) (hφ : FKind.Formats .f32)
    (hacc : (0x00000000#32 : BitVec 32) = 0x00000000#32)
    (hc : (⟨1, ![n0]⟩ : Shape).ShapeCasts ⟨2, ![n0, 1]⟩) (hb : (⟨2, ![n0, 1]⟩ : Shape).Broadcasts ⟨2, ![n0, 128]⟩)
    (hg : (⟨2, ![1, 128]⟩ : Shape).Broadcasts ⟨2, ![n0, 128]⟩) (p : Fin n0) (d : Fin 128)
    (X' G' B' : Fin 128 → EReal) (hX : ∀ k, M (ix2 p k) = X' k)
    (hG : ∀ k, G (ix2 (0 : Fin 1) k) = G' k) (hB : ∀ k, B (ix2 (0 : Fin 1) k) = B' k) :
    (addf (mulf (mulf (subf M (broadcastTo ⟨2, ![n0, 128]⟩ (divf (shapeCast ⟨2, ![n0, 1]⟩ (multiReduction .add [1] ⟨1, ![n0]⟩ M 0x00000000#32 hr hφ hacc) hc) (broadcast ⟨2, ![n0, 1]⟩ (Scalar.ofBits .f32 0x43000000#32))) hb)) (broadcastTo ⟨2, ![n0, 128]⟩ (rsqrt (addf (divf (shapeCast ⟨2, ![n0, 1]⟩ (multiReduction .add [1] ⟨1, ![n0]⟩ (mulf (subf M (broadcastTo ⟨2, ![n0, 128]⟩ (divf (shapeCast ⟨2, ![n0, 1]⟩ (multiReduction .add [1] ⟨1, ![n0]⟩ M 0x00000000#32 hr hφ hacc) hc) (broadcast ⟨2, ![n0, 1]⟩ (Scalar.ofBits .f32 0x43000000#32))) hb)) (subf M (broadcastTo ⟨2, ![n0, 128]⟩ (divf (shapeCast ⟨2, ![n0, 1]⟩ (multiReduction .add [1] ⟨1, ![n0]⟩ M 0x00000000#32 hr hφ hacc) hc) (broadcast ⟨2, ![n0, 1]⟩ (Scalar.ofBits .f32 0x43000000#32))) hb))) 0x00000000#32 hr hφ hacc) hc) (broadcast ⟨2, ![n0, 1]⟩ (Scalar.ofBits .f32 0x43000000#32))) (broadcast ⟨2, ![n0, 1]⟩ (Scalar.ofBits .f32 0x3727C5AC#32)))) hb)) (broadcastTo ⟨2, ![n0, 128]⟩ G hg)) (broadcastTo ⟨2, ![n0, 128]⟩ B hg)) (ix2 p d) = Spec.lnKer X' G' B' d := by
  obtain rfl : X' = fun k => M (ix2 p k) := funext fun k => (hX k).symm
  obtain rfl : G' = fun k => G (ix2 (0 : Fin 1) k) := funext fun k => (hG k).symm
  obtain rfl : B' = fun k => B (ix2 (0 : Fin 1) k) := funext fun k => (hB k).symm
  have hmean : ∀ z : Fin 1, (divf (shapeCast ⟨2, ![n0, 1]⟩ (multiReduction .add [1] ⟨1, ![n0]⟩ M 0x00000000#32 hr hφ hacc) hc) (broadcast ⟨2, ![n0, 1]⟩ (Scalar.ofBits .f32 0x43000000#32))) (ix2 p z) = Spec.meanKer (fun k => M (ix2 p k)) := fun z => by
    unfold Spec.meanKer
    exact congrArg₂ Ideal.div ((cast_keepdim2 _ hc p z).trans (laneSum2 M hr hφ hacc p)) rfl
  have hcen : ∀ k : Fin 128, (subf M (broadcastTo ⟨2, ![n0, 128]⟩ (divf (shapeCast ⟨2, ![n0, 1]⟩ (multiReduction .add [1] ⟨1, ![n0]⟩ M 0x00000000#32 hr hφ hacc) hc) (broadcast ⟨2, ![n0, 1]⟩ (Scalar.ofBits .f32 0x43000000#32))) hb)) (ix2 p k)
      = M (ix2 p k) - Spec.meanKer (fun k => M (ix2 p k)) := fun k =>
    congrArg (M (ix2 p k) - ·) ((bto_lastaxis2 _ hb p k).trans (hmean 0))
  have hvar : ∀ z : Fin 1, (divf (shapeCast ⟨2, ![n0, 1]⟩ (multiReduction .add [1] ⟨1, ![n0]⟩ (mulf (subf M (broadcastTo ⟨2, ![n0, 128]⟩ (divf (shapeCast ⟨2, ![n0, 1]⟩ (multiReduction .add [1] ⟨1, ![n0]⟩ M 0x00000000#32 hr hφ hacc) hc) (broadcast ⟨2, ![n0, 1]⟩ (Scalar.ofBits .f32 0x43000000#32))) hb)) (subf M (broadcastTo ⟨2, ![n0, 128]⟩ (divf (shapeCast ⟨2, ![n0, 1]⟩ (multiReduction .add [1] ⟨1, ![n0]⟩ M 0x00000000#32 hr hφ hacc) hc) (broadcast ⟨2, ![n0, 1]⟩ (Scalar.ofBits .f32 0x43000000#32))) hb))) 0x00000000#32 hr hφ hacc) hc) (broadcast ⟨2, ![n0, 1]⟩ (Scalar.ofBits .f32 0x43000000#32))) (ix2 p z)
      = Spec.varKer (fun k => M (ix2 p k)) := fun z => by
    unfold Spec.varKer
    exact congrArg₂ Ideal.div ((cast_keepdim2 _ hc p z).trans ((laneSum2 _ hr hφ hacc p).trans
      (Finset.sum_congr rfl fun k _ => congrArg₂ (· * ·) (hcen k) (hcen k)))) rfl
  unfold Spec.lnKer
  exact congrArg₂ (· + ·) (congrArg₂ (· * ·) (congrArg₂ (· * ·) (hcen d)
    ((bto_lastaxis2 _ hb p d).trans (congrArg Ideal.rsqrt (congrArg₂ (· + ·) (hvar 0) rfl))))
    (broadcastTo_1b_ab_apply G hg p d)) (broadcastTo_1b_ab_apply B hg p d)

end Cert.KerChain

end
-- ==== Proof.TcValue.lean ====
/-
  What the layer-norm body leaves in its output block, at an entry.

  The block's 43 feature rows are written by six stores: rows 0 to 25 the normalised gathered rows, rows 26 to
  38 the normalised products of a numerical feature with its weight row, rows 39 to 42 one normalised
  projection each. At entry (row, r, d) the block holds the kernel's arrangement of the normalisation applied to
  the row of that feature for batch position r, with the gain and bias rows read by lane: the payload of the one
  store whose rows hold the entry, each payload being the chain of vector operations read at that entry.
-/
import proofs.«206634_g85779086836150_cont_9to1c4b_256_28_alg».proof.Proof.TcBody
import proofs.«206634_g85779086836150_cont_9to1c4b_256_28_alg».proof.Proof.Spec
import proofs.«206634_g85779086836150_cont_9to1c4b_256_28_alg».proof.Proof.KerChain

set_option maxRecDepth 16384

noncomputable section

open scoped BigOperators
open Cert.KernelIdeal Cert.KernelIdeal.Gen Cert.KernelIdeal.TcBody
open Idealize.ShloMosaic Idealize.ShloMosaic.ValueIdx
open Cert.KerLayout Cert.KerChain

namespace Cert.KernelIdeal.TcValue

/-! ## The payloads at an entry -/

/-- The gathered rows' payload. -/
theorem pay3_apply (v0 v3 : Vec Ideal S1x128 .f32) (v6 : Vec Ideal S26x512x128 .f32) (f : Fin 26) (r : Fin 512)
    (d : Fin 128) :
    k1_pay3 (F := Ideal) v0 v3 v6 (ix3 f r d)
      = Spec.lnKer (fun k => v6 (ix3 f r k)) (fun k => v0 (ix2 (0 : Fin 1) k)) (fun k => v3 (ix2 (0 : Fin 1) k)) d := by
  unfold k1_pay3 k1_pay1 k1_pay2
  exact chain3 (shapeCast S26x512x128 v6 _) (shapeCast S1x1x128 (shapeCast S1x128 v0 _) _)
    (shapeCast S1x1x128 (shapeCast S1x128 v3 _) _) _ _ _ _ _ _ f r d _ _ _
    (fun k => congrFun (shapeCast_self v6 _) _)
    (fun k => (cast_1n_11n _ _ 0 0 k).trans (congrFun (shapeCast_self v0 _) _))
    (fun k => (cast_1n_11n _ _ 0 0 k).trans (congrFun (shapeCast_self v3 _) _))

/-- A numerical feature times its weight row. -/
theorem pay4_apply (v29 : Vec Ideal S13x512 .f32) (v31 : Vec Ideal S13x128 .f32) (n : Fin 13) (r : Fin 512)
    (d : Fin 128) : k1_pay4 (F := Ideal) v29 v31 (ix3 n r d) = v29 (ix2 n r) * v31 (ix2 n d) := by
  unfold k1_pay4
  exact congrArg₂ (· * ·)
    ((bto_lastaxis3 _ _ n r d).trans ((cast_keepdim3 _ _ n r 0).trans (congrFun (shapeCast_self v29 _) _)))
    ((bto_mid3 _ _ n r d).trans ((cast_mid3 _ _ n 0 d).trans (congrFun (shapeCast_self v31 _) _)))

/-- The numerical rows' payload. -/
theorem pay5_apply (v0 v3 : Vec Ideal S1x128 .f32) (v29 : Vec Ideal S13x512 .f32) (v31 : Vec Ideal S13x128 .f32)
    (n : Fin 13) (r : Fin 512) (d : Fin 128) :
    k1_pay5 (F := Ideal) (k1_pay1 v0) (k1_pay2 v3) (k1_pay4 v29 v31) (ix3 n r d)
      = Spec.lnKer (fun k => v29 (ix2 n r) * v31 (ix2 n k)) (fun k => v0 (ix2 (0 : Fin 1) k))
          (fun k => v3 (ix2 (0 : Fin 1) k)) d := by
  unfold k1_pay5 k1_pay1 k1_pay2
  exact chain3 (k1_pay4 v29 v31) (shapeCast S1x1x128 (shapeCast S1x128 v0 _) _)
    (shapeCast S1x1x128 (shapeCast S1x128 v3 _) _) _ _ _ _ _ _ n r d _ _ _
    (fun k => pay4_apply v29 v31 n r k)
    (fun k => (cast_1n_11n _ _ 0 0 k).trans (congrFun (shapeCast_self v0 _) _))
    (fun k => (cast_1n_11n _ _ 0 0 k).trans (congrFun (shapeCast_self v3 _) _))

/-- The projection of one embedding block by its matrix block, at (r, k). -/
theorem mm_apply (a : Vec Ideal S1x512x768 .f32) (b : Vec Ideal S1x768x128 .f32)
    (h1 : S1x512x768.ShapeCasts S512x768) (h2 : S1x768x128.ShapeCasts S768x128) (r : Fin 512) (k : Fin 128) :
    matmul (φ₁ := .f32) (φ₂ := .f32) dot_S512x768_S768x128_S512x128_1_0_0_1_n_n none (shapeCast S512x768 a h1)
        (shapeCast S768x128 b h2) (constant (F := Ideal) S512x128 .f32 0x00000000#32) (ix2 r k)
      = ∑ c : Fin 768, a (ix3 (0 : Fin 1) r c) * b (ix3 (0 : Fin 1) c k) :=
  (matmul_plain_zero_apply _ none _ _ r k).trans
    (Finset.sum_congr rfl fun c _ => congrArg₂ (· * ·) (shapeCast_1ab_ab_apply a h1 r c) (shapeCast_1ab_ab_apply b h2 c k))

theorem slot0_apply (a : Vec Ideal S1x512x768 .f32) (b : Vec Ideal S1x768x128 .f32) (g bb : Vec Ideal S1x128 .f32)
    (u : Fin 1) (r : Fin 512) (d : Fin 128) :
    k1_pay10 (F := Ideal) (k1_pay6 g) (k1_pay7 bb) (k1_pay8 a b) (k1_pay9 a b) (ix3 u r d)
      = Spec.lnKer (fun k => ∑ c : Fin 768, a (ix3 (0 : Fin 1) r c) * b (ix3 (0 : Fin 1) c k))
          (fun k => g (ix2 (0 : Fin 1) k)) (fun k => bb (ix2 (0 : Fin 1) k)) d := by
  unfold k1_pay10 k1_pay9 k1_pay8 k1_pay6 k1_pay7
  refine (shapeCast_ab_1ab_apply _ _ u r d).trans ?_
  exact chain2 _ (shapeCast S1x128 g _) (shapeCast S1x128 bb _) _ _ _ _ _ _ r d _ _ _
    (fun k => mm_apply a b _ _ r k)
    (fun k => congrFun (shapeCast_self g _) _) (fun k => congrFun (shapeCast_self bb _) _)

theorem slot1_apply (a : Vec Ideal S1x512x768 .f32) (b : Vec Ideal S1x768x128 .f32) (g bb : Vec Ideal S1x128 .f32)
    (u : Fin 1) (r : Fin 512) (d : Fin 128) :
    k1_pay15 (F := Ideal) (k1_pay11 g) (k1_pay12 bb) (k1_pay13 a b) (k1_pay14 a b) (ix3 u r d)
      = Spec.lnKer (fun k => ∑ c : Fin 768, a (ix3 (0 : Fin 1) r c) * b (ix3 (0 : Fin 1) c k))
          (fun k => g (ix2 (0 : Fin 1) k)) (fun k => bb (ix2 (0 : Fin 1) k)) d := by
  unfold k1_pay15 k1_pay14 k1_pay13 k1_pay11 k1_pay12
  refine (shapeCast_ab_1ab_apply _ _ u r d).trans ?_
  exact chain2 _ (shapeCast S1x128 g _) (shapeCast S1x128 bb _) _ _ _ _ _ _ r d _ _ _
    (fun k => mm_apply a b _ _ r k)
    (fun k => congrFun (shapeCast_self g _) _) (fun k => congrFun (shapeCast_self bb _) _)

theorem slot2_apply (a : Vec Ideal S1x512x768 .f32) (b : Vec Ideal S1x768x128 .f32) (g bb : Vec Ideal S1x128 .f32)
    (u : Fin 1) (r : Fin 512) (d : Fin 128) :
    k1_pay17 (F := Ideal) (k1_pay16 a b g bb) (ix3 u r d)
      = Spec.lnKer (fun k => ∑ c : Fin 768, a (ix3 (0 : Fin 1) r c) * b (ix3 (0 : Fin 1) c k))
          (fun k => g (ix2 (0 : Fin 1) k)) (fun k => bb (ix2 (0 : Fin 1) k)) d := by
  unfold k1_pay17 k1_pay16
  refine (shapeCast_ab_1ab_apply _ _ u r d).trans ?_
  exact chain2 _ (shapeCast S1x128 g _) (shapeCast S1x128 bb _) _ _ _ _ _ _ r d _ _ _
    (fun k => mm_apply a b _ _ r k)
    (fun k => congrFun (shapeCast_self g _) _) (fun k => congrFun (shapeCast_self bb _) _)

theorem slot3_apply (a : Vec Ideal S1x512x768 .f32) (b : Vec Ideal S1x768x128 .f32) (g bb : Vec Ideal S1x128 .f32)
    (u : Fin 1) (r : Fin 512) (d : Fin 128) :
    k1_pay18 (F := Ideal) a b g bb (ix3 u r d)
      = Spec.lnKer (fun k => ∑ c : Fin 768, a (ix3 (0 : Fin 1) r c) * b (ix3 (0 : Fin 1) c k))
          (fun k => g (ix2 (0 : Fin 1) k)) (fun k => bb (ix2 (0 : Fin 1) k)) d := by
  unfold k1_pay18
  refine (shapeCast_ab_1ab_apply _ _ u r d).trans ?_
  exact chain2 _ (shapeCast S1x128 g _) (shapeCast S1x128 bb _) _ _ _ _ _ _ r d _ _ _
    (fun k => mm_apply a b _ _ r k)
    (fun k => congrFun (shapeCast_self g _) _) (fun k => congrFun (shapeCast_self bb _) _)

/-! ## Loads through the staging rectangles -/

theorem ld_whole3 {n0 n1 n2 : ℕ} (x : Vec Ideal ⟨3, ![n0, n1, n2]⟩ .f32)
    (inb : ∀ a, (![0, 0, 0] : Fin 3 → ℕ) a + (⟨3, ![n0, n1, n2]⟩ : Shape).size a ≤ (⟨3, ![n0, n1, n2]⟩ : Shape).size a) :
    View.ld x (Rect.unit (s := ⟨3, ![n0, n1, n2]⟩) ![0, 0, 0] (⟨3, ![n0, n1, n2]⟩ : Shape).size inb) = x :=
  View.ld_unit_zero (funext fun a => match a with | ⟨0, _⟩ => rfl | ⟨1, _⟩ => rfl | ⟨2, _⟩ => rfl) inb x

theorem ld_whole2 {n0 n1 : ℕ} (x : Vec Ideal ⟨2, ![n0, n1]⟩ .f32)
    (inb : ∀ a, (![0, 0] : Fin 2 → ℕ) a + (⟨2, ![n0, n1]⟩ : Shape).size a ≤ (⟨2, ![n0, n1]⟩ : Shape).size a) :
    View.ld x (Rect.unit (s := ⟨2, ![n0, n1]⟩) ![0, 0] (⟨2, ![n0, n1]⟩ : Shape).size inb) = x :=
  View.ld_unit_zero (funext fun a => match a with | ⟨0, _⟩ => rfl | ⟨1, _⟩ => rfl) inb x

/-- A load of one member of a stack of four reads, at (0, p, q), the stack at (s, p, q). -/
theorem ld_member {n1 n2 : ℕ} (x : Vec Ideal ⟨3, ![4, n1, n2]⟩ .f32) (s : ℕ) (hs : s < 4)
    (inb : ∀ a, (![s, 0, 0] : Fin 3 → ℕ) a + (⟨3, ![1, n1, n2]⟩ : Shape).size a ≤ (⟨3, ![4, n1, n2]⟩ : Shape).size a)
    (p : Fin n1) (q : Fin n2) :
    View.ld x (Rect.unit (s := ⟨3, ![4, n1, n2]⟩) ![s, 0, 0] (⟨3, ![1, n1, n2]⟩ : Shape).size inb) (ix3 (0 : Fin 1) p q)
      = x (ix3 (⟨s, hs⟩ : Fin 4) p q) := by
  show x _ = x _
  congr 1
  funext a
  apply Fin.ext
  match a with
  | ⟨0, _⟩ => show s + 1 * 0 = s; omega
  | ⟨1, _⟩ => show 0 + 1 * p.val = p.val; omega
  | ⟨2, _⟩ => show 0 + 1 * q.val = q.val; omega

/-! ## Which store holds an entry -/

/-- An entry whose feature row lies outside a store's rows is not in the store's rectangle. -/
theorem not_mem_rows (o : ℕ) (sz : Fin 3 → ℕ) (inb : ∀ a, (![o, 0, 0] : Fin 3 → ℕ) a + sz a ≤ S43x512x128.size a)
    (fb : Fin 43) (r : Fin 512) (d : Fin 128) (h : fb.val < o ∨ o + sz 0 ≤ fb.val) :
    ix3 fb r d ∉ (Rect.unit (s := S43x512x128) ![o, 0, 0] sz inb).set := by
  rw [Rect.mem_set_unit]
  intro hm
  have h0 : o ≤ fb.val ∧ fb.val < o + sz 0 := hm (0 : Fin 3)
  omega

/-- The entry (o + n, r, d) is the store's own entry (n, r, d) placed in the block. -/
theorem emb_rows (o : ℕ) (m : ℕ) (inb : ∀ a, (![o, 0, 0] : Fin 3 → ℕ) a + (⟨3, ![m, 512, 128]⟩ : Shape).size a ≤ S43x512x128.size a)
    (n : Fin m) (hn : o + n.val < 43) (r : Fin 512) (d : Fin 128) :
    ix3 (⟨o + n.val, hn⟩ : Fin 43) r d
      = (Rect.unit (s := S43x512x128) ![o, 0, 0] (⟨3, ![m, 512, 128]⟩ : Shape).size inb).emb (ix3 n r d) := by
  funext a
  apply Fin.ext
  rw [Rect.emb_apply]
  match a with
  | ⟨0, _⟩ => show o + n.val = o + 1 * n.val; omega
  | ⟨1, _⟩ => show r.val = 0 + 1 * r.val; omega
  | ⟨2, _⟩ => show d.val = 0 + 1 * d.val; omega

/-- A store whose rows do not hold the entry's feature row leaves the entry to the earlier stores. -/
theorem canon_skip (o : ℕ) (sz : Fin 3 → ℕ) (inb : ∀ a, (![o, 0, 0] : Fin 3 → ℕ) a + sz a ≤ S43x512x128.size a)
    (w : (Rect.unit (s := S43x512x128) ![o, 0, 0] sz inb).shape.Idx → Elt Ideal .f32)
    (L : List (View.Piece (Elt Ideal) S43x512x128 .f32)) (fb : Fin 43) (r : Fin 512) (d : Fin 128)
    (h : fb.val < o ∨ o + sz 0 ≤ fb.val) :
    View.canon ((⟨Rect.unit (s := S43x512x128) ![o, 0, 0] sz inb, w⟩ : View.Piece (Elt Ideal) S43x512x128 .f32) :: L)
        (ix3 fb r d) = View.canon L (ix3 fb r d) :=
  View.canon_cons_of_not_mem _ L (not_mem_rows o sz inb fb r d h)

/-- The store whose rows hold the entry's feature row, if it is the last, leaves its payload there. -/
theorem canon_hit (o : ℕ) (m : ℕ)
    (inb : ∀ a, (![o, 0, 0] : Fin 3 → ℕ) a + (⟨3, ![m, 512, 128]⟩ : Shape).size a ≤ S43x512x128.size a)
    (w : (⟨3, ![m, 512, 128]⟩ : Shape).Idx → Elt Ideal .f32)
    (L : List (View.Piece (Elt Ideal) S43x512x128 .f32)) (n : Fin m) (hn : o + n.val < 43) (r : Fin 512) (d : Fin 128) :
    View.canon ((⟨Rect.unit (s := S43x512x128) ![o, 0, 0] (⟨3, ![m, 512, 128]⟩ : Shape).size inb, w⟩ :
        View.Piece (Elt Ideal) S43x512x128 .f32) :: L) (ix3 (⟨o + n.val, hn⟩ : Fin 43) r d) = w (ix3 n r d) := by
  rw [emb_rows o m inb n hn r d]
  exact View.canon_cons_emb (Rect.unit (s := S43x512x128) ![o, 0, 0] (⟨3, ![m, 512, 128]⟩ : Shape).size inb) w L (ix3 n r d)

/-! ## The block at an entry -/

variable (x1 : Vec Ideal S26x512x128 .f32) (x2 : Vec Ideal S13x512 .f32) (x3 : Vec Ideal S13x128 .f32)
  (x4 : Vec Ideal S4x512x768 .f32) (x5 : Vec Ideal S4x768x128 .f32) (x6 x7 : Vec Ideal S1x128 .f32)

/-- Rows 0 to 25: the gathered rows. -/
theorem outBlk_cat (f : Fin 26) (hf : f.val < 43) (r : Fin 512) (d : Fin 128) :
    outBlk x1 x2 x3 x4 x5 x6 x7 (ix3 (⟨f.val, hf⟩ : Fin 43) r d)
      = Spec.lnKer (fun d' => x1 (ix3 f r d')) (fun d' => x6 (ix2 (0 : Fin 1) d')) (fun d' => x7 (ix2 (0 : Fin 1) d')) d := by
  unfold outBlk outPieces
  have hlt := f.isLt
  refine (canon_skip 42 _ _ _ _ (⟨f.val, hf⟩ : Fin 43) r d (Or.inl (by show f.val < 42; omega))).trans ?_
  refine (canon_skip 41 _ _ _ _ (⟨f.val, hf⟩ : Fin 43) r d (Or.inl (by show f.val < 41; omega))).trans ?_
  refine (canon_skip 40 _ _ _ _ (⟨f.val, hf⟩ : Fin 43) r d (Or.inl (by show f.val < 40; omega))).trans ?_
  refine (canon_skip 39 _ _ _ _ (⟨f.val, hf⟩ : Fin 43) r d (Or.inl (by show f.val < 39; omega))).trans ?_
  refine (canon_skip 26 _ _ _ _ (⟨f.val, hf⟩ : Fin 43) r d (Or.inl (by show f.val < 26; omega))).trans ?_
  have hit := canon_hit 0 26 inb_S43x512x128_S26x512x128_0_0_0
    (k1_pay3 (F := Ideal) (View.ld x6 rI6) (View.ld x7 rI6) (View.ld x1 rI1)) [] f (by omega) r d
  simp only [Nat.zero_add] at hit
  refine hit.trans ?_
  rw [ld_whole3 x1, ld_whole2 x6, ld_whole2 x7]
  exact pay3_apply x6 x7 x1 f r d

/-- Rows 26 to 38: the numerical rows. -/
theorem outBlk_num (n : Fin 13) (hn : 26 + n.val < 43) (r : Fin 512) (d : Fin 128) :
    outBlk x1 x2 x3 x4 x5 x6 x7 (ix3 (⟨26 + n.val, hn⟩ : Fin 43) r d)
      = Spec.lnKer (fun d' => x2 (ix2 n r) * x3 (ix2 n d')) (fun d' => x6 (ix2 (0 : Fin 1) d'))
          (fun d' => x7 (ix2 (0 : Fin 1) d')) d := by
  unfold outBlk outPieces
  have hlt := n.isLt
  refine (canon_skip 42 _ _ _ _ (⟨26 + n.val, hn⟩ : Fin 43) r d (Or.inl (by show 26 + n.val < 42; omega))).trans ?_
  refine (canon_skip 41 _ _ _ _ (⟨26 + n.val, hn⟩ : Fin 43) r d (Or.inl (by show 26 + n.val < 41; omega))).trans ?_
  refine (canon_skip 40 _ _ _ _ (⟨26 + n.val, hn⟩ : Fin 43) r d (Or.inl (by show 26 + n.val < 40; omega))).trans ?_
  refine (canon_skip 39 _ _ _ _ (⟨26 + n.val, hn⟩ : Fin 43) r d (Or.inl (by show 26 + n.val < 39; omega))).trans ?_
  refine (canon_hit 26 13 _ _ _ n hn r d).trans ?_
  rw [ld_whole2 x2, ld_whole2 x3, ld_whole2 x6, ld_whole2 x7]
  exact pay5_apply x6 x7 x2 x3 n r d

/-- Row 39: projection 0. -/
theorem outBlk_39 (h : 39 < 43) (r : Fin 512) (d : Fin 128) :
    outBlk x1 x2 x3 x4 x5 x6 x7 (ix3 (⟨39, h⟩ : Fin 43) r d)
      = Spec.lnKer (fun d' => ∑ k : Fin 768, x4 (ix3 (0 : Fin 4) r k) * x5 (ix3 (0 : Fin 4) k d'))
          (fun d' => x6 (ix2 (0 : Fin 1) d')) (fun d' => x7 (ix2 (0 : Fin 1) d')) d := by
  unfold outBlk outPieces
  refine (canon_skip 42 _ _ _ _ (⟨39, h⟩ : Fin 43) r d (Or.inl (by show (39 : ℕ) < 42; decide))).trans ?_
  refine (canon_skip 41 _ _ _ _ (⟨39, h⟩ : Fin 43) r d (Or.inl (by show (39 : ℕ) < 41; decide))).trans ?_
  refine (canon_skip 40 _ _ _ _ (⟨39, h⟩ : Fin 43) r d (Or.inl (by show (39 : ℕ) < 40; decide))).trans ?_
  refine (canon_hit 39 1 _ _ _ (0 : Fin 1) h r d).trans ?_
  rw [ld_whole2 x6, ld_whole2 x7]
  refine (slot0_apply (View.ld x4 rI4_0) (View.ld x5 rI5_0) x6 x7 0 r d).trans ?_
  exact congrArg (fun X => Spec.lnKer X (fun d' => x6 (ix2 (0 : Fin 1) d')) (fun d' => x7 (ix2 (0 : Fin 1) d')) d)
    (funext fun k => Finset.sum_congr rfl fun c _ =>
      congrArg₂ (· * ·) (ld_member x4 0 (by decide) _ r c) (ld_member x5 0 (by decide) _ c k))

/-- Row 40: projection 1. -/
theorem outBlk_40 (h : 40 < 43) (r : Fin 512) (d : Fin 128) :
    outBlk x1 x2 x3 x4 x5 x6 x7 (ix3 (⟨40, h⟩ : Fin 43) r d)
      = Spec.lnKer (fun d' => ∑ k : Fin 768, x4 (ix3 (1 : Fin 4) r k) * x5 (ix3 (1 : Fin 4) k d'))
          (fun d' => x6 (ix2 (0 : Fin 1) d')) (fun d' => x7 (ix2 (0 : Fin 1) d')) d := by
  unfold outBlk outPieces
  refine (canon_skip 42 _ _ _ _ (⟨40, h⟩ : Fin 43) r d (Or.inl (by show (40 : ℕ) < 42; decide))).trans ?_
  refine (canon_skip 41 _ _ _ _ (⟨40, h⟩ : Fin 43) r d (Or.inl (by show (40 : ℕ) < 41; decide))).trans ?_
  refine (canon_hit 40 1 _ _ _ (0 : Fin 1) h r d).trans ?_
  rw [ld_whole2 x6, ld_whole2 x7]
  refine (slot1_apply (View.ld x4 rI4_1) (View.ld x5 rI5_1) x6 x7 0 r d).trans ?_
  exact congrArg (fun X => Spec.lnKer X (fun d' => x6 (ix2 (0 : Fin 1) d')) (fun d' => x7 (ix2 (0 : Fin 1) d')) d)
    (funext fun k => Finset.sum_congr rfl fun c _ =>
      congrArg₂ (· * ·) (ld_member x4 1 (by decide) _ r c) (ld_member x5 1 (by decide) _ c k))

/-- Row 41: projection 2. -/
theorem outBlk_41 (h : 41 < 43) (r : Fin 512) (d : Fin 128) :
    outBlk x1 x2 x3 x4 x5 x6 x7 (ix3 (⟨41, h⟩ : Fin 43) r d)
      = Spec.lnKer (fun d' => ∑ k : Fin 768, x4 (ix3 (2 : Fin 4) r k) * x5 (ix3 (2 : Fin 4) k d'))
          (fun d' => x6 (ix2 (0 : Fin 1) d')) (fun d' => x7 (ix2 (0 : Fin 1) d')) d := by
  unfold outBlk outPieces
  refine (canon_skip 42 _ _ _ _ (⟨41, h⟩ : Fin 43) r d (Or.inl (by show (41 : ℕ) < 42; decide))).trans ?_
  refine (canon_hit 41 1 _ _ _ (0 : Fin 1) h r d).trans ?_
  rw [ld_whole2 x6, ld_whole2 x7]
  refine (slot2_apply (View.ld x4 rI4_2) (View.ld x5 rI5_2) x6 x7 0 r d).trans ?_
  exact congrArg (fun X => Spec.lnKer X (fun d' => x6 (ix2 (0 : Fin 1) d')) (fun d' => x7 (ix2 (0 : Fin 1) d')) d)
    (funext fun k => Finset.sum_congr rfl fun c _ =>
      congrArg₂ (· * ·) (ld_member x4 2 (by decide) _ r c) (ld_member x5 2 (by decide) _ c k))

/-- Row 42: projection 3. -/
theorem outBlk_42 (h : 42 < 43) (r : Fin 512) (d : Fin 128) :
    outBlk x1 x2 x3 x4 x5 x6 x7 (ix3 (⟨42, h⟩ : Fin 43) r d)
      = Spec.lnKer (fun d' => ∑ k : Fin 768, x4 (ix3 (3 : Fin 4) r k) * x5 (ix3 (3 : Fin 4) k d'))
          (fun d' => x6 (ix2 (0 : Fin 1) d')) (fun d' => x7 (ix2 (0 : Fin 1) d')) d := by
  unfold outBlk outPieces

  refine (canon_hit 42 1 _ _ _ (0 : Fin 1) h r d).trans ?_
  rw [ld_whole2 x6, ld_whole2 x7]
  refine (slot3_apply (View.ld x4 rI4_3) (View.ld x5 rI5_3) x6 x7 0 r d).trans ?_
  exact congrArg (fun X => Spec.lnKer X (fun d' => x6 (ix2 (0 : Fin 1) d')) (fun d' => x7 (ix2 (0 : Fin 1) d')) d)
    (funext fun k => Finset.sum_congr rfl fun c _ =>
      congrArg₂ (· * ·) (ld_member x4 3 (by decide) _ r c) (ld_member x5 3 (by decide) _ c k))

/-- Rows 39 to 42: the projected rows. -/
theorem outBlk_emb (n : Fin 4) (hn : 39 + n.val < 43) (r : Fin 512) (d : Fin 128) :
    outBlk x1 x2 x3 x4 x5 x6 x7 (ix3 (⟨39 + n.val, hn⟩ : Fin 43) r d)
      = Spec.lnKer (fun d' => ∑ k : Fin 768, x4 (ix3 n r k) * x5 (ix3 n k d'))
          (fun d' => x6 (ix2 (0 : Fin 1) d')) (fun d' => x7 (ix2 (0 : Fin 1) d')) d :=
  match n, hn with
  | ⟨0, _⟩, hn => outBlk_39 x1 x2 x3 x4 x5 x6 x7 hn r d
  | ⟨1, _⟩, hn => outBlk_40 x1 x2 x3 x4 x5 x6 x7 hn r d
  | ⟨2, _⟩, hn => outBlk_41 x1 x2 x3 x4 x5 x6 x7 hn r d
  | ⟨3, _⟩, hn => outBlk_42 x1 x2 x3 x4 x5 x6 x7 hn r d

end Cert.KernelIdeal.TcValue

end
-- ==== Proof.TcResult.lean ====
/-
  The result of the TensorCore call, entry by entry, as the specification's normalised rows of the operand arrays:
  feature rows 0-25 the gathered rows, 26-38 the numerical features times their weight rows, 39-42 the pretrained
  embeddings times their matrices, each normalised along the 128 lanes with the scale and the shift.
-/
import proofs.«206634_g85779086836150_cont_9to1c4b_256_28_alg».proof.Proof.TcRegionValue
import proofs.«206634_g85779086836150_cont_9to1c4b_256_28_alg».proof.Proof.TcValue
import proofs.«206634_g85779086836150_cont_9to1c4b_256_28_alg».proof.Proof.Spec

set_option maxRecDepth 16384

noncomputable section

namespace Cert.KernelIdeal.TcResult

open Cert.KernelIdeal Cert.KernelIdeal.Gen Cert.KernelIdeal.TcBody Cert.KernelIdeal.TcRegion Cert.KernelIdeal.TcRegionValue
open Idealize.ShloMosaic Idealize.ShloMosaic.ValueIdx
open scoped BigOperators

/-- Feature rows 0-25: the gathered row of batch row `b`, normalised. -/
theorem regionOut_cat (v1 : Vec Ideal S26x4096x128 .f32) (v2 : Vec Ideal S13x4096 .f32) (v3 : Vec Ideal S13x128 .f32) (a2 : Vec Ideal S4x4096x768 .f32)
    (a5 : Vec Ideal S4x768x128 .f32) (v4 v5 : Vec Ideal S1x128 .f32) (f : Fin 26) (hf : f.val < 43) (b : Fin 4096) (d : Fin 128) :
    regionOut v1 v2 v3 a2 a5 v4 v5 (ix3 (⟨f.val, hf⟩ : Fin 43) b d)
      = Cert.Spec.lnKer (fun d' => v1 (ix3 f b d')) (fun d' => v4 (ix2 (0 : Fin 1) d')) (fun d' => v5 (ix2 (0 : Fin 1) d')) d := by
  rw [regionOut_apply, TcValue.outBlk_cat]
  simp only [X1_apply]

/-- Feature rows 26-38: numerical feature `n` of batch row `b` times its weight row, normalised. -/
theorem regionOut_num (v1 : Vec Ideal S26x4096x128 .f32) (v2 : Vec Ideal S13x4096 .f32) (v3 : Vec Ideal S13x128 .f32) (a2 : Vec Ideal S4x4096x768 .f32)
    (a5 : Vec Ideal S4x768x128 .f32) (v4 v5 : Vec Ideal S1x128 .f32) (n : Fin 13) (hn : 26 + n.val < 43) (b : Fin 4096) (d : Fin 128) :
    regionOut v1 v2 v3 a2 a5 v4 v5 (ix3 (⟨26 + n.val, hn⟩ : Fin 43) b d)
      = Cert.Spec.lnKer (fun d' => v2 (ix2 n b) * v3 (ix2 n d')) (fun d' => v4 (ix2 (0 : Fin 1) d')) (fun d' => v5 (ix2 (0 : Fin 1) d')) d := by
  rw [regionOut_apply, TcValue.outBlk_num]
  simp only [X2_apply]

/-- Feature rows 39-42: pretrained embedding `n` of batch row `b` times its matrix, normalised. -/
theorem regionOut_emb (v1 : Vec Ideal S26x4096x128 .f32) (v2 : Vec Ideal S13x4096 .f32) (v3 : Vec Ideal S13x128 .f32) (a2 : Vec Ideal S4x4096x768 .f32)
    (a5 : Vec Ideal S4x768x128 .f32) (v4 v5 : Vec Ideal S1x128 .f32) (n : Fin 4) (hn : 39 + n.val < 43) (b : Fin 4096) (d : Fin 128) :
    regionOut v1 v2 v3 a2 a5 v4 v5 (ix3 (⟨39 + n.val, hn⟩ : Fin 43) b d)
      = Cert.Spec.lnKer (fun d' => ∑ k : Fin 768, a2 (ix3 n b k) * a5 (ix3 n k d')) (fun d' => v4 (ix2 (0 : Fin 1) d')) (fun d' => v5 (ix2 (0 : Fin 1) d')) d := by
  rw [regionOut_apply, TcValue.outBlk_emb]
  simp only [X4_apply]

end Cert.KernelIdeal.TcResult

end
-- ==== Proof.RefLayout.lean ====
/-
  Layout operations of a rank-three array read at an index given by coordinates.

  Broadcasts that restore a summed axis, copy a column along the last axis, or lay a vector along the last
  axis; the host's float sum along the last axis as the initial value plus the plain sum over that axis; the two
  transposes that bring a batch axis to the front; and an all-reduction by and whose operand is all ones.
-/
import Idealize.ShloMosaic.PureOps.Ideal.Laws
import Idealize.ShloMosaic.Lib.Pipeline.Value
import Idealize.ShloMosaic.Lib.ValueIdx
import Idealize.ShloMosaic.Lib.IdealHost
import Idealize.ShloMosaic.Lib.ReduceAll

noncomputable section

open scoped BigOperators
open Idealize.ShloMosaic Idealize.ShloMosaic.ValueIdx

namespace Cert.RefLayout

variable {α : Type}

/-! ## Broadcasts -/

/-- A [n0, n1] array given a last axis of length one reads, at (p, q, z), its entry (p, q). -/
theorem bcast_keepdim {n0 n1 : ℕ} (v : (⟨2, ![n0, n1]⟩ : Shape).Idx → α)
    (h : (⟨2, ![n0, n1]⟩ : Shape).BroadcastsInDim ⟨3, ![n0, n1, 1]⟩ ![0, 1]) (p : Fin n0) (q : Fin n1) (z : Fin 1) :
    broadcastInDim ⟨3, ![n0, n1, 1]⟩ ![0, 1] h v (ix3 p q z) = v (ix2 p q) :=
  broadcastInDim_apply _ h v _ _ fun a => match a with
    | ⟨0, _⟩ => by
      have := p.isLt
      show p.val = if n0 = 1 then 0 else p.val
      split <;> omega
    | ⟨1, _⟩ => by
      have := q.isLt
      show q.val = if n1 = 1 then 0 else q.val
      split <;> omega

/-- A [n0, n1] array copied along a new last axis reads, at (p, q, r), its entry (p, q). -/
theorem bcast_batch {n0 n1 n2 : ℕ} (v : (⟨2, ![n0, n1]⟩ : Shape).Idx → α)
    (h : (⟨2, ![n0, n1]⟩ : Shape).BroadcastsInDim ⟨3, ![n0, n1, n2]⟩ ![0, 1]) (p : Fin n0) (q : Fin n1) (r : Fin n2) :
    broadcastInDim ⟨3, ![n0, n1, n2]⟩ ![0, 1] h v (ix3 p q r) = v (ix2 p q) :=
  broadcastInDim_apply _ h v _ _ fun a => match a with
    | ⟨0, _⟩ => by
      have := p.isLt
      show p.val = if n0 = 1 then 0 else p.val
      split <;> omega
    | ⟨1, _⟩ => by
      have := q.isLt
      show q.val = if n1 = 1 then 0 else q.val
      split <;> omega

/-- A [n0, n1, 1] column copied along the last axis reads, at (p, q, r), its entry (p, q, 0). -/
theorem bcast_lastaxis {n0 n1 n2 : ℕ} (v : (⟨3, ![n0, n1, 1]⟩ : Shape).Idx → α)
    (h : (⟨3, ![n0, n1, 1]⟩ : Shape).BroadcastsInDim ⟨3, ![n0, n1, n2]⟩ ![0, 1, 2]) (p : Fin n0) (q : Fin n1)
    (r : Fin n2) :
    broadcastInDim ⟨3, ![n0, n1, n2]⟩ ![0, 1, 2] h v (ix3 p q r) = v (ix3 p q (0 : Fin 1)) :=
  broadcastInDim_apply _ h v _ _ fun a => match a with
    | ⟨0, _⟩ => by
      have := p.isLt
      show p.val = if n0 = 1 then 0 else p.val
      split <;> omega
    | ⟨1, _⟩ => by
      have := q.isLt
      show q.val = if n1 = 1 then 0 else q.val
      split <;> omega
    | ⟨2, _⟩ => rfl

/-- A vector of length n2 laid as [1, 1, n2] and copied over the first two axes reads, at (p, q, r), its entry r. -/
theorem bcast_lane {n0 n1 n2 : ℕ} (g : (⟨1, ![n2]⟩ : Shape).Idx → α)
    (h' : (⟨1, ![n2]⟩ : Shape).BroadcastsInDim ⟨3, ![1, 1, n2]⟩ ![2])
    (h : (⟨3, ![1, 1, n2]⟩ : Shape).BroadcastsInDim ⟨3, ![n0, n1, n2]⟩ ![0, 1, 2]) (p : Fin n0) (q : Fin n1)
    (r : Fin n2) :
    broadcastInDim ⟨3, ![n0, n1, n2]⟩ ![0, 1, 2] h (broadcastInDim ⟨3, ![1, 1, n2]⟩ ![2] h' g) (ix3 p q r)
      = g (ix1 r) := by
  have e1 : broadcastInDim ⟨3, ![n0, n1, n2]⟩ ![0, 1, 2] h (broadcastInDim ⟨3, ![1, 1, n2]⟩ ![2] h' g) (ix3 p q r)
      = broadcastInDim ⟨3, ![1, 1, n2]⟩ ![2] h' g (ix3 (0 : Fin 1) (0 : Fin 1) r) :=
    broadcastInDim_apply _ h _ _ _ fun a => match a with
      | ⟨0, _⟩ => rfl
      | ⟨1, _⟩ => rfl
      | ⟨2, _⟩ => by
        have := r.isLt
        show r.val = if n2 = 1 then 0 else r.val
        split <;> omega
  rw [e1]
  exact broadcastInDim_apply _ h' g _ _ fun a => match a with
    | ⟨0, _⟩ => by
      have := r.isLt
      show r.val = if n2 = 1 then 0 else r.val
      split <;> omega

/-! ## The host's float sum along the last axis -/

/-- Entry (p, q) with k put back on the dropped last axis is the index (p, q, k). -/
theorem lift_last {n0 n1 n2 : ℕ} (h : (⟨3, ![n0, n1, n2]⟩ : Shape).Reduces [2] ⟨2, ![n0, n1]⟩) (p : Fin n0)
    (q : Fin n1) (k : Fin n2) : h.lift (ix2 p q) k = ix3 p q k := by
  funext a
  apply Fin.ext
  match a with
  | ⟨0, _⟩ => rfl
  | ⟨1, _⟩ => rfl
  | ⟨2, _⟩ => rfl

/-- The host's sum along the last axis, at (p, q): the initial value plus the sum of the entries (p, q, k). -/
theorem hostSum_last {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (hu : 0 < u.numel) (p : Fin n0) (q : Fin n1) :
    Host.reduceAdd x init h' hu (ix2 p q) = init (Shape.Idx.first hu) + ∑ k : Fin n2, x (ix3 p q k) := by
  have h : (⟨3, ![n0, n1, n2]⟩ : Shape).Reduces [2] ⟨2, ![n0, n1]⟩ := ⟨h'.1, Nat.succ_pos 1, h'.2⟩
  rw [hostReduceAdd_apply]
  refine (Ideal.hostReduceAdd_single h' h x _ (ix2 p q)).trans ?_
  exact congrArg _ (Finset.sum_congr rfl fun k _ => congrArg x (lift_last h p q k))

/-! ## Transposes that bring the batch axis to the front -/

/-- [n1, n0, n2] with its first two axes exchanged reads, at (p, q, r), the operand at (q, p, r). -/
theorem transpose_102 {n0 n1 n2 : ℕ} (x : (⟨3, ![n1, n0, n2]⟩ : Shape).Idx → α)
    (h : (⟨3, ![n1, n0, n2]⟩ : Shape).Transposes [1, 0, 2] ⟨3, ![n0, n1, n2]⟩) (p : Fin n0) (q : Fin n1) (r : Fin n2) :
    transpose ⟨3, ![n0, n1, n2]⟩ [1, 0, 2] x h (ix3 p q r) = x (ix3 q p r) :=
  transpose_apply _ x h _ _ fun c => match c with | ⟨0, _⟩ => rfl | ⟨1, _⟩ => rfl | ⟨2, _⟩ => rfl

/-- [n1, n2, n0] with its last axis brought to the front reads, at (p, q, r), the operand at (q, r, p). -/
theorem transpose_201 {n0 n1 n2 : ℕ} (x : (⟨3, ![n1, n2, n0]⟩ : Shape).Idx → α)
    (h : (⟨3, ![n1, n2, n0]⟩ : Shape).Transposes [2, 0, 1] ⟨3, ![n0, n1, n2]⟩) (p : Fin n0) (q : Fin n1) (r : Fin n2) :
    transpose ⟨3, ![n0, n1, n2]⟩ [2, 0, 1] x h (ix3 p q r) = x (ix3 q r p) :=
  transpose_apply _ x h _ _ fun c => match c with | ⟨0, _⟩ => rfl | ⟨1, _⟩ => rfl | ⟨2, _⟩ => rfl

/-! ## An all-ones operand reduced by and -/

/-- A left fold by and from 1 over words that are all 1 is 1. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_all_one f l fun n hn => h n (List.mem_cons_of_mem _ hn)

/-- A reduction by and, from an initial value 1, of an operand that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_all_one x _ fun n _ => hx n

end Cert.RefLayout

end
-- ==== Proof.RefLn.lean ====
/-
  The reference's normalisation of a group of rows, read at an entry.

  For each of the three groups (26, 13 and 4 rows per batch entry) the mean, the centred rows, the variance and
  the normalised rows of the reference's term are read at an index given by coordinates: each is the
  specification's function of the row x(p, q, ·) alone.
-/
import proofs.«206634_g85779086836150_cont_9to1c4b_256_28_alg».proof.Proof.RefTerm
import proofs.«206634_g85779086836150_cont_9to1c4b_256_28_alg».proof.Proof.Spec
import proofs.«206634_g85779086836150_cont_9to1c4b_256_28_alg».proof.Proof.RefLayout

noncomputable section

open scoped BigOperators
open Idealize.ShloMosaic Idealize.ShloMosaic.ValueIdx
open Cert.ReferenceIdeal Cert.RefLayout

namespace Cert.RefLn

variable [Cert.ReferenceIdeal.Facts]

/-! ## Groups of 26 rows -/

section N26
variable (x : FVec Ideal S4096x26x128 .f32) (g b : FVec Ideal S128 .f32) (p : Fin 4096) (q : Fin 26)

/-- The mean of row (p, q), wherever it is read along the kept axis. -/
theorem mean26_apply (z : Fin 1) :
    RefRun.mean26 x (ix3 p q z) = Spec.meanRef (fun k => x (ix3 p q k)) := by
  unfold RefRun.mean26 Spec.meanRef
  exact congrArg₂ Ideal.div ((bcast_keepdim _ _ p q z).trans (hostSum_last x _ _ _ p q))
    (broadcastInDim_scalar_apply _ _ _)

/-- The centred row (p, q) at lane d. -/
theorem cen26_apply (d : Fin 128) :
    RefRun.cen26 x (ix3 p q d) = x (ix3 p q d) - Spec.meanRef (fun k => x (ix3 p q k)) := by
  unfold RefRun.cen26
  exact congrArg (x (ix3 p q d) - ·) ((bcast_lastaxis _ _ p q d).trans (mean26_apply x p q 0))

/-- The variance of row (p, q). -/
theorem var26_apply (z : Fin 1) :
    RefRun.var26 x (ix3 p q z) = Spec.varRef (fun k => x (ix3 p q k)) := by
  unfold RefRun.var26 Spec.varRef
  have hc : ∀ (c : IVec S_ 1) (h : S_.BroadcastsInDim S4096x26x1 ![]),
      broadcastInDim S4096x26x1 ![] h c (ix3 p q z) = c ix0 := fun c h => broadcastInDim_scalar_apply h c _
  have hs : ∀ (c : FVec Ideal S_ .f32) (h : S_.BroadcastsInDim S4096x26x1 ![]),
      broadcastInDim S4096x26x1 ![] h c (ix3 p q z) = c ix0 := fun c h => broadcastInDim_scalar_apply h c _
  refine congr (congr (congrArg Scalar.select (hc _ _)) ?_) (hs _ _)
  refine congrArg₂ Ideal.div ((bcast_keepdim _ _ p q z).trans ((hostSum_last _ _ _ _ p q).trans ?_)) (hs _ _)
  exact congrArg (Ideal.ofBits .f32 0x00000000#32 + ·)
    (Finset.sum_congr rfl fun k _ => congrArg₂ (· * ·) (cen26_apply x p q k) (cen26_apply x p q k))

/-- The normalised, scaled and shifted row (p, q) at lane d is the reference's arrangement of that row. -/
theorem ln26_apply (d : Fin 128) :
    RefRun.ln26 x g b (ix3 p q d) = Spec.lnRef (fun k => x (ix3 p q k)) (Spec.lane g) (Spec.lane b) d := by
  unfold RefRun.ln26 Spec.lnRef
  refine congrArg₂ (· + ·) (congrArg₂ (· * ·) (congrArg₂ Ideal.div (cen26_apply x p q d) ?_)
    (bcast_lane g _ _ p q d)) (bcast_lane b _ _ p q d)
  refine (bcast_lastaxis _ _ p q d).trans ?_
  exact congrArg Ideal.sqrt (congrArg₂ (· + ·) (var26_apply x p q 0) (broadcastInDim_scalar_apply _ _ _))

end N26

/-! ## Groups of 13 rows -/

section N13
variable (x : FVec Ideal S4096x13x128 .f32) (g b : FVec Ideal S128 .f32) (p : Fin 4096) (q : Fin 13)

/-- The mean of row (p, q), wherever it is read along the kept axis. -/
theorem mean13_apply (z : Fin 1) :
    RefRun.mean13 x (ix3 p q z) = Spec.meanRef (fun k => x (ix3 p q k)) := by
  unfold RefRun.mean13 Spec.meanRef
  exact congrArg₂ Ideal.div ((bcast_keepdim _ _ p q z).trans (hostSum_last x _ _ _ p q))
    (broadcastInDim_scalar_apply _ _ _)

/-- The centred row (p, q) at lane d. -/
theorem cen13_apply (d : Fin 128) :
    RefRun.cen13 x (ix3 p q d) = x (ix3 p q d) - Spec.meanRef (fun k => x (ix3 p q k)) := by
  unfold RefRun.cen13
  exact congrArg (x (ix3 p q d) - ·) ((bcast_lastaxis _ _ p q d).trans (mean13_apply x p q 0))

/-- The variance of row (p, q). -/
theorem var13_apply (z : Fin 1) :
    RefRun.var13 x (ix3 p q z) = Spec.varRef (fun k => x (ix3 p q k)) := by
  unfold RefRun.var13 Spec.varRef
  have hc : ∀ (c : IVec S_ 1) (h : S_.BroadcastsInDim S4096x13x1 ![]),
      broadcastInDim S4096x13x1 ![] h c (ix3 p q z) = c ix0 := fun c h => broadcastInDim_scalar_apply h c _
  have hs : ∀ (c : FVec Ideal S_ .f32) (h : S_.BroadcastsInDim S4096x13x1 ![]),
      broadcastInDim S4096x13x1 ![] h c (ix3 p q z) = c ix0 := fun c h => broadcastInDim_scalar_apply h c _
  refine congr (congr (congrArg Scalar.select (hc _ _)) ?_) (hs _ _)
  refine congrArg₂ Ideal.div ((bcast_keepdim _ _ p q z).trans ((hostSum_last _ _ _ _ p q).trans ?_)) (hs _ _)
  exact congrArg (Ideal.ofBits .f32 0x00000000#32 + ·)
    (Finset.sum_congr rfl fun k _ => congrArg₂ (· * ·) (cen13_apply x p q k) (cen13_apply x p q k))

/-- The normalised, scaled and shifted row (p, q) at lane d is the reference's arrangement of that row. -/
theorem ln13_apply (d : Fin 128) :
    RefRun.ln13 x g b (ix3 p q d) = Spec.lnRef (fun k => x (ix3 p q k)) (Spec.lane g) (Spec.lane b) d := by
  unfold RefRun.ln13 Spec.lnRef
  refine congrArg₂ (· + ·) (congrArg₂ (· * ·) (congrArg₂ Ideal.div (cen13_apply x p q d) ?_)
    (bcast_lane g _ _ p q d)) (bcast_lane b _ _ p q d)
  refine (bcast_lastaxis _ _ p q d).trans ?_
  exact congrArg Ideal.sqrt (congrArg₂ (· + ·) (var13_apply x p q 0) (broadcastInDim_scalar_apply _ _ _))

end N13

/-! ## Groups of 4 rows -/

section N4
variable (x : FVec Ideal S4096x4x128 .f32) (g b : FVec Ideal S128 .f32) (p : Fin 4096) (q : Fin 4)

/-- The mean of row (p, q), wherever it is read along the kept axis. -/
theorem mean4_apply (z : Fin 1) :
    RefRun.mean4 x (ix3 p q z) = Spec.meanRef (fun k => x (ix3 p q k)) := by
  unfold RefRun.mean4 Spec.meanRef
  exact congrArg₂ Ideal.div ((bcast_keepdim _ _ p q z).trans (hostSum_last x _ _ _ p q))
    (broadcastInDim_scalar_apply _ _ _)

/-- The centred row (p, q) at lane d. -/
theorem cen4_apply (d : Fin 128) :
    RefRun.cen4 x (ix3 p q d) = x (ix3 p q d) - Spec.meanRef (fun k => x (ix3 p q k)) := by
  unfold RefRun.cen4
  exact congrArg (x (ix3 p q d) - ·) ((bcast_lastaxis _ _ p q d).trans (mean4_apply x p q 0))

/-- The variance of row (p, q). -/
theorem var4_apply (z : Fin 1) :
    RefRun.var4 x (ix3 p q z) = Spec.varRef (fun k => x (ix3 p q k)) := by
  unfold RefRun.var4 Spec.varRef
  have hc : ∀ (c : IVec S_ 1) (h : S_.BroadcastsInDim S4096x4x1 ![]),
      broadcastInDim S4096x4x1 ![] h c (ix3 p q z) = c ix0 := fun c h => broadcastInDim_scalar_apply h c _
  have hs : ∀ (c : FVec Ideal S_ .f32) (h : S_.BroadcastsInDim S4096x4x1 ![]),
      broadcastInDim S4096x4x1 ![] h c (ix3 p q z) = c ix0 := fun c h => broadcastInDim_scalar_apply h c _
  refine congr (congr (congrArg Scalar.select (hc _ _)) ?_) (hs _ _)
  refine congrArg₂ Ideal.div ((bcast_keepdim _ _ p q z).trans ((hostSum_last _ _ _ _ p q).trans ?_)) (hs _ _)
  exact congrArg (Ideal.ofBits .f32 0x00000000#32 + ·)
    (Finset.sum_congr rfl fun k _ => congrArg₂ (· * ·) (cen4_apply x p q k) (cen4_apply x p q k))

/-- The normalised, scaled and shifted row (p, q) at lane d is the reference's arrangement of that row. -/
theorem ln4_apply (d : Fin 128) :
    RefRun.ln4 x g b (ix3 p q d) = Spec.lnRef (fun k => x (ix3 p q k)) (Spec.lane g) (Spec.lane b) d := by
  unfold RefRun.ln4 Spec.lnRef
  refine congrArg₂ (· + ·) (congrArg₂ (· * ·) (congrArg₂ Ideal.div (cen4_apply x p q d) ?_)
    (bcast_lane g _ _ p q d)) (bcast_lane b _ _ p q d)
  refine (bcast_lastaxis _ _ p q d).trans ?_
  exact congrArg Ideal.sqrt (congrArg₂ (· + ·) (var4_apply x p q 0) (broadcastInDim_scalar_apply _ _ _))

end N4

end Cert.RefLn

end
-- ==== Proof.RefGatherDot.lean ====
/-
  A batched one-axis contraction and a batched row gather, read at an index given by coordinates.

  The contraction pairs, for each member g of a stack, a [K, N] left factor with a [M, K] right factor over K
  and lists the result as [G, N, M]: its entry (g, a, b) is the sum over c of left (g, c, a) times right
  (g, b, c). The gather picks, for each member g and each position b, the row of a [V, D] table named by the
  start index stored at (g, b, 0), read signed and kept inside the table.
-/
import Idealize.ShloMosaic.PureOps.Ideal.Laws
import Idealize.ShloMosaic.Lib.ValueIdx

noncomputable section

open scoped BigOperators
open Idealize.ShloMosaic Idealize.ShloMosaic.ValueIdx

namespace Cert.RefLayout

/-- The batched contraction at (g, a, b). -/
theorem dotGeneral_batch_apply {G K N M : ℕ} {φ₁ φ₂ : FTy}
    (w : DotDims.WF ⟨3, ![G, K, N]⟩ ⟨3, ![G, M, K]⟩ ⟨3, ![G, N, M]⟩ [1] [2] [2] [1] [0] [0])
    (prec : Option ContractPrecision) (A : FVec Ideal ⟨3, ![G, K, N]⟩ φ₁) (B : FVec Ideal ⟨3, ![G, M, K]⟩ φ₂)
    (g : Fin G) (a : Fin N) (b : Fin M) :
    Host.dotGeneral (⟨[1], [2], [2], [1], [0], [0], w⟩ : DotDims _ _ _) prec A B (ix3 g a b)
      = ∑ c : Fin K, A (ix3 g c a) * B (ix3 g b c) := by
  show FloatOps.dotGeneral _ prec _ A B (ix3 g a b) = _
  rw [Ideal.dotGeneral_apply,
    ← Equiv.sum_comp (contrEquiv1 (⟨[1], [2], [2], [1], [0], [0], w⟩ : DotDims _ _ _) K rfl rfl).symm]
  refine Finset.sum_congr rfl fun c _ => ?_
  have c3 := contrEquiv1_symm_val
    (⟨[1], [2], [2], [1], [0], [0], w⟩ : DotDims ⟨3, ![G, K, N]⟩ ⟨3, ![G, M, K]⟩ ⟨3, ![G, N, M]⟩) K rfl rfl c
  have l3 : (⟨[1], [2], [2], [1], [0], [0], w⟩ : DotDims ⟨3, ![G, K, N]⟩ ⟨3, ![G, M, K]⟩ ⟨3, ![G, N, M]⟩).lhsIdx (ix3 g a b)
      ((contrEquiv1 _ K rfl rfl).symm c) = ix3 g c a := by
    funext ax; apply Fin.ext
    match ax with
    | ⟨0, _⟩ => simp [DotDims.lhsIdx] <;> rfl
    | ⟨1, _⟩ => simp [DotDims.lhsIdx] <;> exact c3
    | ⟨2, _⟩ => simp [DotDims.lhsIdx] <;> rfl
  have r3 : (⟨[1], [2], [2], [1], [0], [0], w⟩ : DotDims ⟨3, ![G, K, N]⟩ ⟨3, ![G, M, K]⟩ ⟨3, ![G, N, M]⟩).rhsIdx (ix3 g a b)
      ((contrEquiv1 _ K rfl rfl).symm c) = ix3 g b c := by
    funext ax; apply Fin.ext
    match ax with
    | ⟨0, _⟩ => simp [DotDims.rhsIdx] <;> rfl
    | ⟨1, _⟩ => simp [DotDims.rhsIdx] <;> rfl
    | ⟨2, _⟩ => simp [DotDims.rhsIdx] <;> exact c3
  rw [l3, r3]

variable {α : Type}

/-- The batched row gather at (g, b, d): the table's entry (g, r, d) with r the start index stored at (g, b, 0),
    read signed and kept in [0, V - 1]. -/
theorem gather_rows_apply {G V D B w : ℕ} (hV : 0 < V)
    (wf : GatherDims.WF ⟨3, ![G, V, D]⟩ ⟨3, ![G, B, 1]⟩ ⟨3, ![G, B, D]⟩ [2] [1] [0] [1] [0] 2 ![1, 1, D])
    (x : (⟨3, ![G, V, D]⟩ : Shape).Idx → α) (idx : IVec ⟨3, ![G, B, 1]⟩ w) (g : Fin G) (b : Fin B) (d : Fin D) :
    Host.gather (⟨[2], [1], [0], [0], [1], 2, ![1, 1, D], wf⟩ : GatherDims _ _ _) x idx (ix3 g b d)
      = x (ix3 g (⟨min (idx (ix3 g b (0 : Fin 1))).toInt.toNat (V - 1), by omega⟩ : Fin V) d) := by
  unfold Host.gather
  congr 1
  funext a
  refine Fin.ext ?_
  let Dm : GatherDims ⟨3, ![G, V, D]⟩ ⟨3, ![G, B, 1]⟩ ⟨3, ![G, B, D]⟩ := ⟨[2], [1], [0], [0], [1], 2, ![1, 1, D], wf⟩
  show Dm.start (ix3 g b d) idx a + Dm.batchCoord (ix3 g b d) a + Dm.offCoord (ix3 g b d) a = _
  match a with
  | ⟨0, h0⟩ =>
    have hb : (⟨0, h0⟩ : Fin 3) ∈ Dm.operandBatchingDims := List.mem_singleton.mpr rfl
    have hnk : (⟨0, h0⟩ : Fin 3) ∉ Dm.sKept := fun h => ((Dm.mem_sKept _).mp h).2 hb
    rw [GatherDims.start_batching _ _ _ _ hb, GatherDims.offCoord_eq_zero _ _ _ hnk]
    simp only [Nat.zero_add, Nat.add_zero]
    unfold GatherDims.batchCoord
    rw [dif_pos hb]
    rfl
  | ⟨2, h2⟩ =>
    have hnb : (⟨2, h2⟩ : Fin 3) ∉ Dm.operandBatchingDims :=
      fun h => Fin.ne_of_val_ne (show (2 : ℕ) ≠ 0 by decide) (List.mem_singleton.mp h)
    have hns : (⟨2, h2⟩ : Fin 3) ∉ Dm.startIndexMap :=
      fun h => Fin.ne_of_val_ne (show (2 : ℕ) ≠ 1 by decide) (List.mem_singleton.mp h)
    rw [GatherDims.batchCoord_eq_zero _ _ _ hnb]
    unfold GatherDims.start
    rw [dif_neg hns]
    simp only [Nat.zero_add, Nat.add_zero]
    unfold GatherDims.offCoord
    have hk : Dm.sKept = [2] := rfl
    have hm : (⟨2, h2⟩ : Fin 3) ∈ Dm.sKept := by rw [hk]; exact List.mem_singleton.mpr rfl
    rw [dif_pos hm]
    rfl
  | ⟨1, h1⟩ =>
    have hnb : (⟨1, h1⟩ : Fin 3) ∉ Dm.operandBatchingDims :=
      fun h => Fin.ne_of_val_ne (show (1 : ℕ) ≠ 0 by decide) (List.mem_singleton.mp h)
    have hnk : (⟨1, h1⟩ : Fin 3) ∉ Dm.sKept := fun h => ((Dm.mem_sKept _).mp h).1 (List.mem_singleton.mpr rfl)
    rw [GatherDims.batchCoord_eq_zero _ _ _ hnb, GatherDims.offCoord_eq_zero _ _ _ hnk]
    simp only [Nat.add_zero]
    unfold GatherDims.start
    rw [dif_pos (show (⟨1, h1⟩ : Fin 3) ∈ Dm.startIndexMap from List.mem_singleton.mpr rfl)]
    have hsi : Dm.siIdx (ix3 g b d) ⟨List.idxOf (⟨1, h1⟩ : Fin 3) Dm.startIndexMap,
        List.idxOf_lt_length_iff.2 (List.mem_singleton.mpr rfl)⟩ = ix3 g b (0 : Fin 1) := by
      funext c; refine Fin.ext ?_
      match c with
      | ⟨0, _⟩ => rfl
      | ⟨1, _⟩ => rfl
      | ⟨2, _⟩ => rfl
    rw [hsi]
    rfl

end Cert.RefLayout

end
-- ==== Proof.RefRows.lean ====
/-
  The three kinds of rows the reference normalises, read at an entry.

  The looked-up rows: inside the range the precondition gives, the index normalisation changes nothing, the
  in-range mask is all ones, and the gather reads the table row named by the stored index. The numerical rows:
  a contraction over an axis of length one, a single product. The projected rows: a contraction over 768
  coordinates. Each then has its batch axis brought to the front by a transpose.
-/
import proofs.«206634_g85779086836150_cont_9to1c4b_256_28_alg».proof.Proof.RefTerm
import proofs.«206634_g85779086836150_cont_9to1c4b_256_28_alg».proof.Proof.Spec
import proofs.«206634_g85779086836150_cont_9to1c4b_256_28_alg».proof.Proof.RefLayout
import proofs.«206634_g85779086836150_cont_9to1c4b_256_28_alg».proof.Proof.RefGatherDot

noncomputable section

open scoped BigOperators
open Idealize.ShloMosaic Idealize.ShloMosaic.ValueIdx
open Cert.ReferenceIdeal Cert.RefLayout

namespace Cert.RefRows

variable [Cert.ReferenceIdeal.Facts]

/-- A stored index that is not negative is left as it is by the index normalisation. -/
theorem takeIdx_apply (a1 : IVec S26x4096 32) (f : Fin 26) (b : Fin 4096) (z : Fin 1)
    (h0 : 0 ≤ (a1 (ix2 f b)).toInt) : RefRun.takeIdx a1 (ix3 f b z) = a1 (ix2 f b) := by
  unfold RefRun.takeIdx
  refine (bcast_keepdim _ _ f b z).trans ?_
  have hc : IntOp.cmpi .slt (a1 (ix2 f b)) 0#32 = 0#1 := by
    apply eq_zero_of_ne_one
    intro h
    have h' := IntOp.cmpi_slt.1 h
    have hz : (0#32 : BitVec 32).toInt = 0 := by decide
    omega
  show Scalar.select (IntOp.cmpi .slt (a1 (ix2 f b)) 0#32) _ (a1 (ix2 f b)) = a1 (ix2 f b)
  rw [hc, select_zero]

/-- With every stored index in [0, 99999] the in-range mask is 1 everywhere. -/
theorem takeOk_apply (a1 : IVec S26x4096 32) (hr : ∀ i, 0 ≤ (a1 i).toInt ∧ (a1 i).toInt ≤ 99999)
    (j : S26x4096.Idx) : RefRun.takeOk a1 j = 1#1 := by
  unfold RefRun.takeOk
  refine reduce_andi_one _ _ _ _ rfl (fun i => ?_) j
  obtain ⟨f, b, z, rfl⟩ : ∃ (f : Fin 26) (b : Fin 4096) (z : Fin 1), i = ix3 f b z := ⟨i 0, i 1, i 2, eq_ix3 i⟩
  have hv := takeIdx_apply a1 f b z (hr _).1
  show IntOp.andi (IntOp.cmpi .sge (RefRun.takeIdx a1 (ix3 f b z)) 0#32)
    (IntOp.cmpi .sle (RefRun.takeIdx a1 (ix3 f b z)) 100000#32) = 1#1
  rw [hv]
  have hz0 : (0#32 : BitVec 32).toInt = 0 := by decide
  have hz1 : (100000#32 : BitVec 32).toInt = 100000 := by decide
  refine IntOp.andi_eq_one.2 ⟨IntOp.cmpi_sge.2 ?_, IntOp.cmpi_sle.2 ?_⟩
  · rw [hz0]; exact (hr _).1
  · rw [hz1]; have := (hr (ix2 f b)).2; omega

/-- The looked-up row of batch entry p and feature q. -/
theorem cat_apply (a3 : FVec Ideal S26x100001x128 .f32) (a1 : IVec S26x4096 32)
    (hr : ∀ i, 0 ≤ (a1 i).toInt ∧ (a1 i).toInt ≤ 99999) (p : Fin 4096) (q : Fin 26) (d : Fin 128) :
    RefRun.cat a3 a1 (ix3 p q d) = Spec.catRow a1 a3 q p d := by
  unfold RefRun.cat
  refine (transpose_102 _ _ p q d).trans ?_
  unfold RefRun.take
  have h1 : ∀ h, broadcastInDim S26x4096x128 ![0, 1] h (RefRun.takeOk a1) (ix3 q p d) = 1#1 :=
    fun h => (bcast_batch _ h q p d).trans (takeOk_apply a1 hr _)
  rw [select_apply, h1, select_one]
  refine (gather_rows_apply (by decide) _ a3 (RefRun.takeIdx a1) q p d).trans ?_
  unfold Spec.catRow
  have hv := takeIdx_apply a1 q p 0 (hr _).1
  simp only [hv]

/-- The numerical row of batch entry p and feature n. -/
theorem num_apply (a4 : FVec Ideal S13x1x128 .f32) (a0 : FVec Ideal S13x4096x1 .f32) (p : Fin 4096) (n : Fin 13)
    (d : Fin 128) : RefRun.num a4 a0 (ix3 p n d) = Spec.numRow a0 a4 n p d := by
  unfold RefRun.num Spec.numRow
  refine (transpose_201 _ _ p n d).trans ?_
  refine (dotGeneral_batch_apply _ none a4 a0 n d p).trans ?_
  rw [Fin.sum_univ_one]
  exact mul_comm _ _

/-- The projected row of batch entry p and embedding n. -/
theorem emb_apply (a5 : FVec Ideal S4x768x128 .f32) (a2 : FVec Ideal S4x4096x768 .f32) (p : Fin 4096) (n : Fin 4)
    (d : Fin 128) : RefRun.emb a5 a2 (ix3 p n d) = Spec.embRow a2 a5 n p d := by
  unfold RefRun.emb Spec.embRow
  refine (transpose_201 _ _ p n d).trans ?_
  refine (dotGeneral_batch_apply _ none a5 a2 n d p).trans ?_
  exact Finset.sum_congr rfl fun k _ => mul_comm _ _

end Cert.RefRows

end
-- ==== Proof.RefValue.lean ====
/-
  The reference's result at an entry.

  The result joins the three normalised groups along the feature axis: features 0 to 25 are the looked-up
  rows, 26 to 38 the numerical rows, 39 to 42 the projected rows. At entry (p, f, d) it is the reference's
  arrangement of the normalisation applied to the row of that feature, with the gain and bias vectors read by
  lane.
-/
import proofs.«206634_g85779086836150_cont_9to1c4b_256_28_alg».proof.Proof.RefLn
import proofs.«206634_g85779086836150_cont_9to1c4b_256_28_alg».proof.Proof.RefRows

noncomputable section

open scoped BigOperators
open Idealize.ShloMosaic Idealize.ShloMosaic.ValueIdx
open Cert.ReferenceIdeal Cert.RefLayout

namespace Cert.RefValue

variable [Cert.ReferenceIdeal.Facts]
variable (a0 : FVec Ideal S13x4096x1 .f32) (a1 : IVec S26x4096 32) (a2 : FVec Ideal S4x4096x768 .f32)
  (a3 : FVec Ideal S26x100001x128 .f32) (a4 : FVec Ideal S13x1x128 .f32) (a5 : FVec Ideal S4x768x128 .f32)
  (a6 a7 : FVec Ideal S128 .f32)

/-- Features 0 to 25: the looked-up rows. -/
theorem out_cat (hr : ∀ i, 0 ≤ (a1 i).toInt ∧ (a1 i).toInt ≤ 99999) (p : Fin 4096) (f : Fin 26) (hf : f.val < 43)
    (d : Fin 128) :
    RefRun.out a0 a1 a2 a3 a4 a5 a6 a7 (ix3 p (⟨f.val, hf⟩ : Fin 43) d)
      = Spec.lnRef (Spec.catRow a1 a3 f p) (Spec.lane a6) (Spec.lane a7) d := by
  unfold RefRun.out
  refine (concatenate_apply_piece (1 : Fin 3) _ _ (ix3 p (⟨f.val, hf⟩ : Fin 43) d) 0 (by show (0 : ℕ) < 3; decide) S4096x26x128 _ rfl rfl 0
    rfl (ix3 p f d) (fun b hb => match b with
      | ⟨0, _⟩ => rfl
      | ⟨1, _⟩ => absurd (Fin.ext rfl) hb
      | ⟨2, _⟩ => rfl) (Nat.zero_add _)).trans ?_
  refine (RefLn.ln26_apply _ a6 a7 p f d).trans ?_
  exact congrArg (fun X => Spec.lnRef X (Spec.lane a6) (Spec.lane a7) d)
    (funext fun k => RefRows.cat_apply a3 a1 hr p f k)

/-- Features 26 to 38: the numerical rows. -/
theorem out_num (p : Fin 4096) (n : Fin 13) (hn : 26 + n.val < 43) (d : Fin 128) :
    RefRun.out a0 a1 a2 a3 a4 a5 a6 a7 (ix3 p (⟨26 + n.val, hn⟩ : Fin 43) d)
      = Spec.lnRef (Spec.numRow a0 a4 n p) (Spec.lane a6) (Spec.lane a7) d := by
  unfold RefRun.out
  refine (concatenate_apply_piece (1 : Fin 3) _ _ (ix3 p (⟨26 + n.val, hn⟩ : Fin 43) d) 1 (by show (1 : ℕ) < 3; decide) S4096x13x128 _ rfl rfl 26
    rfl (ix3 p n d) (fun b hb => match b with
      | ⟨0, _⟩ => rfl
      | ⟨1, _⟩ => absurd (Fin.ext rfl) hb
      | ⟨2, _⟩ => rfl) rfl).trans ?_
  refine (RefLn.ln13_apply _ a6 a7 p n d).trans ?_
  exact congrArg (fun X => Spec.lnRef X (Spec.lane a6) (Spec.lane a7) d)
    (funext fun k => RefRows.num_apply a4 a0 p n k)

/-- Features 39 to 42: the projected rows. -/
theorem out_emb (p : Fin 4096) (n : Fin 4) (hn : 39 + n.val < 43) (d : Fin 128) :
    RefRun.out a0 a1 a2 a3 a4 a5 a6 a7 (ix3 p (⟨39 + n.val, hn⟩ : Fin 43) d)
      = Spec.lnRef (Spec.embRow a2 a5 n p) (Spec.lane a6) (Spec.lane a7) d := by
  unfold RefRun.out
  refine (concatenate_apply_piece (1 : Fin 3) _ _ (ix3 p (⟨39 + n.val, hn⟩ : Fin 43) d) 2 (by show (2 : ℕ) < 3; decide) S4096x4x128 _ rfl rfl 39
    rfl (ix3 p n d) (fun b hb => match b with
      | ⟨0, _⟩ => rfl
      | ⟨1, _⟩ => absurd (Fin.ext rfl) hb
      | ⟨2, _⟩ => rfl) rfl).trans ?_
  refine (RefLn.ln4_apply _ a6 a7 p n d).trans ?_
  exact congrArg (fun X => Spec.lnRef X (Spec.lane a6) (Spec.lane a7) d)
    (funext fun k => RefRows.emb_apply a5 a2 p n k)

end Cert.RefValue

end
-- ==== Proof.SpecReal.lean ====
/-
  The rows before normalisation are rows of reals when the arrays they are built from hold reals: a table row
  is a row of table entries; a product of two reals is a real; a finite sum of products of reals is a real. So
  on such arrays the kernel's arrangement of the normalisation and the reference's agree on every row.
-/
import proofs.«206634_g85779086836150_cont_9to1c4b_256_28_alg».proof.Proof.Spec

noncomputable section

open scoped BigOperators
open Idealize.ShloMosaic Idealize.ShloMosaic.ValueIdx

namespace Cert.Spec

theorem catRow_real (a1 : (⟨2, ![26, 4096]⟩ : Shape).Idx → BitVec 32)
    (a3 : (⟨3, ![26, 100001, 128]⟩ : Shape).Idx → EReal) (h3 : ∀ i, ∃ r : ℝ, a3 i = (r : EReal)) (f : Fin 26)
    (b : Fin 4096) (d : Fin 128) : ∃ r : ℝ, catRow a1 a3 f b d = (r : EReal) := h3 _

theorem numRow_real (a0 : (⟨3, ![13, 4096, 1]⟩ : Shape).Idx → EReal) (a4 : (⟨3, ![13, 1, 128]⟩ : Shape).Idx → EReal)
    (h0 : ∀ i, ∃ r : ℝ, a0 i = (r : EReal)) (h4 : ∀ i, ∃ r : ℝ, a4 i = (r : EReal)) (n : Fin 13) (b : Fin 4096)
    (d : Fin 128) : ∃ r : ℝ, numRow a0 a4 n b d = (r : EReal) := by
  obtain ⟨x, hx⟩ := h0 (ix3 n b (0 : Fin 1))
  obtain ⟨y, hy⟩ := h4 (ix3 n (0 : Fin 1) d)
  exact ⟨x * y, by unfold numRow; rw [hx, hy, EReal.coe_mul]⟩

theorem embRow_real (a2 : (⟨3, ![4, 4096, 768]⟩ : Shape).Idx → EReal) (a5 : (⟨3, ![4, 768, 128]⟩ : Shape).Idx → EReal)
    (h2 : ∀ i, ∃ r : ℝ, a2 i = (r : EReal)) (h5 : ∀ i, ∃ r : ℝ, a5 i = (r : EReal)) (n : Fin 4) (b : Fin 4096)
    (d : Fin 128) : ∃ r : ℝ, embRow a2 a5 n b d = (r : EReal) := by
  choose X hX using h2
  choose Y hY using h5
  refine ⟨∑ k : Fin 768, X (ix3 n b k) * Y (ix3 n k d), ?_⟩
  unfold embRow
  simp only [hX, hY, ← EReal.coe_mul]
  exact RealOps.sum_coe _ _

theorem lane_real (a : (⟨1, ![128]⟩ : Shape).Idx → EReal) (h : ∀ i, ∃ r : ℝ, a i = (r : EReal)) (d : Fin 128) :
    ∃ r : ℝ, lane a d = (r : EReal) := h _

end Cert.Spec

end
-- ==== Proof.RefKer.lean ====
/-
  Under the precondition, the reference's result at an entry is the KERNEL's arrangement of the normalisation
  applied to the row of that feature: the precondition makes every float entry a real and every categorical
  index in range, the reference's result is its own arrangement of the row, and on rows of reals the two
  arrangements agree.
-/
import proofs.«206634_g85779086836150_cont_9to1c4b_256_28_alg».proof.Proof.RefValue
import proofs.«206634_g85779086836150_cont_9to1c4b_256_28_alg».proof.Proof.PreFacts
import proofs.«206634_g85779086836150_cont_9to1c4b_256_28_alg».proof.Proof.SpecReal

noncomputable section

open scoped BigOperators
open Idealize.ShloMosaic Idealize.ShloMosaic.ValueIdx
open Cert.ReferenceIdeal

namespace Cert.RefValue

variable [Cert.ReferenceIdeal.Facts]
variable (a0 : FVec Ideal S13x4096x1 .f32) (a1 : IVec S26x4096 32) (a2 : FVec Ideal S4x4096x768 .f32)
  (a3 : FVec Ideal S26x100001x128 .f32) (a4 : FVec Ideal S13x1x128 .f32) (a5 : FVec Ideal S4x768x128 .f32)
  (a6 a7 : FVec Ideal S128 .f32)
  (hpre : Cert.Pre_input_domain.fn (F := Ideal) a0 a1 a2 a3 a4 a5 a6 a7 = fun _ => 1#1)

include hpre

/-- Features 0 to 25. -/
theorem out_cat_ker (p : Fin 4096) (f : Fin 26) (hf : f.val < 43) (d : Fin 128) :
    RefRun.out a0 a1 a2 a3 a4 a5 a6 a7 (ix3 p (⟨f.val, hf⟩ : Fin 43) d)
      = Spec.lnKer (Spec.catRow a1 a3 f p) (Spec.lane a6) (Spec.lane a7) d := by
  obtain ⟨h0, h2, h3, h4, h5, h6, h7⟩ := Cert.PreFacts.reals a0 a1 a2 a3 a4 a5 a6 a7 hpre
  rw [out_cat a0 a1 a2 a3 a4 a5 a6 a7 (Cert.PreFacts.range a0 a1 a2 a3 a4 a5 a6 a7 hpre) p f hf d]
  exact (Spec.lnKer_eq_lnRef _ _ _ (Spec.catRow_real a1 a3 h3 f p) (Spec.lane_real a6 h6) (Spec.lane_real a7 h7) d).symm

/-- Features 26 to 38. -/
theorem out_num_ker (p : Fin 4096) (n : Fin 13) (hn : 26 + n.val < 43) (d : Fin 128) :
    RefRun.out a0 a1 a2 a3 a4 a5 a6 a7 (ix3 p (⟨26 + n.val, hn⟩ : Fin 43) d)
      = Spec.lnKer (Spec.numRow a0 a4 n p) (Spec.lane a6) (Spec.lane a7) d := by
  obtain ⟨h0, h2, h3, h4, h5, h6, h7⟩ := Cert.PreFacts.reals a0 a1 a2 a3 a4 a5 a6 a7 hpre
  rw [out_num a0 a1 a2 a3 a4 a5 a6 a7 p n hn d]
  exact (Spec.lnKer_eq_lnRef _ _ _ (Spec.numRow_real a0 a4 h0 h4 n p) (Spec.lane_real a6 h6) (Spec.lane_real a7 h7) d).symm

/-- Features 39 to 42. -/
theorem out_emb_ker (p : Fin 4096) (n : Fin 4) (hn : 39 + n.val < 43) (d : Fin 128) :
    RefRun.out a0 a1 a2 a3 a4 a5 a6 a7 (ix3 p (⟨39 + n.val, hn⟩ : Fin 43) d)
      = Spec.lnKer (Spec.embRow a2 a5 n p) (Spec.lane a6) (Spec.lane a7) d := by
  obtain ⟨h0, h2, h3, h4, h5, h6, h7⟩ := Cert.PreFacts.reals a0 a1 a2 a3 a4 a5 a6 a7 hpre
  rw [out_emb a0 a1 a2 a3 a4 a5 a6 a7 p n hn d]
  exact (Spec.lnKer_eq_lnRef _ _ _ (Spec.embRow_real a2 a5 h2 h5 n p) (Spec.lane_real a6 h6) (Spec.lane_real a7 h7) d).symm

end Cert.RefValue

end
-- ==== Proof.KerValue.lean ====
/-
  The idealized kernel program's result, entry by entry, as the specification's normalised rows of its ARGUMENTS.

  Around the two kernels the program only rearranges: the numerical features lose a unit axis, the weight rows lose
  one, the scale and the shift of the norm gain one, and the TensorCore call's feature-major result is transposed to
  batch-major. Read at an index each rearrangement is the operand at the matching index, so entry (batch row b,
  feature row, lane d) of the program's result is the call's result at (feature row, b, d): the normalised gathered
  row, numerical row or projected row of batch row b.
-/
import proofs.«206634_g85779086836150_cont_9to1c4b_256_28_alg».proof.Proof.TcRegionValue
import proofs.«206634_g85779086836150_cont_9to1c4b_256_28_alg».proof.Proof.TcResult
import proofs.«206634_g85779086836150_cont_9to1c4b_256_28_alg».proof.Proof.RefKer
import proofs.«206634_g85779086836150_cont_9to1c4b_256_28_alg».proof.Proof.Spec
import Idealize.ShloMosaic.Lib.ValueLayout
import Idealize.ShloMosaic.Lib.Pipeline.Value

set_option maxRecDepth 16384

noncomputable section

namespace Cert.KernelIdeal.KerValue

open Cert.KernelIdeal Cert.KernelIdeal.Gen Cert.KernelIdeal.TcBody Cert.KernelIdeal.TcRegion Cert.KernelIdeal.TcRegionValue
open Idealize.ShloMosaic Idealize.ShloMosaic.ValueIdx
open scoped BigOperators

/-- The program's result from its float arguments and the gather kernel's result `v1`: the four reshapes, the
    TensorCore call, the transpose, as the program prints them. -/
def kerOut (a0 : FVec Ideal S13x4096x1 .f32) (a2 : FVec Ideal S4x4096x768 .f32) (a4 : FVec Ideal S13x1x128 .f32)
    (a5 : FVec Ideal S4x768x128 .f32) (a6 a7 : FVec Ideal S128 .f32) (v1 : FVec Ideal S26x4096x128 .f32) : FVec Ideal S4096x43x128 .f32 :=
  transpose S4096x43x128 [1, 0, 2]
    (regionOut (F := Ideal) v1 (shapeCast S13x4096 a0 shapeCasts_S13x4096x1_S13x4096) (shapeCast S13x128 a4 shapeCasts_S13x1x128_S13x128) a2 a5
      (shapeCast S1x128 a6 shapeCasts_S128_S1x128) (shapeCast S1x128 a7 shapeCasts_S128_S1x128))
    transposes_S43x4096x128_S4096x43x128_1_0_2

/-! ## The rearrangements at an index -/

/-- The transposed result at (batch row, feature row, lane) is the call's at (feature row, batch row, lane). -/
theorem transpose_102_apply (x : FVec Ideal S43x4096x128 .f32) (b : Fin 4096) (fb : Fin 43) (d : Fin 128) :
    transpose S4096x43x128 [1, 0, 2] x transposes_S43x4096x128_S4096x43x128_1_0_2 (ix3 b fb d) = x (ix3 fb b d) :=
  transpose_apply _ x _ _ _ fun c => match c with | ⟨0, _⟩ => rfl | ⟨1, _⟩ => rfl | ⟨2, _⟩ => rfl

/-- The numerical features without their unit axis. -/
theorem num_apply (a0 : FVec Ideal S13x4096x1 .f32) (n : Fin 13) (b : Fin 4096) :
    shapeCast S13x4096 a0 shapeCasts_S13x4096x1_S13x4096 (ix2 n b) = a0 (ix3 n b (0 : Fin 1)) :=
  shapeCast_apply a0 _ _ _ (by
    rw [Shape.rowMajor_val_three, Shape.rowMajor_val_two]
    show (n.val * 4096 + b.val) * 1 + 0 = n.val * 4096 + b.val
    omega)

/-- The weight rows without theirs. -/
theorem w_apply (a4 : FVec Ideal S13x1x128 .f32) (n : Fin 13) (d : Fin 128) :
    shapeCast S13x128 a4 shapeCasts_S13x1x128_S13x128 (ix2 n d) = a4 (ix3 n (0 : Fin 1) d) :=
  shapeCast_apply a4 _ _ _ (by
    rw [Shape.rowMajor_val_three, Shape.rowMajor_val_two]
    show (n.val * 1 + 0) * 128 + d.val = n.val * 128 + d.val
    omega)

/-- The scale and the shift with a unit axis in front: the lane. -/
theorem lane_apply (a : FVec Ideal S128 .f32) : (fun d' : Fin 128 => shapeCast S1x128 a shapeCasts_S128_S1x128 (ix2 (0 : Fin 1) d')) = Cert.Spec.lane a :=
  funext fun d' => shapeCast_a_1a_apply a _ _ d'

/-! ## The result, entry by entry -/

/-- Feature rows 0-25, given what the gather kernel left in `v1`. -/
theorem kerOut_cat (a0 : FVec Ideal S13x4096x1 .f32) (a1 : IVec S26x4096 32) (a2 : FVec Ideal S4x4096x768 .f32) (a3 : FVec Ideal S26x100001x128 .f32)
    (a4 : FVec Ideal S13x1x128 .f32) (a5 : FVec Ideal S4x768x128 .f32) (a6 a7 : FVec Ideal S128 .f32) (v1 : FVec Ideal S26x4096x128 .f32)
    (hv1 : ∀ (f : Fin 26) (b : Fin 4096) (d' : Fin 128), v1 (ix3 f b d') = Cert.Spec.catRow a1 a3 f b d')
    (b : Fin 4096) (f : Fin 26) (hf : f.val < 43) (d : Fin 128) :
    kerOut a0 a2 a4 a5 a6 a7 v1 (ix3 b (⟨f.val, hf⟩ : Fin 43) d)
      = Cert.Spec.lnKer (Cert.Spec.catRow a1 a3 f b) (Cert.Spec.lane a6) (Cert.Spec.lane a7) d := by
  unfold kerOut
  rw [transpose_102_apply, TcResult.regionOut_cat, lane_apply, lane_apply]
  exact congrArg (fun x => Cert.Spec.lnKer x (Cert.Spec.lane a6) (Cert.Spec.lane a7) d) (funext fun d' => hv1 f b d')

/-- Feature rows 26-38. -/
theorem kerOut_num (a0 : FVec Ideal S13x4096x1 .f32) (a2 : FVec Ideal S4x4096x768 .f32)
    (a4 : FVec Ideal S13x1x128 .f32) (a5 : FVec Ideal S4x768x128 .f32) (a6 a7 : FVec Ideal S128 .f32) (v1 : FVec Ideal S26x4096x128 .f32)
    (b : Fin 4096) (n : Fin 13) (hn : 26 + n.val < 43) (d : Fin 128) :
    kerOut a0 a2 a4 a5 a6 a7 v1 (ix3 b (⟨26 + n.val, hn⟩ : Fin 43) d)
      = Cert.Spec.lnKer (Cert.Spec.numRow a0 a4 n b) (Cert.Spec.lane a6) (Cert.Spec.lane a7) d := by
  unfold kerOut
  rw [transpose_102_apply, TcResult.regionOut_num, lane_apply, lane_apply]
  refine congrArg (fun x => Cert.Spec.lnKer x (Cert.Spec.lane a6) (Cert.Spec.lane a7) d) (funext fun d' => ?_)
  rw [num_apply, w_apply]; rfl

/-- Feature rows 39-42. -/
theorem kerOut_emb (a0 : FVec Ideal S13x4096x1 .f32) (a2 : FVec Ideal S4x4096x768 .f32)
    (a4 : FVec Ideal S13x1x128 .f32) (a5 : FVec Ideal S4x768x128 .f32) (a6 a7 : FVec Ideal S128 .f32) (v1 : FVec Ideal S26x4096x128 .f32)
    (b : Fin 4096) (n : Fin 4) (hn : 39 + n.val < 43) (d : Fin 128) :
    kerOut a0 a2 a4 a5 a6 a7 v1 (ix3 b (⟨39 + n.val, hn⟩ : Fin 43) d)
      = Cert.Spec.lnKer (Cert.Spec.embRow a2 a5 n b) (Cert.Spec.lane a6) (Cert.Spec.lane a7) d := by
  unfold kerOut
  rw [transpose_102_apply, TcResult.regionOut_emb, lane_apply, lane_apply]
  rfl

/-! ## Against the reference -/

section Ref

variable [Cert.ReferenceIdeal.Facts]

/-- THE TWO PROGRAMS' RESULTS ARE EQUAL under the precondition, given what the gather kernel left in `v1`: entry by
    entry both are the kernel's arrangement of the normalisation of the same row, the 43 feature rows split into the
    26 gathered, the 13 numerical and the 4 projected ones. -/
theorem kerOut_eq_ref (a0 : FVec Ideal S13x4096x1 .f32) (a1 : IVec S26x4096 32) (a2 : FVec Ideal S4x4096x768 .f32) (a3 : FVec Ideal S26x100001x128 .f32)
    (a4 : FVec Ideal S13x1x128 .f32) (a5 : FVec Ideal S4x768x128 .f32) (a6 a7 : FVec Ideal S128 .f32) (v1 : FVec Ideal S26x4096x128 .f32)
    (hpre : Cert.Pre_input_domain.fn (F := Ideal) a0 a1 a2 a3 a4 a5 a6 a7 = fun _ => 1#1)
    (hv1 : ∀ (f : Fin 26) (b : Fin 4096) (d' : Fin 128), v1 (ix3 f b d') = Cert.Spec.catRow a1 a3 f b d') :
    kerOut a0 a2 a4 a5 a6 a7 v1 = Cert.ReferenceIdeal.RefRun.out a0 a1 a2 a3 a4 a5 a6 a7 := by
  funext i
  obtain ⟨b, fb, d, rfl⟩ : ∃ (b : Fin 4096) (fb : Fin 43) (d : Fin 128), i = ix3 b fb d := ⟨i 0, i 1, i 2, eq_ix3 i⟩
  obtain ⟨fv, hfv⟩ := fb
  by_cases h1 : fv < 26
  · exact (kerOut_cat a0 a1 a2 a3 a4 a5 a6 a7 v1 hv1 b ⟨fv, h1⟩ hfv d).trans
      (Cert.RefValue.out_cat_ker a0 a1 a2 a3 a4 a5 a6 a7 hpre b ⟨fv, h1⟩ hfv d).symm
  · by_cases h2 : fv < 39
    · obtain ⟨n, rfl⟩ : ∃ n, fv = 26 + n := ⟨fv - 26, by omega⟩
      exact (kerOut_num a0 a2 a4 a5 a6 a7 v1 b ⟨n, by omega⟩ hfv d).trans
        (Cert.RefValue.out_num_ker a0 a1 a2 a3 a4 a5 a6 a7 hpre b ⟨n, by omega⟩ hfv d).symm
    · obtain ⟨n, rfl⟩ : ∃ n, fv = 39 + n := ⟨fv - 39, by omega⟩
      exact (kerOut_emb a0 a2 a4 a5 a6 a7 v1 b ⟨n, by omega⟩ hfv d).trans
        (Cert.RefValue.out_emb_ker a0 a1 a2 a3 a4 a5 a6 a7 hpre b ⟨n, by omega⟩ hfv d).symm

end Ref

end Cert.KernelIdeal.KerValue

end
-- ==== Proof.ScKerRun.lean ====
/-
  The idealized kernel program's run with its result named: under the precondition every weakly fair execution of all
  its threads terminates, the arguments unchanged, the result equal to the reference's result as a function of the
  arguments. The launch's run leaves the result at the transpose of the layer-norm call's output over the gathered
  rows; the thirty-two workers' slabs pin the gathered rows to the specification's picked rows; the call's output over
  those is the reference's result.
-/
import proofs.«206634_g85779086836150_cont_9to1c4b_256_28_alg».proof.Proof.ScResult
import proofs.«206634_g85779086836150_cont_9to1c4b_256_28_alg».proof.Proof.ScPayload
import proofs.«206634_g85779086836150_cont_9to1c4b_256_28_alg».proof.Proof.KerValue

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open Idealize.SL.Sem

variable [Cert.ReferenceIdeal.Facts]

/-- The index array the kernel reads is the categorical features re-indexed by flat position. -/
theorem fI_eq {F : FTy → Type} [FloatOps F] (m : (ℓ : Loc nD τ sig) → Buf (Elt F) ℓ) (d : Dev nD) :
    fI m d = shapeCast S32x26x128 (m ((SparseCore.T d : Thread nD τ).loc main_arg1)) shapeCasts_S26x4096_S32x26x128 := by
  unfold fI W1
  rw [StableHlo.reshape_result]; rfl

/-- THE KERNEL PROGRAM'S RUN, its result the reference's. -/
theorem ker_run (htile : TileBody (F := Ideal) OutOk) (m : (ℓ : Loc nD τ sig) → Buf (Elt Ideal) ℓ) (ρ : Dev nD → PrngReg)
    (hpre : Cert.Pre_KernelIdeal m) :
    θ_run (Cert.KernelIdeal.defs (F := Ideal)) (Cert.KernelIdeal.threads (F := Ideal)) ⟨m, fun _ => 0, ρ⟩ (fun r => ∀ c : Dev nD,
      (r.2.mem ((SparseCore.T c : Thread nD τ).loc main_v7) : FVec Ideal S4096x43x128 .f32)
          = Cert.ReferenceIdeal.RefRun.out (F := Ideal) (m ((SparseCore.T c : Thread nD τ).loc main_arg0)) (m ((SparseCore.T c : Thread nD τ).loc main_arg1)) (m ((SparseCore.T c : Thread nD τ).loc main_arg2)) (m ((SparseCore.T c : Thread nD τ).loc main_arg3)) (m ((SparseCore.T c : Thread nD τ).loc main_arg4)) (m ((SparseCore.T c : Thread nD τ).loc main_arg5)) (m ((SparseCore.T c : Thread nD τ).loc main_arg6)) (m ((SparseCore.T c : Thread nD τ).loc main_arg7))
      ∧ r.2.mem ((SparseCore.T c : Thread nD τ).loc main_arg0) = m ((SparseCore.T c : Thread nD τ).loc main_arg0)
      ∧ r.2.mem ((SparseCore.T c : Thread nD τ).loc main_arg1) = m ((SparseCore.T c : Thread nD τ).loc main_arg1)
      ∧ r.2.mem ((SparseCore.T c : Thread nD τ).loc main_arg2) = m ((SparseCore.T c : Thread nD τ).loc main_arg2)
      ∧ r.2.mem ((SparseCore.T c : Thread nD τ).loc main_arg3) = m ((SparseCore.T c : Thread nD τ).loc main_arg3)
      ∧ r.2.mem ((SparseCore.T c : Thread nD τ).loc main_arg4) = m ((SparseCore.T c : Thread nD τ).loc main_arg4)
      ∧ r.2.mem ((SparseCore.T c : Thread nD τ).loc main_arg5) = m ((SparseCore.T c : Thread nD τ).loc main_arg5)
      ∧ r.2.mem ((SparseCore.T c : Thread nD τ).loc main_arg6) = m ((SparseCore.T c : Thread nD τ).loc main_arg6)
      ∧ r.2.mem ((SparseCore.T c : Thread nD τ).loc main_arg7) = m ((SparseCore.T c : Thread nD τ).loc main_arg7)) := by
  refine (θ_run _ _ _).mono (fun r h c => ?_) (run_main (F := Ideal) m ρ OutOk OutOk_local htile (ok_of_pre m hpre))
  obtain ⟨hargs, f, hok, hv7⟩ := h c
  refine ⟨?_, hargs⟩
  have hv1 := hv1_of_OutOk c (m ((SparseCore.T c : Thread nD τ).loc main_arg1)) (m (tLoc c)) shapeCasts_S26x4096_S32x26x128 (fI m c) (fI_eq m c)
    (fun f' b => Cert.PreFacts.range _ _ _ _ _ _ _ _ (hpre c) (ix2 f' b)) f hok
  rw [hv7, W8_v7]
  unfold TcRegion.regionOutV
  rw [VR_v1, VR_v2, VR_v3, VR_v4, VR_v5, VR_a2, VR_a5]
  exact KerValue.kerOut_eq_ref (m ((SparseCore.T c : Thread nD τ).loc main_arg0)) (m ((SparseCore.T c : Thread nD τ).loc main_arg1)) (m ((SparseCore.T c : Thread nD τ).loc main_arg2)) (m ((SparseCore.T c : Thread nD τ).loc main_arg3)) (m ((SparseCore.T c : Thread nD τ).loc main_arg4)) (m ((SparseCore.T c : Thread nD τ).loc main_arg5)) (m ((SparseCore.T c : Thread nD τ).loc main_arg6)) (m ((SparseCore.T c : Thread nD τ).loc main_arg7)) f (hpre c) hv1

end Cert.KernelIdeal.Sc

end
-- ==== Proof.ScTrip.lean ====
/-
  One trip of the gather kernel's loop, at a symbolic trip number. A slot of the row scratch is in one of three states:
  GATHERING (an indirect gather of table rows into it in flight on its gather semaphore: the slot, the list row and
  a window of the tables lent into the flight, each off a read token of its array), STORING (a copy of the slot out
  to its slab of the result in flight on its store semaphore; the flight carries the worker's whole share of the
  result) or FREE. Trip `k` frees the slot of chunk `k - 1` (its store is waited for), gathers chunk `k + 3` into
  it, waits for chunk `k`'s gather and starts its store: the slot of chunk `k + 3` goes STORING → GATHERING and
  the slot of chunk `k` GATHERING → STORING; the first trip finds the former FREE, the last three leave it so.
-/
import proofs.«206634_g85779086836150_cont_9to1c4b_256_28_alg».proof.Proof.ScSlots

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (ft : Buf (Elt F) ((tV).view.loc (VT d L))) (F0 : Buf (Elt F) ((sI).view.loc (VT d L)))
variable (qt qi : Fin 4 → PosShare TreeShare) (Others : Finset (Idx ((oV).view.loc (VT d L))))
-- the payload of chunk `c`: row by row, the table rows its list names
variable (pay : ℕ → S128x128.Idx → Elt F .f32)

/-- Slot `j` GATHERING chunk `c`: what lands in it is the chunk's payload. -/
def SG (j : Fin 4) (c : ℕ) : sProp 𝕄 :=
  iprop(∃ (Tw : Finset (Idx ((tV).view.loc (VT d L)))) (Rw : Finset (Idx ((sI).view.loc (VT d L)))) (fB : Buf (Elt F) ((slotK j).view.loc (VT d L))),
    Transfers.Flight (countersEmb (U := UU)) (VT d L) (SemLoc.dma (gcell j)) (default : HIx 1) 524288
        iprop((((slotK j).view.loc (VT d L) ↦[(slotK j).view.set]{fullShare} fB) ∗ ((sI).view.loc (VT d L) ↦[Rw]{qi j} F0))
          ∗ ((tV).view.loc (VT d L) ↦[Tw]{qt j} ft))
      ∗ ((tV).view.loc (VT d L) ↦[Finset.univ \ Tw]{qt j} ft) ∗ ((sI).view.loc (VT d L) ↦[Finset.univ \ Rw]{qi j} F0)
      ∗ semVal (VT d L, SemLoc.dma (scell j)) 0
      ∗ ⌜(slotK j).view.read (Elt F) fB = pay c⌝)

/-- Slot `j` STORING (the flight carries the worker's share of the result), the slabs of chunks below `n` holding their
    payloads once it lands. -/
def SS (j : Fin 4) (n : ℕ) : sProp 𝕄 :=
  iprop(∃ (fo : Buf (Elt F) ((oV).view.loc (VT d L))) (fB : Buf (Elt F) ((slotK j).view.loc (VT d L))),
    Transfers.Flight (countersEmb (U := UU)) (VT d L) (SemLoc.dma (scell j)) (default : HIx 1) 524288
        iprop(((oV).view.loc (VT d L) ↦[Finset.univ \ Others]{fullShare} fo) ∗ ((slotK j).view.loc (VT d L) ↦[(slotK j).view.set]{fullShare} fB))
      ∗ semVal (VT d L, SemLoc.dma (gcell j)) 0
      ∗ ((tV).view.loc (VT d L) ↦{qt j} ft) ∗ ((sI).view.loc (VT d L) ↦{qi j} F0)
      ∗ ⌜∀ k' : Fin k0_t1_loop.trips, k'.val < n → (slabI L k').view.read (Elt F) fo = pay k'.val⌝)

/-- Slot `j` FREE. -/
def SF (j : Fin 4) : sProp 𝕄 :=
  iprop(semVal (VT d L, SemLoc.dma (gcell j)) 0 ∗ semVal (VT d L, SemLoc.dma (scell j)) 0
    ∗ (∃ f : Buf (Elt F) ((slotK j).view.loc (VT d L)), (slotK j).view.loc (VT d L) ↦[(slotK j).view.set]{fullShare} f)
    ∗ ((tV).view.loc (VT d L) ↦{qt j} ft) ∗ ((sI).view.loc (VT d L) ↦{qi j} F0))

/-- Every list row of the index scratch holds table rows. -/
abbrev ListsOk : Prop :=
  ∀ (row : Fin 2 → ℕ) (hk : ∀ a, row a + S1x128.size a ≤ S26x128.size a) (hq : (Rect.unit (s := S26x128) row S1x128.size hk).shape.Squeezes S128) (x : S128.Idx),
    (View.read (Elt F) (((sI).slice (Rect.unit (s := S26x128) row S1x128.size hk) (fun _ => rfl)).squeeze S128 hq).view F0 x).toNat < 100001

/-- Every slab of the worker lies in its share of the result. -/
abbrev SlabsIn : Prop := ∀ j : Fin k0_t1_loop.trips, Disjoint (slabI L j).view.set Others

/-- Distinct chunks have disjoint slabs. -/
abbrev SlabsApart : Prop := ∀ a b : Fin k0_t1_loop.trips, a ≠ b → Disjoint (slabI L a).view.set (slabI L b).view.set

variable (k : Fin k0_t1_loop.trips)

/-- What the gather issued at trip `k` lands is chunk `k + 3`'s payload. -/
abbrev GatherOk (hc2 : k0_cond2 k = 1#1) : Prop :=
  ∀ (hin' : ∀ x, (View.read (Elt F) (((sI).slice (Rect.unit (s := S26x128) (k0_off8 k) S1x128.size (k0_off8_inb k hc2)) (fun _ => rfl)).squeeze S128 squeezes_S1x128_S128).view F0 x).toNat < 100001),
    SparseCore.gatherPayload gathers_S100001x128_S128x128
      (View.read (Elt F) ((((tV).slice (Rect.unit (s := S26x100001x128) (k0_off9 L k) S1x100001x128.size (k0_off9_inb L k hc2)) (fun _ => rfl)).squeeze S100001x128 squeezes_S1x100001x128_S100001x128).slice
        (Rect.unit (s := S100001x128) ![0, 0] S100001x128.size inb_S100001x128_S100001x128_0_0) (fun _ => rfl)).view ft)
      (SparseCore.rows (View.read (Elt F) (((sI).slice (Rect.unit (s := S26x128) (k0_off8 k) S1x128.size (k0_off8_inb k hc2)) (fun _ => rfl)).squeeze S128 squeezes_S1x128_S128).view F0) rfl hin')
    = pay (k.val + 3)

omit [FloatOps F] in
/-- After chunk `k`'s store lands, the slabs of chunks up to `k` hold their payloads. -/
theorem slabs_after (hsl : SlabsApart L) (fo : Buf (Elt F) ((oV).view.loc (VT d L))) (p : S128x128.Idx → Elt F .f32)
    (hp : p = pay k.val) (hfo : ∀ k' : Fin k0_t1_loop.trips, k'.val < k.val → (slabI L k').view.read (Elt F) fo = pay k'.val) :
    ∀ k' : Fin k0_t1_loop.trips, k'.val < k.val + 1 → (slabI L k').view.read (Elt F) (View.write (Elt F) (slabI L k).view fo p Finset.univ) = pay k'.val := by
  intro k' hk'
  by_cases e : k' = k
  · subst e; exact (View.read_write_univ _ _).trans hp
  · have hlt : k'.val < k.val := by have := Fin.val_ne_of_ne e; omega
    funext x
    have hn : (slabI L k').view.emb x ∉ (slabI L k).view.setOn Finset.univ := by
      rw [View.setOn_univ]; exact Finset.disjoint_left.mp (hsl k' k e) (View.emb_mem_set _ x)
    rw [View.read_apply, View.write_of_not_mem _ _ _ hn, ← View.read_apply]
    exact congrFun (hfo k' hlt) x

/-- A trip in the middle of the loop: both guards hold. -/
theorem trip_mid (hc1 : k0_cond1 k = 1#1) (hc2 : k0_cond2 k = 1#1) (hidx : ListsOk (F := F) d L F0) (hdisj : SlabsIn d L Others)
    (hG : GatherOk (F := F) d L ft F0 pay k hc2) (hsl : SlabsApart L)
    (O : CellTallies nD τ sig (HIx 1)) (W : Waits sig (HIx 1)) (v1 v79 c32 : BitVec 32) :
    iprop((Transfers.MayWaits (VT d L) (none : HIx 1) O : sProp 𝕄)
        ∗ SS d L ft F0 qt qi Others pay (sl (k.val + 3)) (k.val) ∗ SG d L ft F0 qt qi pay (sl k.val) (k.val) ∗ owes (VT d L) O W)
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          fun _ => iprop(SG d L ft F0 qt qi pay (sl (k.val + 3)) (k.val + 3) ∗ SS d L ft F0 qt qi Others pay (sl k.val) (k.val + 1)
            ∗ ∃ W', ⌜∀ p ∈ W', p ∈ W ∨ p.2 = none⌝ ∗ owes (VT d L) O W') := by
  unfold SS SG
  rw [← slotA_eq k hc2, ← slotB_eq k, ← gsemI_eq k hc2, ← gsemW_eq k, ← ssemW_eq k hc1, ← ssemI_eq k]
  iintro ⟨#Hmw, ⟨%fo, %fA, HfS, HcG, Htok, Hrow, %hfo⟩, ⟨%Tw, %Rw, %fB, HfG, HtokW, HrowW, HcS, %hfB⟩, HO⟩
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view F0 x).toNat < 100001 := hidx
  have hdisj' : ∀ j : Fin k0_t1_loop.trips, Disjoint (slabI L j).view.set Others := hdisj
  unfold k0_t1_body
  sl_exec (disch := first | sl_exact hc1 | sl_exact hc2)
  sl_step
  isplitl [HcG Htok Hrow HfS]
  · iexists _, _, _
    isplitl [HcG]; · iexact HcG
    isplitl [Htok]; · iexact Htok
    isplitl [Hrow]; · iexact Hrow
    isplitl [HfS]; · iexact HfS
    ipureintro; exact (View.read_writes_whole _ _ _).trans (hG _)
  isplitl [HcS HfG HtokW HrowW]
  · iexists _, _
    isplitl [HcS]; · iexact HcS
    isplitl [HfG]; · iexact HfG
    isplitl [HtokW]; · iexact HtokW
    isplitl [HrowW]; · iexact HrowW
    ipureintro; exact slabs_after (F := F) d L pay k hsl fo _ hfB hfo
  iexists (insert (SemLoc.dma (gsemW k), (default : HIx 1)) (insert (SemLoc.dma (ssemW k hc1), (default : HIx 1)) W)); isplitr
  · ipureintro; intro p hp
    rcases Finset.mem_insert.mp hp with hp | hp
    · exact .inr (hp ▸ rfl)
    · rcases Finset.mem_insert.mp hp with hp | hp
      · exact .inr (hp ▸ rfl)
      · exact .inl hp
  · iexact HO

/-- The first trip: no store to wait for; the slot of chunk 3 is free. -/
theorem trip_first (hc1 : ¬ k0_cond1 k = 1#1) (hc2 : k0_cond2 k = 1#1) (hidx : ListsOk (F := F) d L F0) (hdisj : SlabsIn d L Others)
    (hG : GatherOk (F := F) d L ft F0 pay k hc2) (hsl : SlabsApart L)
    (O : CellTallies nD τ sig (HIx 1)) (W : Waits sig (HIx 1)) (v1 v79 c32 : BitVec 32) :
    iprop((Transfers.MayWaits (VT d L) (none : HIx 1) O : sProp 𝕄)
        ∗ SF d L ft F0 qt qi (sl (k.val + 3)) ∗ SG d L ft F0 qt qi pay (sl k.val) (k.val)
        ∗ (∃ fo : Buf (Elt F) ((oV).view.loc (VT d L)), (oV).view.loc (VT d L) ↦[Finset.univ \ Others]{fullShare} fo)
        ∗ owes (VT d L) O W)
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          fun _ => iprop(SG d L ft F0 qt qi pay (sl (k.val + 3)) (k.val + 3) ∗ SS d L ft F0 qt qi Others pay (sl k.val) (k.val + 1)
            ∗ ∃ W', ⌜∀ p ∈ W', p ∈ W ∨ p.2 = none⌝ ∗ owes (VT d L) O W') := by
  have h0 : k.val = 0 := by
    by_contra h; exact hc1 ((cond1_iff k).mpr (by omega))
  unfold SS SG SF
  rw [← slotA_eq k hc2, ← slotB_eq k, ← gsemI_eq k hc2, ← gsemW_eq k, ← ssemI_eq k]
  iintro ⟨#Hmw, ⟨HcG, HfS, ⟨%fA, HfS_src⟩, Htok, Hrow⟩, ⟨%Tw, %Rw, %fB, HfG, HtokW, HrowW, HcS, %hfB⟩, ⟨%fo, Hout⟩, HO⟩
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view F0 x).toNat < 100001 := hidx
  have hdisj' : ∀ j : Fin k0_t1_loop.trips, Disjoint (slabI L j).view.set Others := hdisj
  unfold k0_t1_body
  sl_exec (disch := first | sl_exact hc1 | sl_exact hc2)
  sl_step
  isplitl [HcG Htok Hrow HfS]
  · iexists _, _, _
    isplitl [HcG]; · iexact HcG
    isplitl [Htok]; · iexact Htok
    isplitl [Hrow]; · iexact Hrow
    isplitl [HfS]; · iexact HfS
    ipureintro; exact (View.read_writes_whole _ _ _).trans (hG _)
  isplitl [HcS HfG HtokW HrowW]
  · iexists _, _
    isplitl [HcS]; · iexact HcS
    isplitl [HfG]; · iexact HfG
    isplitl [HtokW]; · iexact HtokW
    isplitl [HrowW]; · iexact HrowW
    ipureintro; exact slabs_after (F := F) d L pay k hsl fo _ hfB (fun k' hk' => absurd hk' (by omega))
  iexists (insert (SemLoc.dma (gsemW k), (default : HIx 1)) W); isplitr
  · ipureintro; intro p hp
    rcases Finset.mem_insert.mp hp with hp | hp
    · exact .inr (hp ▸ rfl)
    · exact .inl hp
  · iexact HO

/-- The last three trips: no chunk left to gather; the slot whose store is waited for stays free. -/
theorem trip_last (hc1 : k0_cond1 k = 1#1) (hc2 : ¬ k0_cond2 k = 1#1) (hidx : ListsOk (F := F) d L F0) (hdisj : SlabsIn d L Others)
    (hsl : SlabsApart L)
    (O : CellTallies nD τ sig (HIx 1)) (W : Waits sig (HIx 1)) (v1 v79 c32 : BitVec 32) :
    iprop((Transfers.MayWaits (VT d L) (none : HIx 1) O : sProp 𝕄)
        ∗ SS d L ft F0 qt qi Others pay (sl (k.val + 3)) (k.val) ∗ SG d L ft F0 qt qi pay (sl k.val) (k.val) ∗ owes (VT d L) O W)
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          fun _ => iprop(SF d L ft F0 qt qi (sl (k.val + 3)) ∗ SS d L ft F0 qt qi Others pay (sl k.val) (k.val + 1)
            ∗ ∃ W', ⌜∀ p ∈ W', p ∈ W ∨ p.2 = none⌝ ∗ owes (VT d L) O W') := by
  unfold SS SG SF
  rw [← slotB_eq k, ← gsemW_eq k, ← ssemW_eq k hc1, ← ssemI_eq k]
  iintro ⟨#Hmw, ⟨%fo, %fA, HfS, HcG, Htok, Hrow, %hfo⟩, ⟨%Tw, %Rw, %fB, HfG, HtokW, HrowW, HcS, %hfB⟩, HO⟩
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view F0 x).toNat < 100001 := hidx
  have hdisj' : ∀ j : Fin k0_t1_loop.trips, Disjoint (slabI L j).view.set Others := hdisj
  unfold k0_t1_body
  sl_exec (disch := first | sl_exact hc1 | sl_exact hc2)
  sl_step
  isplitl [HcG HfS HfS_src Htok Hrow]
  · isplitl [HcG]; · iexact HcG
    isplitl [HfS]; · iexact HfS
    isplitl [HfS_src]; · iexists _; iexact HfS_src
    isplitl [Htok]; · iexact Htok
    iexact Hrow
  isplitl [HcS HfG HtokW HrowW]
  · iexists _, _
    isplitl [HcS]; · iexact HcS
    isplitl [HfG]; · iexact HfG
    isplitl [HtokW]; · iexact HtokW
    isplitl [HrowW]; · iexact HrowW
    ipureintro; exact slabs_after (F := F) d L pay k hsl fo _ hfB hfo
  iexists (insert (SemLoc.dma (gsemW k), (default : HIx 1)) (insert (SemLoc.dma (ssemW k hc1), (default : HIx 1)) W)); isplitr
  · ipureintro; intro p hp
    rcases Finset.mem_insert.mp hp with hp | hp
    · exact .inr (hp ▸ rfl)
    · rcases Finset.mem_insert.mp hp with hp | hp
      · exact .inr (hp ▸ rfl)
      · exact .inl hp
  · iexact HO

end Cert.KernelIdeal.Sc

end
-- ==== Proof.ScLoop.lean ====
/-
  The gather kernel's loop as a whole: before trip `n` the slot of chunk `n - 1` is STORING, the slabs of the chunks
  below `n` holding their payloads once its store lands (FREE before the first trip, when the worker's share of the
  result is still in hand), the slots of chunks `n`, `n + 1`, `n + 2` are GATHERING their chunks while those exist
  (there are 26) and FREE after. One trip moves every role by one chunk.
-/
import proofs.«206634_g85779086836150_cont_9to1c4b_256_28_alg».proof.Proof.ScTrip

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (ft : Buf (Elt F) ((tV).view.loc (VT d L))) (F0 : Buf (Elt F) ((sI).view.loc (VT d L)))
variable (qt qi : Fin 4 → PosShare TreeShare) (Others : Finset (Idx ((oV).view.loc (VT d L))))
variable (pay : ℕ → S128x128.Idx → Elt F .f32)

/-- The worker's share of the result in hand. -/
def outFree : sProp 𝕄 := iprop(∃ fo : Buf (Elt F) ((oV).view.loc (VT d L)), (oV).view.loc (VT d L) ↦[Finset.univ \ Others]{fullShare} fo)

/-- The slot of the chunk before trip `n`'s. -/
def R0 (n : ℕ) : sProp 𝕄 :=
  if n = 0 then iprop(SF d L ft F0 qt qi (sl (n + 3)) ∗ outFree (F := F) d L Others) else SS d L ft F0 qt qi Others pay (sl (n + 3)) n
/-- The slot of chunk `c`, not yet stored. -/
def Rg (c : ℕ) : sProp 𝕄 := if c + 1 ≤ 26 then SG d L ft F0 qt qi pay (sl c) c else SF d L ft F0 qt qi (sl c)

def inv (O : CellTallies nD τ sig (HIx 1)) (W : Waits sig (HIx 1)) (n : ℕ) (_ : PUnit) : sProp 𝕄 :=
  iprop(Transfers.MayWaits (VT d L) (none : HIx 1) O
    ∗ R0 d L ft F0 qt qi Others pay n ∗ Rg d L ft F0 qt qi pay n ∗ Rg d L ft F0 qt qi pay (n + 1) ∗ Rg d L ft F0 qt qi pay (n + 2)
    ∗ ∃ W', ⌜∀ p ∈ W', p ∈ W ∨ p.2 = none⌝ ∗ owes (VT d L) O W')

theorem sl_succ3 (n : ℕ) : sl (n + 1 + 3) = sl n := by rw [show n + 1 + 3 = n + 4 from by omega, sl_add4]

omit [FloatOps F] in
theorem obl_W {thr : Thread nD τ} {O : CellTallies nD τ sig (HIx 1)} {W W₁ : Waits sig (HIx 1)} (h : ∀ p ∈ W₁, p ∈ W ∨ p.2 = none) :
    (iprop(∃ W', ⌜∀ p ∈ W', p ∈ W₁ ∨ p.2 = none⌝ ∗ owes thr O W') : sProp 𝕄) ⊢ iprop(∃ W', ⌜∀ p ∈ W', p ∈ W ∨ p.2 = none⌝ ∗ owes thr O W') := by
  iintro ⟨%W', %hW', HO⟩
  iexists W'; isplitr
  · ipureintro; intro p hp; rcases hW' p hp with h' | h'
    · exact h p h'
    · exact .inr h'
  · iexact HO

/-- Every gather the loop issues lands its chunk's payload. -/
abbrev GathersOk : Prop := ∀ (k : Fin k0_t1_loop.trips) (hc2 : k0_cond2 k = 1#1), GatherOk (F := F) d L ft F0 pay k hc2

variable (k : Fin k0_t1_loop.trips)

/-- The first trip carries the invariant on. -/
theorem step_first (h0 : k.val = 0) (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  have hk : k.val < 26 := trips_eq ▸ k.isLt
  have hc1 : ¬ k0_cond1 k = 1#1 := fun h => by have := (cond1_iff k).mp h; omega
  have hc2 : k0_cond2 k = 1#1 := (cond2_iff k).mpr (by omega)
  have hR0 : R0 d L ft F0 qt qi Others pay k.val = iprop(SF d L ft F0 qt qi (sl (k.val + 3)) ∗ outFree (F := F) d L Others) := if_pos h0
  have hG1 : Rg d L ft F0 qt qi pay k.val = SG d L ft F0 qt qi pay (sl k.val) k.val := if_pos (by omega)
  have hR0' : R0 d L ft F0 qt qi Others pay (k.val + 1) = SS d L ft F0 qt qi Others pay (sl k.val) (k.val + 1) := by
    unfold R0; rw [if_neg (by omega), sl_succ3]
  have hG3 : Rg d L ft F0 qt qi pay (k.val + 1 + 2) = SG d L ft F0 qt qi pay (sl (k.val + 3)) (k.val + 3) := by
    unfold Rg; rw [show k.val + 1 + 2 = k.val + 3 from by omega, if_pos (by omega)]
  unfold inv
  rw [hG1, hR0, hR0', hG3]
  unfold outFree
  iintro ⟨#Hmw, ⟨HF, Hout⟩, H1, H2, H3, %W₁, %hW₁, HO⟩
  ihave Hwp := (trip_first d L ft F0 qt qi Others pay k hc1 hc2 hidx hdisj (hG k hc2) hsl O W₁ v1 v79 c32) $$ [HF H1 Hout HO]
  · isplitr; · iexact Hmw
    isplitl [HF]; · iexact HF
    isplitl [H1]; · iexact H1
    isplitl [Hout]; · iexact Hout
    iexact HO
  iapply (wp_wand_r frame _ _)
  isplitl [Hwp]; · iexact Hwp
  iintro %_ ⟨HA, HB, HW⟩
  isplitr; · iexact Hmw
  isplitl [HB]; · iexact HB
  isplitl [H2]; · iexact H2
  isplitl [H3]; · iexact H3
  isplitl [HA]; · iexact HA
  iapply (obl_W (F := F) hW₁); iexact HW

/-- A trip in the middle carries the invariant on. -/
theorem step_mid (h0 : k.val ≠ 0) (h23 : k.val + 3 < 26) (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  have hk : k.val < 26 := trips_eq ▸ k.isLt
  have hc1 : k0_cond1 k = 1#1 := (cond1_iff k).mpr (by omega)
  have hc2 : k0_cond2 k = 1#1 := (cond2_iff k).mpr h23
  have hR0 : R0 d L ft F0 qt qi Others pay k.val = SS d L ft F0 qt qi Others pay (sl (k.val + 3)) k.val := if_neg h0
  have hG1 : Rg d L ft F0 qt qi pay k.val = SG d L ft F0 qt qi pay (sl k.val) k.val := if_pos (by omega)
  have hR0' : R0 d L ft F0 qt qi Others pay (k.val + 1) = SS d L ft F0 qt qi Others pay (sl k.val) (k.val + 1) := by
    unfold R0; rw [if_neg (by omega), sl_succ3]
  have hG3 : Rg d L ft F0 qt qi pay (k.val + 1 + 2) = SG d L ft F0 qt qi pay (sl (k.val + 3)) (k.val + 3) := by
    unfold Rg; rw [show k.val + 1 + 2 = k.val + 3 from by omega, if_pos (by omega)]
  unfold inv
  rw [hG1, hR0, hR0', hG3]
  iintro ⟨#Hmw, H0, H1, H2, H3, %W₁, %hW₁, HO⟩
  ihave Hwp := (trip_mid d L ft F0 qt qi Others pay k hc1 hc2 hidx hdisj (hG k hc2) hsl O W₁ v1 v79 c32) $$ [H0 H1 HO]
  · isplitr; · iexact Hmw
    isplitl [H0]; · iexact H0
    isplitl [H1]; · iexact H1
    iexact HO
  iapply (wp_wand_r frame _ _)
  isplitl [Hwp]; · iexact Hwp
  iintro %_ ⟨HA, HB, HW⟩
  isplitr; · iexact Hmw
  isplitl [HB]; · iexact HB
  isplitl [H2]; · iexact H2
  isplitl [H3]; · iexact H3
  isplitl [HA]; · iexact HA
  iapply (obl_W (F := F) hW₁); iexact HW

/-- Each of the last three trips carries the invariant on. -/
theorem step_last (h0 : k.val ≠ 0) (h23 : ¬ k.val + 3 < 26) (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  have hk : k.val < 26 := trips_eq ▸ k.isLt
  have hc1 : k0_cond1 k = 1#1 := (cond1_iff k).mpr (by omega)
  have hc2 : ¬ k0_cond2 k = 1#1 := fun h => h23 ((cond2_iff k).mp h)
  have hR0 : R0 d L ft F0 qt qi Others pay k.val = SS d L ft F0 qt qi Others pay (sl (k.val + 3)) k.val := if_neg h0
  have hG1 : Rg d L ft F0 qt qi pay k.val = SG d L ft F0 qt qi pay (sl k.val) k.val := if_pos (by omega)
  have hR0' : R0 d L ft F0 qt qi Others pay (k.val + 1) = SS d L ft F0 qt qi Others pay (sl k.val) (k.val + 1) := by
    unfold R0; rw [if_neg (by omega), sl_succ3]
  have hG3 : Rg d L ft F0 qt qi pay (k.val + 1 + 2) = SF d L ft F0 qt qi (sl (k.val + 3)) := by
    unfold Rg; rw [show k.val + 1 + 2 = k.val + 3 from by omega, if_neg (by omega)]
  unfold inv
  rw [hG1, hR0, hR0', hG3]
  iintro ⟨#Hmw, H0, H1, H2, H3, %W₁, %hW₁, HO⟩
  ihave Hwp := (trip_last d L ft F0 qt qi Others pay k hc1 hc2 hidx hdisj hsl O W₁ v1 v79 c32) $$ [H0 H1 HO]
  · isplitr; · iexact Hmw
    isplitl [H0]; · iexact H0
    isplitl [H1]; · iexact H1
    iexact HO
  iapply (wp_wand_r frame _ _)
  isplitl [Hwp]; · iexact Hwp
  iintro %_ ⟨HA, HB, HW⟩
  isplitr; · iexact Hmw
  isplitl [HB]; · iexact HB
  isplitl [H2]; · iexact H2
  isplitl [H3]; · iexact H3
  isplitl [HA]; · iexact HA
  iapply (obl_W (F := F) hW₁); iexact HW

/-- One trip carries the invariant on. -/
theorem step  (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  by_cases h0 : k.val = 0
  · exact step_first d L ft F0 qt qi Others pay k h0 hidx hdisj hG hsl O W v1 v79 c32
  by_cases h23 : k.val + 3 < 26
  · exact step_mid d L ft F0 qt qi Others pay k h0 h23 hidx hdisj hG hsl O W v1 v79 c32
  · exact step_last d L ft F0 qt qi Others pay k h0 h23 hidx hdisj hG hsl O W v1 v79 c32

end Cert.KernelIdeal.Sc

end
-- ==== Proof.ScTile.lean ====
/-
  The gather kernel on one vector subcore, whole: the worker fetches its 26 lists of row numbers, starts the gathers
  of chunks 0, 1, 2 into slots 0, 1, 2, runs the 26 trips, and waits for the last chunk's store. The row scratch is
  held as its four slots, the list scratch (once fetched) and the worker's table token as four read tokens each, one
  per slot.
-/
import proofs.«206634_g85779086836150_cont_9to1c4b_256_28_alg».proof.Proof.ScLoop
import proofs.«206634_g85779086836150_cont_9to1c4b_256_28_alg».proof.Proof.ScPayload

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (ft : Buf (Elt F) ((tV).view.loc (VT d L))) (F0 : Buf (Elt F) ((sI).view.loc (VT d L)))
variable (qt qi : Fin 4 → PosShare TreeShare) (Others : Finset (Idx ((oV).view.loc (VT d L))))
variable (pay : ℕ → S128x128.Idx → Elt F .f32)

/-- Entering the loop: chunks 0, 1, 2 gathering, slot 3 free, the result's share in hand. -/
theorem inv_zero (O : CellTallies nD τ sig (HIx 1)) (W : Waits sig (HIx 1)) :
    iprop((Transfers.MayWaits (VT d L) (none : HIx 1) O : sProp 𝕄)
        ∗ SG d L ft F0 qt qi pay (sl 0) 0 ∗ SG d L ft F0 qt qi pay (sl (0 + 1)) (0 + 1) ∗ SG d L ft F0 qt qi pay (sl (0 + 2)) (0 + 2) ∗ SF d L ft F0 qt qi (sl (0 + 3))
        ∗ outFree (F := F) d L Others ∗ (∃ W', ⌜∀ p ∈ W', p ∈ W ∨ p.2 = none⌝ ∗ owes (VT d L) O W'))
      ⊢ inv d L ft F0 qt qi Others pay O W 0 ⟨⟩ := by
  have e0 : R0 d L ft F0 qt qi Others pay 0 = iprop(SF d L ft F0 qt qi (sl (0 + 3)) ∗ outFree (F := F) d L Others) := if_pos rfl
  have e1 : Rg d L ft F0 qt qi pay 0 = SG d L ft F0 qt qi pay (sl 0) 0 := if_pos (by omega)
  have e2 : Rg d L ft F0 qt qi pay (0 + 1) = SG d L ft F0 qt qi pay (sl (0 + 1)) (0 + 1) := if_pos (by omega)
  have e3 : Rg d L ft F0 qt qi pay (0 + 2) = SG d L ft F0 qt qi pay (sl (0 + 2)) (0 + 2) := if_pos (by omega)
  unfold inv
  rw [e0, e1, e2, e3]
  iintro ⟨#Hmw, A, B, C, D, E, HO⟩
  isplitr; · iexact Hmw
  isplitl [D E]; · isplitl [D] <;> iassumption
  isplitl [A]; · iexact A
  isplitl [B]; · iexact B
  isplitl [C]; · iexact C
  iexact HO

/-- Leaving the loop: the last chunk's store in flight in slot 1, the other slots free. -/
theorem inv_end (O : CellTallies nD τ sig (HIx 1)) (W : Waits sig (HIx 1)) (n : ℕ) (hn : n = 26) (a : PUnit) :
    inv d L ft F0 qt qi Others pay O W n a
      ⊢ iprop((Transfers.MayWaits (VT d L) (none : HIx 1) O : sProp 𝕄)
        ∗ SS d L ft F0 qt qi Others pay (sl (26 + 3)) 26 ∗ SF d L ft F0 qt qi (sl 26) ∗ SF d L ft F0 qt qi (sl (26 + 1)) ∗ SF d L ft F0 qt qi (sl (26 + 2))
        ∗ (∃ W', ⌜∀ p ∈ W', p ∈ W ∨ p.2 = none⌝ ∗ owes (VT d L) O W')) := by
  subst hn
  have e0 : R0 d L ft F0 qt qi Others pay 26 = SS d L ft F0 qt qi Others pay (sl (26 + 3)) 26 := if_neg (by omega)
  have e1 : Rg d L ft F0 qt qi pay 26 = SF d L ft F0 qt qi (sl 26) := if_neg (by omega)
  have e2 : Rg d L ft F0 qt qi pay (26 + 1) = SF d L ft F0 qt qi (sl (26 + 1)) := if_neg (by omega)
  have e3 : Rg d L ft F0 qt qi pay (26 + 2) = SF d L ft F0 qt qi (sl (26 + 2)) := if_neg (by omega)
  unfold inv
  rw [e0, e1, e2, e3]

/-! ## Packing and unpacking a slot's state -/

theorem SG_intro (j : Fin 4) (c : ℕ) (Tw : Finset (Idx ((tV).view.loc (VT d L)))) (Rw : Finset (Idx ((sI).view.loc (VT d L)))) (fB : Buf (Elt F) ((slotK j).view.loc (VT d L))) :
    iprop(Transfers.Flight (countersEmb (U := UU)) (VT d L) (SemLoc.dma (gcell j)) (default : HIx 1) 524288
        iprop((((slotK j).view.loc (VT d L) ↦[(slotK j).view.set]{fullShare} fB) ∗ ((sI).view.loc (VT d L) ↦[Rw]{qi j} F0))
          ∗ ((tV).view.loc (VT d L) ↦[Tw]{qt j} ft))
      ∗ ((tV).view.loc (VT d L) ↦[Finset.univ \ Tw]{qt j} ft) ∗ ((sI).view.loc (VT d L) ↦[Finset.univ \ Rw]{qi j} F0)
      ∗ semVal (VT d L, SemLoc.dma (scell j)) 0 ∗ ⌜(slotK j).view.read (Elt F) fB = pay c⌝) ⊢ SG d L ft F0 qt qi pay j c := by
  unfold SG
  iintro ⟨A, B, C, D, %hf⟩
  iexists Tw, Rw, fB
  isplitl [A]; · iexact A
  isplitl [B]; · iexact B
  isplitl [C]; · iexact C
  isplitl [D]; · iexact D
  ipureintro; exact hf

theorem SF_intro (j : Fin 4) (f : Buf (Elt F) ((slotK j).view.loc (VT d L))) :
    iprop(semVal (VT d L, SemLoc.dma (gcell j)) 0 ∗ semVal (VT d L, SemLoc.dma (scell j)) 0
      ∗ ((slotK j).view.loc (VT d L) ↦[(slotK j).view.set]{fullShare} f)
      ∗ ((tV).view.loc (VT d L) ↦{qt j} ft) ∗ ((sI).view.loc (VT d L) ↦{qi j} F0)) ⊢ SF d L ft F0 qt qi j := by
  unfold SF
  iintro ⟨A, B, C, D, E⟩
  isplitl [A]; · iexact A
  isplitl [B]; · iexact B
  isplitl [C]; · iexists f; iexact C
  isplitl [D]; · iexact D
  iexact E

theorem SF_elim (j : Fin 4) : SF d L ft F0 qt qi j ⊢
    iprop(semVal (VT d L, SemLoc.dma (gcell j)) 0 ∗ semVal (VT d L, SemLoc.dma (scell j)) 0
      ∗ (∃ f : Buf (Elt F) ((slotK j).view.loc (VT d L)), (slotK j).view.loc (VT d L) ↦[(slotK j).view.set]{fullShare} f)
      ∗ ((tV).view.loc (VT d L) ↦{qt j} ft) ∗ ((sI).view.loc (VT d L) ↦{qi j} F0)) := by
  unfold SF; exact BI.Entails.refl _

theorem SS_elim (j : Fin 4) (n : ℕ) : SS d L ft F0 qt qi Others pay j n ⊢
    iprop(∃ (fo : Buf (Elt F) ((oV).view.loc (VT d L))) (fB : Buf (Elt F) ((slotK j).view.loc (VT d L))),
    Transfers.Flight (countersEmb (U := UU)) (VT d L) (SemLoc.dma (scell j)) (default : HIx 1) 524288
        iprop(((oV).view.loc (VT d L) ↦[Finset.univ \ Others]{fullShare} fo) ∗ ((slotK j).view.loc (VT d L) ↦[(slotK j).view.set]{fullShare} fB))
      ∗ semVal (VT d L, SemLoc.dma (gcell j)) 0
      ∗ ((tV).view.loc (VT d L) ↦{qt j} ft) ∗ ((sI).view.loc (VT d L) ↦{qi j} F0)
      ∗ ⌜∀ k' : Fin k0_t1_loop.trips, k'.val < n → (slabI L k').view.read (Elt F) fo = pay k'.val⌝) := by
  unfold SS; exact BI.Entails.refl _

/-! ## The list scratch after the fetch -/

/-- What the index fetch lands in the list scratch: the worker's 26 lists of 128 row numbers. -/
abbrev PAY (fi : Buf (Elt F) (iLoc d)) : S26x128.Idx → Elt F .i32 := ReadAs.same.apply ((iRowK L).view.read (Elt F) fi)

omit [FloatOps F] in
theorem PAY_apply (fi : Buf (Elt F) (iLoc d)) (x : S26x128.Idx) : PAY d L fi x = fi ((iRowK L).view.emb x) :=
  (View.read_apply _ _).trans (cast_eq _ _)

omit [FloatOps F] in
/-- Every word of every list row, after the fetch, is a word of the index array: a table row under the precondition. -/
theorem inb_of_pre (fi : Buf (Elt F) (iLoc d)) (hin : ∀ j, (fi j).toNat < 100001) (g0 : Buf (Elt F) ((sI).view.loc (VT d L)))
    (pay : S26x128.Idx → Elt F .i32) (hpay : pay = PAY d L fi) : ListsOk (F := F) d L (View.write (Elt F) (sI).view g0 pay Finset.univ) := by
  subst hpay; intro row hk hq x
  have e : View.read (Elt F) (((sI).slice (Rect.unit (s := S26x128) row S1x128.size hk) (fun _ => rfl)).squeeze S128 hq).view
        (View.write (Elt F) (sI).view g0 (PAY d L fi) Finset.univ) x
      = View.read (Elt F) (sI).view (View.write (Elt F) (sI).view g0 (PAY d L fi) Finset.univ)
          ((Rect.unit (s := S26x128) row S1x128.size hk).emb ((Shape.reshapeEquiv hq.numel_eq) x)) := by
    rw [View.read_apply, View.read_apply]; rfl
  rw [e, View.read_write_univ, PAY_apply]
  exact hin _

/-- A share cut into four read shares: what stays and three tokens. -/
theorem tok3 {ℓ : Loc nD τ sig} (q : PosShare TreeShare) (f : Buf (Elt F) ℓ) :
    (ℓ ↦{q} f : sProp 𝕄) ⊣⊢ iprop((ℓ ↦{Transfers.shareDrop q 3} f) ∗ (ℓ ↦{Transfers.shareTokN q 0} f) ∗ (ℓ ↦{Transfers.shareTokN q 1} f)
      ∗ (ℓ ↦{Transfers.shareTokN q 2} f)) := by
  have h : (ℓ ↦{q} f : sProp 𝕄) ⊣⊢ iprop((ℓ ↦{Transfers.shareDrop q 3} f) ∗ bigSep (Finset.range 3) fun i => ℓ ↦{Transfers.shareTokN q i} f) :=
    Transfers.pointsTo_toks_range (ℓ := ℓ) (S := Finset.univ) (f := f) q 3
  rw [show Finset.range 3 = {0, 1, 2} by decide, SparseCore.bigSep_insert' (by decide), SparseCore.bigSep_insert' (by decide), bigSep_singleton] at h
  exact h

/-- The read share of slot `j` cut off `q`. -/
def tokOf (q : PosShare TreeShare) : Fin 4 → PosShare TreeShare
  | ⟨0, _⟩ => Transfers.shareDrop q 3
  | ⟨1, _⟩ => Transfers.shareTokN q 0
  | ⟨2, _⟩ => Transfers.shareTokN q 1
  | ⟨_ + 3, _⟩ => Transfers.shareTokN q 2

/-! ## The whole run -/

theorem tile_core (fi : Buf (Elt F) (iLoc d)) (hin : ∀ j, (fi j).toNat < 100001) (hdisj : SlabsIn d L Others) (hsl : SlabsApart L) (q : PosShare TreeShare)
    (O : CellTallies nD τ sig (HIx 1)) (W : Waits sig (HIx 1)) :
    iprop((Transfers.MayWaits (VT d L) (none : HIx 1) O : sProp 𝕄)
        ∗ ((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
        ∗ ((iRowK L).view.loc (VT d L) ↦[(iRowK L).view.set]{fullShare} fi)
        ∗ (∃ fo : Buf (Elt F) ((oV).view.loc (VT d L)), (oV).view.loc (VT d L) ↦[Finset.univ \ Others]{fullShare} fo)
        ∗ (∃ f0 : Buf (Elt F) ((sI).view.loc (VT d L)), (sI).view.loc (VT d L) ↦{fullShare} f0)
        ∗ (∃ f : Buf (Elt F) ((slotK 0).view.loc (VT d L)), (slotK 0).view.loc (VT d L) ↦[(slotK 0).view.set]{fullShare} f)
        ∗ (∃ f : Buf (Elt F) ((slotK 1).view.loc (VT d L)), (slotK 1).view.loc (VT d L) ↦[(slotK 1).view.set]{fullShare} f)
        ∗ (∃ f : Buf (Elt F) ((slotK 2).view.loc (VT d L)), (slotK 2).view.loc (VT d L) ↦[(slotK 2).view.set]{fullShare} f)
        ∗ (∃ f : Buf (Elt F) ((slotK 3).view.loc (VT d L)), (slotK 3).view.loc (VT d L) ↦[(slotK 3).view.set]{fullShare} f)
        ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0
        ∗ semVal (VT d L, SemLoc.dma (scell 0)) 0 ∗ semVal (VT d L, SemLoc.dma (scell 1)) 0 ∗ semVal (VT d L, SemLoc.dma (scell 2)) 0 ∗ semVal (VT d L, SemLoc.dma (scell 3)) 0
        ∗ semVal (VT d L, SemLoc.dma (csem 8)) 0
        ∗ owes (VT d L) O W)
      ⊢ wp frame (wpE (defs₀ (F := F)) 𝒱₀ (VT d L) none) Set.univ
          (cc0_k L tV (Memref.isWhole_whole _) iV (Memref.isWhole_whole _) oV (Memref.isWhole_whole _)
            sI (Memref.isWhole_whole _) sB (Memref.isWhole_whole _) cc0_scratch2 cc0_scratch3 cc0_scoped0)
          fun _ => iprop(((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
            ∗ ((iRowK L).view.loc (VT d L) ↦[(iRowK L).view.set]{fullShare} fi)
            ∗ (∃ fo : Buf (Elt F) ((oV).view.loc (VT d L)), ⌜OutOk d ft fi L fo⌝ ∗ (oV).view.loc (VT d L) ↦[Finset.univ \ Others]{fullShare} fo)
            ∗ (∃ f0 : Buf (Elt F) ((sI).view.loc (VT d L)), (sI).view.loc (VT d L) ↦{fullShare} f0)
            ∗ (∃ f : Buf (Elt F) ((slotK 0).view.loc (VT d L)), (slotK 0).view.loc (VT d L) ↦[(slotK 0).view.set]{fullShare} f)
            ∗ (∃ f : Buf (Elt F) ((slotK 1).view.loc (VT d L)), (slotK 1).view.loc (VT d L) ↦[(slotK 1).view.set]{fullShare} f)
            ∗ (∃ f : Buf (Elt F) ((slotK 2).view.loc (VT d L)), (slotK 2).view.loc (VT d L) ↦[(slotK 2).view.set]{fullShare} f)
            ∗ (∃ f : Buf (Elt F) ((slotK 3).view.loc (VT d L)), (slotK 3).view.loc (VT d L) ↦[(slotK 3).view.set]{fullShare} f)
            ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0
            ∗ semVal (VT d L, SemLoc.dma (scell 0)) 0 ∗ semVal (VT d L, SemLoc.dma (scell 1)) 0 ∗ semVal (VT d L, SemLoc.dma (scell 2)) 0 ∗ semVal (VT d L, SemLoc.dma (scell 3)) 0
            ∗ semVal (VT d L, SemLoc.dma (csem 8)) 0
            ∗ ∃ W', ⌜∀ p ∈ W', p ∈ W ∨ p.2 = none⌝ ∗ owes (VT d L) O W') := by
  rw [cc0_k_eq_skeleton]; unfold cc0_k_skel
  iintro ⟨#Hmw, T0, T1, T2, T3, Hi, ⟨%fo, Ho⟩, ⟨%f0, H0⟩, ⟨%g0, Hs0⟩, ⟨%g1, Hs1⟩, ⟨%g2, Hs2⟩, ⟨%g3, Hs3⟩, G0, G1, G2, G3, S0, S1, S2, S3, S8, HO⟩
  sl_exec
  -- the list scratch, fetched: four read tokens of it, one per slot
  ihave Htk := (tok3 (F := F) fullShare _).1 $$ H0
  icases Htk with ⟨I0, I1, I2, I3⟩
  have hidx : ListsOk (F := F) d L (View.write (Elt F) (sI).view f0 (tile_core.sl.dma0 d L fi) Finset.univ) :=
    inb_of_pre (F := F) d L fi hin f0 _ rfl
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view
        (View.write (Elt F) (sI).view f0 (tile_core.sl.dma0 d L fi) Finset.univ) x).toNat < 100001 := hidx
  have hF0 := lists_after_fetch (F := F) d L fi f0
  have hG : GathersOk (F := F) d L ft (View.write (Elt F) (sI).view f0 (tile_core.sl.dma0 d L fi) Finset.univ) (payC d L ft fi) :=
    fun k hc2 hin' => gather_loop d L ft fi k hc2 _ hF0 hin rfl hin'
  sl_exec
  sl_for (inv d L ft (View.write (Elt F) (sI).view f0 (tile_core.sl.dma0 d L fi) Finset.univ) (tokOf q) (tokOf fullShare) Others (payC d L ft fi) O W) $$ [G0 T0 I0 S0 G1 T1 I1 S1 G2 T2 I2 S2 G3 S3 Hs3 T3 I3 Ho HO]
  case region =>
    intro k _
    exact step d L ft _ (tokOf q) (tokOf fullShare) Others (payC d L ft fi) k hidx hdisj hG hsl O W _ 0#32 0#32
  · iapply (inv_zero d L ft _ (tokOf q) (tokOf fullShare) Others (payC d L ft fi) O W)
    isplitr; · iexact Hmw
    isplitl [G0 T0 I0 S0]
    · iapply (SG_intro d L ft _ (tokOf q) (tokOf fullShare) (payC d L ft fi) (sl 0) 0 _ _ _)
      isplitl [G0]; · iexact G0
      isplitl [T0]; · iexact T0
      isplitl [I0]; · iexact I0
      isplitl [S0]; · iexact S0
      ipureintro
      exact (View.read_writes_whole _ _ _).trans (gather_pro d L ft fi (0 : Fin 3) inb_S26x128_S1x128_0_0 _ hF0 hin rfl _)
    isplitl [G1 T1 I1 S1]
    · iapply (SG_intro d L ft _ (tokOf q) (tokOf fullShare) (payC d L ft fi) (sl (0 + 1)) (0 + 1) _ _ _)
      isplitl [G1]; · iexact G1
      isplitl [T1]; · iexact T1
      isplitl [I1]; · iexact I1
      isplitl [S1]; · iexact S1
      ipureintro
      exact (View.read_writes_whole _ _ _).trans (gather_pro d L ft fi (1 : Fin 3) inb_S26x128_S1x128_1_0 _ hF0 hin rfl _)
    isplitl [G2 T2 I2 S2]
    · iapply (SG_intro d L ft _ (tokOf q) (tokOf fullShare) (payC d L ft fi) (sl (0 + 2)) (0 + 2) _ _ _)
      isplitl [G2]; · iexact G2
      isplitl [T2]; · iexact T2
      isplitl [I2]; · iexact I2
      isplitl [S2]; · iexact S2
      ipureintro
      exact (View.read_writes_whole _ _ _).trans (gather_pro d L ft fi (2 : Fin 3) inb_S26x128_S1x128_2_0 _ hF0 hin rfl _)
    isplitl [G3 S3 Hs3 T3 I3]
    · iapply (SF_intro d L ft _ (tokOf q) (tokOf fullShare) (sl (0 + 3)) _)
      isplitl [G3]; · iexact G3
      isplitl [S3]; · iexact S3
      isplitl [Hs3]; · iexact Hs3
      isplitl [T3]; · iexact T3
      iexact I3
    isplitl [Ho]
    · iapply (Entails.of_eq (show outFree (F := F) d L Others = iprop(∃ fo : Buf (Elt F) ((oV).view.loc (VT d L)), (oV).view.loc (VT d L) ↦[Finset.univ \ Others]{fullShare} fo) from rfl).symm)
      iexists _; iexact Ho
    iexists (insert (SemLoc.dma (csem 8), (default : HIx 1)) W); isplitr
    · ipureintro; intro p hp
      rcases Finset.mem_insert.mp hp with hp | hp
      · exact .inr (hp ▸ rfl)
      · exact .inl hp
    · iexact HO
  iintro %_ HI
  ihave HE := (inv_end d L ft _ (tokOf q) (tokOf fullShare) Others (payC d L ft fi) O W _ (by decide) _) $$ HI
  icases HE with ⟨-, HSS, HF2, HF3, HF0, %W₁, %hW₁, HO⟩
  ihave HSS' := (SS_elim d L ft _ (tokOf q) (tokOf fullShare) Others (payC d L ft fi) _ _) $$ HSS
  icases HSS' with ⟨%fo', %fB', Hfl, Hg1, Ht1, Hi1, %hfo'⟩
  ihave HF2' := (SF_elim d L ft _ (tokOf q) (tokOf fullShare) _) $$ HF2
  icases HF2' with ⟨Hg2, Hc2, ⟨%h2, Hp2⟩, Ht2, Hi2⟩
  ihave HF3' := (SF_elim d L ft _ (tokOf q) (tokOf fullShare) _) $$ HF3
  icases HF3' with ⟨Hg3, Hc3, ⟨%h3, Hp3⟩, Ht3, Hi3⟩
  ihave HF0' := (SF_elim d L ft _ (tokOf q) (tokOf fullShare) _) $$ HF0
  icases HF0' with ⟨Hg0, Hc0, ⟨%h0, Hp0⟩, Ht0, Hi0⟩
  sl_exec
  sl_step
  ihave Hfull := (tok3 (F := F) fullShare _).2 $$ [Hi0 Hi1 Hi2 Hi3]
  · isplitl [Hi0]; · iexact Hi0
    isplitl [Hi1]; · iexact Hi1
    isplitl [Hi2]; · iexact Hi2
    iexact Hi3
  isplitl [Ht0]; · iexact Ht0
  isplitl [Ht1]; · iexact Ht1
  isplitl [Ht2]; · iexact Ht2
  isplitl [Ht3]; · iexact Ht3
  isplitl [Hi]; · iexact Hi
  isplitl [Hfl_dst]
  · iexists fo'; isplitr
    · ipureintro; intro k x
      exact ((View.read_apply (v := (slabI L k).view) fo' x).trans (cast_eq _ _)).symm.trans (congrFun (hfo' k (trips_eq ▸ k.isLt)) x)
    · iexact Hfl_dst
  isplitl [Hfull]; · iexists _; iexact Hfull
  isplitl [Hp0]; · iexists _; iexact Hp0
  isplitl [Hfl_src]; · iexists _; iexact Hfl_src
  isplitl [Hp2]; · iexists _; iexact Hp2
  isplitl [Hp3]; · iexists _; iexact Hp3
  isplitl [Hg0]; · iexact Hg0
  isplitl [Hg1]; · iexact Hg1
  isplitl [Hg2]; · iexact Hg2
  isplitl [Hg3]; · iexact Hg3
  isplitl [Hc0]; · iexact Hc0
  isplitl [Hfl]; · iexact Hfl
  isplitl [Hc2]; · iexact Hc2
  isplitl [Hc3]; · iexact Hc3
  isplitl [S8]; · iexact S8
  iexists (insert (SemLoc.dma (csem 5), (default : HIx 1)) W₁); isplitr
  · ipureintro; intro p hp
    rcases Finset.mem_insert.mp hp with hp | hp
    · exact .inr (hp ▸ rfl)
    · exact hW₁ p hp
  · iexact HO

end Cert.KernelIdeal.Sc

end
-- ==== Proof.ScTileRes.lean ====
/-
  What a vector subcore holds when the gather kernel's body starts and what it must hand back: its nine DMA
  semaphores and two scratches out of its own cells and buffers; the row scratch as its four slots of 128 rows; its
  share of the gathered rows as the kernel's whole-array view minus everyone else's elements, in which each of its
  26 slabs lies; and four read tokens cut off a share of an array it only reads.
-/
import proofs.«206634_g85779086836150_cont_9to1c4b_256_28_alg».proof.Proof.ScSlots
import proofs.«206634_g85779086836150_cont_9to1c4b_256_28_alg».proof.Proof.ScOffsets

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The subcore's own semaphores and scratches -/

/-- DMA semaphore `k` of the subcore, for the nine the gather kernel names: the four of the gather ring, the four of the
    store ring, and the one the index fetch completes on. -/
abbrev vcell (k : Fin 9) : GSem nD τ sig := (VT d L, SemLoc.dma (csem k.val (by have := k.isLt; omega)))

theorem scoped9 : ∀ k : Fin 9, (SemLoc.dma (csem k.val (by have := k.isLt; omega)) : SemLoc sig).isScoped .scVector = true := by decide

theorem hmem (k : Fin 9) : vcell d L k ∈ ownCells (VT d L) := mem_ownCells.mpr ⟨rfl, scoped9 k⟩

theorem vne (k k' : Fin 9) (h : k ≠ k') : vcell d L k ≠ vcell d L k' := by
  intro e
  have h1 : (SemLoc.dma (csem k.val (by have := k.isLt; omega)) : SemLoc sig) = SemLoc.dma (csem k'.val (by have := k'.isLt; omega)) := congrArg Prod.snd e
  have h2 := SemLoc.dma.inj h1
  exact h (Fin.ext (Fin.mk.inj h2))

theorem mem_erase_of {α : Type} [DecidableEq α] {s : Finset α} {a b : α} (h : a ∈ s) (hne : a ≠ b) : a ∈ s.erase b :=
  Finset.mem_erase.mpr ⟨hne, h⟩

/-- The subcore's other scoped cells. -/
abbrev ownRest9 : Finset (GSem nD τ sig) := ((((((((((ownCells (VT d L)).erase (vcell d L 0)).erase (vcell d L 1)).erase (vcell d L 2)).erase (vcell d L 3)).erase (vcell d L 4)).erase (vcell d L 5)).erase (vcell d L 6)).erase (vcell d L 7)).erase (vcell d L 8))

/-- The subcore's zeroed semaphores are the nine the kernel names and the rest. -/
theorem ownSems0_V :
    (ownSems0 (VT d L) : sProp 𝕄)
      = iprop(semVal (VT d L, .dma (gcell 0)) 0 ∗ semVal (VT d L, .dma (gcell 1)) 0 ∗ semVal (VT d L, .dma (gcell 2)) 0 ∗ semVal (VT d L, .dma (gcell 3)) 0
          ∗ semVal (VT d L, .dma (scell 0)) 0 ∗ semVal (VT d L, .dma (scell 1)) 0 ∗ semVal (VT d L, .dma (scell 2)) 0 ∗ semVal (VT d L, .dma (scell 3)) 0
          ∗ semVal (VT d L, .dma (csem 8)) 0 ∗ bigSep (ownRest9 d L) fun g => semVal g 0) := by
  unfold SparseCore.Cfg.ownSems0
  rw [SparseCore.bigSep_erase' (i := vcell d L 0) (hmem d L 0),
    SparseCore.bigSep_erase' (i := vcell d L 1) (mem_erase_of (hmem d L 1) (vne d L 1 0 (by decide))),
    SparseCore.bigSep_erase' (i := vcell d L 2) (mem_erase_of (mem_erase_of (hmem d L 2) (vne d L 2 0 (by decide))) (vne d L 2 1 (by decide))),
    SparseCore.bigSep_erase' (i := vcell d L 3) (mem_erase_of (mem_erase_of (mem_erase_of (hmem d L 3) (vne d L 3 0 (by decide))) (vne d L 3 1 (by decide))) (vne d L 3 2 (by decide))),
    SparseCore.bigSep_erase' (i := vcell d L 4) (mem_erase_of (mem_erase_of (mem_erase_of (mem_erase_of (hmem d L 4) (vne d L 4 0 (by decide))) (vne d L 4 1 (by decide))) (vne d L 4 2 (by decide))) (vne d L 4 3 (by decide))),
    SparseCore.bigSep_erase' (i := vcell d L 5) (mem_erase_of (mem_erase_of (mem_erase_of (mem_erase_of (mem_erase_of (hmem d L 5) (vne d L 5 0 (by decide))) (vne d L 5 1 (by decide))) (vne d L 5 2 (by decide))) (vne d L 5 3 (by decide))) (vne d L 5 4 (by decide))),
    SparseCore.bigSep_erase' (i := vcell d L 6) (mem_erase_of (mem_erase_of (mem_erase_of (mem_erase_of (mem_erase_of (mem_erase_of (hmem d L 6) (vne d L 6 0 (by decide))) (vne d L 6 1 (by decide))) (vne d L 6 2 (by decide))) (vne d L 6 3 (by decide))) (vne d L 6 4 (by decide))) (vne d L 6 5 (by decide))),
    SparseCore.bigSep_erase' (i := vcell d L 7) (mem_erase_of (mem_erase_of (mem_erase_of (mem_erase_of (mem_erase_of (mem_erase_of (mem_erase_of (hmem d L 7) (vne d L 7 0 (by decide))) (vne d L 7 1 (by decide))) (vne d L 7 2 (by decide))) (vne d L 7 3 (by decide))) (vne d L 7 4 (by decide))) (vne d L 7 5 (by decide))) (vne d L 7 6 (by decide))),
    SparseCore.bigSep_erase' (i := vcell d L 8) (mem_erase_of (mem_erase_of (mem_erase_of (mem_erase_of (mem_erase_of (mem_erase_of (mem_erase_of (mem_erase_of (hmem d L 8) (vne d L 8 0 (by decide))) (vne d L 8 1 (by decide))) (vne d L 8 2 (by decide))) (vne d L 8 3 (by decide))) (vne d L 8 4 (by decide))) (vne d L 8 5 (by decide))) (vne d L 8 6 (by decide))) (vne d L 8 7 (by decide)))]
  rfl

/-- The two scratches are among the subcore's own buffers: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The row scratch as its four slots -/

/-- Slot `j`'s elements of the row scratch: rows `128 * j` to 127 more. -/
abbrev slotSet (j : Fin 4) : Finset S512x128.Idx := (slotK j).view.set

theorem mem_slotSet (j : Fin 4) (x : S512x128.Idx) : x ∈ slotSet j ↔ (x 0).val / 128 = j.val := by
  show x ∈ ((View.whole cc0_scratch1 : View sig .scVector _ _ _).slice (Rect.unit (s := S512x128) ![128 * j.val, 0] S128x128.size (slotK_inb j))).set ↔ _
  rw [View.set_slice_whole, Rect.mem_set_unit]
  have hj := j.isLt
  have h0 : (x 0).val < 512 := (x 0).isLt
  have h1 : (x 1).val < 128 := (x 1).isLt
  constructor
  · intro h
    have a0 : 128 * j.val ≤ (x 0).val ∧ (x 0).val < 128 * j.val + 128 := h 0
    omega
  · intro h a
    match a with
    | ⟨0, _⟩ => show 128 * j.val ≤ (x 0).val ∧ (x 0).val < 128 * j.val + 128; omega
    | ⟨1, _⟩ => show 0 ≤ (x 1).val ∧ (x 1).val < 0 + 128; omega

theorem slots_disjoint : ∀ j ∈ (Finset.univ : Finset (Fin 4)), ∀ j' ∈ (Finset.univ : Finset (Fin 4)), j ≠ j' → Disjoint (slotSet j) (slotSet j') := by
  intro j _ j' _ h
  rw [Finset.disjoint_left]
  intro x hx hx'
  rw [mem_slotSet] at hx hx'
  exact h (Fin.ext (hx.symm.trans hx'))

theorem slots_cover : (Finset.univ : Finset (Fin 4)).biUnion slotSet = Finset.univ := by
  ext x
  simp only [Finset.mem_biUnion, Finset.mem_univ, true_and, iff_true]
  have h0 : (x 0).val < 512 := (x 0).isLt
  exact ⟨⟨(x 0).val / 128, by omega⟩, (mem_slotSet _ x).mpr rfl⟩

/-- A slot's view names the scratch's own location. -/
theorem slot_loc (j : Fin 4) : (slotK j).view.loc (VT d L) = (sB).view.loc (VT d L) := rfl

/-- The row scratch whole is its four slots. -/
theorem slots_split (f : Buf (Elt F) ((sB).view.loc (VT d L))) :
    ((sB).view.loc (VT d L) ↦{fullShare} f : sProp 𝕄)
      = bigSep Finset.univ fun j : Fin 4 => (slotK j).view.loc (VT d L) ↦[(slotK j).view.set]{fullShare} f := by
  rw [← slots_cover, pointsTo_biUnion Finset.univ (ℓ := (sB).view.loc (VT d L)) slotSet slots_disjoint]

/-- The four slots, each at some contents, are the row scratch whole at some contents. -/
theorem slots_join :
    (bigSep Finset.univ fun j : Fin 4 => iprop(∃ f, (slotK j).view.loc (VT d L) ↦[(slotK j).view.set]{fullShare} f))
      ⊢ (iprop(∃ f, (sB).view.loc (VT d L) ↦{fullShare} f) : sProp 𝕄) := by
  refine (bigSep_exists_pi Finset.univ (fun (j : Fin 4) (f : Buf (Elt F) ((sB).view.loc (VT d L))) =>
    ((sB).view.loc (VT d L) ↦[slotSet j]{fullShare} f : sProp 𝕄))).trans ?_
  iintro ⟨%fs, H⟩
  ihave H' := (pointsTo_biUnion_join Finset.univ slotSet fs (fs 0) slots_disjoint) $$ H
  icases H' with ⟨%g, -, Hg⟩
  rw [slots_cover]
  iexists g; iexact Hg

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-! ## The worker's share of the gathered rows, as the body holds it -/

/-- The share is the whole-array view less everyone else's elements. -/
theorem out_as_compl (f : Buf (Elt F) (oLoc d)) :
    (oLoc d ↦[oSetL L]{fullShare} f : sProp 𝕄) = (oV).view.loc (VT d L) ↦[Finset.univ \ (Finset.univ \ oSetL L)]{fullShare} f := by
  rw [Finset.sdiff_sdiff_eq_self (Finset.subset_univ _)]

/-- Each of the worker's slabs lies in its share: it meets no one else's elements. -/
theorem slabs_in : ∀ j : Fin k0_t1_loop.trips, Disjoint ((slabI L j).view.set : Finset S26x4096x128.Idx) (Finset.univ \ oSetL L) := by
  intro j
  have hsub : ((slabI L j).view.set : Finset S26x4096x128.Idx) ⊆ oSetL L := by
    intro x hx
    have h := (mem_slabI L j x).mp hx
    have := trip_lt j
    exact (mem_oSetL L x).mpr (by omega)
  exact (Finset.disjoint_sdiff (s := oSetL L) (t := Finset.univ)).mono_left hsub

/-! ## Read tokens inside the tile -/

/-- A points-to at a share is the remainder after four read tokens and the four tokens. -/
theorem tok4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h : (ℓ ↦{q} f : sProp 𝕄) ⊣⊢ iprop((ℓ ↦{Transfers.shareDrop q 4} f)
      ∗ bigSep (Finset.range 4) (fun w => ℓ ↦{Transfers.shareTokN q w} f)) := Transfers.pointsTo_toks_range q 4
  rw [show Finset.range 4 = {0, 1, 2, 3} from by decide, bigSep_insert (by decide), bigSep_insert (by decide),
    bigSep_insert (by decide), bigSep_singleton] at h
  exact h

theorem tok4_tV (q : PosShare TreeShare) (f : Buf (Elt F) ((tV).view.loc (VT d L))) :
    ((tV).view.loc (VT d L) ↦{q} f : sProp 𝕄) ⊣⊢ iprop(((tV).view.loc (VT d L) ↦{Transfers.shareDrop q 4} f) ∗ ((tV).view.loc (VT d L) ↦{Transfers.shareTokN q 0} f)
      ∗ ((tV).view.loc (VT d L) ↦{Transfers.shareTokN q 1} f) ∗ ((tV).view.loc (VT d L) ↦{Transfers.shareTokN q 2} f) ∗ ((tV).view.loc (VT d L) ↦{Transfers.shareTokN q 3} f)) :=
  tok4 q f

theorem tok4_sI (q : PosShare TreeShare) (f : Buf (Elt F) ((sI).view.loc (VT d L))) :
    ((sI).view.loc (VT d L) ↦{q} f : sProp 𝕄) ⊣⊢ iprop(((sI).view.loc (VT d L) ↦{Transfers.shareDrop q 4} f) ∗ ((sI).view.loc (VT d L) ↦{Transfers.shareTokN q 0} f)
      ∗ ((sI).view.loc (VT d L) ↦{Transfers.shareTokN q 1} f) ∗ ((sI).view.loc (VT d L) ↦{Transfers.shareTokN q 2} f) ∗ ((sI).view.loc (VT d L) ↦{Transfers.shareTokN q 3} f)) :=
  tok4 q f

end Cert.KernelIdeal.Sc

end
-- ==== Proof.ScBody.lean ====
/-
  The gather kernel's body as the launch takes it, from the body proved on its resources unpacked.

  The launch hands a vector subcore its read token of the tables, its row of the index array, its slabs of the
  result, and its own scratches and semaphores as two collections. The body's proof wants the token as four
  read shares (one per slot of the row scratch), the row scratch as its four slots, the list scratch whole, the
  nine semaphores it names one by one, the slabs as the kernel's whole-array view less everyone else's elements,
  and the evidence that the subcore may wait. This module converts one form into the other before the run and
  back after it, and keeps the rest of the subcore's scratches and semaphores aside during the run.
-/
import proofs.«206634_g85779086836150_cont_9to1c4b_256_28_alg».proof.Proof.ScTile
import proofs.«206634_g85779086836150_cont_9to1c4b_256_28_alg».proof.Proof.ScTileRes
import proofs.«206634_g85779086836150_cont_9to1c4b_256_28_alg».proof.Proof.ScLaunch

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (OutOk : (d : Dev nD) → Buf (Elt F) (tLoc d) → Buf (Elt F) (iLoc d) → grid0.Coords → Buf (Elt F) (oLoc d) → Prop)
variable (d : Dev nD) (L : grid0.Coords)

/-! ## The body's resources, unpacked -/

/-- What the body's proof starts from: the evidence that the subcore may wait, the four read shares of the
    tables, the row of the index array, the subcore's slabs as the whole-array view less the others' elements, the
    list scratch, the four slots of the row scratch, the nine semaphores at zero, and what the subcore owes. -/
def corePre (ft : Buf (Elt F) (tLoc d)) (fi : Buf (Elt F) (iLoc d)) (q : PosShare TreeShare)
    (O : CellTallies nD τ sig (HIx 1)) (W : Waits sig (HIx 1)) : sProp 𝕄 :=
  iprop((Transfers.MayWaits (VT d L) (none : HIx 1) O : sProp 𝕄)
    ∗ ((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
    ∗ ((iRowK L).view.loc (VT d L) ↦[(iRowK L).view.set]{fullShare} fi)
    ∗ (∃ fo : Buf (Elt F) ((oV).view.loc (VT d L)), (oV).view.loc (VT d L) ↦[Finset.univ \ (Finset.univ \ oSetL L)]{fullShare} fo)
    ∗ (∃ f0 : Buf (Elt F) ((sI).view.loc (VT d L)), (sI).view.loc (VT d L) ↦{fullShare} f0)
    ∗ (∃ f : Buf (Elt F) ((slotK 0).view.loc (VT d L)), (slotK 0).view.loc (VT d L) ↦[(slotK 0).view.set]{fullShare} f) ∗ (∃ f : Buf (Elt F) ((slotK 1).view.loc (VT d L)), (slotK 1).view.loc (VT d L) ↦[(slotK 1).view.set]{fullShare} f) ∗ (∃ f : Buf (Elt F) ((slotK 2).view.loc (VT d L)), (slotK 2).view.loc (VT d L) ↦[(slotK 2).view.set]{fullShare} f) ∗ (∃ f : Buf (Elt F) ((slotK 3).view.loc (VT d L)), (slotK 3).view.loc (VT d L) ↦[(slotK 3).view.set]{fullShare} f)
    ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0
    ∗ owes (VT d L) O W)

/-- What the body's proof ends with: the same, the slabs at contents of which the result property holds, and
    what the subcore still owes. -/
def corePost (ft : Buf (Elt F) (tLoc d)) (fi : Buf (Elt F) (iLoc d)) (q : PosShare TreeShare)
    (O : CellTallies nD τ sig (HIx 1)) (W : Waits sig (HIx 1)) : sProp 𝕄 :=
  iprop(((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
    ∗ ((iRowK L).view.loc (VT d L) ↦[(iRowK L).view.set]{fullShare} fi)
    ∗ (∃ fo : Buf (Elt F) ((oV).view.loc (VT d L)), ⌜OutOk d ft fi L fo⌝ ∗ (oV).view.loc (VT d L) ↦[Finset.univ \ (Finset.univ \ oSetL L)]{fullShare} fo)
    ∗ (∃ f0 : Buf (Elt F) ((sI).view.loc (VT d L)), (sI).view.loc (VT d L) ↦{fullShare} f0)
    ∗ (∃ f : Buf (Elt F) ((slotK 0).view.loc (VT d L)), (slotK 0).view.loc (VT d L) ↦[(slotK 0).view.set]{fullShare} f) ∗ (∃ f : Buf (Elt F) ((slotK 1).view.loc (VT d L)), (slotK 1).view.loc (VT d L) ↦[(slotK 1).view.set]{fullShare} f) ∗ (∃ f : Buf (Elt F) ((slotK 2).view.loc (VT d L)), (slotK 2).view.loc (VT d L) ↦[(slotK 2).view.set]{fullShare} f) ∗ (∃ f : Buf (Elt F) ((slotK 3).view.loc (VT d L)), (slotK 3).view.loc (VT d L) ↦[(slotK 3).view.set]{fullShare} f)
    ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0
    ∗ ∃ W', ⌜∀ p ∈ W', p ∈ W ∨ p.2 = none⌝ ∗ owes (VT d L) O W')

/-! ## One location, two spellings -/

theorem pts_t (q : PosShare TreeShare) (ft : Buf (Elt F) (tLoc d)) :
    (tLoc d ↦{q} ft : sProp 𝕄) = ((tV).view.loc (VT d L) ↦{q} ft) := rfl
theorem pts_i (fi : Buf (Elt F) (iLoc d)) :
    (iLoc d ↦[(iRowK L).view.set]{fullShare} fi : sProp 𝕄) = ((iRowK L).view.loc (VT d L) ↦[(iRowK L).view.set]{fullShare} fi) := rfl
theorem pts_sI (f : Buf (Elt F) ((VT d L).loc cc0_scratch0)) :
    ((VT d L).loc cc0_scratch0 ↦{fullShare} f : sProp 𝕄) = ((sI).view.loc (VT d L) ↦{fullShare} f) := rfl
theorem pts_sB (f : Buf (Elt F) ((VT d L).loc cc0_scratch1)) :
    ((VT d L).loc cc0_scratch1 ↦{fullShare} f : sProp 𝕄) = ((sB).view.loc (VT d L) ↦{fullShare} f) := rfl

/-! ## Before the run -/

/-- What the launch hands over, with the subcore's scratches and semaphores already listed, is the body's
    resources and the rest of those collections. -/
theorem pre_unpack (ft : Buf (Elt F) (tLoc d)) (fi : Buf (Elt F) (iLoc d)) (fo : Buf (Elt F) (oLoc d))
    (O : CellTallies nD τ sig (HIx 1)) (W : Waits sig (HIx 1)) (hO : ∀ g, O g none = 0) (RB RS : sProp 𝕄) :
    iprop((levAts (K (F := F)).L (K (F := F)).lev : sProp 𝕄) ∗ emp
        ∗ ((tLoc d ↦{tokQ (wOf L)} ft) ∗ (iLoc d ↦[(iRowK L).view.set]{fullShare} fi) ∗ (oLoc d ↦[oSetL L]{fullShare} fo))
        ∗ ((∃ f, (VT d L).loc cc0_scratch0 ↦{fullShare} f) ∗ (∃ f, (VT d L).loc cc0_scratch1 ↦{fullShare} f) ∗ RB)
        ∗ (semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0 ∗ RS)
        ∗ owes (VT d L) O W)
      ⊢ iprop(corePre d L ft fi (tokQ (wOf L)) O W ∗ (RB ∗ RS)) := by
  have e0 : tokOf (tokQ (wOf L)) 0 = Transfers.shareDrop (tokQ (wOf L)) 3 := rfl
  have e1 : tokOf (tokQ (wOf L)) 1 = Transfers.shareTokN (tokQ (wOf L)) 0 := rfl
  have e2 : tokOf (tokQ (wOf L)) 2 = Transfers.shareTokN (tokQ (wOf L)) 1 := rfl
  have e3 : tokOf (tokQ (wOf L)) 3 = Transfers.shareTokN (tokQ (wOf L)) 2 := rfl
  unfold corePre
  rw [e0, e1, e2, e3, pts_t d L, pts_i d L, out_as_compl d L fo]
  iintro ⟨#Hlv, -, ⟨Ht, Hi, Ho⟩, ⟨⟨%g0, HsI⟩, ⟨%g1, HsB⟩, Hrb⟩, ⟨G0, G1, G2, G3, S0, S1, S2, S3, S8, Hrs⟩, HO⟩
  ihave Hmw := (show (levAts (K (F := F)).L (K (F := F)).lev : sProp 𝕄) ⊢ Transfers.MayWaits (VT d L) (none : HIx 1) O from
    (K (F := F)).mayWaits_none (thr := VT d L) hO) $$ Hlv
  ihave Ht' := (tok3 (F := F) (tokQ (wOf L)) ft).1 $$ Ht
  icases Ht' with ⟨T0, T1, T2, T3⟩
  ihave HsB' := (Entails.of_eq (pts_sB (F := F) d L g1)) $$ HsB
  ihave Hsl := (Entails.of_eq ((slots_split (F := F) d L g1).trans (bigSep_fin4 _))) $$ HsB'
  icases Hsl with ⟨B0, B1, B2, B3⟩
  ihave HsI' := (Entails.of_eq (pts_sI (F := F) d L g0)) $$ HsI
  isplitr [Hrb Hrs]
  · isplitl [Hmw]; · iexact Hmw
    isplitl [T0]; · iexact T0
    isplitl [T1]; · iexact T1
    isplitl [T2]; · iexact T2
    isplitl [T3]; · iexact T3
    isplitl [Hi]; · iexact Hi
    isplitl [Ho]; · iexists fo; iexact Ho
    isplitl [HsI']; · iexists g0; iexact HsI'
    isplitl [B0]; · iexists g1; iexact B0
    isplitl [B1]; · iexists g1; iexact B1
    isplitl [B2]; · iexists g1; iexact B2
    isplitl [B3]; · iexists g1; iexact B3
    isplitl [G0]; · iexact G0
    isplitl [G1]; · iexact G1
    isplitl [G2]; · iexact G2
    isplitl [G3]; · iexact G3
    isplitl [S0]; · iexact S0
    isplitl [S1]; · iexact S1
    isplitl [S2]; · iexact S2
    isplitl [S3]; · iexact S3
    isplitl [S8]; · iexact S8
    iexact HO
  · isplitl [Hrb]; · iexact Hrb
    iexact Hrs

/-! ## After the run -/

/-- What the body's proof ends with, and the rest kept aside, is what the launch takes back. -/
theorem post_pack (ft : Buf (Elt F) (tLoc d)) (fi : Buf (Elt F) (iLoc d))
    (O : CellTallies nD τ sig (HIx 1)) (W : Waits sig (HIx 1)) (RB RS : sProp 𝕄) :
    iprop(corePost OutOk d L ft fi (tokQ (wOf L)) O W ∗ (RB ∗ RS))
      ⊢ iprop(((tLoc d ↦{tokQ (wOf L)} ft) ∗ (iLoc d ↦[(iRowK L).view.set]{fullShare} fi)
            ∗ (∃ f, ⌜OutOk d ft fi L f⌝ ∗ oLoc d ↦[oSetL L]{fullShare} f))
          ∗ ((∃ f, (VT d L).loc cc0_scratch0 ↦{fullShare} f) ∗ (∃ f, (VT d L).loc cc0_scratch1 ↦{fullShare} f) ∗ RB)
          ∗ (semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0 ∗ RS)
          ∗ ∃ W', ⌜∀ p ∈ W', p ∈ W ∨ p.2 = none⌝ ∗ owes (VT d L) O W') := by
  have e0 : tokOf (tokQ (wOf L)) 0 = Transfers.shareDrop (tokQ (wOf L)) 3 := rfl
  have e1 : tokOf (tokQ (wOf L)) 1 = Transfers.shareTokN (tokQ (wOf L)) 0 := rfl
  have e2 : tokOf (tokQ (wOf L)) 2 = Transfers.shareTokN (tokQ (wOf L)) 1 := rfl
  have e3 : tokOf (tokQ (wOf L)) 3 = Transfers.shareTokN (tokQ (wOf L)) 2 := rfl
  unfold corePost
  rw [e0, e1, e2, e3, pts_t d L, pts_i d L]
  iintro ⟨⟨T0, T1, T2, T3, Hi, ⟨%fo, %hfo, Ho⟩, ⟨%f0, HsI⟩, ⟨%h0, B0⟩, ⟨%h1, B1⟩, ⟨%h2, B2⟩, ⟨%h3, B3⟩,
    G0, G1, G2, G3, S0, S1, S2, S3, S8, ⟨%W', %hW', HO⟩⟩, Hrb, Hrs⟩
  ihave Ht := (tok3 (F := F) (tokQ (wOf L)) ft).2 $$ [T0 T1 T2 T3]
  · isplitl [T0]; · iexact T0
    isplitl [T1]; · iexact T1
    isplitl [T2]; · iexact T2
    iexact T3
  ihave HsB := ((Entails.of_eq (bigSep_fin4 (F := F) (fun j : Fin 4 =>
      iprop(∃ f : Buf (Elt F) ((slotK j).view.loc (VT d L)), (slotK j).view.loc (VT d L) ↦[(slotK j).view.set]{fullShare} f))).symm).trans
    (slots_join (F := F) d L)) $$ [B0 B1 B2 B3]
  · isplitl [B0]; · iexists h0; iexact B0
    isplitl [B1]; · iexists h1; iexact B1
    isplitl [B2]; · iexists h2; iexact B2
    iexists h3; iexact B3
  icases HsB with ⟨%gB, HsB⟩
  ihave Ho' := (Entails.of_eq (out_as_compl (F := F) d L fo).symm) $$ Ho
  isplitl [Ht Hi Ho']
  · isplitl [Ht]; · iexact Ht
    isplitl [Hi]; · iexact Hi
    iexists fo; isplitr
    · ipureintro; exact hfo
    · iexact Ho'
  isplitl [HsI HsB Hrb]
  · isplitl [HsI]; · iexists f0; iapply (Entails.of_eq (pts_sI (F := F) d L f0).symm); iexact HsI
    isplitl [HsB]; · iexists gB; iapply (Entails.of_eq (pts_sB (F := F) d L gB).symm); iexact HsB
    iexact Hrb
  isplitl [G0 G1 G2 G3 S0 S1 S2 S3 S8 Hrs]
  · isplitl [G0]; · iexact G0
    isplitl [G1]; · iexact G1
    isplitl [G2]; · iexact G2
    isplitl [G3]; · iexact G3
    isplitl [S0]; · iexact S0
    isplitl [S1]; · iexact S1
    isplitl [S2]; · iexact S2
    isplitl [S3]; · iexact S3
    isplitl [S8]; · iexact S8
    iexact Hrs
  iexists W'; isplitr
  · ipureintro; exact hW'
  · iexact HO

/-! ## The body as the launch takes it -/

/-- From the body proved on its unpacked resources, the subcore's task. -/
theorem tile_body_of_core
    (hcore : ∀ (d : Dev nD) (L : grid0.Coords) (ft : Buf (Elt F) (tLoc d)) (fi : Buf (Elt F) (iLoc d))
        (hin : ∀ j, (fi j).toNat < 100001) (q : PosShare TreeShare) (O : CellTallies nD τ sig (HIx 1)) (W : Waits sig (HIx 1)),
        corePre (F := F) d L ft fi q O W
          ⊢ wp Idealize.ShloMosaic.frame (wpE (defs₀ (F := F)) 𝒱₀ (VT d L) none) Set.univ
              (cc0_k L tV (Memref.isWhole_whole _) iV (Memref.isWhole_whole _) oV (Memref.isWhole_whole _) sI (Memref.isWhole_whole _) sB (Memref.isWhole_whole _) cc0_scratch2 cc0_scratch3 cc0_scoped0)
              fun _ => corePost OutOk d L ft fi q O W) :
    TileBody (F := F) OutOk := by
  unfold TileBody
  intro hF d L ft fi fo hin O W hO
  rw [(K (F := F)).scopedBufs_V hF d (cV L) (jV L), SparseCore.Cfg.scopedSems0_V (Val := Elt F) d (cV L) (jV L),
    ownSems0_V d L, ownBufs_V d L]
  refine (pre_unpack (F := F) d L ft fi fo O W hO _ _).trans ?_
  refine (sep_mono_l (hcore d L ft fi hin (tokQ (wOf L)) O W)).trans ?_
  refine (wp_frame_r Idealize.ShloMosaic.frame (wpE (defs₀ (F := F)) 𝒱₀ (VT d L) none) Set.univ).trans ?_
  exact wp_mono Idealize.ShloMosaic.frame (wpE (defs₀ (F := F)) 𝒱₀ (VT d L) none) Set.univ
    fun _ => post_pack (F := F) OutOk d L ft fi O W _ _

/-- The subcore's task, with the result property that each of its slabs holds its chunk of gathered rows. -/
theorem tile_body : TileBody (F := F) (_root_.Cert.KernelIdeal.Sc.OutOk (F := F)) :=
  tile_body_of_core (_root_.Cert.KernelIdeal.Sc.OutOk (F := F)) (fun d L ft fi hin q O W => by
    unfold corePre corePost
    exact tile_core d L ft (Finset.univ \ oSetL L) fi hin (slabs_in L) (slabs_disjoint L) q O W)

end Cert.KernelIdeal.Sc

end
-- ==== Proof.ScCommonB.lean ====
/-
  The launch set-up shared by every module about the idealized kernel program's threads: the program as the
  SparseCore launch theorem sees it (its call table, body table, variants), the side conditions of the launch
  protocol's four semaphores, and the resource algebra the proof runs in: the handshakes' rounds, one more copy of
  the rounds algebra for the TensorCore region's staging cells, and the exclusive counters the local copies of the
  gather kernel are tracked with.
-/
import proofs.«206634_g85779086836150_cont_9to1c4b_256_28_alg».proof.Kernel
import Idealize.ShloMosaic.Lib.SparseCore.Launch
import Idealize.ShloMosaic.Lib.StableHlo.Run
import Idealize.ShloMosaic.Lib.Pipeline.Kit
import Idealize.ShloMosaic.Lib.Tactic
import proofs.«206634_g85779086836150_cont_9to1c4b_256_28_alg».proof.Proof.Gen.Kernel
import proofs.«206634_g85779086836150_cont_9to1c4b_256_28_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL

/-- The region's staging cells' rounds: the left factor of the right factor. -/
def ER : Emb UP (MT nD τ sig (HIx 1) (Elt F) ℕ UU ℕ) := (Emb.inl : Emb UP (UP × Counters)).trans embR

instance ER_landsIn : (ER : Emb UP (MT nD τ sig (HIx 1) (Elt F) ℕ UU ℕ)).LandsIn (upEmb : UEmb _ (MT nD τ sig (HIx 1) (Elt F) ℕ UU ℕ)) := by
  unfold ER; infer_instance

end Cert.Kernel.Sc

end
-- ==== Proof.ScPayB.lean ====
/-
  What one vector subcore is handed for the gather kernel and what it hands back, named once for the kernel body's
  proof and for the launch: the subcore's thread, its row of the index array (the 26 lists of 128 row numbers it
  fetches), its 26 output slabs (128 batch rows of one feature each) and its read token of the embedding tables.
-/
import proofs.«206634_g85779086836150_cont_9to1c4b_256_28_alg».proof.Proof.ScCommonB
import Idealize.ShloMosaic.Lib.SparseCore.Stream
import Idealize.ShloMosaic.Lib.SparseCore.Ops

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The tables, the index array as the kernel reads it (32 workers × 26 lists × 128), the gathered rows; the two
    scratches of a vector subcore: its 26 lists, its four slots of 128 rows. -/
abbrev tV : Memref sig .scVector .hbm S26x100001x128 .f32 := Memref.whole main_arg3_scv
abbrev iV : Memref sig .scVector .hbm S32x26x128 .i32 := Memref.whole main_v0_scv
abbrev oV : Memref sig .scVector .hbm S26x4096x128 .f32 := Memref.whole main_v1_scv
abbrev sI : Memref sig .scVector .vmem S26x128 .i32 := Memref.whole cc0_scratch0
abbrev sB : Memref sig .scVector .vmem S512x128 .f32 := Memref.whole cc0_scratch1

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev tLoc (d : Dev nD) : Loc nD τ sig := (SparseCore.T d).loc main_arg3
abbrev iLoc (d : Dev nD) : Loc nD τ sig := (SparseCore.T d).loc main_v0
abbrev oLoc (d : Dev nD) : Loc nD τ sig := (SparseCore.T d).loc main_v1

/-- The worker number of a vector subcore: twice its subcore index plus its core index. -/
def wOf (L : grid0.Coords) : ℕ := 2 * (L 1).val + (L 0).val

/-- The worker's row of the index array, as the kernel slices it. -/
abbrev iRowK (L : grid0.Coords) : Memref sig .scVector .hbm S26x128 .i32 :=
  ((iV).slice (Rect.unit (s := S32x26x128) (k0_off1 L) S1x26x128.size (k0_off1_inb L)) (fun _ => rfl)).squeeze S26x128 squeezes_S1x26x128_S26x128

/-- The slab chunk `k` of the worker is stored to: 128 batch rows of one feature, as the kernel slices it. -/
abbrev slabI (L : grid0.Coords) (k : Fin k0_t1_loop.trips) : Memref sig .scVector .hbm S128x128 .f32 :=
  (((oV).slice (Rect.unit (s := S26x4096x128) (k0_off15 L k) S1x4096x128.size (k0_off15_inb L k)) (fun _ => rfl)).squeeze S4096x128 squeezes_S1x4096x128_S4096x128).slice
    (Rect.unit (s := S4096x128) (k0_off16 L k) S128x128.size (k0_off16_inb L k)) (fun _ => rfl)

/-- The worker's share of the gathered rows: its 26 slabs. -/
def oSetL (L : grid0.Coords) : Finset S26x4096x128.Idx := Finset.univ.biUnion fun k : Fin k0_t1_loop.trips => (slabI L k).view.set

/-- The worker's read token of the tables (one of 32 cut off the full share). -/
abbrev tokQ (w : ℕ) : PosShare TreeShare := Transfers.shareTokN fullShare w

end Cert.Kernel.Sc

end
-- ==== Proof.ScSlotsB.lean ====
/-
  The four slots of a vector subcore's row scratch and their two rings of DMA semaphores, named once: slot `j` is
  rows [128 j, 128 j + 128) of the scratch; chunk `c` of a worker's 26 chunks lives in slot `c mod 4`, is gathered
  on the first ring's semaphore `c mod 4` and stored on the second ring's. The kernel names a slot by integer
  chains over the loop counter, a different chain at each place it slices; each chain is the slot's name here.
-/
import proofs.«206634_g85779086836150_cont_9to1c4b_256_28_alg».proof.Proof.ScPayB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Slot number of chunk `n`. -/
def sl (n : ℕ) : Fin 4 := ⟨n % 4, Nat.mod_lt _ (by decide)⟩
theorem sl_val (n : ℕ) : (sl n).val = n % 4 := rfl
theorem sl_add4 (n : ℕ) : sl (n + 4) = sl n := Fin.ext (by simp [sl])

abbrev csem (k : Nat) (hk : k < 21 := by omega) : DmaSem sig := ⟨k, hk⟩
/-- Slot `j`'s gather semaphore and its store semaphore. -/
abbrev gcell (j : Fin 4) : DmaSem sig := csem j.val (by have := j.isLt; omega)
abbrev scell (j : Fin 4) : DmaSem sig := csem (4 + j.val) (by have := j.isLt; omega)

theorem slotK_inb (j : Fin 4) : ∀ a, (![128 * j.val, 0] : Fin 2 → Nat) a + S128x128.size a ≤ S512x128.size a := by
  have := j.isLt; intro a; fin_cases a
  · show 128 * j.val + 128 ≤ 512; omega
  · show 0 + 128 ≤ 128; omega
/-- Slot `j` of the row scratch. -/
abbrev slotK (j : Fin 4) : Memref sig .scVector .vmem S128x128 .f32 :=
  (sB).slice (Rect.unit (s := S512x128) ![128 * j.val, 0] S128x128.size (slotK_inb j)) (fun _ => rfl)

theorem slot_of_off {off : Fin 2 → Nat} (j : Fin 4) (h : off = ![128 * j.val, 0]) (inb : ∀ a, off a + S128x128.size a ≤ S512x128.size a) :
    (sB).slice (Rect.unit (s := S512x128) off S128x128.size inb) (fun _ => rfl) = slotK j := by
  subst h; rfl

theorem cellK_inb (j : Fin 4) : ∀ a, (![j.val] : Fin 1 → Nat) a + S1.size a ≤ S4.size a := by
  have := j.isLt; intro a; fin_cases a; show j.val + 1 ≤ 4; omega

theorem gsemK : ∀ j : Fin 4, ((cc0_scratch2.slice (Rect.unit (s := S4) ![j.val] S1.size (cellK_inb j))).squeeze S_ squeezes_S1_S_).sem = gcell j := by
  decide +kernel
theorem ssemK : ∀ j : Fin 4, ((cc0_scratch3.slice (Rect.unit (s := S4) ![j.val] S1.size (cellK_inb j))).squeeze S_ squeezes_S1_S_).sem = scell j := by
  decide +kernel

theorem gsem_of_off {off : Fin 1 → Nat} (j : Fin 4) (h : off = ![j.val]) (inb : ∀ a, off a + S1.size a ≤ S4.size a) :
    ((cc0_scratch2.slice (Rect.unit (s := S4) off S1.size inb)).squeeze S_ squeezes_S1_S_).sem = gcell j := by
  rw [SemArray.slice_unit_congr cc0_scratch2 h inb (cellK_inb j)]; exact gsemK j
theorem ssem_of_off {off : Fin 1 → Nat} (j : Fin 4) (h : off = ![j.val]) (inb : ∀ a, off a + S1.size a ≤ S4.size a) :
    ((cc0_scratch3.slice (Rect.unit (s := S4) off S1.size inb)).squeeze S_ squeezes_S1_S_).sem = scell j := by
  rw [SemArray.slice_unit_congr cc0_scratch3 h inb (cellK_inb j)]; exact ssemK j

variable (k : Fin k0_t1_loop.trips)

/-! The kernel's spellings at trip `k`: the slot and semaphores of chunk `k + 3` where its gather is issued (and
    where the store of chunk `k - 1`, which had the slot before, is waited for), those of chunk `k` where its gather
    is waited for and its store issued. -/
abbrev ssemW (hc1 : k0_cond1 k = 1#1) : DmaSem sig := ((cc0_scratch3.slice (Rect.unit (s := S4) (k0_off6 k) S1.size (k0_off6_inb k hc1))).squeeze S_ squeezes_S1_S_).sem
abbrev gsemI (hc2 : k0_cond2 k = 1#1) : DmaSem sig := ((cc0_scratch2.slice (Rect.unit (s := S4) (k0_off10 k) S1.size (k0_off10_inb k hc2))).squeeze S_ squeezes_S1_S_).sem
abbrev gsemW : DmaSem sig := ((cc0_scratch2.slice (Rect.unit (s := S4) (k0_off14 k) S1.size (k0_off14_inb k))).squeeze S_ squeezes_S1_S_).sem
abbrev ssemI : DmaSem sig := ((cc0_scratch3.slice (Rect.unit (s := S4) (k0_off14 k) S1.size (k0_off14_inb k))).squeeze S_ squeezes_S1_S_).sem
abbrev slotA (hc2 : k0_cond2 k = 1#1) : Memref sig .scVector .vmem S128x128 .f32 := (sB).slice (Rect.unit (s := S512x128) (k0_off7 k) S128x128.size (k0_off7_inb k hc2)) (fun _ => rfl)
abbrev slotB : Memref sig .scVector .vmem S128x128 .f32 := (sB).slice (Rect.unit (s := S512x128) (k0_off11 k) S128x128.size (k0_off11_inb k)) (fun _ => rfl)

theorem slotA_eq (hc2 : k0_cond2 k = 1#1) : slotA k hc2 = slotK (sl (k.val + 3)) := slot_of_off _ (k0_off7_eq k) _
theorem slotB_eq : slotB k = slotK (sl k.val) := slot_of_off _ (k0_off11_eq k) _
theorem gsemI_eq (hc2 : k0_cond2 k = 1#1) : gsemI k hc2 = gcell (sl (k.val + 3)) := gsem_of_off _ (k0_off10_eq k) _
theorem gsemW_eq : gsemW k = gcell (sl k.val) := gsem_of_off _ (k0_off14_eq k) _
theorem ssemW_eq (hc1 : k0_cond1 k = 1#1) : ssemW k hc1 = scell (sl (k.val + 3)) := ssem_of_off _ (k0_off6_eq k) _
theorem ssemI_eq : ssemI k = scell (sl k.val) := ssem_of_off _ (k0_off14_eq k) _

/-- The two guards of a trip, read off the counter: the store of chunk `k - 1` is waited for from trip 1 on; chunk
    `k + 3` is gathered while it exists. -/
theorem cond1_iff : ∀ k : Fin k0_t1_loop.trips, k0_cond1 k = 1#1 ↔ 1 ≤ k.val := by decide +kernel
theorem cond2_iff : ∀ k : Fin k0_t1_loop.trips, k0_cond2 k = 1#1 ↔ k.val + 3 < 26 := by decide +kernel
theorem trips_eq : k0_t1_loop.trips = 26 := by decide

end Cert.Kernel.Sc

end
-- ==== Proof.ScTripB.lean ====
/-
  One trip of the gather kernel's loop, at a symbolic trip number. A slot of the row scratch is in one of three states:
  GATHERING (an indirect gather of table rows into it in flight on its gather semaphore: the slot, the list row and
  a window of the tables lent into the flight, each off a read token of its array), STORING (a copy of the slot out
  to its slab of the result in flight on its store semaphore; the flight carries the worker's whole share of the
  result) or FREE. Trip `k` frees the slot of chunk `k - 1` (its store is waited for), gathers chunk `k + 3` into
  it, waits for chunk `k`'s gather and starts its store: the slot of chunk `k + 3` goes STORING → GATHERING and
  the slot of chunk `k` GATHERING → STORING; the first trip finds the former FREE, the last three leave it so.
-/
import proofs.«206634_g85779086836150_cont_9to1c4b_256_28_alg».proof.Proof.ScSlotsB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (ft : Buf (Elt F) ((tV).view.loc (VT d L))) (F0 : Buf (Elt F) ((sI).view.loc (VT d L)))
variable (qt qi : Fin 4 → PosShare TreeShare) (Others : Finset (Idx ((oV).view.loc (VT d L))))
-- the payload of chunk `c`: row by row, the table rows its list names
variable (pay : ℕ → S128x128.Idx → Elt F .f32)

/-- Slot `j` GATHERING chunk `c`: what lands in it is the chunk's payload. -/
def SG (j : Fin 4) (c : ℕ) : sProp 𝕄 :=
  iprop(∃ (Tw : Finset (Idx ((tV).view.loc (VT d L)))) (Rw : Finset (Idx ((sI).view.loc (VT d L)))) (fB : Buf (Elt F) ((slotK j).view.loc (VT d L))),
    Transfers.Flight (countersEmb (U := UU)) (VT d L) (SemLoc.dma (gcell j)) (default : HIx 1) 524288
        iprop((((slotK j).view.loc (VT d L) ↦[(slotK j).view.set]{fullShare} fB) ∗ ((sI).view.loc (VT d L) ↦[Rw]{qi j} F0))
          ∗ ((tV).view.loc (VT d L) ↦[Tw]{qt j} ft))
      ∗ ((tV).view.loc (VT d L) ↦[Finset.univ \ Tw]{qt j} ft) ∗ ((sI).view.loc (VT d L) ↦[Finset.univ \ Rw]{qi j} F0)
      ∗ semVal (VT d L, SemLoc.dma (scell j)) 0
      ∗ ⌜(slotK j).view.read (Elt F) fB = pay c⌝)

/-- Slot `j` STORING (the flight carries the worker's share of the result), the slabs of chunks below `n` holding their
    payloads once it lands. -/
def SS (j : Fin 4) (n : ℕ) : sProp 𝕄 :=
  iprop(∃ (fo : Buf (Elt F) ((oV).view.loc (VT d L))) (fB : Buf (Elt F) ((slotK j).view.loc (VT d L))),
    Transfers.Flight (countersEmb (U := UU)) (VT d L) (SemLoc.dma (scell j)) (default : HIx 1) 524288
        iprop(((oV).view.loc (VT d L) ↦[Finset.univ \ Others]{fullShare} fo) ∗ ((slotK j).view.loc (VT d L) ↦[(slotK j).view.set]{fullShare} fB))
      ∗ semVal (VT d L, SemLoc.dma (gcell j)) 0
      ∗ ((tV).view.loc (VT d L) ↦{qt j} ft) ∗ ((sI).view.loc (VT d L) ↦{qi j} F0)
      ∗ ⌜∀ k' : Fin k0_t1_loop.trips, k'.val < n → (slabI L k').view.read (Elt F) fo = pay k'.val⌝)

/-- Slot `j` FREE. -/
def SF (j : Fin 4) : sProp 𝕄 :=
  iprop(semVal (VT d L, SemLoc.dma (gcell j)) 0 ∗ semVal (VT d L, SemLoc.dma (scell j)) 0
    ∗ (∃ f : Buf (Elt F) ((slotK j).view.loc (VT d L)), (slotK j).view.loc (VT d L) ↦[(slotK j).view.set]{fullShare} f)
    ∗ ((tV).view.loc (VT d L) ↦{qt j} ft) ∗ ((sI).view.loc (VT d L) ↦{qi j} F0))

/-- Every list row of the index scratch holds table rows. -/
abbrev ListsOk : Prop :=
  ∀ (row : Fin 2 → ℕ) (hk : ∀ a, row a + S1x128.size a ≤ S26x128.size a) (hq : (Rect.unit (s := S26x128) row S1x128.size hk).shape.Squeezes S128) (x : S128.Idx),
    (View.read (Elt F) (((sI).slice (Rect.unit (s := S26x128) row S1x128.size hk) (fun _ => rfl)).squeeze S128 hq).view F0 x).toNat < 100001

/-- Every slab of the worker lies in its share of the result. -/
abbrev SlabsIn : Prop := ∀ j : Fin k0_t1_loop.trips, Disjoint (slabI L j).view.set Others

/-- Distinct chunks have disjoint slabs. -/
abbrev SlabsApart : Prop := ∀ a b : Fin k0_t1_loop.trips, a ≠ b → Disjoint (slabI L a).view.set (slabI L b).view.set

variable (k : Fin k0_t1_loop.trips)

/-- What the gather issued at trip `k` lands is chunk `k + 3`'s payload. -/
abbrev GatherOk (hc2 : k0_cond2 k = 1#1) : Prop :=
  ∀ (hin' : ∀ x, (View.read (Elt F) (((sI).slice (Rect.unit (s := S26x128) (k0_off8 k) S1x128.size (k0_off8_inb k hc2)) (fun _ => rfl)).squeeze S128 squeezes_S1x128_S128).view F0 x).toNat < 100001),
    SparseCore.gatherPayload gathers_S100001x128_S128x128
      (View.read (Elt F) ((((tV).slice (Rect.unit (s := S26x100001x128) (k0_off9 L k) S1x100001x128.size (k0_off9_inb L k hc2)) (fun _ => rfl)).squeeze S100001x128 squeezes_S1x100001x128_S100001x128).slice
        (Rect.unit (s := S100001x128) ![0, 0] S100001x128.size inb_S100001x128_S100001x128_0_0) (fun _ => rfl)).view ft)
      (SparseCore.rows (View.read (Elt F) (((sI).slice (Rect.unit (s := S26x128) (k0_off8 k) S1x128.size (k0_off8_inb k hc2)) (fun _ => rfl)).squeeze S128 squeezes_S1x128_S128).view F0) rfl hin')
    = pay (k.val + 3)

omit [FloatOps F] in
/-- After chunk `k`'s store lands, the slabs of chunks up to `k` hold their payloads. -/
theorem slabs_after (hsl : SlabsApart L) (fo : Buf (Elt F) ((oV).view.loc (VT d L))) (p : S128x128.Idx → Elt F .f32)
    (hp : p = pay k.val) (hfo : ∀ k' : Fin k0_t1_loop.trips, k'.val < k.val → (slabI L k').view.read (Elt F) fo = pay k'.val) :
    ∀ k' : Fin k0_t1_loop.trips, k'.val < k.val + 1 → (slabI L k').view.read (Elt F) (View.write (Elt F) (slabI L k).view fo p Finset.univ) = pay k'.val := by
  intro k' hk'
  by_cases e : k' = k
  · subst e; exact (View.read_write_univ _ _).trans hp
  · have hlt : k'.val < k.val := by have := Fin.val_ne_of_ne e; omega
    funext x
    have hn : (slabI L k').view.emb x ∉ (slabI L k).view.setOn Finset.univ := by
      rw [View.setOn_univ]; exact Finset.disjoint_left.mp (hsl k' k e) (View.emb_mem_set _ x)
    rw [View.read_apply, View.write_of_not_mem _ _ _ hn, ← View.read_apply]
    exact congrFun (hfo k' hlt) x

/-- A trip in the middle of the loop: both guards hold. -/
theorem trip_mid (hc1 : k0_cond1 k = 1#1) (hc2 : k0_cond2 k = 1#1) (hidx : ListsOk (F := F) d L F0) (hdisj : SlabsIn d L Others)
    (hG : GatherOk (F := F) d L ft F0 pay k hc2) (hsl : SlabsApart L)
    (O : CellTallies nD τ sig (HIx 1)) (W : Waits sig (HIx 1)) (v1 v79 c32 : BitVec 32) :
    iprop((Transfers.MayWaits (VT d L) (none : HIx 1) O : sProp 𝕄)
        ∗ SS d L ft F0 qt qi Others pay (sl (k.val + 3)) (k.val) ∗ SG d L ft F0 qt qi pay (sl k.val) (k.val) ∗ owes (VT d L) O W)
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          fun _ => iprop(SG d L ft F0 qt qi pay (sl (k.val + 3)) (k.val + 3) ∗ SS d L ft F0 qt qi Others pay (sl k.val) (k.val + 1)
            ∗ ∃ W', ⌜∀ p ∈ W', p ∈ W ∨ p.2 = none⌝ ∗ owes (VT d L) O W') := by
  unfold SS SG
  rw [← slotA_eq k hc2, ← slotB_eq k, ← gsemI_eq k hc2, ← gsemW_eq k, ← ssemW_eq k hc1, ← ssemI_eq k]
  iintro ⟨#Hmw, ⟨%fo, %fA, HfS, HcG, Htok, Hrow, %hfo⟩, ⟨%Tw, %Rw, %fB, HfG, HtokW, HrowW, HcS, %hfB⟩, HO⟩
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view F0 x).toNat < 100001 := hidx
  have hdisj' : ∀ j : Fin k0_t1_loop.trips, Disjoint (slabI L j).view.set Others := hdisj
  unfold k0_t1_body
  sl_exec (disch := first | sl_exact hc1 | sl_exact hc2)
  sl_step
  isplitl [HcG Htok Hrow HfS]
  · iexists _, _, _
    isplitl [HcG]; · iexact HcG
    isplitl [Htok]; · iexact Htok
    isplitl [Hrow]; · iexact Hrow
    isplitl [HfS]; · iexact HfS
    ipureintro; exact (View.read_writes_whole _ _ _).trans (hG _)
  isplitl [HcS HfG HtokW HrowW]
  · iexists _, _
    isplitl [HcS]; · iexact HcS
    isplitl [HfG]; · iexact HfG
    isplitl [HtokW]; · iexact HtokW
    isplitl [HrowW]; · iexact HrowW
    ipureintro; exact slabs_after (F := F) d L pay k hsl fo _ hfB hfo
  iexists (insert (SemLoc.dma (gsemW k), (default : HIx 1)) (insert (SemLoc.dma (ssemW k hc1), (default : HIx 1)) W)); isplitr
  · ipureintro; intro p hp
    rcases Finset.mem_insert.mp hp with hp | hp
    · exact .inr (hp ▸ rfl)
    · rcases Finset.mem_insert.mp hp with hp | hp
      · exact .inr (hp ▸ rfl)
      · exact .inl hp
  · iexact HO

/-- The first trip: no store to wait for; the slot of chunk 3 is free. -/
theorem trip_first (hc1 : ¬ k0_cond1 k = 1#1) (hc2 : k0_cond2 k = 1#1) (hidx : ListsOk (F := F) d L F0) (hdisj : SlabsIn d L Others)
    (hG : GatherOk (F := F) d L ft F0 pay k hc2) (hsl : SlabsApart L)
    (O : CellTallies nD τ sig (HIx 1)) (W : Waits sig (HIx 1)) (v1 v79 c32 : BitVec 32) :
    iprop((Transfers.MayWaits (VT d L) (none : HIx 1) O : sProp 𝕄)
        ∗ SF d L ft F0 qt qi (sl (k.val + 3)) ∗ SG d L ft F0 qt qi pay (sl k.val) (k.val)
        ∗ (∃ fo : Buf (Elt F) ((oV).view.loc (VT d L)), (oV).view.loc (VT d L) ↦[Finset.univ \ Others]{fullShare} fo)
        ∗ owes (VT d L) O W)
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          fun _ => iprop(SG d L ft F0 qt qi pay (sl (k.val + 3)) (k.val + 3) ∗ SS d L ft F0 qt qi Others pay (sl k.val) (k.val + 1)
            ∗ ∃ W', ⌜∀ p ∈ W', p ∈ W ∨ p.2 = none⌝ ∗ owes (VT d L) O W') := by
  have h0 : k.val = 0 := by
    by_contra h; exact hc1 ((cond1_iff k).mpr (by omega))
  unfold SS SG SF
  rw [← slotA_eq k hc2, ← slotB_eq k, ← gsemI_eq k hc2, ← gsemW_eq k, ← ssemI_eq k]
  iintro ⟨#Hmw, ⟨HcG, HfS, ⟨%fA, HfS_src⟩, Htok, Hrow⟩, ⟨%Tw, %Rw, %fB, HfG, HtokW, HrowW, HcS, %hfB⟩, ⟨%fo, Hout⟩, HO⟩
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view F0 x).toNat < 100001 := hidx
  have hdisj' : ∀ j : Fin k0_t1_loop.trips, Disjoint (slabI L j).view.set Others := hdisj
  unfold k0_t1_body
  sl_exec (disch := first | sl_exact hc1 | sl_exact hc2)
  sl_step
  isplitl [HcG Htok Hrow HfS]
  · iexists _, _, _
    isplitl [HcG]; · iexact HcG
    isplitl [Htok]; · iexact Htok
    isplitl [Hrow]; · iexact Hrow
    isplitl [HfS]; · iexact HfS
    ipureintro; exact (View.read_writes_whole _ _ _).trans (hG _)
  isplitl [HcS HfG HtokW HrowW]
  · iexists _, _
    isplitl [HcS]; · iexact HcS
    isplitl [HfG]; · iexact HfG
    isplitl [HtokW]; · iexact HtokW
    isplitl [HrowW]; · iexact HrowW
    ipureintro; exact slabs_after (F := F) d L pay k hsl fo _ hfB (fun k' hk' => absurd hk' (by omega))
  iexists (insert (SemLoc.dma (gsemW k), (default : HIx 1)) W); isplitr
  · ipureintro; intro p hp
    rcases Finset.mem_insert.mp hp with hp | hp
    · exact .inr (hp ▸ rfl)
    · exact .inl hp
  · iexact HO

/-- The last three trips: no chunk left to gather; the slot whose store is waited for stays free. -/
theorem trip_last (hc1 : k0_cond1 k = 1#1) (hc2 : ¬ k0_cond2 k = 1#1) (hidx : ListsOk (F := F) d L F0) (hdisj : SlabsIn d L Others)
    (hsl : SlabsApart L)
    (O : CellTallies nD τ sig (HIx 1)) (W : Waits sig (HIx 1)) (v1 v79 c32 : BitVec 32) :
    iprop((Transfers.MayWaits (VT d L) (none : HIx 1) O : sProp 𝕄)
        ∗ SS d L ft F0 qt qi Others pay (sl (k.val + 3)) (k.val) ∗ SG d L ft F0 qt qi pay (sl k.val) (k.val) ∗ owes (VT d L) O W)
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          fun _ => iprop(SF d L ft F0 qt qi (sl (k.val + 3)) ∗ SS d L ft F0 qt qi Others pay (sl k.val) (k.val + 1)
            ∗ ∃ W', ⌜∀ p ∈ W', p ∈ W ∨ p.2 = none⌝ ∗ owes (VT d L) O W') := by
  unfold SS SG SF
  rw [← slotB_eq k, ← gsemW_eq k, ← ssemW_eq k hc1, ← ssemI_eq k]
  iintro ⟨#Hmw, ⟨%fo, %fA, HfS, HcG, Htok, Hrow, %hfo⟩, ⟨%Tw, %Rw, %fB, HfG, HtokW, HrowW, HcS, %hfB⟩, HO⟩
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view F0 x).toNat < 100001 := hidx
  have hdisj' : ∀ j : Fin k0_t1_loop.trips, Disjoint (slabI L j).view.set Others := hdisj
  unfold k0_t1_body
  sl_exec (disch := first | sl_exact hc1 | sl_exact hc2)
  sl_step
  isplitl [HcG HfS HfS_src Htok Hrow]
  · isplitl [HcG]; · iexact HcG
    isplitl [HfS]; · iexact HfS
    isplitl [HfS_src]; · iexists _; iexact HfS_src
    isplitl [Htok]; · iexact Htok
    iexact Hrow
  isplitl [HcS HfG HtokW HrowW]
  · iexists _, _
    isplitl [HcS]; · iexact HcS
    isplitl [HfG]; · iexact HfG
    isplitl [HtokW]; · iexact HtokW
    isplitl [HrowW]; · iexact HrowW
    ipureintro; exact slabs_after (F := F) d L pay k hsl fo _ hfB hfo
  iexists (insert (SemLoc.dma (gsemW k), (default : HIx 1)) (insert (SemLoc.dma (ssemW k hc1), (default : HIx 1)) W)); isplitr
  · ipureintro; intro p hp
    rcases Finset.mem_insert.mp hp with hp | hp
    · exact .inr (hp ▸ rfl)
    · rcases Finset.mem_insert.mp hp with hp | hp
      · exact .inr (hp ▸ rfl)
      · exact .inl hp
  · iexact HO

end Cert.Kernel.Sc

end
-- ==== Proof.ScLoopB.lean ====
/-
  The gather kernel's loop as a whole: before trip `n` the slot of chunk `n - 1` is STORING, the slabs of the chunks
  below `n` holding their payloads once its store lands (FREE before the first trip, when the worker's share of the
  result is still in hand), the slots of chunks `n`, `n + 1`, `n + 2` are GATHERING their chunks while those exist
  (there are 26) and FREE after. One trip moves every role by one chunk.
-/
import proofs.«206634_g85779086836150_cont_9to1c4b_256_28_alg».proof.Proof.ScTripB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (ft : Buf (Elt F) ((tV).view.loc (VT d L))) (F0 : Buf (Elt F) ((sI).view.loc (VT d L)))
variable (qt qi : Fin 4 → PosShare TreeShare) (Others : Finset (Idx ((oV).view.loc (VT d L))))
variable (pay : ℕ → S128x128.Idx → Elt F .f32)

/-- The worker's share of the result in hand. -/
def outFree : sProp 𝕄 := iprop(∃ fo : Buf (Elt F) ((oV).view.loc (VT d L)), (oV).view.loc (VT d L) ↦[Finset.univ \ Others]{fullShare} fo)

/-- The slot of the chunk before trip `n`'s. -/
def R0 (n : ℕ) : sProp 𝕄 :=
  if n = 0 then iprop(SF d L ft F0 qt qi (sl (n + 3)) ∗ outFree (F := F) d L Others) else SS d L ft F0 qt qi Others pay (sl (n + 3)) n
/-- The slot of chunk `c`, not yet stored. -/
def Rg (c : ℕ) : sProp 𝕄 := if c + 1 ≤ 26 then SG d L ft F0 qt qi pay (sl c) c else SF d L ft F0 qt qi (sl c)

def inv (O : CellTallies nD τ sig (HIx 1)) (W : Waits sig (HIx 1)) (n : ℕ) (_ : PUnit) : sProp 𝕄 :=
  iprop(Transfers.MayWaits (VT d L) (none : HIx 1) O
    ∗ R0 d L ft F0 qt qi Others pay n ∗ Rg d L ft F0 qt qi pay n ∗ Rg d L ft F0 qt qi pay (n + 1) ∗ Rg d L ft F0 qt qi pay (n + 2)
    ∗ ∃ W', ⌜∀ p ∈ W', p ∈ W ∨ p.2 = none⌝ ∗ owes (VT d L) O W')

theorem sl_succ3 (n : ℕ) : sl (n + 1 + 3) = sl n := by rw [show n + 1 + 3 = n + 4 from by omega, sl_add4]

omit [FloatOps F] in
theorem obl_W {thr : Thread nD τ} {O : CellTallies nD τ sig (HIx 1)} {W W₁ : Waits sig (HIx 1)} (h : ∀ p ∈ W₁, p ∈ W ∨ p.2 = none) :
    (iprop(∃ W', ⌜∀ p ∈ W', p ∈ W₁ ∨ p.2 = none⌝ ∗ owes thr O W') : sProp 𝕄) ⊢ iprop(∃ W', ⌜∀ p ∈ W', p ∈ W ∨ p.2 = none⌝ ∗ owes thr O W') := by
  iintro ⟨%W', %hW', HO⟩
  iexists W'; isplitr
  · ipureintro; intro p hp; rcases hW' p hp with h' | h'
    · exact h p h'
    · exact .inr h'
  · iexact HO

/-- Every gather the loop issues lands its chunk's payload. -/
abbrev GathersOk : Prop := ∀ (k : Fin k0_t1_loop.trips) (hc2 : k0_cond2 k = 1#1), GatherOk (F := F) d L ft F0 pay k hc2

variable (k : Fin k0_t1_loop.trips)

/-- The first trip carries the invariant on. -/
theorem step_first (h0 : k.val = 0) (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  have hk : k.val < 26 := trips_eq ▸ k.isLt
  have hc1 : ¬ k0_cond1 k = 1#1 := fun h => by have := (cond1_iff k).mp h; omega
  have hc2 : k0_cond2 k = 1#1 := (cond2_iff k).mpr (by omega)
  have hR0 : R0 d L ft F0 qt qi Others pay k.val = iprop(SF d L ft F0 qt qi (sl (k.val + 3)) ∗ outFree (F := F) d L Others) := if_pos h0
  have hG1 : Rg d L ft F0 qt qi pay k.val = SG d L ft F0 qt qi pay (sl k.val) k.val := if_pos (by omega)
  have hR0' : R0 d L ft F0 qt qi Others pay (k.val + 1) = SS d L ft F0 qt qi Others pay (sl k.val) (k.val + 1) := by
    unfold R0; rw [if_neg (by omega), sl_succ3]
  have hG3 : Rg d L ft F0 qt qi pay (k.val + 1 + 2) = SG d L ft F0 qt qi pay (sl (k.val + 3)) (k.val + 3) := by
    unfold Rg; rw [show k.val + 1 + 2 = k.val + 3 from by omega, if_pos (by omega)]
  unfold inv
  rw [hG1, hR0, hR0', hG3]
  unfold outFree
  iintro ⟨#Hmw, ⟨HF, Hout⟩, H1, H2, H3, %W₁, %hW₁, HO⟩
  ihave Hwp := (trip_first d L ft F0 qt qi Others pay k hc1 hc2 hidx hdisj (hG k hc2) hsl O W₁ v1 v79 c32) $$ [HF H1 Hout HO]
  · isplitr; · iexact Hmw
    isplitl [HF]; · iexact HF
    isplitl [H1]; · iexact H1
    isplitl [Hout]; · iexact Hout
    iexact HO
  iapply (wp_wand_r frame _ _)
  isplitl [Hwp]; · iexact Hwp
  iintro %_ ⟨HA, HB, HW⟩
  isplitr; · iexact Hmw
  isplitl [HB]; · iexact HB
  isplitl [H2]; · iexact H2
  isplitl [H3]; · iexact H3
  isplitl [HA]; · iexact HA
  iapply (obl_W (F := F) hW₁); iexact HW

/-- A trip in the middle carries the invariant on. -/
theorem step_mid (h0 : k.val ≠ 0) (h23 : k.val + 3 < 26) (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  have hk : k.val < 26 := trips_eq ▸ k.isLt
  have hc1 : k0_cond1 k = 1#1 := (cond1_iff k).mpr (by omega)
  have hc2 : k0_cond2 k = 1#1 := (cond2_iff k).mpr h23
  have hR0 : R0 d L ft F0 qt qi Others pay k.val = SS d L ft F0 qt qi Others pay (sl (k.val + 3)) k.val := if_neg h0
  have hG1 : Rg d L ft F0 qt qi pay k.val = SG d L ft F0 qt qi pay (sl k.val) k.val := if_pos (by omega)
  have hR0' : R0 d L ft F0 qt qi Others pay (k.val + 1) = SS d L ft F0 qt qi Others pay (sl k.val) (k.val + 1) := by
    unfold R0; rw [if_neg (by omega), sl_succ3]
  have hG3 : Rg d L ft F0 qt qi pay (k.val + 1 + 2) = SG d L ft F0 qt qi pay (sl (k.val + 3)) (k.val + 3) := by
    unfold Rg; rw [show k.val + 1 + 2 = k.val + 3 from by omega, if_pos (by omega)]
  unfold inv
  rw [hG1, hR0, hR0', hG3]
  iintro ⟨#Hmw, H0, H1, H2, H3, %W₁, %hW₁, HO⟩
  ihave Hwp := (trip_mid d L ft F0 qt qi Others pay k hc1 hc2 hidx hdisj (hG k hc2) hsl O W₁ v1 v79 c32) $$ [H0 H1 HO]
  · isplitr; · iexact Hmw
    isplitl [H0]; · iexact H0
    isplitl [H1]; · iexact H1
    iexact HO
  iapply (wp_wand_r frame _ _)
  isplitl [Hwp]; · iexact Hwp
  iintro %_ ⟨HA, HB, HW⟩
  isplitr; · iexact Hmw
  isplitl [HB]; · iexact HB
  isplitl [H2]; · iexact H2
  isplitl [H3]; · iexact H3
  isplitl [HA]; · iexact HA
  iapply (obl_W (F := F) hW₁); iexact HW

/-- Each of the last three trips carries the invariant on. -/
theorem step_last (h0 : k.val ≠ 0) (h23 : ¬ k.val + 3 < 26) (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  have hk : k.val < 26 := trips_eq ▸ k.isLt
  have hc1 : k0_cond1 k = 1#1 := (cond1_iff k).mpr (by omega)
  have hc2 : ¬ k0_cond2 k = 1#1 := fun h => h23 ((cond2_iff k).mp h)
  have hR0 : R0 d L ft F0 qt qi Others pay k.val = SS d L ft F0 qt qi Others pay (sl (k.val + 3)) k.val := if_neg h0
  have hG1 : Rg d L ft F0 qt qi pay k.val = SG d L ft F0 qt qi pay (sl k.val) k.val := if_pos (by omega)
  have hR0' : R0 d L ft F0 qt qi Others pay (k.val + 1) = SS d L ft F0 qt qi Others pay (sl k.val) (k.val + 1) := by
    unfold R0; rw [if_neg (by omega), sl_succ3]
  have hG3 : Rg d L ft F0 qt qi pay (k.val + 1 + 2) = SF d L ft F0 qt qi (sl (k.val + 3)) := by
    unfold Rg; rw [show k.val + 1 + 2 = k.val + 3 from by omega, if_neg (by omega)]
  unfold inv
  rw [hG1, hR0, hR0', hG3]
  iintro ⟨#Hmw, H0, H1, H2, H3, %W₁, %hW₁, HO⟩
  ihave Hwp := (trip_last d L ft F0 qt qi Others pay k hc1 hc2 hidx hdisj hsl O W₁ v1 v79 c32) $$ [H0 H1 HO]
  · isplitr; · iexact Hmw
    isplitl [H0]; · iexact H0
    isplitl [H1]; · iexact H1
    iexact HO
  iapply (wp_wand_r frame _ _)
  isplitl [Hwp]; · iexact Hwp
  iintro %_ ⟨HA, HB, HW⟩
  isplitr; · iexact Hmw
  isplitl [HB]; · iexact HB
  isplitl [H2]; · iexact H2
  isplitl [H3]; · iexact H3
  isplitl [HA]; · iexact HA
  iapply (obl_W (F := F) hW₁); iexact HW

/-- One trip carries the invariant on. -/
theorem step  (hidx : ListsOk (F := F) d L F0) (hdisj : SlabsIn d L Others)
    (hG : GathersOk (F := F) d L ft F0 pay) (hsl : SlabsApart L)
    (O : CellTallies nD τ sig (HIx 1)) (W : Waits sig (HIx 1)) (v1 v79 c32 : BitVec 32) :
    inv d L ft F0 qt qi Others pay O W k.val ⟨⟩
      ⊢ wp frame (wpE (defs₀ (F := F)) 𝒱₀ (VT d L) none) Set.univ
          (k0_t1_body L tV (Memref.isWhole_whole _) iV (Memref.isWhole_whole _) oV (Memref.isWhole_whole _)
            sI (Memref.isWhole_whole _) sB (Memref.isWhole_whole _) cc0_scratch2 cc0_scratch3 cc0_scoped0 v1 v79 c32 k ())
          (inv d L ft F0 qt qi Others pay O W (k.val + 1)) := by
  by_cases h0 : k.val = 0
  · exact step_first d L ft F0 qt qi Others pay k h0 hidx hdisj hG hsl O W v1 v79 c32
  by_cases h23 : k.val + 3 < 26
  · exact step_mid d L ft F0 qt qi Others pay k h0 h23 hidx hdisj hG hsl O W v1 v79 c32
  · exact step_last d L ft F0 qt qi Others pay k h0 h23 hidx hdisj hG hsl O W v1 v79 c32

end Cert.Kernel.Sc

end
-- ==== Proof.ScOffsetsB.lean ====
/-
  The gather kernel's output slices in closed form, and how the 32 vector subcores share its arrays. A worker
  `w = 2 * subcore + core` stores 26 chunks, numbered `26 * w + k`; chunk `q` is 128 batch rows of one feature: feature
  `q / 32`, rows `128 * (q % 32)` on. From the two offset functions' closed forms: a chunk's slab is one rectangle of
  the gathered rows, an element lies in it exactly when `32 * feature + row / 128 = q`, so the 832 slabs are pairwise
  disjoint and cover the array, and so do the 32 workers' shares of 26 slabs each; likewise the 32 rows of the index array.
-/
import proofs.«206634_g85779086836150_cont_9to1c4b_256_28_alg».proof.Proof.ScPayB
import Idealize.ShloMosaic.Lib.Affine

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first slice's offsets in closed form: chunk `26 * w + k` of worker `w = 2 * (i 1) + (i 0)` lies in feature `(26 * w + k) / 32`. -/
theorem k0_off15_eq : ∀ (i : grid0.Coords) (k0_t1 : Fin k0_t1_loop.trips), k0_off15 i k0_t1 = ![(52 * (i 1).val + 26 * (i 0).val + k0_t1.val) / 32, 0, 0] := by
  intro i k0_t1
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c26_i32_129 : Affine.IsInt 26#32 (26) := Affine.ofNat _ (by omega)
  have h_v209 : Affine.IsInt _ (52 * ((i 1).val : Int) + 26 * ((i 0).val : Int)) := Affine.muli h_v1 h_c26_i32_129 (by omega)
  have h_c0_i32_70 : Affine.IsInt 0#32 (0) := Affine.ofNat _ (by omega)
  have h_c1_i32_72 : Affine.IsInt 1#32 (1) := Affine.ofNat _ (by omega)
  have r_k0_t1 : k0_t1.val < 26 := Nat.lt_of_lt_of_le k0_t1.isLt k0_t1_abs.2.1
  have h_arg9 : Affine.IsInt _ ((k0_t1.val : Int)) := Affine.iv h_c0_i32_70 h_c1_i32_72 k0_t1.val (by omega)
  have c_arg9 : (k0_t1.val : Int) ≤ 26 - 1 := Affine.iv_lt k0_t1_abs.1 k0_t1.isLt k0_t1_abs.2.2 h_arg9
  have h_v210 : Affine.IsInt _ (52 * ((i 1).val : Int) + 26 * ((i 0).val : Int) + (k0_t1.val : Int)) := Affine.addi h_v209 h_arg9 (by omega)
  have h_c0_i32_131 : Affine.IsInt 0#32 (0) := Affine.ofNat _ (by omega)
  rcases (show 52 * ((i 1).val : Int) + 26 * ((i 0).val : Int) + (k0_t1.val : Int) ≤ 0 ∨ 1 ≤ 52 * ((i 1).val : Int) + 26 * ((i 0).val : Int) + (k0_t1.val : Int) by omega) with hs | hs
  · have h_v212 : Affine.Fails _ := Affine.sgt_fails h_v210 h_c0_i32_131 (by omega)
    have h_v213 : Affine.IsInt _ (0) := Affine.extui_fails h_v212 (by omega)
    have h_c0_i32_132 : Affine.IsInt 0#32 (0) := Affine.ofNat _ (by omega)
    have h_v214 : Affine.Fails _ := Affine.slt_fails h_v210 h_c0_i32_132 (by omega)
    have h_v215 : Affine.IsInt _ (0) := Affine.extui_fails h_v214 (by omega)
    have h_v216 : Affine.IsInt _ (0) := Affine.subi h_v213 h_v215 (by omega)
    have h_c32_i32_130 : Affine.IsInt 32#32 (32) := Affine.ofNat _ (by omega)
    have h_c0_i32_133 : Affine.IsInt 0#32 (0) := Affine.ofNat _ (by omega)
    have h_v217 : Affine.Holds _ := Affine.sgt_holds h_c32_i32_130 h_c0_i32_133 (by omega)
    have h_v218 : Affine.IsInt _ (1) := Affine.extui_holds h_v217 (by omega)
    have h_c0_i32_134 : Affine.IsInt 0#32 (0) := Affine.ofNat _ (by omega)
    have h_v219 : Affine.Fails _ := Affine.slt_fails h_c32_i32_130 h_c0_i32_134 (by omega)
    have h_v220 : Affine.IsInt _ (0) := Affine.extui_fails h_v219 (by omega)
    have h_v221 : Affine.IsInt _ (1) := Affine.subi h_v218 h_v220 (by omega)
    have h_v222 : Affine.Holds _ := Affine.ne_holds h_v216 h_v221 (by omega)
    have h_v223 : Affine.IsInt _ (52 * ((i 1).val : Int) + 26 * ((i 0).val : Int) + (k0_t1.val : Int)) := Affine.remsi h_v210 h_c32_i32_130 (by omega)
    have h_c0_i32_135 : Affine.IsInt 0#32 (0) := Affine.ofNat _ (by omega)
    have h_v224 : Affine.Fails _ := Affine.ne_fails h_v223 h_c0_i32_135 (by omega)
    have h_v225 : Affine.Fails _ := Affine.andi_fails_right (Affine.tH h_v222) h_v224
    have h_v211 : Affine.IsInt _ (((52 * ((i 1).val : Int) + 26 * ((i 0).val : Int) + (k0_t1.val : Int)) / 32)) := Affine.divsi h_v210 h_c32_i32_130 (by omega)
    have h_c1_i32_136 : Affine.IsInt 1#32 (1) := Affine.ofNat _ (by omega)
    have h_v226 : Affine.IsInt _ (((52 * ((i 1).val : Int) + 26 * ((i 0).val : Int) + (k0_t1.val : Int)) / 32) - 1) := Affine.subi h_v211 h_c1_i32_136 (by omega)
    have h_v227 : Affine.IsInt _ (((52 * ((i 1).val : Int) + 26 * ((i 0).val : Int) + (k0_t1.val : Int)) / 32)) := Affine.select_fails h_v225 h_v226 h_v211 (by omega)
    have h_c0_i32_145 : Affine.IsInt 0#32 (0) := Affine.ofNat _ (by omega)
    have h_c0_i32_146 : Affine.IsInt 0#32 (0) := Affine.ofNat _ (by omega)
    exact Affine.vec_cons h_v227 (by omega) <| Affine.vec_cons (Affine.ofNat 0 (by omega) : Affine.IsInt 0#32 0) (by omega) <| Affine.vec_cons (Affine.ofNat 0 (by omega) : Affine.IsInt 0#32 0) (by omega) <| Affine.vec_nil
  · have h_v212 : Affine.Holds _ := Affine.sgt_holds h_v210 h_c0_i32_131 (by omega)
    have h_v213 : Affine.IsInt _ (1) := Affine.extui_holds h_v212 (by omega)
    have h_c0_i32_132 : Affine.IsInt 0#32 (0) := Affine.ofNat _ (by omega)
    have h_v214 : Affine.Fails _ := Affine.slt_fails h_v210 h_c0_i32_132 (by omega)
    have h_v215 : Affine.IsInt _ (0) := Affine.extui_fails h_v214 (by omega)
    have h_v216 : Affine.IsInt _ (1) := Affine.subi h_v213 h_v215 (by omega)
    have h_c32_i32_130 : Affine.IsInt 32#32 (32) := Affine.ofNat _ (by omega)
    have h_c0_i32_133 : Affine.IsInt 0#32 (0) := Affine.ofNat _ (by omega)
    have h_v217 : Affine.Holds _ := Affine.sgt_holds h_c32_i32_130 h_c0_i32_133 (by omega)
    have h_v218 : Affine.IsInt _ (1) := Affine.extui_holds h_v217 (by omega)
    have h_c0_i32_134 : Affine.IsInt 0#32 (0) := Affine.ofNat _ (by omega)
    have h_v219 : Affine.Fails _ := Affine.slt_fails h_c32_i32_130 h_c0_i32_134 (by omega)
    have h_v220 : Affine.IsInt _ (0) := Affine.extui_fails h_v219 (by omega)
    have h_v221 : Affine.IsInt _ (1) := Affine.subi h_v218 h_v220 (by omega)
    have h_v222 : Affine.Fails _ := Affine.ne_fails h_v216 h_v221 (by omega)
    have h_v223 : Affine.IsInt _ (((52 * ((i 1).val : Int) + 26 * ((i 0).val : Int) + (k0_t1.val : Int)) % 32)) := Affine.remsi h_v210 h_c32_i32_130 (by omega)
    have h_c0_i32_135 : Affine.IsInt 0#32 (0) := Affine.ofNat _ (by omega)
    have h_v224 : Affine.Term _ := Affine.cmpi_term .ne h_v223 h_c0_i32_135
    have h_v225 : Affine.Fails _ := Affine.andi_fails_left h_v222 h_v224
    have h_v211 : Affine.IsInt _ (((52 * ((i 1).val : Int) + 26 * ((i 0).val : Int) + (k0_t1.val : Int)) / 32)) := Affine.divsi h_v210 h_c32_i32_130 (by omega)
    have h_c1_i32_136 : Affine.IsInt 1#32 (1) := Affine.ofNat _ (by omega)
    have h_v226 : Affine.IsInt _ (((52 * ((i 1).val : Int) + 26 * ((i 0).val : Int) + (k0_t1.val : Int)) / 32) - 1) := Affine.subi h_v211 h_c1_i32_136 (by omega)
    have h_v227 : Affine.IsInt _ (((52 * ((i 1).val : Int) + 26 * ((i 0).val : Int) + (k0_t1.val : Int)) / 32)) := Affine.select_fails h_v225 h_v226 h_v211 (by omega)
    have h_c0_i32_145 : Affine.IsInt 0#32 (0) := Affine.ofNat _ (by omega)
    have h_c0_i32_146 : Affine.IsInt 0#32 (0) := Affine.ofNat _ (by omega)
    exact Affine.vec_cons h_v227 (by omega) <| Affine.vec_cons (Affine.ofNat 0 (by omega) : Affine.IsInt 0#32 0) (by omega) <| Affine.vec_cons (Affine.ofNat 0 (by omega) : Affine.IsInt 0#32 0) (by omega) <| Affine.vec_nil

/-- The second slice's offsets in closed form: the chunk's 128 batch rows start at row `128 * ((26 * w + k) % 32)`. -/
theorem k0_off16_eq : ∀ (i : grid0.Coords) (k0_t1 : Fin k0_t1_loop.trips), k0_off16 i k0_t1 = ![128 * ((52 * (i 1).val + 26 * (i 0).val + k0_t1.val) % 32), 0] := by
  intro i k0_t1
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c26_i32_129 : Affine.IsInt 26#32 (26) := Affine.ofNat _ (by omega)
  have h_v209 : Affine.IsInt _ (52 * ((i 1).val : Int) + 26 * ((i 0).val : Int)) := Affine.muli h_v1 h_c26_i32_129 (by omega)
  have h_c0_i32_70 : Affine.IsInt 0#32 (0) := Affine.ofNat _ (by omega)
  have h_c1_i32_72 : Affine.IsInt 1#32 (1) := Affine.ofNat _ (by omega)
  have r_k0_t1 : k0_t1.val < 26 := Nat.lt_of_lt_of_le k0_t1.isLt k0_t1_abs.2.1
  have h_arg9 : Affine.IsInt _ ((k0_t1.val : Int)) := Affine.iv h_c0_i32_70 h_c1_i32_72 k0_t1.val (by omega)
  have c_arg9 : (k0_t1.val : Int) ≤ 26 - 1 := Affine.iv_lt k0_t1_abs.1 k0_t1.isLt k0_t1_abs.2.2 h_arg9
  have h_v210 : Affine.IsInt _ (52 * ((i 1).val : Int) + 26 * ((i 0).val : Int) + (k0_t1.val : Int)) := Affine.addi h_v209 h_arg9 (by omega)
  have h_c32_i32_137 : Affine.IsInt 32#32 (32) := Affine.ofNat _ (by omega)
  have h_c0_i32_138 : Affine.IsInt 0#32 (0) := Affine.ofNat _ (by omega)
  have h_v228 : Affine.Fails _ := Affine.eq_fails h_c32_i32_137 h_c0_i32_138 (by omega)
  have h_c1_i32_139 : Affine.IsInt 1#32 (1) := Affine.ofNat _ (by omega)
  have h_v229 : Affine.IsInt _ (32) := Affine.select_fails h_v228 h_c1_i32_139 h_c32_i32_137 (by omega)
  have h_v230 : Affine.IsInt _ (((52 * ((i 1).val : Int) + 26 * ((i 0).val : Int) + (k0_t1.val : Int)) % 32)) := Affine.remsi h_v210 h_v229 (by omega)
  have h_c0_i32_141 : Affine.IsInt 0#32 (0) := Affine.ofNat _ (by omega)
  have h_v232 : Affine.Fails _ := Affine.slt_fails h_v230 h_c0_i32_141 (by omega)
  have h_c0_i32_142 : Affine.IsInt 0#32 (0) := Affine.ofNat _ (by omega)
  have h_v233 : Affine.Fails _ := Affine.slt_fails h_v229 h_c0_i32_142 (by omega)
  have h_v234 : Affine.Fails _ := Affine.xori_ff h_v232 h_v233
  have h_c0_i32_140 : Affine.IsInt 0#32 (0) := Affine.ofNat _ (by omega)
  have h_v231 : Affine.Term _ := Affine.cmpi_term .ne h_v230 h_c0_i32_140
  have h_v235 : Affine.Fails _ := Affine.andi_fails_left h_v234 h_v231
  have h_v236 : Affine.IsInt _ (((52 * ((i 1).val : Int) + 26 * ((i 0).val : Int) + (k0_t1.val : Int)) % 32) + 32) := Affine.addi h_v230 h_v229 (by omega)
  have h_v237 : Affine.IsInt _ (((52 * ((i 1).val : Int) + 26 * ((i 0).val : Int) + (k0_t1.val : Int)) % 32)) := Affine.select_fails h_v235 h_v236 h_v230 (by omega)
  have h_c128_i32_143 : Affine.IsInt 128#32 (128) := Affine.ofNat _ (by omega)
  have h_v238 : Affine.IsInt _ (128 * ((52 * ((i 1).val : Int) + 26 * ((i 0).val : Int) + (k0_t1.val : Int)) % 32)) := Affine.muli h_v237 h_c128_i32_143 (by omega)
  have h_c0_i32_147 : Affine.IsInt 0#32 (0) := Affine.ofNat _ (by omega)
  exact Affine.vec_cons h_v238 (by omega) <| Affine.vec_cons (Affine.ofNat 0 (by omega) : Affine.IsInt 0#32 0) (by omega) <| Affine.vec_nil
/-- The chunk number of worker `L`'s trip `k`: chunks are dealt 26 to a worker, in order. -/
def qOf (L : grid0.Coords) (k : Fin k0_t1_loop.trips) : ℕ := 26 * wOf L + k.val

theorem trip_lt (k : Fin k0_t1_loop.trips) : k.val < 26 := Nat.lt_of_lt_of_le k.isLt k0_t1_abs.2.1
theorem L0_lt (L : grid0.Coords) : (L 0).val < 2 := (L 0).isLt
theorem L1_lt (L : grid0.Coords) : (L 1).val < 16 := (L 1).isLt
theorem wOf_lt (L : grid0.Coords) : wOf L < 32 := by unfold wOf; have := L0_lt L; have := L1_lt L; omega
theorem qOf_lt (L : grid0.Coords) (k : Fin k0_t1_loop.trips) : qOf L k < 832 := by
  unfold qOf; have := trip_lt k; have := wOf_lt L; omega
theorem qOf_eq (L : grid0.Coords) (k : Fin k0_t1_loop.trips) : 52 * (L 1).val + 26 * (L 0).val + k.val = qOf L k := by
  unfold qOf wOf; omega

/-- A worker is its number: the core index is the number's parity, the subcore index its half. -/
theorem wOf_inj {L L' : grid0.Coords} (h : wOf L = wOf L') : L = L' := by
  unfold wOf at h
  have := L0_lt L; have := L0_lt L'
  funext a
  apply Fin.ext
  match a with
  | ⟨0, _⟩ => show (L 0).val = (L' 0).val; omega
  | ⟨1, _⟩ => show (L 1).val = (L' 1).val; omega

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem wOf_coordsV (c : Fin (grid0.bound 0)) (s : Fin (grid0.bound 1)) : wOf (coordsV c s) = 2 * s.val + c.val := rfl

theorem coordsV_eta (L : grid0.Coords) : coordsV (L 0) (L 1) = L := by
  funext a
  match a with
  | ⟨0, _⟩ => rfl
  | ⟨1, _⟩ => rfl

theorem coordsV_inj {c c' : Fin (grid0.bound 0)} {s s' : Fin (grid0.bound 1)} (h : coordsV c s = coordsV c' s') : c = c' ∧ s = s' :=
  ⟨congrFun h 0, congrFun h 1⟩

abbrev r15 (L : grid0.Coords) (k : Fin k0_t1_loop.trips) : Rect S26x4096x128 :=
  Rect.unit (s := S26x4096x128) (k0_off15 L k) S1x4096x128.size (k0_off15_inb L k)
abbrev r16 (L : grid0.Coords) (k : Fin k0_t1_loop.trips) : Rect S4096x128 :=
  Rect.unit (s := S4096x128) (k0_off16 L k) S128x128.size (k0_off16_inb L k)

theorem slabR_inb (L : grid0.Coords) (k : Fin k0_t1_loop.trips) :
    ∀ a, (![qOf L k / 32, 128 * (qOf L k % 32), 0] : Fin 3 → ℕ) a + (![1, 128, 128] : Fin 3 → ℕ) a ≤ S26x4096x128.size a := by
  have := qOf_lt L k
  intro a
  match a with
  | ⟨0, _⟩ => show qOf L k / 32 + 1 ≤ 26; omega
  | ⟨1, _⟩ => show 128 * (qOf L k % 32) + 128 ≤ 4096; omega
  | ⟨2, _⟩ => show 0 + 128 ≤ 128; omega

/-- Chunk `q`'s slab as one rectangle of the gathered rows: feature `q / 32`, batch rows `128 * (q % 32)` and the
    127 after it, all 128 lanes. -/
abbrev slabR (L : grid0.Coords) (k : Fin k0_t1_loop.trips) : Rect S26x4096x128 :=
  Rect.unit (s := S26x4096x128) ![qOf L k / 32, 128 * (qOf L k % 32), 0] ![1, 128, 128] (slabR_inb L k)

/-- The slab as the kernel slices it (one feature's plane, its leading axis dropped, then 128 of its rows) lies in that
    rectangle: an element of the second slice at `y` sits at `(feature, y 0, y 1)`. -/
theorem slab_subset (L : grid0.Coords) (k : Fin k0_t1_loop.trips) : (slabI L k).view.set ⊆ (slabR L k).set := by
  intro x hx
  have hx' : x ∈ (((((View.whole main_v1_scv : View sig .scVector _ _ _).slice (r15 L k)).reshape S4096x128 squeezes_S1x4096x128_S4096x128.numel_eq).slice (r16 L k)).set) := hx
  rw [View.set_slice] at hx'
  obtain ⟨y, hy, rfl⟩ := Finset.mem_map.mp hx'
  have e : ((((View.whole main_v1_scv : View sig .scVector _ _ _).slice (r15 L k)).reshape S4096x128 squeezes_S1x4096x128_S4096x128.numel_eq)).emb y
      = (r15 L k).emb (Shape.reshapeEquiv squeezes_S1x4096x128_S4096x128.numel_eq y) := rfl
  rw [e, Shape.reshapeEquiv_cons_one]
  have h15 := k0_off15_eq L k
  have h16 := k0_off16_eq L k
  have hq := qOf_eq L k
  have o0 : k0_off15 L k 0 = qOf L k / 32 := by rw [h15, hq]; rfl
  have o1 : k0_off15 L k 1 = 0 := by rw [h15]; rfl
  have o2 : k0_off15 L k 2 = 0 := by rw [h15]; rfl
  have p0 : k0_off16 L k 0 = 128 * (qOf L k % 32) := by rw [h16, hq]; rfl
  have p1 : k0_off16 L k 1 = 0 := by rw [h16]; rfl
  rw [Rect.mem_set_unit] at hy
  have hy0 : k0_off16 L k 0 ≤ (y 0).val ∧ (y 0).val < k0_off16 L k 0 + 128 := hy 0
  have hy1 : (y 1).val < 128 := (y 1).isLt
  rw [Rect.mem_set_unit]
  intro a
  match a with
  | ⟨0, _⟩ =>
    show qOf L k / 32 ≤ k0_off15 L k 0 + 1 * 0 ∧ k0_off15 L k 0 + 1 * 0 < qOf L k / 32 + 1
    omega
  | ⟨1, _⟩ =>
    show 128 * (qOf L k % 32) ≤ k0_off15 L k 1 + 1 * (y 0).val ∧ k0_off15 L k 1 + 1 * (y 0).val < 128 * (qOf L k % 32) + 128
    omega
  | ⟨2, _⟩ =>
    show 0 ≤ k0_off15 L k 2 + 1 * (y 1).val ∧ k0_off15 L k 2 + 1 * (y 1).val < 0 + 128
    omega

/-- The slab is that rectangle: both have 128 × 128 elements. -/
theorem slab_set_eq (L : grid0.Coords) (k : Fin k0_t1_loop.trips) : (slabI L k).view.set = (slabR L k).set :=
  Finset.eq_of_subset_of_card_le (slab_subset L k) (by
    rw [Rect.card_set, View.card_set]
    show Shape.numel ⟨3, ![1, 128, 128]⟩ ≤ Shape.numel ⟨2, ![128, 128]⟩
    simp [Shape.numel, Fin.prod_univ_succ])

/-- An element of the gathered rows lies in chunk `q`'s slab exactly when its feature and 128-row block number `q`. -/
theorem mem_slabI (L : grid0.Coords) (k : Fin k0_t1_loop.trips) (x : S26x4096x128.Idx) :
    x ∈ (slabI L k).view.set ↔ (x 0).val * 32 + (x 1).val / 128 = 26 * wOf L + k.val := by
  rw [slab_set_eq, Rect.mem_set_unit]
  have hlt := qOf_lt L k
  have hdef : qOf L k = 26 * wOf L + k.val := rfl
  have h0 : (x 0).val < 26 := (x 0).isLt
  have h1 : (x 1).val < 4096 := (x 1).isLt
  have h2 : (x 2).val < 128 := (x 2).isLt
  constructor
  · intro h
    have a0 : qOf L k / 32 ≤ (x 0).val ∧ (x 0).val < qOf L k / 32 + 1 := h 0
    have a1 : 128 * (qOf L k % 32) ≤ (x 1).val ∧ (x 1).val < 128 * (qOf L k % 32) + 128 := h 1
    omega
  · intro h a
    match a with
    | ⟨0, _⟩ => show qOf L k / 32 ≤ (x 0).val ∧ (x 0).val < qOf L k / 32 + 1; omega
    | ⟨1, _⟩ => show 128 * (qOf L k % 32) ≤ (x 1).val ∧ (x 1).val < 128 * (qOf L k % 32) + 128; omega
    | ⟨2, _⟩ => show 0 ≤ (x 2).val ∧ (x 2).val < 0 + 128; omega

/-- The slabs of distinct (worker, trip) pairs are disjoint. -/
theorem slab_disjoint {L L' : grid0.Coords} {k k' : Fin k0_t1_loop.trips} (h : L ≠ L' ∨ k ≠ k') :
    Disjoint (slabI L k).view.set (slabI L' k').view.set := by
  rw [Finset.disjoint_left]
  intro x hx hx'
  rw [mem_slabI] at hx hx'
  have := trip_lt k; have := trip_lt k'
  have hw : wOf L = wOf L' := by omega
  have hk : k.val = k'.val := by omega
  rcases h with h | h
  · exact h (wOf_inj hw)
  · exact h (Fin.ext hk)

/-- An element lies in worker `L`'s share exactly when its chunk number, divided by 26, is the worker's number. -/
theorem mem_oSetL (L : grid0.Coords) (x : S26x4096x128.Idx) :
    x ∈ oSetL L ↔ ((x 0).val * 32 + (x 1).val / 128) / 26 = wOf L := by
  unfold oSetL
  rw [Finset.mem_biUnion]
  have h0 : (x 0).val < 26 := (x 0).isLt
  have h1 : (x 1).val < 4096 := (x 1).isLt
  constructor
  · rintro ⟨k, _, hk⟩
    rw [mem_slabI] at hk
    have := trip_lt k
    omega
  · intro h
    have hw := wOf_lt L
    have ht : ((x 0).val * 32 + (x 1).val / 128) % 26 < k0_t1_loop.trips := by
      have : k0_t1_loop.trips = 26 := by decide
      omega
    refine ⟨⟨((x 0).val * 32 + (x 1).val / 128) % 26, ht⟩, Finset.mem_univ _, ?_⟩
    rw [mem_slabI]
    show (x 0).val * 32 + (x 1).val / 128 = 26 * wOf L + ((x 0).val * 32 + (x 1).val / 128) % 26
    omega

theorem oSetL_disjoint : ∀ L L' : grid0.Coords, L ≠ L' → Disjoint (oSetL L) (oSetL L') := by
  intro L L' h
  rw [Finset.disjoint_left]
  intro x hx hx'
  rw [mem_oSetL] at hx hx'
  exact h (wOf_inj (hx.symm.trans hx'))

theorem oSetL_cover : (Finset.univ : Finset grid0.Coords).biUnion oSetL = Finset.univ := by
  ext x
  simp only [Finset.mem_biUnion, Finset.mem_univ, true_and, iff_true]
  have h0 : (x 0).val < 26 := (x 0).isLt
  have h1 : (x 1).val < 4096 := (x 1).isLt
  have hw : ((x 0).val * 32 + (x 1).val / 128) / 26 < 32 := by omega
  refine ⟨coordsV ⟨(((x 0).val * 32 + (x 1).val / 128) / 26) % 2, by show _ < 2; omega⟩
    ⟨(((x 0).val * 32 + (x 1).val / 128) / 26) / 2, by show _ < 16; omega⟩, ?_⟩
  rw [mem_oSetL, wOf_coordsV]
  show _ = 2 * ((((x 0).val * 32 + (x 1).val / 128) / 26) / 2) + (((x 0).val * 32 + (x 1).val / 128) / 26) % 2
  omega

/-- The worker's row of the index array as a rectangle: row `wOf L`, all 26 lists, all 128 entries. -/
abbrev r1 (L : grid0.Coords) : Rect S32x26x128 := Rect.unit (s := S32x26x128) (k0_off1 L) S1x26x128.size (k0_off1_inb L)

theorem set_iRowK (L : grid0.Coords) : (iRowK L).view.set = (r1 L).set := by
  show ((((View.whole main_v0_scv : View sig .scVector _ _ _).slice (r1 L)).reshape S26x128 squeezes_S1x26x128_S26x128.numel_eq)).set = _
  rw [View.set_reshape, View.set_slice_whole]

/-- An element of the index array lies in worker `L`'s row exactly when its first coordinate is the worker's number. -/
theorem mem_iRowK (L : grid0.Coords) (x : S32x26x128.Idx) : x ∈ (iRowK L).view.set ↔ (x 0).val = wOf L := by
  rw [set_iRowK, Rect.mem_set_unit]
  have h1 := k0_off1_eq L
  have o0 : k0_off1 L 0 = wOf L := by rw [h1]; rfl
  have o1 : k0_off1 L 1 = 0 := by rw [h1]; rfl
  have o2 : k0_off1 L 2 = 0 := by rw [h1]; rfl
  have x1 : (x 1).val < 26 := (x 1).isLt
  have x2 : (x 2).val < 128 := (x 2).isLt
  constructor
  · intro h
    have a0 : k0_off1 L 0 ≤ (x 0).val ∧ (x 0).val < k0_off1 L 0 + 1 := h 0
    omega
  · intro h a
    match a with
    | ⟨0, _⟩ => show k0_off1 L 0 ≤ (x 0).val ∧ (x 0).val < k0_off1 L 0 + 1; omega
    | ⟨1, _⟩ => show k0_off1 L 1 ≤ (x 1).val ∧ (x 1).val < k0_off1 L 1 + 26; omega
    | ⟨2, _⟩ => show k0_off1 L 2 ≤ (x 2).val ∧ (x 2).val < k0_off1 L 2 + 128; omega

/-- The worker's row of the index array, as a set of its elements. -/
abbrev iSetL (L : grid0.Coords) : Finset S32x26x128.Idx := (iRowK L).view.set

theorem iRow_disjoint : ∀ L L' : grid0.Coords, L ≠ L' → Disjoint (iSetL L) (iSetL L') := by
  intro L L' h
  rw [Finset.disjoint_left]
  intro x hx hx'
  rw [mem_iRowK] at hx hx'
  exact h (wOf_inj (hx.symm.trans hx'))

theorem iRow_cover : (Finset.univ : Finset grid0.Coords).biUnion iSetL = Finset.univ := by
  ext x
  simp only [Finset.mem_biUnion, Finset.mem_univ, true_and, iff_true]
  have h0 : (x 0).val < 32 := (x 0).isLt
  refine ⟨coordsV ⟨(x 0).val % 2, by show _ < 2; omega⟩ ⟨(x 0).val / 2, by show _ < 16; omega⟩, ?_⟩
  rw [mem_iRowK, wOf_coordsV]
  show (x 0).val = 2 * ((x 0).val / 2) + (x 0).val % 2
  omega

/-! The same, with a worker named by its (core, subcore) pair. -/

theorem pair_ne {p p' : Fin 2 × Fin 16} (h : p ≠ p') : coordsV p.1 p.2 ≠ coordsV p'.1 p'.2 :=
  fun e => h (Prod.ext (coordsV_inj e).1 (coordsV_inj e).2)

theorem iRow_disjoint₂ : ∀ p ∈ (Finset.univ : Finset (Fin 2 × Fin 16)), ∀ p' ∈ (Finset.univ : Finset (Fin 2 × Fin 16)), p ≠ p' →
    Disjoint (iSetL (coordsV p.1 p.2)) (iSetL (coordsV p'.1 p'.2)) :=
  fun _ _ _ _ h => iRow_disjoint _ _ (pair_ne h)

theorem iRow_cover₂ : (Finset.univ : Finset (Fin 2 × Fin 16)).biUnion (fun p => iSetL (coordsV p.1 p.2)) = Finset.univ := by
  ext x
  simp only [Finset.mem_biUnion, Finset.mem_univ, true_and, iff_true]
  have hx : x ∈ (Finset.univ : Finset grid0.Coords).biUnion iSetL := by
    rw [iRow_cover]; exact Finset.mem_univ x
  obtain ⟨L, _, hL⟩ := Finset.mem_biUnion.mp hx
  exact ⟨(L 0, L 1), by rw [coordsV_eta]; exact hL⟩

theorem oSetL_disjoint₂ : ∀ p ∈ (Finset.univ : Finset (Fin 2 × Fin 16)), ∀ p' ∈ (Finset.univ : Finset (Fin 2 × Fin 16)), p ≠ p' →
    Disjoint (oSetL (coordsV p.1 p.2)) (oSetL (coordsV p'.1 p'.2)) :=
  fun _ _ _ _ h => oSetL_disjoint _ _ (pair_ne h)

theorem oSetL_cover₂ : (Finset.univ : Finset (Fin 2 × Fin 16)).biUnion (fun p => oSetL (coordsV p.1 p.2)) = Finset.univ := by
  ext x
  simp only [Finset.mem_biUnion, Finset.mem_univ, true_and, iff_true]
  have hx : x ∈ (Finset.univ : Finset grid0.Coords).biUnion oSetL := by
    rw [oSetL_cover]; exact Finset.mem_univ x
  obtain ⟨L, _, hL⟩ := Finset.mem_biUnion.mp hx
  exact ⟨(L 0, L 1), by rw [coordsV_eta]; exact hL⟩

/-- The workers' numbers are 0 … 31, each once. -/
def wEmb : Fin 2 × Fin 16 ↪ ℕ where
  toFun p := 2 * p.2.val + p.1.val
  inj' p p' h := by
    have := p.1.isLt; have := p'.1.isLt
    have h' : 2 * p.2.val + p.1.val = 2 * p'.2.val + p'.1.val := h
    exact Prod.ext (Fin.ext (by omega)) (Fin.ext (by omega))

theorem wEmb_apply (p : Fin 2 × Fin 16) : wEmb p = wOf (coordsV p.1 p.2) := rfl

theorem map_wEmb : (Finset.univ : Finset (Fin 2 × Fin 16)).map wEmb = Finset.range 32 := by
  ext n
  simp only [Finset.mem_map, Finset.mem_univ, true_and, Finset.mem_range]
  constructor
  · rintro ⟨p, rfl⟩
    have := p.1.isLt; have := p.2.isLt
    show 2 * p.2.val + p.1.val < 32
    omega
  · intro h
    exact ⟨(⟨n % 2, by omega⟩, ⟨n / 2, by omega⟩), by show 2 * (n / 2) + n % 2 = n; omega⟩

end Cert.Kernel.Sc

end
-- ==== Proof.ScPayloadB.lean ====
/-
  The values the gather kernel moves. Chunk `c` of a worker is the 128 × 128 block whose row `r` is the row of the
  chunk's table that entry `r` of the worker's list `c` names. What the indirect gather lands in a slot is that block;
  what the store through a slab writes is the slot, at the slab's place, and nothing elsewhere; a worker that leaves
  every one of its 26 slabs holding its chunk has, with the other 31, left the gathered rows equal to the
  specification's picked rows: element (feature, batch row, lane) lies in chunk 32·feature + row / 128 at row
  `row % 128`, and the index array is the categorical features re-indexed by flat position.
-/
import proofs.«206634_g85779086836150_cont_9to1c4b_256_28_alg».proof.Proof.ScOffsetsB
import proofs.«206634_g85779086836150_cont_9to1c4b_256_28_alg».proof.Proof.ScSlotsB
import proofs.«206634_g85779086836150_cont_9to1c4b_256_28_alg».proof.Proof.Spec
import Idealize.ShloMosaic.Lib.SparseCore.Stream
import Idealize.ShloMosaic.Lib.ValueIdx
import Idealize.ShloMosaic.Lib.Pipeline.Value

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-! ## Where the kernel's slices sit in their arrays -/

theorem off15_0 (L : grid0.Coords) (k : Fin k0_t1_loop.trips) : k0_off15 L k 0 = qOf L k / 32 := by rw [k0_off15_eq, qOf_eq]; rfl
theorem off15_1 (L : grid0.Coords) (k : Fin k0_t1_loop.trips) : k0_off15 L k 1 = 0 := by rw [k0_off15_eq]; rfl
theorem off15_2 (L : grid0.Coords) (k : Fin k0_t1_loop.trips) : k0_off15 L k 2 = 0 := by rw [k0_off15_eq]; rfl
theorem off16_0 (L : grid0.Coords) (k : Fin k0_t1_loop.trips) : k0_off16 L k 0 = 128 * (qOf L k % 32) := by rw [k0_off16_eq, qOf_eq]; rfl
theorem off16_1 (L : grid0.Coords) (k : Fin k0_t1_loop.trips) : k0_off16 L k 1 = 0 := by rw [k0_off16_eq]; rfl
theorem off1_0 (L : grid0.Coords) : k0_off1 L 0 = wOf L := by rw [k0_off1_eq]; rfl
theorem off1_1 (L : grid0.Coords) : k0_off1 L 1 = 0 := by rw [k0_off1_eq]; rfl
theorem off1_2 (L : grid0.Coords) : k0_off1 L 2 = 0 := by rw [k0_off1_eq]; rfl

theorem slab_feat_lt (L : grid0.Coords) (k : Fin k0_t1_loop.trips) : qOf L k / 32 < 26 := by have := qOf_lt L k; omega
theorem slab_row_lt (L : grid0.Coords) (k : Fin k0_t1_loop.trips) (r : Fin 128) : 128 * (qOf L k % 32) + r.val < 4096 := by
  have := r.isLt; omega

/-- Element `x` of chunk `q`'s slab sits at feature `q / 32`, batch row `128 * (q % 32) + x 0`, lane `x 1`. -/
theorem slab_emb (L : grid0.Coords) (k : Fin k0_t1_loop.trips) (x : S128x128.Idx) :
    (slabI L k).view.emb x = (ix3 (⟨qOf L k / 32, slab_feat_lt L k⟩ : Fin 26) (⟨128 * (qOf L k % 32) + (x 0).val, slab_row_lt L k (x 0)⟩ : Fin 4096) (x 1) : S26x4096x128.Idx) := by
  have e : (slabI L k).view.emb x = (r15 L k).emb (Shape.reshapeEquiv squeezes_S1x4096x128_S4096x128.numel_eq ((r16 L k).emb x)) := rfl
  rw [e, Shape.reshapeEquiv_cons_one]
  have o0 := off15_0 L k; have o1 := off15_1 L k; have o2 := off15_2 L k; have p0 := off16_0 L k; have p1 := off16_1 L k
  funext a
  apply Fin.ext
  rw [Rect.emb_apply]
  match a with
  | ⟨0, _⟩ => show k0_off15 L k 0 + 1 * 0 = qOf L k / 32; omega
  | ⟨1, _⟩ => show k0_off15 L k 1 + 1 * (k0_off16 L k 0 + 1 * (x 0).val) = 128 * (qOf L k % 32) + (x 0).val; omega
  | ⟨2, _⟩ => show k0_off15 L k 2 + 1 * (k0_off16 L k 1 + 1 * (x 1).val) = (x 1).val; omega

/-- Entry `j` of list `c` of the worker's row of the index array sits at `(wOf L, c, j)`. -/
theorem iRow_emb (L : grid0.Coords) (c : Fin 26) (j : Fin 128) :
    (iRowK L).view.emb (ix2 c j) = (ix3 (⟨wOf L, wOf_lt L⟩ : Fin 32) c j : S32x26x128.Idx) := by
  have e : (iRowK L).view.emb (ix2 c j) = (r1 L).emb (Shape.reshapeEquiv squeezes_S1x26x128_S26x128.numel_eq (ix2 c j)) := rfl
  rw [e, Shape.reshapeEquiv_cons_one]
  have o0 := off1_0 L; have o1 := off1_1 L; have o2 := off1_2 L
  funext a
  apply Fin.ext
  rw [Rect.emb_apply]
  match a with
  | ⟨0, _⟩ => show k0_off1 L 0 + 1 * 0 = wOf L; omega
  | ⟨1, _⟩ => show k0_off1 L 1 + 1 * c.val = c.val; omega
  | ⟨2, _⟩ => show k0_off1 L 2 + 1 * j.val = j.val; omega

theorem slab_emb_mem (L : grid0.Coords) (k : Fin k0_t1_loop.trips) (x : S128x128.Idx) : (slabI L k).view.emb x ∈ oSetL L := by
  have hm : (slabI L k).view.emb x ∈ (slabI L k).view.set := View.emb_mem_set _ x
  have h := (mem_slabI L k _).mp hm
  have := trip_lt k
  exact (mem_oSetL L _).mpr (by omega)

/-! ## The gathered values -/

/-- The table chunk `c` of worker `L` is gathered from. -/
def tabOf (L : grid0.Coords) (c : ℕ) : Fin 26 := ⟨((26 * wOf L + c) / 32) % 26, Nat.mod_lt _ (by decide)⟩

theorem tabOf_val (L : grid0.Coords) {c : ℕ} (hc : c < 26) : (tabOf L c).val = (26 * wOf L + c) / 32 := by
  have := wOf_lt L
  show ((26 * wOf L + c) / 32) % 26 = _
  omega

variable (d : Dev nD) (L : grid0.Coords) (ft : Buf (Elt F) (tLoc d)) (fi : Buf (Elt F) (iLoc d))

/-- Chunk `c` of worker `L`, as the 128 × 128 block the kernel stores: row `x 0` is the row of the chunk's table that entry
    `x 0` of the worker's list `c` names (kept inside the table, which changes nothing when it is in range). -/
def payC (c : ℕ) : S128x128.Idx → Elt F .f32 :=
  fun x => ft (ix3 (tabOf L c) (⟨min (fi ((iRowK L).view.emb (ix2 (⟨c % 26, Nat.mod_lt _ (by decide)⟩ : Fin 26) (x 0)))).toNat 100000, by omega⟩ : Fin 100001) (x 1))

/-- What a worker leaves in the gathered rows: each of its 26 slabs holds its chunk. -/
def OutOk (d : Dev nD) (ft : Buf (Elt F) (tLoc d)) (fi : Buf (Elt F) (iLoc d)) (L : grid0.Coords) (f : Buf (Elt F) (oLoc d)) : Prop :=
  ∀ (k : Fin k0_t1_loop.trips) (x : S128x128.Idx), f ((slabI L k).view.emb x) = payC d L ft fi k.val x

/-- It reads the gathered rows on the worker's share only. -/
theorem OutOk_local : ∀ (d : Dev nD) (ft : Buf (Elt F) (tLoc d)) (fi : Buf (Elt F) (iLoc d)) (L : grid0.Coords) (f f' : Buf (Elt F) (oLoc d)),
    (∀ x ∈ oSetL L, f x = f' x) → OutOk d ft fi L f → OutOk d ft fi L f' := by
  intro d ft fi L f f' hag h k x
  rw [← h k x]
  exact (hag _ (slab_emb_mem L k x)).symm

/-! ## The gathered rows against the specification's picked rows -/

theorem toInt_eq_toNat_of_nonneg (v : BitVec 32) (h0 : 0 ≤ v.toInt) : v.toInt = (v.toNat : ℤ) := by
  rw [BitVec.toInt_eq_msb_cond] at h0 ⊢
  split
  · rename_i hm
    exfalso
    rw [if_pos hm] at h0
    have := v.isLt
    omega
  · rfl

/-- The index array is the categorical features re-indexed by flat position: entry `(w, c, j)` is feature row
    `((26 w + c) 128 + j) / 4096`, batch row the remainder. -/
theorem fi_apply (a1 : IVec S26x4096 32) (hsc : S26x4096.ShapeCasts S32x26x128) (w : Fin 32) (c : Fin 26) (j : Fin 128)
    (f' : Fin 26) (b : Fin 4096) (h : f'.val * 4096 + b.val = (w.val * 26 + c.val) * 128 + j.val) :
    shapeCast S32x26x128 a1 hsc (ix3 w c j) = a1 (ix2 f' b) :=
  shapeCast_apply a1 hsc _ _ (by
    rw [Shape.rowMajor_val_two, Shape.rowMajor_val_three]
    show f'.val * 4096 + b.val = (w.val * 26 + c.val) * 128 + j.val
    exact h)

/-! ## The store through a slab -/

/-- A block stored through a slab is read back at the slab's place of each of its elements, -/
theorem store_at (L : grid0.Coords) (k : Fin k0_t1_loop.trips) (fo : Buf (Elt F) (oLoc d)) (pay : S128x128.Idx → Elt F .f32) (x : S128x128.Idx) :
    View.write (Elt F) (slabI L k).view fo pay Finset.univ ((slabI L k).view.emb x) = pay x := by
  rw [View.write_emb_of_mem _ _ (Finset.mem_univ x)]
  rfl

/-- and every element outside the slab keeps what it held. -/
theorem store_off (L : grid0.Coords) (k : Fin k0_t1_loop.trips) (fo : Buf (Elt F) (oLoc d)) (pay : S128x128.Idx → Elt F .f32)
    (i : S26x4096x128.Idx) (hi : i ∉ (slabI L k).view.set) :
    View.write (Elt F) (slabI L k).view fo pay Finset.univ i = fo i :=
  View.write_of_not_mem _ _ _ (by rw [View.setOn_univ]; exact hi)

/-- What a slot's view reads of the row scratch: the scratch at the slot's place. -/
theorem slot_read (j : Fin 4) (fB : Buf (Elt F) ((sB).view.loc (VT d L))) :
    ReadAs.same.apply ((slotK j).view.read (Elt F) fB) = fun x => fB ((slotK j).view.emb x) := rfl

/-- Element `x` of slot `j` sits at row `128 * j + x 0`, lane `x 1` of the row scratch. -/
theorem slot_emb (j : Fin 4) (x : S128x128.Idx) :
    (slotK j).view.emb x = (ix2 (⟨128 * j.val + (x 0).val, by have := j.isLt; have : (x 0).val < 128 := (x 0).isLt; omega⟩ : Fin 512) (x 1) : S512x128.Idx) := by
  funext a
  apply Fin.ext
  match a with
  | ⟨0, _⟩ => show 128 * j.val + 1 * (x 0).val = 128 * j.val + (x 0).val; omega
  | ⟨1, _⟩ => show 0 + 1 * (x 1).val = (x 1).val; omega

/-! ## What the indirect gather lands -/

theorem k0_off2_eq : ∀ (i : grid0.Coords) (r : Fin 3), k0_off2 i (BitVec.ofNat 32 r.val) = ![(52 * (i 1).val + 26 * (i 0).val + r.val) / 32, 0, 0] := by
  decide +kernel

/-- One table's plane of the tables, its leading axis dropped, whole: the gather's indexed array. -/
abbrev tabV (off : Fin 3 → ℕ) (inb : ∀ a, off a + S1x100001x128.size a ≤ S26x100001x128.size a) : Memref sig .scVector .hbm S100001x128 .f32 :=
  (((tV).slice (Rect.unit (s := S26x100001x128) off S1x100001x128.size inb) (fun _ => rfl)).squeeze S100001x128 squeezes_S1x100001x128_S100001x128).slice
    (Rect.unit (s := S100001x128) ![0, 0] S100001x128.size inb_S100001x128_S100001x128_0_0) (fun _ => rfl)

/-- One list of the list scratch, its leading axis dropped: the gather's offsets. -/
abbrev rowV (off : Fin 2 → ℕ) (inb : ∀ a, off a + S1x128.size a ≤ S26x128.size a) : Memref sig .scVector .vmem S128 .i32 :=
  ((sI).slice (Rect.unit (s := S26x128) off S1x128.size inb) (fun _ => rfl)).squeeze S128 squeezes_S1x128_S128

theorem tab_emb (off : Fin 3 → ℕ) (t : Fin 26) (h : off = ![t.val, 0, 0]) (inb : ∀ a, off a + S1x100001x128.size a ≤ S26x100001x128.size a)
    (y : S100001x128.Idx) : (tabV off inb).view.emb y = (ix3 t (y 0) (y 1) : S26x100001x128.Idx) := by
  subst h
  have e : (tabV ![t.val, 0, 0] inb).view.emb y = (Rect.unit (s := S26x100001x128) ![t.val, 0, 0] S1x100001x128.size inb).emb
      (Shape.reshapeEquiv squeezes_S1x100001x128_S100001x128.numel_eq ((Rect.unit (s := S100001x128) ![0, 0] S100001x128.size inb_S100001x128_S100001x128_0_0).emb y)) := rfl
  rw [e, Shape.reshapeEquiv_cons_one]
  funext a
  apply Fin.ext
  rw [Rect.emb_apply]
  match a with
  | ⟨0, _⟩ => show t.val + 1 * 0 = t.val; omega
  | ⟨1, _⟩ => show 0 + 1 * (0 + 1 * (y 0).val) = (y 0).val; omega
  | ⟨2, _⟩ => show 0 + 1 * (0 + 1 * (y 1).val) = (y 1).val; omega

theorem row_emb (off : Fin 2 → ℕ) (c : Fin 26) (h : off = ![c.val, 0]) (inb : ∀ a, off a + S1x128.size a ≤ S26x128.size a) (j : S128.Idx) :
    (rowV off inb).view.emb j = (ix2 c (j 0) : S26x128.Idx) := by
  subst h
  have e : (rowV ![c.val, 0] inb).view.emb j = (Rect.unit (s := S26x128) ![c.val, 0] S1x128.size inb).emb
      (Shape.reshapeEquiv squeezes_S1x128_S128.numel_eq j) := rfl
  rw [e, Shape.reshapeEquiv_cons_one]
  funext a
  apply Fin.ext
  rw [Rect.emb_apply]
  match a with
  | ⟨0, _⟩ => show c.val + 1 * 0 = c.val; omega
  | ⟨1, _⟩ => show 0 + 1 * (j 0).val = (j 0).val; omega

/-- Entry `n` of a list's words in row-major order is its entry at coordinate `n`. -/
theorem rows_val (idx : S128.Idx → Elt F .i32) {o z : ℕ} (hn : S128.numel = o) (h : ∀ x, (idx x).toNat < z) (n : Fin o) (hn' : n.val < 128) :
    (SparseCore.rows idx hn h n).val = (idx (ix1 (⟨n.val, hn'⟩ : Fin 128))).toNat := by
  unfold SparseCore.rows
  show (idx (S128.rowMajor.symm (n.cast hn.symm))).toNat = _
  congr 2
  rw [Equiv.symm_apply_eq]
  apply Fin.ext
  rw [Shape.rowMajor_val_one]
  rfl

/-- The gather's payload, entry by entry: the indexed array at the row the list names for the entry's row, at the entry's lane. -/
theorem gatherPayload_apply (g : S100001x128.Idx → Elt F .f32) (r : Fin (S128x128.size gathers_S100001x128_S128x128.axis') → Fin (S100001x128.size gathers_S100001x128_S128x128.axis))
    (x : S128x128.Idx) :
    SparseCore.gatherPayload gathers_S100001x128_S128x128 g r x = g (ix2 (⟨(r (x 0)).val, (r (x 0)).isLt⟩ : Fin 100001) (x 1)) := by
  unfold SparseCore.gatherPayload
  refine congrArg g (funext fun a => Fin.ext ?_)
  match a with
  | ⟨0, _⟩ => exact congrArg Fin.val (Shape.Gathers.idx_axis gathers_S100001x128_S128x128 r x)
  | ⟨1, _⟩ => exact Shape.Gathers.idx_of_ne gathers_S100001x128_S128x128 r x ⟨1, by decide⟩ (by decide)

/-- The gather of list `c` from the plane of chunk `c`'s table lands chunk `c`: whatever the kernel's spelling of the two
    slices' offsets, once they are the table's number and the list's. -/
theorem gather_core (c : ℕ) (hc : c < 26)
    (offT : Fin 3 → ℕ) (inbT : ∀ a, offT a + S1x100001x128.size a ≤ S26x100001x128.size a) (hT : offT = ![(26 * wOf L + c) / 32, 0, 0])
    (offR : Fin 2 → ℕ) (inbR : ∀ a, offR a + S1x128.size a ≤ S26x128.size a) (hR : offR = ![c, 0])
    (F0 : Buf (Elt F) ((sI).view.loc (VT d L)))
    (hF0 : ∀ (c : Fin 26) (j : Fin 128), F0 (ix2 c j) = fi ((iRowK L).view.emb (ix2 c j)))
    (hin : ∀ j, (fi j).toNat < 100001)
    (hn : S128.numel = S128x128.size gathers_S100001x128_S128x128.axis')
    (hin' : ∀ x, (View.read (Elt F) (rowV offR inbR).view F0 x).toNat < S100001x128.size gathers_S100001x128_S128x128.axis) :
    SparseCore.gatherPayload gathers_S100001x128_S128x128 (View.read (Elt F) (tabV offT inbT).view ft)
      (SparseCore.rows (View.read (Elt F) (rowV offR inbR).view F0) hn hin') = payC d L ft fi c := by
  have hw := wOf_lt L
  have htl : (26 * wOf L + c) / 32 < 26 := by omega
  funext x
  rw [gatherPayload_apply]
  have x0 : (x 0).val < 128 := (x 0).isLt
  have hrow : (SparseCore.rows (View.read (Elt F) (rowV offR inbR).view F0) hn hin' (x 0)).val
      = (fi ((iRowK L).view.emb (ix2 (⟨c, hc⟩ : Fin 26) (x 0)))).toNat := by
    rw [rows_val _ hn hin' (x 0) x0]
    show (F0 ((rowV offR inbR).view.emb (ix1 (⟨(x 0).val, x0⟩ : Fin 128)))).toNat = _
    rw [row_emb offR ⟨c, hc⟩ hR inbR, hF0]
    rfl
  show ft ((tabV offT inbT).view.emb (ix2 (⟨(SparseCore.rows (View.read (Elt F) (rowV offR inbR).view F0) hn hin' (x 0)).val, _⟩ : Fin 100001) (x 1))) = _
  rw [tab_emb offT ⟨(26 * wOf L + c) / 32, htl⟩ hT inbT]
  unfold payC
  have hcm : (⟨c % 26, Nat.mod_lt _ (by decide)⟩ : Fin 26) = ⟨c, hc⟩ := Fin.ext (Nat.mod_eq_of_lt hc)
  have hle := hin ((iRowK L).view.emb (ix2 (⟨c, hc⟩ : Fin 26) (x 0)))
  refine congrArg ft (funext fun a => Fin.ext ?_)
  match a with
  | ⟨0, _⟩ => exact (tabOf_val L hc).symm
  | ⟨1, _⟩ =>
    show (SparseCore.rows (View.read (Elt F) (rowV offR inbR).view F0) hn hin' (x 0)).val
      = min (fi ((iRowK L).view.emb (ix2 (⟨c % 26, Nat.mod_lt _ (by decide)⟩ : Fin 26) (x 0)))).toNat 100000
    rw [hrow, hcm]
    omega
  | ⟨2, _⟩ => rfl

/-- Trip `k` of the loop gathers chunk `k + 3` (while it exists). -/
theorem gather_loop (k : Fin k0_t1_loop.trips) (hc2 : k0_cond2 k = 1#1)
    (F0 : Buf (Elt F) ((sI).view.loc (VT d L)))
    (hF0 : ∀ (c : Fin 26) (j : Fin 128), F0 (ix2 c j) = fi ((iRowK L).view.emb (ix2 c j)))
    (hin : ∀ j, (fi j).toNat < 100001)
    (hn : S128.numel = S128x128.size gathers_S100001x128_S128x128.axis')
    (hin' : ∀ x, (View.read (Elt F) (rowV (k0_off8 k) (k0_off8_inb k hc2)).view F0 x).toNat < S100001x128.size gathers_S100001x128_S128x128.axis) :
    SparseCore.gatherPayload gathers_S100001x128_S128x128 (View.read (Elt F) (tabV (k0_off9 L k) (k0_off9_inb L k hc2)).view ft)
      (SparseCore.rows (View.read (Elt F) (rowV (k0_off8 k) (k0_off8_inb k hc2)).view F0) hn hin') = payC d L ft fi (k.val + 3) :=
  gather_core d L ft fi (k.val + 3) ((cond2_iff k).mp hc2) _ _
    (by rw [k0_off9_eq]; congr 2; unfold wOf; omega) _ _ (k0_off8_eq k) F0 hF0 hin hn hin'

/-- The three gathers before the loop: chunk `r`, for `r` = 0, 1, 2. -/
theorem gather_pro (r : Fin 3) (inbR : ∀ a, (![r.val, 0] : Fin 2 → ℕ) a + S1x128.size a ≤ S26x128.size a)
    (F0 : Buf (Elt F) ((sI).view.loc (VT d L)))
    (hF0 : ∀ (c : Fin 26) (j : Fin 128), F0 (ix2 c j) = fi ((iRowK L).view.emb (ix2 c j)))
    (hin : ∀ j, (fi j).toNat < 100001)
    (hn : S128.numel = S128x128.size gathers_S100001x128_S128x128.axis')
    (hin' : ∀ x, (View.read (Elt F) (rowV ![r.val, 0] inbR).view F0 x).toNat < S100001x128.size gathers_S100001x128_S128x128.axis) :
    SparseCore.gatherPayload gathers_S100001x128_S128x128 (View.read (Elt F) (tabV (k0_off2 L (BitVec.ofNat 32 r.val)) (k0_off2_inb L r)).view ft)
      (SparseCore.rows (View.read (Elt F) (rowV ![r.val, 0] inbR).view F0) hn hin') = payC d L ft fi r.val :=
  gather_core d L ft fi r.val (by have := r.isLt; omega) _ _
    (by rw [k0_off2_eq]; congr 2; unfold wOf; omega) _ _ rfl F0 hF0 hin hn hin'

/-! ## The list scratch after the index fetch -/

/-- The fetch copies the worker's row of the index array over the whole list scratch: entry `j` of list `c` is then the
    index array's entry at the row's place of `(c, j)`. -/
theorem lists_after_fetch (f0 : Buf (Elt F) ((sI).view.loc (VT d L))) : ∀ (c : Fin 26) (j : Fin 128),
    (View.write (Elt F) (sI).view f0 (ReadAs.same.apply ((iRowK L).view.read (Elt F) fi)) Finset.univ) (ix2 c j)
      = fi ((iRowK L).view.emb (ix2 c j)) := by
  intro c j
  have h := View.write_emb_of_mem (v := (sI).view) (Val := Elt F) f0 (ReadAs.same.apply ((iRowK L).view.read (Elt F) fi))
    (M := Finset.univ) (x := ix2 c j) (Finset.mem_univ _)
  exact h.trans rfl

/-- One worker's slabs are pairwise disjoint. -/
theorem slabs_disjoint (L : grid0.Coords) : ∀ a b : Fin k0_t1_loop.trips, a ≠ b →
    Disjoint ((slabI L a).view.set : Finset S26x4096x128.Idx) (slabI L b).view.set :=
  fun _ _ h => slab_disjoint (Or.inr h)

end Cert.Kernel.Sc

end
-- ==== Proof.ScTileB.lean ====
/-
  The gather kernel on one vector subcore, whole: the worker fetches its 26 lists of row numbers, starts the gathers
  of chunks 0, 1, 2 into slots 0, 1, 2, runs the 26 trips, and waits for the last chunk's store. The row scratch is
  held as its four slots, the list scratch (once fetched) and the worker's table token as four read tokens each, one
  per slot.
-/
import proofs.«206634_g85779086836150_cont_9to1c4b_256_28_alg».proof.Proof.ScLoopB
import proofs.«206634_g85779086836150_cont_9to1c4b_256_28_alg».proof.Proof.ScPayloadB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (ft : Buf (Elt F) ((tV).view.loc (VT d L))) (F0 : Buf (Elt F) ((sI).view.loc (VT d L)))
variable (qt qi : Fin 4 → PosShare TreeShare) (Others : Finset (Idx ((oV).view.loc (VT d L))))
variable (pay : ℕ → S128x128.Idx → Elt F .f32)

/-- Entering the loop: chunks 0, 1, 2 gathering, slot 3 free, the result's share in hand. -/
theorem inv_zero (O : CellTallies nD τ sig (HIx 1)) (W : Waits sig (HIx 1)) :
    iprop((Transfers.MayWaits (VT d L) (none : HIx 1) O : sProp 𝕄)
        ∗ SG d L ft F0 qt qi pay (sl 0) 0 ∗ SG d L ft F0 qt qi pay (sl (0 + 1)) (0 + 1) ∗ SG d L ft F0 qt qi pay (sl (0 + 2)) (0 + 2) ∗ SF d L ft F0 qt qi (sl (0 + 3))
        ∗ outFree (F := F) d L Others ∗ (∃ W', ⌜∀ p ∈ W', p ∈ W ∨ p.2 = none⌝ ∗ owes (VT d L) O W'))
      ⊢ inv d L ft F0 qt qi Others pay O W 0 ⟨⟩ := by
  have e0 : R0 d L ft F0 qt qi Others pay 0 = iprop(SF d L ft F0 qt qi (sl (0 + 3)) ∗ outFree (F := F) d L Others) := if_pos rfl
  have e1 : Rg d L ft F0 qt qi pay 0 = SG d L ft F0 qt qi pay (sl 0) 0 := if_pos (by omega)
  have e2 : Rg d L ft F0 qt qi pay (0 + 1) = SG d L ft F0 qt qi pay (sl (0 + 1)) (0 + 1) := if_pos (by omega)
  have e3 : Rg d L ft F0 qt qi pay (0 + 2) = SG d L ft F0 qt qi pay (sl (0 + 2)) (0 + 2) := if_pos (by omega)
  unfold inv
  rw [e0, e1, e2, e3]
  iintro ⟨#Hmw, A, B, C, D, E, HO⟩
  isplitr; · iexact Hmw
  isplitl [D E]; · isplitl [D] <;> iassumption
  isplitl [A]; · iexact A
  isplitl [B]; · iexact B
  isplitl [C]; · iexact C
  iexact HO

/-- Leaving the loop: the last chunk's store in flight in slot 1, the other slots free. -/
theorem inv_end (O : CellTallies nD τ sig (HIx 1)) (W : Waits sig (HIx 1)) (n : ℕ) (hn : n = 26) (a : PUnit) :
    inv d L ft F0 qt qi Others pay O W n a
      ⊢ iprop((Transfers.MayWaits (VT d L) (none : HIx 1) O : sProp 𝕄)
        ∗ SS d L ft F0 qt qi Others pay (sl (26 + 3)) 26 ∗ SF d L ft F0 qt qi (sl 26) ∗ SF d L ft F0 qt qi (sl (26 + 1)) ∗ SF d L ft F0 qt qi (sl (26 + 2))
        ∗ (∃ W', ⌜∀ p ∈ W', p ∈ W ∨ p.2 = none⌝ ∗ owes (VT d L) O W')) := by
  subst hn
  have e0 : R0 d L ft F0 qt qi Others pay 26 = SS d L ft F0 qt qi Others pay (sl (26 + 3)) 26 := if_neg (by omega)
  have e1 : Rg d L ft F0 qt qi pay 26 = SF d L ft F0 qt qi (sl 26) := if_neg (by omega)
  have e2 : Rg d L ft F0 qt qi pay (26 + 1) = SF d L ft F0 qt qi (sl (26 + 1)) := if_neg (by omega)
  have e3 : Rg d L ft F0 qt qi pay (26 + 2) = SF d L ft F0 qt qi (sl (26 + 2)) := if_neg (by omega)
  unfold inv
  rw [e0, e1, e2, e3]

/-! ## Packing and unpacking a slot's state -/

theorem SG_intro (j : Fin 4) (c : ℕ) (Tw : Finset (Idx ((tV).view.loc (VT d L)))) (Rw : Finset (Idx ((sI).view.loc (VT d L)))) (fB : Buf (Elt F) ((slotK j).view.loc (VT d L))) :
    iprop(Transfers.Flight (countersEmb (U := UU)) (VT d L) (SemLoc.dma (gcell j)) (default : HIx 1) 524288
        iprop((((slotK j).view.loc (VT d L) ↦[(slotK j).view.set]{fullShare} fB) ∗ ((sI).view.loc (VT d L) ↦[Rw]{qi j} F0))
          ∗ ((tV).view.loc (VT d L) ↦[Tw]{qt j} ft))
      ∗ ((tV).view.loc (VT d L) ↦[Finset.univ \ Tw]{qt j} ft) ∗ ((sI).view.loc (VT d L) ↦[Finset.univ \ Rw]{qi j} F0)
      ∗ semVal (VT d L, SemLoc.dma (scell j)) 0 ∗ ⌜(slotK j).view.read (Elt F) fB = pay c⌝) ⊢ SG d L ft F0 qt qi pay j c := by
  unfold SG
  iintro ⟨A, B, C, D, %hf⟩
  iexists Tw, Rw, fB
  isplitl [A]; · iexact A
  isplitl [B]; · iexact B
  isplitl [C]; · iexact C
  isplitl [D]; · iexact D
  ipureintro; exact hf

theorem SF_intro (j : Fin 4) (f : Buf (Elt F) ((slotK j).view.loc (VT d L))) :
    iprop(semVal (VT d L, SemLoc.dma (gcell j)) 0 ∗ semVal (VT d L, SemLoc.dma (scell j)) 0
      ∗ ((slotK j).view.loc (VT d L) ↦[(slotK j).view.set]{fullShare} f)
      ∗ ((tV).view.loc (VT d L) ↦{qt j} ft) ∗ ((sI).view.loc (VT d L) ↦{qi j} F0)) ⊢ SF d L ft F0 qt qi j := by
  unfold SF
  iintro ⟨A, B, C, D, E⟩
  isplitl [A]; · iexact A
  isplitl [B]; · iexact B
  isplitl [C]; · iexists f; iexact C
  isplitl [D]; · iexact D
  iexact E

theorem SF_elim (j : Fin 4) : SF d L ft F0 qt qi j ⊢
    iprop(semVal (VT d L, SemLoc.dma (gcell j)) 0 ∗ semVal (VT d L, SemLoc.dma (scell j)) 0
      ∗ (∃ f : Buf (Elt F) ((slotK j).view.loc (VT d L)), (slotK j).view.loc (VT d L) ↦[(slotK j).view.set]{fullShare} f)
      ∗ ((tV).view.loc (VT d L) ↦{qt j} ft) ∗ ((sI).view.loc (VT d L) ↦{qi j} F0)) := by
  unfold SF; exact BI.Entails.refl _

theorem SS_elim (j : Fin 4) (n : ℕ) : SS d L ft F0 qt qi Others pay j n ⊢
    iprop(∃ (fo : Buf (Elt F) ((oV).view.loc (VT d L))) (fB : Buf (Elt F) ((slotK j).view.loc (VT d L))),
    Transfers.Flight (countersEmb (U := UU)) (VT d L) (SemLoc.dma (scell j)) (default : HIx 1) 524288
        iprop(((oV).view.loc (VT d L) ↦[Finset.univ \ Others]{fullShare} fo) ∗ ((slotK j).view.loc (VT d L) ↦[(slotK j).view.set]{fullShare} fB))
      ∗ semVal (VT d L, SemLoc.dma (gcell j)) 0
      ∗ ((tV).view.loc (VT d L) ↦{qt j} ft) ∗ ((sI).view.loc (VT d L) ↦{qi j} F0)
      ∗ ⌜∀ k' : Fin k0_t1_loop.trips, k'.val < n → (slabI L k').view.read (Elt F) fo = pay k'.val⌝) := by
  unfold SS; exact BI.Entails.refl _

/-! ## The list scratch after the fetch -/

/-- What the index fetch lands in the list scratch: the worker's 26 lists of 128 row numbers. -/
abbrev PAY (fi : Buf (Elt F) (iLoc d)) : S26x128.Idx → Elt F .i32 := ReadAs.same.apply ((iRowK L).view.read (Elt F) fi)

omit [FloatOps F] in
theorem PAY_apply (fi : Buf (Elt F) (iLoc d)) (x : S26x128.Idx) : PAY d L fi x = fi ((iRowK L).view.emb x) :=
  (View.read_apply _ _).trans (cast_eq _ _)

omit [FloatOps F] in
/-- Every word of every list row, after the fetch, is a word of the index array: a table row under the precondition. -/
theorem inb_of_pre (fi : Buf (Elt F) (iLoc d)) (hin : ∀ j, (fi j).toNat < 100001) (g0 : Buf (Elt F) ((sI).view.loc (VT d L)))
    (pay : S26x128.Idx → Elt F .i32) (hpay : pay = PAY d L fi) : ListsOk (F := F) d L (View.write (Elt F) (sI).view g0 pay Finset.univ) := by
  subst hpay; intro row hk hq x
  have e : View.read (Elt F) (((sI).slice (Rect.unit (s := S26x128) row S1x128.size hk) (fun _ => rfl)).squeeze S128 hq).view
        (View.write (Elt F) (sI).view g0 (PAY d L fi) Finset.univ) x
      = View.read (Elt F) (sI).view (View.write (Elt F) (sI).view g0 (PAY d L fi) Finset.univ)
          ((Rect.unit (s := S26x128) row S1x128.size hk).emb ((Shape.reshapeEquiv hq.numel_eq) x)) := by
    rw [View.read_apply, View.read_apply]; rfl
  rw [e, View.read_write_univ, PAY_apply]
  exact hin _

/-- A share cut into four read shares: what stays and three tokens. -/
theorem tok3 {ℓ : Loc nD τ sig} (q : PosShare TreeShare) (f : Buf (Elt F) ℓ) :
    (ℓ ↦{q} f : sProp 𝕄) ⊣⊢ iprop((ℓ ↦{Transfers.shareDrop q 3} f) ∗ (ℓ ↦{Transfers.shareTokN q 0} f) ∗ (ℓ ↦{Transfers.shareTokN q 1} f)
      ∗ (ℓ ↦{Transfers.shareTokN q 2} f)) := by
  have h : (ℓ ↦{q} f : sProp 𝕄) ⊣⊢ iprop((ℓ ↦{Transfers.shareDrop q 3} f) ∗ bigSep (Finset.range 3) fun i => ℓ ↦{Transfers.shareTokN q i} f) :=
    Transfers.pointsTo_toks_range (ℓ := ℓ) (S := Finset.univ) (f := f) q 3
  rw [show Finset.range 3 = {0, 1, 2} by decide, SparseCore.bigSep_insert' (by decide), SparseCore.bigSep_insert' (by decide), bigSep_singleton] at h
  exact h

/-- The read share of slot `j` cut off `q`. -/
def tokOf (q : PosShare TreeShare) : Fin 4 → PosShare TreeShare
  | ⟨0, _⟩ => Transfers.shareDrop q 3
  | ⟨1, _⟩ => Transfers.shareTokN q 0
  | ⟨2, _⟩ => Transfers.shareTokN q 1
  | ⟨_ + 3, _⟩ => Transfers.shareTokN q 2

/-! ## The whole run -/

theorem tile_core (fi : Buf (Elt F) (iLoc d)) (hin : ∀ j, (fi j).toNat < 100001) (hdisj : SlabsIn d L Others) (hsl : SlabsApart L) (q : PosShare TreeShare)
    (O : CellTallies nD τ sig (HIx 1)) (W : Waits sig (HIx 1)) :
    iprop((Transfers.MayWaits (VT d L) (none : HIx 1) O : sProp 𝕄)
        ∗ ((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
        ∗ ((iRowK L).view.loc (VT d L) ↦[(iRowK L).view.set]{fullShare} fi)
        ∗ (∃ fo : Buf (Elt F) ((oV).view.loc (VT d L)), (oV).view.loc (VT d L) ↦[Finset.univ \ Others]{fullShare} fo)
        ∗ (∃ f0 : Buf (Elt F) ((sI).view.loc (VT d L)), (sI).view.loc (VT d L) ↦{fullShare} f0)
        ∗ (∃ f : Buf (Elt F) ((slotK 0).view.loc (VT d L)), (slotK 0).view.loc (VT d L) ↦[(slotK 0).view.set]{fullShare} f)
        ∗ (∃ f : Buf (Elt F) ((slotK 1).view.loc (VT d L)), (slotK 1).view.loc (VT d L) ↦[(slotK 1).view.set]{fullShare} f)
        ∗ (∃ f : Buf (Elt F) ((slotK 2).view.loc (VT d L)), (slotK 2).view.loc (VT d L) ↦[(slotK 2).view.set]{fullShare} f)
        ∗ (∃ f : Buf (Elt F) ((slotK 3).view.loc (VT d L)), (slotK 3).view.loc (VT d L) ↦[(slotK 3).view.set]{fullShare} f)
        ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0
        ∗ semVal (VT d L, SemLoc.dma (scell 0)) 0 ∗ semVal (VT d L, SemLoc.dma (scell 1)) 0 ∗ semVal (VT d L, SemLoc.dma (scell 2)) 0 ∗ semVal (VT d L, SemLoc.dma (scell 3)) 0
        ∗ semVal (VT d L, SemLoc.dma (csem 8)) 0
        ∗ owes (VT d L) O W)
      ⊢ wp frame (wpE (defs₀ (F := F)) 𝒱₀ (VT d L) none) Set.univ
          (cc0_k L tV (Memref.isWhole_whole _) iV (Memref.isWhole_whole _) oV (Memref.isWhole_whole _)
            sI (Memref.isWhole_whole _) sB (Memref.isWhole_whole _) cc0_scratch2 cc0_scratch3 cc0_scoped0)
          fun _ => iprop(((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
            ∗ ((iRowK L).view.loc (VT d L) ↦[(iRowK L).view.set]{fullShare} fi)
            ∗ (∃ fo : Buf (Elt F) ((oV).view.loc (VT d L)), ⌜OutOk d ft fi L fo⌝ ∗ (oV).view.loc (VT d L) ↦[Finset.univ \ Others]{fullShare} fo)
            ∗ (∃ f0 : Buf (Elt F) ((sI).view.loc (VT d L)), (sI).view.loc (VT d L) ↦{fullShare} f0)
            ∗ (∃ f : Buf (Elt F) ((slotK 0).view.loc (VT d L)), (slotK 0).view.loc (VT d L) ↦[(slotK 0).view.set]{fullShare} f)
            ∗ (∃ f : Buf (Elt F) ((slotK 1).view.loc (VT d L)), (slotK 1).view.loc (VT d L) ↦[(slotK 1).view.set]{fullShare} f)
            ∗ (∃ f : Buf (Elt F) ((slotK 2).view.loc (VT d L)), (slotK 2).view.loc (VT d L) ↦[(slotK 2).view.set]{fullShare} f)
            ∗ (∃ f : Buf (Elt F) ((slotK 3).view.loc (VT d L)), (slotK 3).view.loc (VT d L) ↦[(slotK 3).view.set]{fullShare} f)
            ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0
            ∗ semVal (VT d L, SemLoc.dma (scell 0)) 0 ∗ semVal (VT d L, SemLoc.dma (scell 1)) 0 ∗ semVal (VT d L, SemLoc.dma (scell 2)) 0 ∗ semVal (VT d L, SemLoc.dma (scell 3)) 0
            ∗ semVal (VT d L, SemLoc.dma (csem 8)) 0
            ∗ ∃ W', ⌜∀ p ∈ W', p ∈ W ∨ p.2 = none⌝ ∗ owes (VT d L) O W') := by
  rw [cc0_k_eq_skeleton]; unfold cc0_k_skel
  iintro ⟨#Hmw, T0, T1, T2, T3, Hi, ⟨%fo, Ho⟩, ⟨%f0, H0⟩, ⟨%g0, Hs0⟩, ⟨%g1, Hs1⟩, ⟨%g2, Hs2⟩, ⟨%g3, Hs3⟩, G0, G1, G2, G3, S0, S1, S2, S3, S8, HO⟩
  sl_exec
  -- the list scratch, fetched: four read tokens of it, one per slot
  ihave Htk := (tok3 (F := F) fullShare _).1 $$ H0
  icases Htk with ⟨I0, I1, I2, I3⟩
  have hidx : ListsOk (F := F) d L (View.write (Elt F) (sI).view f0 (tile_core.sl.dma0 d L fi) Finset.univ) :=
    inb_of_pre (F := F) d L fi hin f0 _ rfl
  have hidx' : ∀ (row : Fin 2 → ℕ) (hk : ∀ a, row a + S1x128.size a ≤ S26x128.size a) (hq : (Rect.unit (s := S26x128) row S1x128.size hk).shape.Squeezes S128) (x : S128.Idx),
      (View.read (Elt F) (((sI).slice (Rect.unit (s := S26x128) row S1x128.size hk) (fun _ => rfl)).squeeze S128 hq).view
        (View.write (Elt F) (sI).view f0 (tile_core.sl.dma0 d L fi) Finset.univ) x).toNat < 100001 := hidx
  have hF0 := lists_after_fetch (F := F) d L fi f0
  have hG : GathersOk (F := F) d L ft (View.write (Elt F) (sI).view f0 (tile_core.sl.dma0 d L fi) Finset.univ) (payC d L ft fi) :=
    fun k hc2 hin' => gather_loop d L ft fi k hc2 _ hF0 hin rfl hin'
  sl_exec
  sl_for (inv d L ft (View.write (Elt F) (sI).view f0 (tile_core.sl.dma0 d L fi) Finset.univ) (tokOf q) (tokOf fullShare) Others (payC d L ft fi) O W) $$ [G0 T0 I0 S0 G1 T1 I1 S1 G2 T2 I2 S2 G3 S3 Hs3 T3 I3 Ho HO]
  case region =>
    intro k _
    exact step d L ft _ (tokOf q) (tokOf fullShare) Others (payC d L ft fi) k hidx hdisj hG hsl O W _ 0#32 0#32
  · iapply (inv_zero d L ft _ (tokOf q) (tokOf fullShare) Others (payC d L ft fi) O W)
    isplitr; · iexact Hmw
    isplitl [G0 T0 I0 S0]
    · iapply (SG_intro d L ft _ (tokOf q) (tokOf fullShare) (payC d L ft fi) (sl 0) 0 _ _ _)
      isplitl [G0]; · iexact G0
      isplitl [T0]; · iexact T0
      isplitl [I0]; · iexact I0
      isplitl [S0]; · iexact S0
      ipureintro
      exact (View.read_writes_whole _ _ _).trans (gather_pro d L ft fi (0 : Fin 3) inb_S26x128_S1x128_0_0 _ hF0 hin rfl _)
    isplitl [G1 T1 I1 S1]
    · iapply (SG_intro d L ft _ (tokOf q) (tokOf fullShare) (payC d L ft fi) (sl (0 + 1)) (0 + 1) _ _ _)
      isplitl [G1]; · iexact G1
      isplitl [T1]; · iexact T1
      isplitl [I1]; · iexact I1
      isplitl [S1]; · iexact S1
      ipureintro
      exact (View.read_writes_whole _ _ _).trans (gather_pro d L ft fi (1 : Fin 3) inb_S26x128_S1x128_1_0 _ hF0 hin rfl _)
    isplitl [G2 T2 I2 S2]
    · iapply (SG_intro d L ft _ (tokOf q) (tokOf fullShare) (payC d L ft fi) (sl (0 + 2)) (0 + 2) _ _ _)
      isplitl [G2]; · iexact G2
      isplitl [T2]; · iexact T2
      isplitl [I2]; · iexact I2
      isplitl [S2]; · iexact S2
      ipureintro
      exact (View.read_writes_whole _ _ _).trans (gather_pro d L ft fi (2 : Fin 3) inb_S26x128_S1x128_2_0 _ hF0 hin rfl _)
    isplitl [G3 S3 Hs3 T3 I3]
    · iapply (SF_intro d L ft _ (tokOf q) (tokOf fullShare) (sl (0 + 3)) _)
      isplitl [G3]; · iexact G3
      isplitl [S3]; · iexact S3
      isplitl [Hs3]; · iexact Hs3
      isplitl [T3]; · iexact T3
      iexact I3
    isplitl [Ho]
    · iapply (Entails.of_eq (show outFree (F := F) d L Others = iprop(∃ fo : Buf (Elt F) ((oV).view.loc (VT d L)), (oV).view.loc (VT d L) ↦[Finset.univ \ Others]{fullShare} fo) from rfl).symm)
      iexists _; iexact Ho
    iexists (insert (SemLoc.dma (csem 8), (default : HIx 1)) W); isplitr
    · ipureintro; intro p hp
      rcases Finset.mem_insert.mp hp with hp | hp
      · exact .inr (hp ▸ rfl)
      · exact .inl hp
    · iexact HO
  iintro %_ HI
  ihave HE := (inv_end d L ft _ (tokOf q) (tokOf fullShare) Others (payC d L ft fi) O W _ (by decide) _) $$ HI
  icases HE with ⟨-, HSS, HF2, HF3, HF0, %W₁, %hW₁, HO⟩
  ihave HSS' := (SS_elim d L ft _ (tokOf q) (tokOf fullShare) Others (payC d L ft fi) _ _) $$ HSS
  icases HSS' with ⟨%fo', %fB', Hfl, Hg1, Ht1, Hi1, %hfo'⟩
  ihave HF2' := (SF_elim d L ft _ (tokOf q) (tokOf fullShare) _) $$ HF2
  icases HF2' with ⟨Hg2, Hc2, ⟨%h2, Hp2⟩, Ht2, Hi2⟩
  ihave HF3' := (SF_elim d L ft _ (tokOf q) (tokOf fullShare) _) $$ HF3
  icases HF3' with ⟨Hg3, Hc3, ⟨%h3, Hp3⟩, Ht3, Hi3⟩
  ihave HF0' := (SF_elim d L ft _ (tokOf q) (tokOf fullShare) _) $$ HF0
  icases HF0' with ⟨Hg0, Hc0, ⟨%h0, Hp0⟩, Ht0, Hi0⟩
  sl_exec
  sl_step
  ihave Hfull := (tok3 (F := F) fullShare _).2 $$ [Hi0 Hi1 Hi2 Hi3]
  · isplitl [Hi0]; · iexact Hi0
    isplitl [Hi1]; · iexact Hi1
    isplitl [Hi2]; · iexact Hi2
    iexact Hi3
  isplitl [Ht0]; · iexact Ht0
  isplitl [Ht1]; · iexact Ht1
  isplitl [Ht2]; · iexact Ht2
  isplitl [Ht3]; · iexact Ht3
  isplitl [Hi]; · iexact Hi
  isplitl [Hfl_dst]
  · iexists fo'; isplitr
    · ipureintro; intro k x
      exact ((View.read_apply (v := (slabI L k).view) fo' x).trans (cast_eq _ _)).symm.trans (congrFun (hfo' k (trips_eq ▸ k.isLt)) x)
    · iexact Hfl_dst
  isplitl [Hfull]; · iexists _; iexact Hfull
  isplitl [Hp0]; · iexists _; iexact Hp0
  isplitl [Hfl_src]; · iexists _; iexact Hfl_src
  isplitl [Hp2]; · iexists _; iexact Hp2
  isplitl [Hp3]; · iexists _; iexact Hp3
  isplitl [Hg0]; · iexact Hg0
  isplitl [Hg1]; · iexact Hg1
  isplitl [Hg2]; · iexact Hg2
  isplitl [Hg3]; · iexact Hg3
  isplitl [Hc0]; · iexact Hc0
  isplitl [Hfl]; · iexact Hfl
  isplitl [Hc2]; · iexact Hc2
  isplitl [Hc3]; · iexact Hc3
  isplitl [S8]; · iexact S8
  iexists (insert (SemLoc.dma (csem 5), (default : HIx 1)) W₁); isplitr
  · ipureintro; intro p hp
    rcases Finset.mem_insert.mp hp with hp | hp
    · exact .inr (hp ▸ rfl)
    · exact hW₁ p hp
  · iexact HO

end Cert.Kernel.Sc

end
-- ==== Proof.ScTileResB.lean ====
/-
  What a vector subcore holds when the gather kernel's body starts and what it must hand back: its nine DMA
  semaphores and two scratches out of its own cells and buffers; the row scratch as its four slots of 128 rows; its
  share of the gathered rows as the kernel's whole-array view minus everyone else's elements, in which each of its
  26 slabs lies; and four read tokens cut off a share of an array it only reads.
-/
import proofs.«206634_g85779086836150_cont_9to1c4b_256_28_alg».proof.Proof.ScSlotsB
import proofs.«206634_g85779086836150_cont_9to1c4b_256_28_alg».proof.Proof.ScOffsetsB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The subcore's own semaphores and scratches -/

/-- DMA semaphore `k` of the subcore, for the nine the gather kernel names: the four of the gather ring, the four of the
    store ring, and the one the index fetch completes on. -/
abbrev vcell (k : Fin 9) : GSem nD τ sig := (VT d L, SemLoc.dma (csem k.val (by have := k.isLt; omega)))

theorem scoped9 : ∀ k : Fin 9, (SemLoc.dma (csem k.val (by have := k.isLt; omega)) : SemLoc sig).isScoped .scVector = true := by decide

theorem hmem (k : Fin 9) : vcell d L k ∈ ownCells (VT d L) := mem_ownCells.mpr ⟨rfl, scoped9 k⟩

theorem vne (k k' : Fin 9) (h : k ≠ k') : vcell d L k ≠ vcell d L k' := by
  intro e
  have h1 : (SemLoc.dma (csem k.val (by have := k.isLt; omega)) : SemLoc sig) = SemLoc.dma (csem k'.val (by have := k'.isLt; omega)) := congrArg Prod.snd e
  have h2 := SemLoc.dma.inj h1
  exact h (Fin.ext (Fin.mk.inj h2))

theorem mem_erase_of {α : Type} [DecidableEq α] {s : Finset α} {a b : α} (h : a ∈ s) (hne : a ≠ b) : a ∈ s.erase b :=
  Finset.mem_erase.mpr ⟨hne, h⟩

/-- The subcore's other scoped cells. -/
abbrev ownRest9 : Finset (GSem nD τ sig) := ((((((((((ownCells (VT d L)).erase (vcell d L 0)).erase (vcell d L 1)).erase (vcell d L 2)).erase (vcell d L 3)).erase (vcell d L 4)).erase (vcell d L 5)).erase (vcell d L 6)).erase (vcell d L 7)).erase (vcell d L 8))

/-- The subcore's zeroed semaphores are the nine the kernel names and the rest. -/
theorem ownSems0_V :
    (ownSems0 (VT d L) : sProp 𝕄)
      = iprop(semVal (VT d L, .dma (gcell 0)) 0 ∗ semVal (VT d L, .dma (gcell 1)) 0 ∗ semVal (VT d L, .dma (gcell 2)) 0 ∗ semVal (VT d L, .dma (gcell 3)) 0
          ∗ semVal (VT d L, .dma (scell 0)) 0 ∗ semVal (VT d L, .dma (scell 1)) 0 ∗ semVal (VT d L, .dma (scell 2)) 0 ∗ semVal (VT d L, .dma (scell 3)) 0
          ∗ semVal (VT d L, .dma (csem 8)) 0 ∗ bigSep (ownRest9 d L) fun g => semVal g 0) := by
  unfold SparseCore.Cfg.ownSems0
  rw [SparseCore.bigSep_erase' (i := vcell d L 0) (hmem d L 0),
    SparseCore.bigSep_erase' (i := vcell d L 1) (mem_erase_of (hmem d L 1) (vne d L 1 0 (by decide))),
    SparseCore.bigSep_erase' (i := vcell d L 2) (mem_erase_of (mem_erase_of (hmem d L 2) (vne d L 2 0 (by decide))) (vne d L 2 1 (by decide))),
    SparseCore.bigSep_erase' (i := vcell d L 3) (mem_erase_of (mem_erase_of (mem_erase_of (hmem d L 3) (vne d L 3 0 (by decide))) (vne d L 3 1 (by decide))) (vne d L 3 2 (by decide))),
    SparseCore.bigSep_erase' (i := vcell d L 4) (mem_erase_of (mem_erase_of (mem_erase_of (mem_erase_of (hmem d L 4) (vne d L 4 0 (by decide))) (vne d L 4 1 (by decide))) (vne d L 4 2 (by decide))) (vne d L 4 3 (by decide))),
    SparseCore.bigSep_erase' (i := vcell d L 5) (mem_erase_of (mem_erase_of (mem_erase_of (mem_erase_of (mem_erase_of (hmem d L 5) (vne d L 5 0 (by decide))) (vne d L 5 1 (by decide))) (vne d L 5 2 (by decide))) (vne d L 5 3 (by decide))) (vne d L 5 4 (by decide))),
    SparseCore.bigSep_erase' (i := vcell d L 6) (mem_erase_of (mem_erase_of (mem_erase_of (mem_erase_of (mem_erase_of (mem_erase_of (hmem d L 6) (vne d L 6 0 (by decide))) (vne d L 6 1 (by decide))) (vne d L 6 2 (by decide))) (vne d L 6 3 (by decide))) (vne d L 6 4 (by decide))) (vne d L 6 5 (by decide))),
    SparseCore.bigSep_erase' (i := vcell d L 7) (mem_erase_of (mem_erase_of (mem_erase_of (mem_erase_of (mem_erase_of (mem_erase_of (mem_erase_of (hmem d L 7) (vne d L 7 0 (by decide))) (vne d L 7 1 (by decide))) (vne d L 7 2 (by decide))) (vne d L 7 3 (by decide))) (vne d L 7 4 (by decide))) (vne d L 7 5 (by decide))) (vne d L 7 6 (by decide))),
    SparseCore.bigSep_erase' (i := vcell d L 8) (mem_erase_of (mem_erase_of (mem_erase_of (mem_erase_of (mem_erase_of (mem_erase_of (mem_erase_of (mem_erase_of (hmem d L 8) (vne d L 8 0 (by decide))) (vne d L 8 1 (by decide))) (vne d L 8 2 (by decide))) (vne d L 8 3 (by decide))) (vne d L 8 4 (by decide))) (vne d L 8 5 (by decide))) (vne d L 8 6 (by decide))) (vne d L 8 7 (by decide)))]
  rfl

/-- The two scratches are among the subcore's own buffers: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The row scratch as its four slots -/

/-- Slot `j`'s elements of the row scratch: rows `128 * j` to 127 more. -/
abbrev slotSet (j : Fin 4) : Finset S512x128.Idx := (slotK j).view.set

theorem mem_slotSet (j : Fin 4) (x : S512x128.Idx) : x ∈ slotSet j ↔ (x 0).val / 128 = j.val := by
  show x ∈ ((View.whole cc0_scratch1 : View sig .scVector _ _ _).slice (Rect.unit (s := S512x128) ![128 * j.val, 0] S128x128.size (slotK_inb j))).set ↔ _
  rw [View.set_slice_whole, Rect.mem_set_unit]
  have hj := j.isLt
  have h0 : (x 0).val < 512 := (x 0).isLt
  have h1 : (x 1).val < 128 := (x 1).isLt
  constructor
  · intro h
    have a0 : 128 * j.val ≤ (x 0).val ∧ (x 0).val < 128 * j.val + 128 := h 0
    omega
  · intro h a
    match a with
    | ⟨0, _⟩ => show 128 * j.val ≤ (x 0).val ∧ (x 0).val < 128 * j.val + 128; omega
    | ⟨1, _⟩ => show 0 ≤ (x 1).val ∧ (x 1).val < 0 + 128; omega

theorem slots_disjoint : ∀ j ∈ (Finset.univ : Finset (Fin 4)), ∀ j' ∈ (Finset.univ : Finset (Fin 4)), j ≠ j' → Disjoint (slotSet j) (slotSet j') := by
  intro j _ j' _ h
  rw [Finset.disjoint_left]
  intro x hx hx'
  rw [mem_slotSet] at hx hx'
  exact h (Fin.ext (hx.symm.trans hx'))

theorem slots_cover : (Finset.univ : Finset (Fin 4)).biUnion slotSet = Finset.univ := by
  ext x
  simp only [Finset.mem_biUnion, Finset.mem_univ, true_and, iff_true]
  have h0 : (x 0).val < 512 := (x 0).isLt
  exact ⟨⟨(x 0).val / 128, by omega⟩, (mem_slotSet _ x).mpr rfl⟩

/-- A slot's view names the scratch's own location. -/
theorem slot_loc (j : Fin 4) : (slotK j).view.loc (VT d L) = (sB).view.loc (VT d L) := rfl

/-- The row scratch whole is its four slots. -/
theorem slots_split (f : Buf (Elt F) ((sB).view.loc (VT d L))) :
    ((sB).view.loc (VT d L) ↦{fullShare} f : sProp 𝕄)
      = bigSep Finset.univ fun j : Fin 4 => (slotK j).view.loc (VT d L) ↦[(slotK j).view.set]{fullShare} f := by
  rw [← slots_cover, pointsTo_biUnion Finset.univ (ℓ := (sB).view.loc (VT d L)) slotSet slots_disjoint]

/-- The four slots, each at some contents, are the row scratch whole at some contents. -/
theorem slots_join :
    (bigSep Finset.univ fun j : Fin 4 => iprop(∃ f, (slotK j).view.loc (VT d L) ↦[(slotK j).view.set]{fullShare} f))
      ⊢ (iprop(∃ f, (sB).view.loc (VT d L) ↦{fullShare} f) : sProp 𝕄) := by
  refine (bigSep_exists_pi Finset.univ (fun (j : Fin 4) (f : Buf (Elt F) ((sB).view.loc (VT d L))) =>
    ((sB).view.loc (VT d L) ↦[slotSet j]{fullShare} f : sProp 𝕄))).trans ?_
  iintro ⟨%fs, H⟩
  ihave H' := (pointsTo_biUnion_join Finset.univ slotSet fs (fs 0) slots_disjoint) $$ H
  icases H' with ⟨%g, -, Hg⟩
  rw [slots_cover]
  iexists g; iexact Hg

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-! ## The worker's share of the gathered rows, as the body holds it -/

/-- The share is the whole-array view less everyone else's elements. -/
theorem out_as_compl (f : Buf (Elt F) (oLoc d)) :
    (oLoc d ↦[oSetL L]{fullShare} f : sProp 𝕄) = (oV).view.loc (VT d L) ↦[Finset.univ \ (Finset.univ \ oSetL L)]{fullShare} f := by
  rw [Finset.sdiff_sdiff_eq_self (Finset.subset_univ _)]

/-- Each of the worker's slabs lies in its share: it meets no one else's elements. -/
theorem slabs_in : ∀ j : Fin k0_t1_loop.trips, Disjoint ((slabI L j).view.set : Finset S26x4096x128.Idx) (Finset.univ \ oSetL L) := by
  intro j
  have hsub : ((slabI L j).view.set : Finset S26x4096x128.Idx) ⊆ oSetL L := by
    intro x hx
    have h := (mem_slabI L j x).mp hx
    have := trip_lt j
    exact (mem_oSetL L x).mpr (by omega)
  exact (Finset.disjoint_sdiff (s := oSetL L) (t := Finset.univ)).mono_left hsub

/-! ## Read tokens inside the tile -/

/-- A points-to at a share is the remainder after four read tokens and the four tokens. -/
theorem tok4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h : (ℓ ↦{q} f : sProp 𝕄) ⊣⊢ iprop((ℓ ↦{Transfers.shareDrop q 4} f)
      ∗ bigSep (Finset.range 4) (fun w => ℓ ↦{Transfers.shareTokN q w} f)) := Transfers.pointsTo_toks_range q 4
  rw [show Finset.range 4 = {0, 1, 2, 3} from by decide, bigSep_insert (by decide), bigSep_insert (by decide),
    bigSep_insert (by decide), bigSep_singleton] at h
  exact h

theorem tok4_tV (q : PosShare TreeShare) (f : Buf (Elt F) ((tV).view.loc (VT d L))) :
    ((tV).view.loc (VT d L) ↦{q} f : sProp 𝕄) ⊣⊢ iprop(((tV).view.loc (VT d L) ↦{Transfers.shareDrop q 4} f) ∗ ((tV).view.loc (VT d L) ↦{Transfers.shareTokN q 0} f)
      ∗ ((tV).view.loc (VT d L) ↦{Transfers.shareTokN q 1} f) ∗ ((tV).view.loc (VT d L) ↦{Transfers.shareTokN q 2} f) ∗ ((tV).view.loc (VT d L) ↦{Transfers.shareTokN q 3} f)) :=
  tok4 q f

theorem tok4_sI (q : PosShare TreeShare) (f : Buf (Elt F) ((sI).view.loc (VT d L))) :
    ((sI).view.loc (VT d L) ↦{q} f : sProp 𝕄) ⊣⊢ iprop(((sI).view.loc (VT d L) ↦{Transfers.shareDrop q 4} f) ∗ ((sI).view.loc (VT d L) ↦{Transfers.shareTokN q 0} f)
      ∗ ((sI).view.loc (VT d L) ↦{Transfers.shareTokN q 1} f) ∗ ((sI).view.loc (VT d L) ↦{Transfers.shareTokN q 2} f) ∗ ((sI).view.loc (VT d L) ↦{Transfers.shareTokN q 3} f)) :=
  tok4 q f

end Cert.Kernel.Sc

end
-- ==== Proof.ScSplitB.lean ====
/-
  How the TensorCore's three arrays are dealt to the gather kernel's 32 vector subcores and collected again: the tables
  as 32 read tokens cut off the full share (the remainder kept meanwhile), the index array as its 32 rows, the gathered
  rows as the 32 shares of 26 slabs each; and back, the output's pieces, each with contents of its own satisfying a
  property that only reads the piece, joined into one array satisfying the property for every worker.
-/
import proofs.«206634_g85779086836150_cont_9to1c4b_256_28_alg».proof.Proof.ScOffsetsB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tables at the full share are the remainder after 32 read tokens and the tokens, one per worker. -/
theorem tSplit (d : Dev nD) (ft : Buf (Elt F) (tLoc d)) :
    (tLoc d ↦{fullShare} ft : sProp 𝕄) ⊣⊢ iprop((tLoc d ↦{Transfers.shareDrop fullShare 32} ft)
      ∗ bigSep Finset.univ fun p : Fin 2 × Fin 16 => tLoc d ↦{tokQ (wOf (coordsV p.1 p.2))} ft) := by
  have h : (tLoc d ↦{fullShare} ft : sProp 𝕄) ⊣⊢ iprop((tLoc d ↦{Transfers.shareDrop fullShare 32} ft)
      ∗ bigSep (Finset.range 32) (fun w => tLoc d ↦{Transfers.shareTokN fullShare w} ft)) := Transfers.pointsTo_toks_range fullShare 32
  rw [← map_wEmb, bigSep_map] at h
  exact h

/-- The index array whole is its 32 rows. -/
theorem iPts_rows (d : Dev nD) (f : Buf (Elt F) (iLoc d)) :
    (iLoc d ↦{fullShare} f : sProp 𝕄) = bigSep Finset.univ fun p : Fin 2 × Fin 16 => iLoc d ↦[iSetL (coordsV p.1 p.2)]{fullShare} f := by
  rw [← pointsTo_biUnion Finset.univ (ℓ := iLoc d) (fun p : Fin 2 × Fin 16 => iSetL (coordsV p.1 p.2)) iRow_disjoint₂, iRow_cover₂]

/-- The gathered rows whole are the 32 workers' shares. -/
theorem oPts_shares (d : Dev nD) (f : Buf (Elt F) (oLoc d)) :
    (oLoc d ↦{fullShare} f : sProp 𝕄) = bigSep Finset.univ fun p : Fin 2 × Fin 16 => oLoc d ↦[oSetL (coordsV p.1 p.2)]{fullShare} f := by
  rw [← pointsTo_biUnion Finset.univ (ℓ := oLoc d) (fun p : Fin 2 × Fin 16 => oSetL (coordsV p.1 p.2)) oSetL_disjoint₂, oSetL_cover₂]

/-- The shares, each at contents of its own of which a property holds that reads the share only, join into the whole
    array at contents of which the property holds for every worker. -/
theorem oJoin (d : Dev nD) (Ok : Fin 2 × Fin 16 → Buf (Elt F) (oLoc d) → Prop)
    (hloc : ∀ p f f', (∀ x ∈ oSetL (coordsV p.1 p.2), f x = f' x) → Ok p f → Ok p f') :
    (bigSep Finset.univ fun p : Fin 2 × Fin 16 => iprop(∃ f, ⌜Ok p f⌝ ∗ oLoc d ↦[oSetL (coordsV p.1 p.2)]{fullShare} f))
      ⊢ (iprop(∃ f, ⌜∀ (c : Fin 2) (i : Fin 16), Ok (c, i) f⌝ ∗ oLoc d ↦{fullShare} f) : sProp 𝕄) := by
  refine (bigSep_exists_pi Finset.univ (fun p (f : Buf (Elt F) (oLoc d)) => iprop(⌜Ok p f⌝ ∗ oLoc d ↦[oSetL (coordsV p.1 p.2)]{fullShare} f))).trans ?_
  iintro ⟨%fs, H⟩
  ihave H1 := (bigSep_pure_sep Finset.univ (fun p => Ok p (fs p)) (fun p => (oLoc d ↦[oSetL (coordsV p.1 p.2)]{fullShare} fs p : sProp 𝕄))) $$ H
  icases H1 with ⟨%hok, H2⟩
  ihave H3 := (pointsTo_biUnion_join Finset.univ (fun p : Fin 2 × Fin 16 => oSetL (coordsV p.1 p.2)) fs (fs (0, 0)) oSetL_disjoint₂) $$ H2
  icases H3 with ⟨%g, %hg, Hg⟩
  rw [oSetL_cover₂]
  iexists g
  isplitr
  · ipureintro
    intro c i
    exact hloc (c, i) (fs (c, i)) g (fun x hx => (hg (c, i) (Finset.mem_univ _) x hx).symm) (hok (c, i) (Finset.mem_univ _))
  · iexact Hg

/-- The deal and the collection, with a worker named by its pair. -/
theorem splitJoin₂ (d : Dev nD) (Ok : Fin 2 × Fin 16 → Buf (Elt F) (oLoc d) → Prop)
    (hloc : ∀ p f f', (∀ x ∈ oSetL (coordsV p.1 p.2), f x = f' x) → Ok p f → Ok p f')
    (ft : Buf (Elt F) (tLoc d)) (fi : Buf (Elt F) (iLoc d)) (fo : Buf (Elt F) (oLoc d)) :
    iprop((tLoc d ↦{fullShare} ft) ∗ (iLoc d ↦{fullShare} fi) ∗ (oLoc d ↦{fullShare} fo))
      ⊢ (iprop((bigSep Finset.univ fun p : Fin 2 × Fin 16 =>
            iprop((tLoc d ↦{tokQ (wOf (coordsV p.1 p.2))} ft) ∗ (iLoc d ↦[iSetL (coordsV p.1 p.2)]{fullShare} fi) ∗ (oLoc d ↦[oSetL (coordsV p.1 p.2)]{fullShare} fo)))
          ∗ ((bigSep Finset.univ fun p : Fin 2 × Fin 16 =>
              iprop((tLoc d ↦{tokQ (wOf (coordsV p.1 p.2))} ft) ∗ (iLoc d ↦[iSetL (coordsV p.1 p.2)]{fullShare} fi) ∗ ∃ f, ⌜Ok p f⌝ ∗ oLoc d ↦[oSetL (coordsV p.1 p.2)]{fullShare} f))
            -∗ iprop((tLoc d ↦{fullShare} ft) ∗ (iLoc d ↦{fullShare} fi) ∗ ∃ f, ⌜∀ (c : Fin 2) (i : Fin 16), Ok (c, i) f⌝ ∗ oLoc d ↦{fullShare} f))) : sProp 𝕄) := by
  rw [bigSep_sep', bigSep_sep', bigSep_sep', bigSep_sep', iPts_rows d fi, oPts_shares d fo]
  iintro ⟨Ht, Hi, Ho⟩
  ihave Ht' := (tSplit d ft).1 $$ Ht
  icases Ht' with ⟨Hrest, Htoks⟩
  isplitl [Htoks Hi Ho]
  · isplitl [Htoks]; · iexact Htoks
    isplitl [Hi]; · iexact Hi
    iexact Ho
  iintro ⟨Htoks, Hi, Ho⟩
  isplitl [Hrest Htoks]
  · iapply (tSplit d ft).2
    isplitl [Hrest]; · iexact Hrest
    iexact Htoks
  isplitl [Hi]; · iexact Hi
  iapply (oJoin d Ok hloc); iexact Ho

/-- The deal and the collection, by core and subcore. -/
theorem splitJoin (OutOk : (d : Dev nD) → Buf (Elt F) (tLoc d) → Buf (Elt F) (iLoc d) → grid0.Coords → Buf (Elt F) (oLoc d) → Prop)
    (hloc : ∀ d ft fi L f f', (∀ x ∈ oSetL L, f x = f' x) → OutOk d ft fi L f → OutOk d ft fi L f')
    (d : Dev nD) (ft : Buf (Elt F) (tLoc d)) (fi : Buf (Elt F) (iLoc d)) (fo : Buf (Elt F) (oLoc d)) :
    iprop((tLoc d ↦{fullShare} ft) ∗ (iLoc d ↦{fullShare} fi) ∗ (oLoc d ↦{fullShare} fo))
      ⊢ (iprop((bigSep Finset.univ fun c : Fin 2 => bigSep Finset.univ fun i : Fin 16 =>
            iprop((tLoc d ↦{tokQ (wOf (coordsV c i))} ft) ∗ (iLoc d ↦[(iRowK (coordsV c i)).view.set]{fullShare} fi) ∗ (oLoc d ↦[oSetL (coordsV c i)]{fullShare} fo)))
          ∗ ((bigSep Finset.univ fun c : Fin 2 => bigSep Finset.univ fun i : Fin 16 =>
              iprop((tLoc d ↦{tokQ (wOf (coordsV c i))} ft) ∗ (iLoc d ↦[(iRowK (coordsV c i)).view.set]{fullShare} fi) ∗ ∃ f, ⌜OutOk d ft fi (coordsV c i) f⌝ ∗ oLoc d ↦[oSetL (coordsV c i)]{fullShare} f))
            -∗ iprop((tLoc d ↦{fullShare} ft) ∗ (iLoc d ↦{fullShare} fi) ∗ ∃ f, ⌜∀ c i, OutOk d ft fi (coordsV c i) f⌝ ∗ oLoc d ↦{fullShare} f))) : sProp 𝕄) := by
  have h := splitJoin₂ (F := F) d (fun p f => OutOk d ft fi (coordsV p.1 p.2) f) (fun p f f' hx ho => hloc d ft fi _ f f' hx ho) ft fi fo
  rw [bigSep_univ_prod, bigSep_univ_prod] at h
  exact h

end Cert.Kernel.Sc

end
-- ==== Proof.TcBodyB.lean ====
/-
  The layer-norm body of the TensorCore call, run once at a symbolic grid point on whole staging buffers.

  The body reads seven staging buffers (the 26 gathered rows of a batch block, the 13 numerical features and their
  weight rows, the 4 pretrained embeddings and their projection matrices, the scale and the shift of the norm)
  and fills the output staging buffer by six stores that tile it along the feature axis: features 0-25 the normed
  gathered rows, 26-38 the normed products feature * weight row, 39-42 one normed projection each. What the output
  buffer holds afterwards is therefore a closed function of the seven inputs, `outBlk`: at each index the payload of
  the store whose rows hold it. The values the body loads from the output buffer before each store feed no store.
-/
import proofs.«206634_g85779086836150_cont_9to1c4b_256_28_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body loads and stores through -/

abbrev rI1 : Rect S26x512x128 := Rect.unit (s := S26x512x128) ![0, 0, 0] S26x512x128.size inb_S26x512x128_S26x512x128_0_0_0
abbrev rI2 : Rect S13x512 := Rect.unit (s := S13x512) ![0, 0] S13x512.size inb_S13x512_S13x512_0_0
abbrev rI3 : Rect S13x128 := Rect.unit (s := S13x128) ![0, 0] S13x128.size inb_S13x128_S13x128_0_0
abbrev rI4_0 : Rect S4x512x768 := Rect.unit (s := S4x512x768) ![0, 0, 0] S1x512x768.size inb_S4x512x768_S1x512x768_0_0_0
abbrev rI4_1 : Rect S4x512x768 := Rect.unit (s := S4x512x768) ![1, 0, 0] S1x512x768.size inb_S4x512x768_S1x512x768_1_0_0
abbrev rI4_2 : Rect S4x512x768 := Rect.unit (s := S4x512x768) ![2, 0, 0] S1x512x768.size inb_S4x512x768_S1x512x768_2_0_0
abbrev rI4_3 : Rect S4x512x768 := Rect.unit (s := S4x512x768) ![3, 0, 0] S1x512x768.size inb_S4x512x768_S1x512x768_3_0_0
abbrev rI5_0 : Rect S4x768x128 := Rect.unit (s := S4x768x128) ![0, 0, 0] S1x768x128.size inb_S4x768x128_S1x768x128_0_0_0
abbrev rI5_1 : Rect S4x768x128 := Rect.unit (s := S4x768x128) ![1, 0, 0] S1x768x128.size inb_S4x768x128_S1x768x128_1_0_0
abbrev rI5_2 : Rect S4x768x128 := Rect.unit (s := S4x768x128) ![2, 0, 0] S1x768x128.size inb_S4x768x128_S1x768x128_2_0_0
abbrev rI5_3 : Rect S4x768x128 := Rect.unit (s := S4x768x128) ![3, 0, 0] S1x768x128.size inb_S4x768x128_S1x768x128_3_0_0
abbrev rI6 : Rect S1x128 := Rect.unit (s := S1x128) ![0, 0] S1x128.size inb_S1x128_S1x128_0_0
abbrev rO0 : Rect S43x512x128 := Rect.unit (s := S43x512x128) ![0, 0, 0] S26x512x128.size inb_S43x512x128_S26x512x128_0_0_0
abbrev rO26 : Rect S43x512x128 := Rect.unit (s := S43x512x128) ![26, 0, 0] S13x512x128.size inb_S43x512x128_S13x512x128_26_0_0
abbrev rO39 : Rect S43x512x128 := Rect.unit (s := S43x512x128) ![39, 0, 0] S1x512x128.size inb_S43x512x128_S1x512x128_39_0_0
abbrev rO40 : Rect S43x512x128 := Rect.unit (s := S43x512x128) ![40, 0, 0] S1x512x128.size inb_S43x512x128_S1x512x128_40_0_0
abbrev rO41 : Rect S43x512x128 := Rect.unit (s := S43x512x128) ![41, 0, 0] S1x512x128.size inb_S43x512x128_S1x512x128_41_0_0
abbrev rO42 : Rect S43x512x128 := Rect.unit (s := S43x512x128) ![42, 0, 0] S1x512x128.size inb_S43x512x128_S1x512x128_42_0_0

/-! ## What the body leaves in the output buffer -/

/-- The six stores as pieces, last first, over the seven inputs' contents. -/
def outPieces (x1 : Vec F S26x512x128 .f32) (x2 : Vec F S13x512 .f32) (x3 : Vec F S13x128 .f32) (x4 : Vec F S4x512x768 .f32)
    (x5 : Vec F S4x768x128 .f32) (x6 x7 : Vec F S1x128 .f32) : List (View.Piece (Elt F) S43x512x128 .f32) :=
  [⟨rO42, k1_pay18 (View.ld x4 rI4_3) (View.ld x5 rI5_3) (View.ld x6 rI6) (View.ld x7 rI6)⟩,
   ⟨rO41, k1_pay17 (k1_pay16 (View.ld x4 rI4_2) (View.ld x5 rI5_2) (View.ld x6 rI6) (View.ld x7 rI6))⟩,
   ⟨rO40, k1_pay15 (k1_pay11 (View.ld x6 rI6)) (k1_pay12 (View.ld x7 rI6)) (k1_pay13 (View.ld x4 rI4_1) (View.ld x5 rI5_1)) (k1_pay14 (View.ld x4 rI4_1) (View.ld x5 rI5_1))⟩,
   ⟨rO39, k1_pay10 (k1_pay6 (View.ld x6 rI6)) (k1_pay7 (View.ld x7 rI6)) (k1_pay8 (View.ld x4 rI4_0) (View.ld x5 rI5_0)) (k1_pay9 (View.ld x4 rI4_0) (View.ld x5 rI5_0))⟩,
   ⟨rO26, k1_pay5 (k1_pay1 (View.ld x6 rI6)) (k1_pay2 (View.ld x7 rI6)) (k1_pay4 (View.ld x2 rI2) (View.ld x3 rI3))⟩,
   ⟨rO0, k1_pay3 (View.ld x6 rI6) (View.ld x7 rI6) (View.ld x1 rI1)⟩]

/-- The output staging buffer after the body: at each index the payload of the store whose feature rows hold it. -/
def outBlk (x1 : Vec F S26x512x128 .f32) (x2 : Vec F S13x512 .f32) (x3 : Vec F S13x128 .f32) (x4 : Vec F S4x512x768 .f32)
    (x5 : Vec F S4x768x128 .f32) (x6 x7 : Vec F S1x128 .f32) : Vec F S43x512x128 .f32 :=
  View.canon (outPieces x1 x2 x3 x4 x5 x6 x7)

/-- The six stores cover the buffer: cut into single feature rows they tile it. -/
theorem cover (p42 p41 p40 p39 : Vec F S1x512x128 .f32) (p26 : Vec F S13x512x128 .f32) (p0 : Vec F S26x512x128 .f32) (y : S43x512x128.Idx) :
    ∃ pc ∈ ([⟨rO42, p42⟩, ⟨rO41, p41⟩, ⟨rO40, p40⟩, ⟨rO39, p39⟩, ⟨rO26, p26⟩, ⟨rO0, p0⟩] : List (View.Piece (Elt F) S43x512x128 .f32)), y ∈ pc.1.set :=
  View.cover_of_tiledBy _ ![1, 512, 128] (by sl_kernel_rfl) y

/-! ## The body's run -/

set_option maxHeartbeats 4000000 in
/-- The body on whole staging memrefs, the seven inputs' at contents `x1 … x7` and the output's at anything, runs to the
    continuation holding the inputs' as they were and the output's at `outBlk` of them. -/
theorem sound_kernel (𝒱₀ : Variants) (c : Dev nD) (E : Set Name) (i : grid1.Coords)
    (arg1 : Memref sig .tc .vmem S26x512x128 .f32) (harg1 : arg1.IsWhole) (arg2 : Memref sig .tc .vmem S13x512 .f32) (harg2 : arg2.IsWhole)
    (arg3 : Memref sig .tc .vmem S13x128 .f32) (harg3 : arg3.IsWhole) (arg4 : Memref sig .tc .vmem S4x512x768 .f32) (harg4 : arg4.IsWhole)
    (arg5 : Memref sig .tc .vmem S4x768x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S43x512x128 .f32) (harg8 : arg8.IsWhole)
    (x1 : Vec F S26x512x128 .f32) (x2 : Vec F S13x512 .f32) (x3 : Vec F S13x128 .f32) (x4 : Vec F S4x512x768 .f32)
    (x5 : Vec F S4x768x128 .f32) (x6 x7 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (outBlk x1 x2 x3 x4 x5 x6 x7)) -∗ K ⟨⟩))
      ⊢ wp frame (wpE (defs₀ (F := F)) 𝒱₀ c none) E (cc1__tc_body i arg1 harg1 arg2 harg2 arg3 harg3 arg4 harg4 arg5 harg5 arg6 harg6 arg7 harg7 arg8 harg8) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _ _ _ _ _ _)

end Cert.Kernel.TcBody

end
-- ==== Proof.TcRegionB.lean ====
/-
  The TensorCore call of the program, as one step of the TensorCore's thread: the pipeline over 8 blocks of 512 batch
  rows stages the blocks of the seven operands, runs the layer-norm body on each, and writes each block of the result
  back. Stated once for the whole call: from the TensorCore's arrays at contents `V`, the call ends with every array
  as it was but the result, which holds ONE function of the operands, `regionOut`: at batch row `b` the body's output
  block for the block `b / 512` of the operands, read at row `b % 512`.
-/
import proofs.«206634_g85779086836150_cont_9to1c4b_256_28_alg».proof.Proof.ScCommonB
import proofs.«206634_g85779086836150_cont_9to1c4b_256_28_alg».proof.Proof.TcBodyB
import proofs.«206634_g85779086836150_cont_9to1c4b_256_28_alg».proof.Proof.Gen.Kernel.Launch
import proofs.«206634_g85779086836150_cont_9to1c4b_256_28_alg».proof.Proof.Gen.Kernel.Points
import Idealize.ShloMosaic.Lib.Pipeline.Regions
import Idealize.ShloMosaic.Lib.Pipeline.Value
import Idealize.ShloMosaic.Lib.Pipeline.FrameBody

set_option maxRecDepth 16384

noncomputable section

namespace Cert.Kernel.TcRegion

open Cert.Kernel Cert.Kernel.Gen Cert.Kernel.Sc Cert.Kernel.TcBody

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- The TensorCore's arrays when the call is reached, per device; what the TensorCore owes through the call.
variable (V : (c : Dev nD) → (b : Ref sig .tc) → Buf (Elt F) ((c : Thread nD τ).loc b))
variable (O : Dev nD → CellTallies nD τ sig (HIx 1))
-- A bound on the (own cell, index) pairs the core's waits have recorded, kept through the call.
variable (B : Dev nD → Set (SemLoc sig × HIx 1))

/-! ## The windows' blocks and the pipeline's proof data -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on device `c`: the arrays as found; after the body at point `t` each operand's staging buffer at its
    block and the result's at `outBlk` of the operands' blocks; no invariant of the body's own; the tallies owed unchanged. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (iblk V c 0 t) (iblk V c 1 t) (iblk V c 2 t) (iblk V c 3 t) (iblk V c 4 t) (iblk V c 5 t) (iblk V c 6 t)
  Φ _ := iprop(emp)
  q _ := fullShare
  owed _ := O c
  recorded _ := B c

theorem A_eq (c : Dev nD) (w : Fin cfg1.W) : (dats V O B 0 c).A w = V c (Pipeline.arrRef spec1 w) := by
  dsimp only [dats]

theorem after1_0 (c : Dev nD) (t : Fin cfg1.N) : (dats V O B 0 c).after 0 t = iblk V c 0 t := by dsimp only [dats]
theorem after1_1 (c : Dev nD) (t : Fin cfg1.N) : (dats V O B 0 c).after 1 t = iblk V c 1 t := by dsimp only [dats]
theorem after1_2 (c : Dev nD) (t : Fin cfg1.N) : (dats V O B 0 c).after 2 t = iblk V c 2 t := by dsimp only [dats]
theorem after1_3 (c : Dev nD) (t : Fin cfg1.N) : (dats V O B 0 c).after 3 t = iblk V c 3 t := by dsimp only [dats]
theorem after1_4 (c : Dev nD) (t : Fin cfg1.N) : (dats V O B 0 c).after 4 t = iblk V c 4 t := by dsimp only [dats]
theorem after1_5 (c : Dev nD) (t : Fin cfg1.N) : (dats V O B 0 c).after 5 t = iblk V c 5 t := by dsimp only [dats]
theorem after1_6 (c : Dev nD) (t : Fin cfg1.N) : (dats V O B 0 c).after 6 t = iblk V c 6 t := by dsimp only [dats]
theorem after1_7 (c : Dev nD) (t : Fin cfg1.N) : (dats V O B 0 c).after 7 t
    = outBlk (iblk V c 0 t) (iblk V c 1 t) (iblk V c 2 t) (iblk V c 3 t) (iblk V c 4 t) (iblk V c 5 t) (iblk V c 6 t) := by dsimp only [dats]

/-- Each operand's current staging buffer holds its block at every point, fetched there or not. -/
theorem before1_0 (c : Dev nD) (t : Fin cfg1.N) (d) : (dats V O B 0 c).before 0 t d = iblk V c 0 t :=
  ((dats V O B 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats V O B 0 c).before 1 t d = iblk V c 1 t :=
  ((dats V O B 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats V O B 0 c).before 2 t d = iblk V c 2 t :=
  ((dats V O B 0 c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats V O B 0 c).before 3 t d = iblk V c 3 t :=
  ((dats V O B 0 c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats V O B 0 c).before 4 t d = iblk V c 4 t :=
  ((dats V O B 0 c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dats V O B 0 c).before 5 t d = iblk V c 5 t :=
  ((dats V O B 0 c).before_in_eq_fetched 5 rfl (fun _ => rfl) (fun _ _ _ => rfl)
    (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dats V O B 0 c).before 6 t d = iblk V c 6 t :=
  ((dats V O B 0 c).before_in_eq_fetched 6 rfl (fun _ => rfl) (fun _ _ _ => rfl)
    (fun t => by rw [after1_6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats V O B 0 c).Φ t.castSucc ∗ (dats V O B 0 c).owesAt none t.castSucc
    ∗ (∃ d, owns (c : Thread nD τ) (st1_0 t) fullShare ((dats V O B 0 c).before 0 t d))
    ∗ (∃ d, owns (c : Thread nD τ) (st1_1 t) fullShare ((dats V O B 0 c).before 1 t d))
    ∗ (∃ d, owns (c : Thread nD τ) (st1_2 t) fullShare ((dats V O B 0 c).before 2 t d))
    ∗ (∃ d, owns (c : Thread nD τ) (st1_3 t) fullShare ((dats V O B 0 c).before 3 t d))
    ∗ (∃ d, owns (c : Thread nD τ) (st1_4 t) fullShare ((dats V O B 0 c).before 4 t d))
    ∗ (∃ d, owns (c : Thread nD τ) (st1_5 t) fullShare ((dats V O B 0 c).before 5 t d))
    ∗ (∃ d, owns (c : Thread nD τ) (st1_6 t) fullShare ((dats V O B 0 c).before 6 t d))
    ∗ (∃ d, owns (c : Thread nD τ) (st1_7 t) fullShare ((dats V O B 0 c).before 7 t d)))

/-- and what it returns. -/
def bodyPost (c : Dev nD) (t : Fin cfg1.N) : sProp 𝕄 :=
  iprop((dats V O B 0 c).Φ t.succ ∗ (dats V O B 0 c).owesAt none t.succ
    ∗ owns (c : Thread nD τ) (st1_0 t) fullShare ((dats V O B 0 c).after 0 t)
    ∗ owns (c : Thread nD τ) (st1_1 t) fullShare ((dats V O B 0 c).after 1 t)
    ∗ owns (c : Thread nD τ) (st1_2 t) fullShare ((dats V O B 0 c).after 2 t)
    ∗ owns (c : Thread nD τ) (st1_3 t) fullShare ((dats V O B 0 c).after 3 t)
    ∗ owns (c : Thread nD τ) (st1_4 t) fullShare ((dats V O B 0 c).after 4 t)
    ∗ owns (c : Thread nD τ) (st1_5 t) fullShare ((dats V O B 0 c).after 5 t)
    ∗ owns (c : Thread nD τ) (st1_6 t) fullShare ((dats V O B 0 c).after 6 t)
    ∗ owns (c : Thread nD τ) (st1_7 t) fullShare ((dats V O B 0 c).after 7 t))

/-- The body at any point: the operands' staging buffers hold their blocks, so the body's run applies; the invariant
    and what the core owes pass through unread. -/
theorem sound_body (c : Dev nD) (t : Fin cfg1.N) :
    bodyPre V O B c t ⊢ wp frame (wpE (defs₀ (F := F)) 𝒱₀ c none) Set.univ (bodyAt1 t) (fun _ => bodyPost V O B c t) := by
  unfold bodyPre bodyPost bodyAt1
  simp only [before1_0, before1_1, before1_2, before1_3, before1_4, before1_5, before1_6]
  rw [show (dats V O B 0 c).Φ t.succ = (dats V O B 0 c).Φ t.castSucc from rfl,
    show (dats V O B 0 c).owesAt none t.succ = (dats V O B 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ (grid1.coords t) _ _ _ _ _ _ _ _ _ _ _ _ _ _ _ _
    (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats V O B 0 c) (defs₀ (F := F)) 𝒱₀ none Set.univ := fun t => by
  rw [bigSep_W1, bigSep_W1]
  exact sound_body V O B c t

/-! ## The result array as one function of the operands -/

/-- The result window's printed index map over the grid: its block at point `t` is batch rows `[512 t, 512 t + 512)`,
    every feature, every lane. -/
theorem idx_facts7 : ∀ t : Fin cfg1.N, win1_7.index t (0 : Fin 3) = 0 ∧ win1_7.index t (1 : Fin 3) = t.val ∧ win1_7.index t (2 : Fin 3) = 0 :=
  (by decide +kernel : ∀ t : Fin grid1.N, win1_7.index t (0 : Fin 3) = 0 ∧ win1_7.index t (1 : Fin 3) = t.val ∧ win1_7.index t (2 : Fin 3) = 0)

/-- The grid point whose block holds batch row `i 1`, -/
def tOf (i : S43x4096x128.Idx) : Fin cfg1.N :=
  ⟨(i 1).val / 512, by have h : (i 1).val < 4096 := (i 1).isLt; have := N_1; show _ < grid1.N; omega⟩

/-- and the index inside that block. -/
def jOf (i : S43x4096x128.Idx) : S43x512x128.Idx := fun a =>
  match a with
  | ⟨0, _⟩ => ⟨(i 0).val, (i 0).isLt⟩
  | ⟨1, _⟩ => ⟨(i 1).val % 512, Nat.mod_lt _ (by decide)⟩
  | ⟨2, _⟩ => ⟨(i 2).val, (i 2).isLt⟩

/-- THE RESULT of the call as one function of its seven operands: at batch row `b`, the body's output block for the
    operands' blocks at point `b / 512` (the gathered rows, the numerical features and the pretrained embeddings move
    with the point; the weight rows, the projections, the scale and the shift are whole), read at row `b % 512`. -/
def regionOut (v1 : Vec F S26x4096x128 .f32) (v2 : Vec F S13x4096 .f32) (v3 : Vec F S13x128 .f32) (a2 : Vec F S4x4096x768 .f32)
    (a5 : Vec F S4x768x128 .f32) (v4 v5 : Vec F S1x128 .f32) : Vec F S43x4096x128 .f32 := fun i =>
  outBlk (((cfg1.win 0).blk (tOf i)).view.read (Elt F) v1) (((cfg1.win 1).blk (tOf i)).view.read (Elt F) v2)
    (((cfg1.win 2).blk (tOf i)).view.read (Elt F) v3) (((cfg1.win 3).blk (tOf i)).view.read (Elt F) a2)
    (((cfg1.win 4).blk (tOf i)).view.read (Elt F) a5) (((cfg1.win 5).blk (tOf i)).view.read (Elt F) v4)
    (((cfg1.win 6).blk (tOf i)).view.read (Elt F) v5) (jOf i)

/-- The same, of the arrays as the call finds them on device `c`. -/
def regionOutV (c : Dev nD) : Vec F S43x4096x128 .f32 :=
  regionOut (V c main_v1) (V c main_v2) (V c main_v3) (V c main_arg2) (V c main_arg5) (V c main_v4) (V c main_v5)

theorem tOf_emb (t : Fin cfg1.N) (j : S43x512x128.Idx) : tOf (((cfg1.win 7).blk t).view.emb j) = t := by
  obtain ⟨e0, e1, e2⟩ := idx_facts7 t
  apply Fin.ext
  show (win1_7.index t (1 : Fin 3) * 512 + 1 * (j 1).val) / 512 = t.val
  have hj : (j 1).val < 512 := (j 1).isLt
  omega

theorem jOf_emb (t : Fin cfg1.N) (j : S43x512x128.Idx) : jOf (((cfg1.win 7).blk t).view.emb j) = j := by
  obtain ⟨e0, e1, e2⟩ := idx_facts7 t
  funext a; apply Fin.ext
  match a with
  | ⟨0, _⟩ => show win1_7.index t (0 : Fin 3) * 43 + 1 * (j 0).val = (j 0).val; omega
  | ⟨1, _⟩ => show (win1_7.index t (1 : Fin 3) * 512 + 1 * (j 1).val) % 512 = (j 1).val; have hj : (j 1).val < 512 := (j 1).isLt; omega
  | ⟨2, _⟩ => show win1_7.index t (2 : Fin 3) * 128 + 1 * (j 2).val = (j 2).val; omega

theorem regionOut_emb (v1 : Vec F S26x4096x128 .f32) (v2 : Vec F S13x4096 .f32) (v3 : Vec F S13x128 .f32) (a2 : Vec F S4x4096x768 .f32)
    (a5 : Vec F S4x768x128 .f32) (v4 v5 : Vec F S1x128 .f32) (t : Fin cfg1.N) (j : S43x512x128.Idx) :
    regionOut v1 v2 v3 a2 a5 v4 v5 (((cfg1.win 7).blk t).view.emb j)
      = outBlk (((cfg1.win 0).blk t).view.read (Elt F) v1) (((cfg1.win 1).blk t).view.read (Elt F) v2)
          (((cfg1.win 2).blk t).view.read (Elt F) v3) (((cfg1.win 3).blk t).view.read (Elt F) a2)
          (((cfg1.win 4).blk t).view.read (Elt F) a5) (((cfg1.win 5).blk t).view.read (Elt F) v4)
          (((cfg1.win 6).blk t).view.read (Elt F) v5) j := by
  unfold regionOut; rw [tOf_emb, jOf_emb]

/-- Reading block `t` of any contents of the result array: the contents at the block's indices. -/
theorem read_blk7 (G : Vec F S43x4096x128 .f32) (t : Fin cfg1.N) (j : S43x512x128.Idx) :
    ((cfg1.win 7).blk t).view.read (Elt F) G j = G (((cfg1.win 7).blk t).view.emb j) := rfl

/-- The result's blocks tile its array: the write-back moves the whole staging buffer. -/
theorem cut7 (X : Vec F S43x512x128 .f32) (t : Fin cfg1.N) (j : S43x512x128.Idx) : (cfg1.win 7).cut (grid1.coords t) X j = X j := rfl

/-- WHAT POINT `t` WRITES BACK is block `t` of `regionOut` of the arrays as the call finds them. -/
theorem flushed7_eq (c : Dev nD) (t : Fin cfg1.N) :
    (dats V O B 0 c).flushed 7 t = ((cfg1.win 7).blk t).view.read (Elt F) (regionOutV V c) := by
  show (cfg1.win 7).cut (grid1.coords t) ((dats V O B 0 c).after 7 t) = _
  rw [after1_7]
  funext j
  rw [cut7, read_blk7]
  unfold regionOutV
  rw [regionOut_emb]
  unfold iblk
  rfl

/-- An index of the result is in point `t`'s block iff each coordinate is in the block's range on its axis. -/
theorem mem_blk7 (t : Fin cfg1.N) (i : S43x4096x128.Idx) :
    i ∈ ((cfg1.win 7).blk t).view.set ↔ ∀ a : Fin 3, win1_7.index t a * S43x512x128.size a ≤ (i a).val ∧ (i a).val < win1_7.index t a * S43x512x128.size a + S43x512x128.size a := by
  show i ∈ ((View.whole main_v6).slice (win1_7.rect t)).set ↔ _
  rw [View.set_slice_whole, Rect.mem_set_unit]
  exact Iff.rfl

/-- Every index of the result is in some point's block: the point of its batch row. -/
theorem cover7 (i : S43x4096x128.Idx) : ∃ t : Fin cfg1.N, (cfg1.win 7).flush t = true ∧ i ∈ ((cfg1.win 7).blk t).view.set := by
  refine ⟨tOf i, flush1_7 _, ?_⟩
  rw [mem_blk7]
  obtain ⟨e0, e1, e2⟩ := idx_facts7 (tOf i)
  have ht : (tOf i).val = (i 1).val / 512 := rfl
  have h0 : (i 0).val < 43 := (i 0).isLt
  have h1 : (i 1).val < 4096 := (i 1).isLt
  have h2 : (i 2).val < 128 := (i 2).isLt
  intro a
  match a with
  | ⟨0, _⟩ => show win1_7.index (tOf i) (0 : Fin 3) * 43 ≤ (i 0).val ∧ (i 0).val < win1_7.index (tOf i) (0 : Fin 3) * 43 + 43; omega
  | ⟨1, _⟩ => show win1_7.index (tOf i) (1 : Fin 3) * 512 ≤ (i 1).val ∧ (i 1).val < win1_7.index (tOf i) (1 : Fin 3) * 512 + 512; omega
  | ⟨2, _⟩ => show win1_7.index (tOf i) (2 : Fin 3) * 128 ≤ (i 2).val ∧ (i 2).val < win1_7.index (tOf i) (2 : Fin 3) * 128 + 128; omega

/-- THE RESULT ARRAY after the call. -/
theorem final7 (c : Dev nD) : (dats V O B 0 c).arrAt 7 cfg1.N = regionOutV V c :=
  (dats V O B 0 c).arrAt_eq_of_cover 7 (regionOutV V c) (fun t _ => flushed7_eq V O B c t) (cover7)

/-! ## The arrays after the call -/

/-- The TensorCore's arrays after the call: as found, but the result's. -/
def regionPost (c : Dev nD) : (b : Ref sig .tc) → Buf (Elt F) ((c : Thread nD τ).loc b) :=
  Function.update (V c) main_v6 (regionOutV V c)

theorem post_v6 (c : Dev nD) : regionPost V c main_v6 = regionOutV V c := by
  unfold regionPost; generalize regionOutV V c = G; exact Function.update_self _ _ _

theorem post_ne (c : Dev nD) (b : Ref sig .tc) (h : b ≠ main_v6) : regionPost V c b = V c b := by
  unfold regionPost; generalize regionOutV V c = G; exact Function.update_of_ne h _ _

/-- Each window's array after the last point is what `regionPost` says: an operand's as found, the result's by the cover. -/
theorem arrAt_post (c : Dev nD) : ∀ w : Fin cfg1.W, (dats V O B 0 c).arrAt w cfg1.N = regionPost V c (Pipeline.arrRef spec1 w)
  | ⟨0, _⟩ => ((dats V O B 0 c).arrAt_in 0 rfl _).trans ((A_eq V O B c 0).trans (post_ne V c _ (by decide)).symm)
  | ⟨1, _⟩ => ((dats V O B 0 c).arrAt_in 1 rfl _).trans ((A_eq V O B c 1).trans (post_ne V c _ (by decide)).symm)
  | ⟨2, _⟩ => ((dats V O B 0 c).arrAt_in 2 rfl _).trans ((A_eq V O B c 2).trans (post_ne V c _ (by decide)).symm)
  | ⟨3, _⟩ => ((dats V O B 0 c).arrAt_in 3 rfl _).trans ((A_eq V O B c 3).trans (post_ne V c _ (by decide)).symm)
  | ⟨4, _⟩ => ((dats V O B 0 c).arrAt_in 4 rfl _).trans ((A_eq V O B c 4).trans (post_ne V c _ (by decide)).symm)
  | ⟨5, _⟩ => ((dats V O B 0 c).arrAt_in 5 rfl _).trans ((A_eq V O B c 5).trans (post_ne V c _ (by decide)).symm)
  | ⟨6, _⟩ => ((dats V O B 0 c).arrAt_in 6 rfl _).trans ((A_eq V O B c 6).trans (post_ne V c _ (by decide)).symm)
  | ⟨7, _⟩ => (final7 V O B c).trans (post_v6 V c).symm

/-! ## The call as a region of the TensorCore's program -/

/-- The prefetched tables' admissible contents: no table. -/
abbrev adm : (p : Fin 1) → (pcfgs (F := F) p).Adm := fun p => (cfgs p).toPCfg_adm

/-- What the core owes, its recorded pairs within the bound: it rides through the call untouched. -/
abbrev R (c : Dev nD) : sProp 𝕄 := iprop(∃ W, ⌜↑W ⊆ B c⌝ ∗ owes (c : Thread nD τ) (O c) W)

/-- The windows' arrays at their final contents and the arrays no window stages are the TensorCore's arrays at
    `regionPost`. -/
theorem exit_bufs (c : Dev nD) :
    iprop((dats V O B 0 c).arrays ((dats V O B 0 c).arrAt · cfg1.N) ∗ Pipeline.unscopedRest (Ix := HIx 1) (Name := ℕ) (U := UU) (Lvl := ℕ) spec1 c (V c))
      ⊢ (unscopedBufs c (regionPost V c) : sProp 𝕄) := by
  rw [Pipeline.unscopedBufs_split cfgs 0 launch1.win.arr_unscoped launch1.win.arr_inj c (regionPost V c),
    Pipeline.arrays_eq cfgs (dats V O B) 0 c launch1.arr_whole ((dats V O B 0 c).share_full fun _ => rfl)]
  refine sep_mono (Entails.of_eq (bigSep_congr fun w _ => by rw [arrAt_post])) (Entails.of_eq ?_)
  rw [unscopedRest1_eq, unscopedRest1_eq]
  rw [post_ne V c main_arg0 (by decide), post_ne V c main_arg1 (by decide), post_ne V c main_arg3 (by decide), post_ne V c main_arg4 (by decide),
    post_ne V c main_arg6 (by decide), post_ne V c main_arg7 (by decide), post_ne V c main_v0 (by decide), post_ne V c main_v7 (by decide)]

variable (L : GSem nD τ sig → Finset (HIx 1)) (lv : GSem nD τ sig → HIx 1 → ℕ)

set_option backward.isDefEq.respectTransparency.types false in
/-- THE REGION: the generated layout, no semaphore of the kernel's own, the body obligation; entered from the
    TensorCore's arrays at `V` and what the core owes, left with the arrays at `regionPost` and the same owed. The waits
    of the pipeline's staging cells sit at index `none`, below everything the core owes (`hO`). -/
def reg (hB : ∀ (c : Dev nD) (sm : SemLoc sig), (sm, (none : HIx 1)) ∈ B c)
    (hO : ∀ (c : Dev nD) (sm : SemLoc sig), (levAts L lv : sProp 𝕄) ⊢ MayWait (c : Thread nD τ) sm none (O c)) :
    Pipeline.RegionSeg (pcfgs (F := F)) adm (dats V O B) none defs₀ 𝒱₀ L lv 0 where
  win := launch1.win.to₀
  block_pos := launch1.block_pos
  stage_whole := launch1.stage_whole
  K := PEmpty
  osem := fun k => k.elim
  ho := Pipeline.OwnSemFacts.none _
  hbody c := (body_obligation V O B c).loose
  hwaits c := Pipeline.cellsWaits_intro _ _ _ _ c fun w s t => hO c _
  pre c := iprop(unscopedBufs c (V c) ∗ R O B c)
  post c := iprop(unscopedBufs c (regionPost V c) ∗ R O B c)
  X _ := iprop(emp)
  Y _ := iprop(emp)
  Z c := Pipeline.unscopedRest spec1 c (V c)
  hentry c := by
    have hsplit := Pipeline.arrays_of_unscopedBufs (pcfgs (F := F)) adm (dats V O B) launch1.win launch1.arr_whole c
      ((dats V O B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hrest
  hin c := by
    rw [show (dats V O B 0 c).Φ 0 = iprop(emp) from rfl]
    iintro -; iempintro
  hout c := by
    rw [Pipeline.ownSems0_none, scopedRest1_eq, show (dats V O B 0 c).Φ (Fin.last cfg1.N) = iprop(emp) from rfl]
    iintro -
    isplitr; · iempintro
    isplitr <;> iempintro
  hexit c := by
    iintro ⟨Ha, HO, -, HZ⟩
    imodintro
    isplitr [HO]
    · iapply (exit_bufs V O B c); isplitl [Ha] <;> iassumption
    · unfold Pipeline.Dat.owesAt Pipeline.owesWithin
      icases HO with ⟨%W, %hW, HO⟩; iexists W; isplitr
      · ipureintro
        intro p hp
        rcases hW hp with h | ⟨w, s, rfl⟩
        · exact h
        · exact hB c _
      iexact HO

set_option backward.isDefEq.respectTransparency.types false in
/-- The call in the pipeline's own signature. -/
theorem wp_tcRegion₀ (hB : ∀ (c : Dev nD) (sm : SemLoc sig), (sm, (none : HIx 1)) ∈ B c)
    (hO : ∀ (c : Dev nD) (sm : SemLoc sig), (levAts L lv : sProp 𝕄) ⊢ MayWait (c : Thread nD τ) sm none (O c))
    (d : Dev nD) (Φ : PUnit → sProp 𝕄) :
    iprop(boundary (T d) ∗ unscopedBufs d (V d) ∗ (∃ W, ⌜↑W ⊆ B d⌝ ∗ owes (T d) (O d) W) ∗ levAts L lv
        ∗ Pipeline.cellsGhost cfgs ER 0 d ∗ Pipeline.toksInit cfgs ER 0 d
        ∗ (iprop(boundary (T d) ∗ unscopedBufs d (regionPost V d) ∗ ∃ W, ⌜↑W ⊆ B d⌝ ∗ owes (T d) (O d) W) -∗ Φ ⟨⟩))
      ⊢ wp frame (wpE (D (F := F)) 𝒱 (T d) none) Set.univ (Prog.lift (.customCall (Pipeline.entry 0) ())) Φ := by
  have h := Pipeline.RegionSeg.wp (pcfgs (F := F)) adm (dats V O B) none cellOf_inj ER defs₀ 𝒱₀ L lv (reg V O B L lv hB hO) d none
    (fun _ h => nomatch h) (fun _ => Prog.ret ⟨⟩) Φ
  have hpost : (reg V O B L lv hB hO).post d = iprop(unscopedBufs d (regionPost V d) ∗ R O B d) := rfl
  have hpre : (reg V O B L lv hB hO).pre d = iprop(unscopedBufs d (V d) ∗ R O B d) := rfl
  rw [hpost, hpre] at h
  refine BIBase.Entails.trans ?_ h
  iintro ⟨Hb, Hub, HO, #Hlev, Hg, Ht, Hk⟩
  isplitl [Hk]
  · iintro ⟨Hb, Hub, HO⟩
    rw [wp_ret]; imodintro
    iapply Hk
    isplitl [Hb]; · iexact Hb
    isplitl [Hub] <;> iassumption
  isplitl [Hb]; · iexact Hb
  isplitl [Hub HO]
  · isplitl [Hub] <;> iassumption
  isplitr; · iexact Hlev
  isplitl [Hg] <;> iassumption

/-- The call line of the program is the pipeline's call, lifted to the program's signature. -/
theorem lift_call : (SparseCore.liftProg (Q := 1) (Prog.lift (.customCall (Pipeline.entry (0 : Fin 1)) ())
      : Prog (TpuEff nD τ sig (Elt F) (ΛP (F := F)) .tc) PUnit))
    = Prog.lift (.customCall (SparseCore.inner (Pipeline.entry 0)) ()) := rfl

/-- THE CALL on the TensorCore of device `d`, in the program's own signature: from the region boundary, the TensorCore's
    arrays at `V d`, what the core owes, the level facts and the ghost state of the pipeline's staging cells, the call
    line runs to the boundary, the arrays at `regionPost V d` (only the result's buffer changed) and the same owed. -/
theorem wp_tcRegion (hB : ∀ (c : Dev nD) (sm : SemLoc sig), (sm, (none : HIx 1)) ∈ B c)
    (hO : ∀ (c : Dev nD) (sm : SemLoc sig), (levAts L lv : sProp 𝕄) ⊢ MayWait (c : Thread nD τ) sm none (O c))
    (d : Dev nD) (Φ : PUnit → sProp 𝕄) :
    iprop(boundary (T d) ∗ unscopedBufs d (V d) ∗ (∃ W, ⌜↑W ⊆ B d⌝ ∗ owes (T d) (O d) W) ∗ levAts L lv
        ∗ Pipeline.cellsGhost cfgs ER 0 d ∗ Pipeline.toksInit cfgs ER 0 d
        ∗ (iprop(boundary (T d) ∗ unscopedBufs d (regionPost V d) ∗ ∃ W, ⌜↑W ⊆ B d⌝ ∗ owes (T d) (O d) W) -∗ Φ ⟨⟩))
      ⊢ wp frame (wpE ((K (F := F)).defs D) 𝒱 (T d) none) Set.univ
          (Prog.lift (.customCall (SparseCore.inner (Pipeline.entry 0)) ())) Φ := by
  have hl := (K (F := F)).wp_liftProg (nD := nD) (Name := ℕ) (U := UU) D 𝒱 (T d) Set.univ none (Prog.lift (.customCall (Pipeline.entry 0) ())) Φ
  rw [lift_call] at hl
  exact (wp_tcRegion₀ V O B L lv hB hO d Φ).trans hl

end Cert.Kernel.TcRegion

end
-- ==== Proof.ScLaunchB.lean ====
/-
  The launch of the kernel program: the gather kernel's thirty-two vector subcores each run the kernel body
  once on their own row of the index array, their own twenty-six output slabs and a read share of the tables; the
  TensorCore reshapes the index array, starts the SparseCores and waits for them, reshapes four more arguments, runs
  the layer-norm call and transposes its result. From a proof of one subcore's body, a proof of the layer-norm call
  and the split of the three arrays among the subcores, every weakly fair execution of all the threads terminates
  with the eight argument arrays unchanged.
-/
import proofs.«206634_g85779086836150_cont_9to1c4b_256_28_alg».proof.Defs
import proofs.«206634_g85779086836150_cont_9to1c4b_256_28_alg».proof.Proof.ScSplitB
import proofs.«206634_g85779086836150_cont_9to1c4b_256_28_alg».proof.Proof.PreFacts
import proofs.«206634_g85779086836150_cont_9to1c4b_256_28_alg».proof.Proof.Gen.Kernel.Launch
import proofs.«206634_g85779086836150_cont_9to1c4b_256_28_alg».proof.Proof.TcRegionB
import Idealize.ShloMosaic.Lib.SparseCore.Launch
import Idealize.ShloMosaic.Lib.StableHlo.Run
import Idealize.ShloMosaic.Lib.Pipeline.Kit
import Idealize.ShloMosaic.Lib.Pipeline.Sound
import Idealize.ShloMosaic.Lib.Pipeline.Frame
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type} [FloatOps F]

local notation "𝕄" => MT nD τ sig (HIx 1) (Elt F) ℕ UU ℕ

/-! ## The launch memory, and what the index array holds when the SparseCores are started -/

variable (m : (ℓ : Loc nD τ sig) → Buf (Elt F) ℓ) (ρ : Dev nD → PrngReg)

/-- The launch valuation of device `d`. -/
def W0 (d : Dev nD) : Valuation τ sig (Elt F) := fun b => m (d, b)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev v0' : DevRef τ sig := Proc.devRef .tc (main_v0 : Ref sig .tc)
abbrev v1' : DevRef τ sig := Proc.devRef .tc (main_v1 : Ref sig .tc)
abbrev v6' : DevRef τ sig := Proc.devRef .tc (main_v6 : Ref sig .tc)

/-- @main's host operations. -/
abbrev opR0 : HloOp τ sig (Elt F) := StableHlo.reshape main_arg1 main_v0 rfl shapeCasts_S26x4096_S32x26x128
abbrev opR2 : HloOp τ sig (Elt F) := StableHlo.reshape main_arg0 main_v2 rfl shapeCasts_S13x4096x1_S13x4096
abbrev opR3 : HloOp τ sig (Elt F) := StableHlo.reshape main_arg4 main_v3 rfl shapeCasts_S13x1x128_S13x128
abbrev opR4 : HloOp τ sig (Elt F) := StableHlo.reshape main_arg6 main_v4 rfl shapeCasts_S128_S1x128
abbrev opR5 : HloOp τ sig (Elt F) := StableHlo.reshape main_arg7 main_v5 rfl shapeCasts_S128_S1x128
abbrev opT7 : HloOp τ sig (Elt F) := StableHlo.unary main_v6 main_v7 ((transpose S4096x43x128 [1, 0, 2] · transposes_S43x4096x128_S4096x43x128_1_0_2) : (⟨S43x4096x128, .f32⟩ : BufTy).Contents (Elt F) → (⟨S4096x43x128, .f32⟩ : BufTy).Contents (Elt F))

/-- The valuation after the first reshape. -/
def W1 (d : Dev nD) : Valuation τ sig (Elt F) := (opR0 (F := F)).result (W0 m d)

/-- The index array as the kernel reads it: the reshape of the categorical features. -/
def fI (d : Dev nD) : Buf (Elt F) (iLoc d) := W1 m d v0'

/-! ## What the handshakes carry -/

-- What "the worker's slabs hold the gathered rows" says of the output array; abstract here.
variable (OutOk : (d : Dev nD) → Buf (Elt F) (tLoc d) → Buf (Elt F) (iLoc d) → grid0.Coords → Buf (Elt F) (oLoc d) → Prop)

/-- What a vector subcore is handed: its read token of the tables, its row of the index array, its slabs. -/
def goR (d : Dev nD) (L : grid0.Coords) : sProp 𝕄 :=
  iprop((tLoc d ↦{tokQ (wOf L)} m (tLoc d)) ∗ (iLoc d ↦[(iRowK L).view.set]{fullShare} fI m d) ∗ (oLoc d ↦[oSetL L]{fullShare} m (oLoc d)))

/-- What it hands back: the same, its slabs at the gathered rows. -/
def tdR (d : Dev nD) (L : grid0.Coords) : sProp 𝕄 :=
  iprop((tLoc d ↦{tokQ (wOf L)} m (tLoc d)) ∗ (iLoc d ↦[(iRowK L).view.set]{fullShare} fI m d)
    ∗ (∃ f, ⌜OutOk d (m (tLoc d)) (fI m d) L f⌝ ∗ oLoc d ↦[oSetL L]{fullShare} f))

/-- A SparseCore is handed its sixteen subcores' shares, and hands them back. -/
def P : (K (F := F)).Pay (nD := nD) (Val := Elt F) (Name := ℕ) (U := UU) where
  st := fun q d c => match q with
    | 0 => bigSep Finset.univ fun i : Fin ((K (F := F)).nSub 0) => goR m d (coordsV (Fin.cast nCore_zero c) (Fin.cast nSub_zero i))
  dn := fun q d c => match q with
    | 0 => bigSep Finset.univ fun i : Fin ((K (F := F)).nSub 0) => tdR m OutOk d (coordsV (Fin.cast nCore_zero c) (Fin.cast nSub_zero i))
  go := fun q d c i => match q with
    | 0 => goR m d (coordsV (Fin.cast nCore_zero c) (Fin.cast nSub_zero i))
  td := fun q d c i => match q with
    | 0 => tdR m OutOk d (coordsV (Fin.cast nCore_zero c) (Fin.cast nSub_zero i))
  x := fun _ _ => iprop(emp)

instance goR_storable (d : Dev nD) (L : grid0.Coords) : BI.Storable (upEmb : UEmb _ 𝕄) (goR m d L) := by unfold goR; infer_instance
instance tdR_storable (d : Dev nD) (L : grid0.Coords) : BI.Storable (upEmb : UEmb _ 𝕄) (tdR m OutOk d L) := by unfold tdR; infer_instance

instance P_storable : (P (F := F) m OutOk).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## The subcore's task -/

/-- The kernel body's proof at one vector subcore, as the launch takes it. -/
def TileBody : Prop :=
  ∀ (hF : (K (F := F)).Facts) (d : Dev nD) (L : grid0.Coords) (ft : Buf (Elt F) (tLoc d)) (fi : Buf (Elt F) (iLoc d)) (fo : Buf (Elt F) (oLoc d))
    (hin : ∀ j, (fi j).toNat < 100001) (O : CellTallies nD τ sig (HIx 1)) (W : Waits sig (HIx 1)) (hO : ∀ g, O g none = 0),
    iprop((levAts (K (F := F)).L (K (F := F)).lev : sProp 𝕄) ∗ emp
        ∗ ((tLoc d ↦{tokQ (wOf L)} ft) ∗ (iLoc d ↦[(iRowK L).view.set]{fullShare} fi) ∗ (oLoc d ↦[oSetL L]{fullShare} fo))
        ∗ scopedBufs (VT d L) ∗ scopedSems0 (VT d L) ∗ owes (VT d L) O W)
      ⊢ wp frame (wpE (defs₀ (F := F)) 𝒱₀ (VT d L) none) Set.univ
          (cc0_k L tV (Memref.isWhole_whole _) iV (Memref.isWhole_whole _) oV (Memref.isWhole_whole _) sI (Memref.isWhole_whole _) sB (Memref.isWhole_whole _) cc0_scratch2 cc0_scratch3 cc0_scoped0)
          fun _ => iprop(((tLoc d ↦{tokQ (wOf L)} ft) ∗ (iLoc d ↦[(iRowK L).view.set]{fullShare} fi) ∗ (∃ f, ⌜OutOk d ft fi L f⌝ ∗ oLoc d ↦[oSetL L]{fullShare} f))
            ∗ scopedBufs (VT d L) ∗ scopedSems0 (VT d L) ∗ ∃ W', ⌜∀ p ∈ W', p ∈ W ∨ p.2 = none⌝ ∗ owes (VT d L) O W')

/-- It speaks of the output array on the worker's slabs only. -/
def OkLocal : Prop :=
  ∀ (d : Dev nD) (ft : Buf (Elt F) (tLoc d)) (fi : Buf (Elt F) (iLoc d)) (L : grid0.Coords) (f f' : Buf (Elt F) (oLoc d)),
    (∀ x ∈ oSetL L, f x = f' x) → OutOk d ft fi L f → OutOk d ft fi L f'

/-- Every row number the kernel reads names a row of its table. -/
def PreOK : Prop := ∀ (d : Dev nD) (j : S32x26x128.Idx), (fI m d j).toNat < 100001

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sI (Memref.isWhole_whole _) sB (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBody (F := F) OutOk) (hF : (K (F := F)).Facts) (hpre : PreOK m) :
    (K (F := F)).TileObl (D (F := F)) 𝒱 (P m OutOk) v₀ 0 := by
  intro d c i O W hO _ _
  simp only [show (P m OutOk).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile hF d (coordsV ⟨_, hc.1⟩ ⟨_, hc.2⟩) (m (tLoc d)) (fI m d) (m (oLoc d)) (hpre d) O W hO).trans (wp_mono frame _ _ fun _ => obl_post)

theorem vecSplit : (K (F := F)).VecSplit' (P m OutOk) 0 := by
  intro d c
  show (bigSep Finset.univ fun i : Fin ((K (F := F)).nSub 0) => goR m d (coordsV (Fin.cast nCore_zero c) (Fin.cast nSub_zero i)))
    ⊢ |={Set.univ}=> iprop((bigSep Finset.univ fun i : Fin ((K (F := F)).nSub 0) => goR m d (coordsV (Fin.cast nCore_zero c) (Fin.cast nSub_zero i)))
      ∗ ((bigSep Finset.univ fun i : Fin ((K (F := F)).nSub 0) => tdR m OutOk d (coordsV (Fin.cast nCore_zero c) (Fin.cast nSub_zero i)))
          -∗ bigSep Finset.univ fun i : Fin ((K (F := F)).nSub 0) => tdR m OutOk d (coordsV (Fin.cast nCore_zero c) (Fin.cast nSub_zero i))))
  iintro H; imodintro
  isplitl [H]; · iexact H
  iintro H; iexact H

/-! ## The launch element: the handshakes' rounds, the layer-norm call's staging cells; the counters are dropped -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside the launch's deal: the staging cells' ghost state and duty tokens. -/
abbrev G (d : Dev nD) : sProp 𝕄 := iprop(Pipeline.cellsGhost cfgs ER 0 d ∗ Pipeline.toksInit cfgs ER 0 d)

omit [FloatOps F] in
theorem bigSep_emp' {I : Type} (s : Finset I) : (bigSep s fun _ => iprop(emp)) = (iprop(emp) : sProp 𝕄) := bigSep_emp_const s

omit [FloatOps F] in
theorem own_ER (x : UP) : (BI.own (((Emb.inl : Emb UP (UP × Counters)).trans embR : Emb UP 𝕄) x) : sProp 𝕄) ⊢ BI.own ((ER : Emb UP 𝕄) x) := by
  unfold ER; exact BI.Entails.refl _

theorem G_eq : (bigSep Finset.univ fun d : Dev nD => G (F := F) d)
    = iprop((bigSep Finset.univ fun c : Dev nD => bigSep Finset.univ fun p : Fin 1 => Pipeline.cellsGhost cfgs (ER (F := F)) p c)
        ∗ (bigSep Finset.univ fun c : Dev nD => bigSep Finset.univ fun p : Fin 1 => (Pipeline.toksInit cfgs (ER (F := F)) p c : sProp 𝕄))) := by
  unfold G
  rw [bigSep_sep']
  congr 1
  · exact (bigSep_congr fun d _ => (bigSep_univ_of_subsingleton (0 : Fin 1) (Φ := fun p : Fin 1 => (Pipeline.cellsGhost cfgs (ER (F := F)) p d : sProp 𝕄)))).symm
  · exact (bigSep_congr fun d _ => (bigSep_univ_of_subsingleton (0 : Fin 1) (Φ := fun p : Fin 1 => (Pipeline.toksInit cfgs (ER (F := F)) p d : sProp 𝕄)))).symm

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m OutOk).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨Hup, -⟩
  ihave Hup2 := (own_ER (F := F) _) $$ Hup
  imod (Pipeline.fund_ghost (nD := nD) (τ := τ) cfgs (ER (F := F)) cellOf_inj) $$ Hup2 with ⟨Hg, Ht⟩
  imodintro
  isplitl [HH]; · iexact HH
  isplitl [Hg Ht]
  · rw [G_eq]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays: all sixteen are unscoped. -/
abbrev UC : Finset (DevRef τ sig) := Pipeline.ucRefs τ sig

omit [FloatOps F] in
theorem mem_UC (b : Ref sig .tc) (h : (Proc.devRef (τ := τ) .tc b).isScoped = false) : Proc.devRef .tc b ∈ UC :=
  Finset.mem_filter.mpr ⟨StableHlo.devRef_mem_tcRefs b, by rw [h]; exact Bool.false_ne_true⟩

/-- The three arrays the SparseCores work on; the eight arguments. -/
abbrev S3 : Finset (DevRef τ sig) := {a3', v0', v1'}
abbrev S8 : Finset (DevRef τ sig) := {a0', a1', a2', a3', a4', a5', a6', a7'}

omit [FloatOps F] in
theorem S3_sub : (S3 : Finset (DevRef τ sig)) ⊆ UC :=
  Finset.insert_subset (mem_UC _ (by decide)) (Finset.insert_subset (mem_UC _ (by decide)) (Finset.singleton_subset_iff.mpr (mem_UC _ (by decide))))
omit [FloatOps F] in
theorem S8_sub : (S8 : Finset (DevRef τ sig)) ⊆ UC :=
  Finset.insert_subset (mem_UC _ (by decide)) (Finset.insert_subset (mem_UC _ (by decide)) (Finset.insert_subset (mem_UC _ (by decide))
    (Finset.insert_subset (mem_UC _ (by decide)) (Finset.insert_subset (mem_UC _ (by decide)) (Finset.insert_subset (mem_UC _ (by decide))
      (Finset.insert_subset (mem_UC _ (by decide)) (Finset.singleton_subset_iff.mpr (mem_UC _ (by decide)))))))))

omit [FloatOps F] in
theorem held_S3 (d : Dev nD) (W : Valuation τ sig (Elt F)) :
    (held (T d) S3 W : sProp 𝕄) = iprop((tLoc d ↦{fullShare} W a3') ∗ (iLoc d ↦{fullShare} W v0') ∗ (oLoc d ↦{fullShare} W v1')) := by
  unfold held S3
  rw [SparseCore.bigSep_insert' (by decide), SparseCore.bigSep_insert' (by decide), bigSep_singleton]

/-- The valuations @main passes through: the output array at what the kernel left, the four reshapes, the layer-norm
    call's result, the transpose. -/
def W2 (d : Dev nD) (f : Buf (Elt F) (oLoc d)) : Valuation τ sig (Elt F) := Function.update (W1 m d) v1' f
def W3 (d : Dev nD) (f : Buf (Elt F) (oLoc d)) : Valuation τ sig (Elt F) := (opR2 (F := F)).result (W2 m d f)
def W4 (d : Dev nD) (f : Buf (Elt F) (oLoc d)) : Valuation τ sig (Elt F) := (opR3 (F := F)).result (W3 m d f)
def W5 (d : Dev nD) (f : Buf (Elt F) (oLoc d)) : Valuation τ sig (Elt F) := (opR4 (F := F)).result (W4 m d f)
def W6 (d : Dev nD) (f : Buf (Elt F) (oLoc d)) : Valuation τ sig (Elt F) := (opR5 (F := F)).result (W5 m d f)
/-- The TensorCore's arrays when the layer-norm call is reached. -/
def VR (d : Dev nD) (f : Buf (Elt F) (oLoc d)) : (c : Dev nD) → (b : Ref sig .tc) → Buf (Elt F) ((SparseCore.T c : Thread nD τ).loc b) :=
  fun _ b => W6 m d f (Proc.devRef .tc b)
def W7 (d : Dev nD) (f : Buf (Elt F) (oLoc d)) : Valuation τ sig (Elt F) :=
  Function.update (W6 m d f) v6' (TcRegion.regionPost (VR m d f) d main_v6)
def W8 (d : Dev nD) (f : Buf (Elt F) (oLoc d)) : Valuation τ sig (Elt F) := (opT7 (F := F)).result (W7 m d f)

theorem W1_eq (d : Dev nD) : (opR0 (F := F)).result (W0 m d) = W1 m d := rfl
theorem W3_eq (d : Dev nD) (f : Buf (Elt F) (oLoc d)) : (opR2 (F := F)).result (W2 m d f) = W3 m d f := rfl
theorem W4_eq (d : Dev nD) (f : Buf (Elt F) (oLoc d)) : (opR3 (F := F)).result (W3 m d f) = W4 m d f := rfl
theorem W5_eq (d : Dev nD) (f : Buf (Elt F) (oLoc d)) : (opR4 (F := F)).result (W4 m d f) = W5 m d f := rfl
theorem W6_eq (d : Dev nD) (f : Buf (Elt F) (oLoc d)) : (opR5 (F := F)).result (W5 m d f) = W6 m d f := rfl
theorem W8_eq (d : Dev nD) (f : Buf (Elt F) (oLoc d)) : (opT7 (F := F)).result (W7 m d f) = W8 m d f := rfl

theorem hR0 : (opR0 (F := F)).bufs ⊆ UC := Pipeline.sub_ucRefs _ (StableHlo.reshape_bufs_sub _ _ _ _ _ _)
theorem hR2 : (opR2 (F := F)).bufs ⊆ UC := Pipeline.sub_ucRefs _ (StableHlo.reshape_bufs_sub _ _ _ _ _ _)
theorem hR3 : (opR3 (F := F)).bufs ⊆ UC := Pipeline.sub_ucRefs _ (StableHlo.reshape_bufs_sub _ _ _ _ _ _)
theorem hR4 : (opR4 (F := F)).bufs ⊆ UC := Pipeline.sub_ucRefs _ (StableHlo.reshape_bufs_sub _ _ _ _ _ _)
theorem hR5 : (opR5 (F := F)).bufs ⊆ UC := Pipeline.sub_ucRefs _ (StableHlo.reshape_bufs_sub _ _ _ _ _ _)
theorem hT7 : (opT7 (F := F)).bufs ⊆ UC := Pipeline.sub_ucRefs _ (StableHlo.unary_bufs_sub _ _ _ _ _)

theorem W1_v0 (d : Dev nD) : W1 m d v0' = fI m d := rfl
theorem W1_a3 (d : Dev nD) : W1 m d a3' = m (tLoc d) :=
  StableHlo.reshape_result_ne _ _ _ _ _ _ (W0 m d) (show (main_arg3 : Ref sig .tc) ≠ main_v0 by decide)
theorem W1_v1 (d : Dev nD) : W1 m d v1' = m (oLoc d) :=
  StableHlo.reshape_result_ne _ _ _ _ _ _ (W0 m d) (show (main_v1 : Ref sig .tc) ≠ main_v0 by decide)
theorem W2_a3 (d : Dev nD) (f : Buf (Elt F) (oLoc d)) : W2 m d f a3' = m (tLoc d) :=
  (Function.update_of_ne (show a3' ≠ v1' by decide) _ _).trans (W1_a3 m d)
theorem W2_v0 (d : Dev nD) (f : Buf (Elt F) (oLoc d)) : W2 m d f v0' = fI m d := Function.update_of_ne (show v0' ≠ v1' by decide) _ _
theorem W2_v1 (d : Dev nD) (f : Buf (Elt F) (oLoc d)) : W2 m d f v1' = f := Function.update_self _ _ _

omit [FloatOps F] in
theorem v1_mem_S3 : (v1' : DevRef τ sig) ∈ (S3 : Finset (DevRef τ sig)) := by decide

theorem held_rest (d : Dev nD) (f : Buf (Elt F) (oLoc d)) :
    (held (T d) (UC \ S3) (W2 m d f) : sProp 𝕄) = held (T d) (UC \ S3) (W1 m d) :=
  held_congr (T d) fun b hb => show Function.update (W1 m d) v1' f b = W1 m d b from
    Function.update_of_ne (fun (e : b = v1') => (Finset.mem_sdiff.mp hb).2 (by rw [e]; exact v1_mem_S3)) _ _

/-- An argument array is at its launch contents all along. -/
theorem W8_arg (d : Dev nD) (f : Buf (Elt F) (oLoc d)) (r : Ref sig .tc) (h0 : r ≠ main_v0) (h1 : r ≠ main_v1) (h2 : r ≠ main_v2) (h3 : r ≠ main_v3)
    (h4 : r ≠ main_v4) (h5 : r ≠ main_v5) (h6 : r ≠ main_v6) (h7 : r ≠ main_v7) : W8 m d f (Proc.devRef .tc r) = W0 m d (Proc.devRef .tc r) := by
  unfold W8 W7 W6 W5 W4 W3 W2 W1
  rw [StableHlo.unary_result_ne _ _ _ _ _ _ h7, Function.update_of_ne (StableHlo.devRef_ne_of_ne h6), StableHlo.reshape_result_ne _ _ _ _ _ _ _ h5,
    StableHlo.reshape_result_ne _ _ _ _ _ _ _ h4, StableHlo.reshape_result_ne _ _ _ _ _ _ _ h3, StableHlo.reshape_result_ne _ _ _ _ _ _ _ h2,
    Function.update_of_ne (StableHlo.devRef_ne_of_ne h1), StableHlo.reshape_result_ne _ _ _ _ _ _ _ h0]

theorem held_S8 (d : Dev nD) (f : Buf (Elt F) (oLoc d)) : (held (T d) S8 (W8 m d f) : sProp 𝕄) = held (T d) S8 (W0 m d) :=
  held_congr (T d) fun b hb => by
    simp only [S8, Finset.mem_insert, Finset.mem_singleton] at hb
    rcases hb with rfl | rfl | rfl | rfl | rfl | rfl | rfl | rfl <;>
      exact W8_arg m d f _ (by decide) (by decide) (by decide) (by decide) (by decide) (by decide) (by decide) (by decide)

theorem pre_held (d : Dev nD) (f : Buf (Elt F) (oLoc d)) :
    (held (T d) UC (W6 m d f) : sProp 𝕄) = unscopedBufs d (VR m d f d) := (Pipeline.unscopedBufs_held d (W6 m d f)).symm

/-- The layer-norm call changes the result's buffer only. -/
theorem post_held (d : Dev nD) (f : Buf (Elt F) (oLoc d)) :
    (unscopedBufs d (TcRegion.regionPost (VR m d f) d) : sProp 𝕄) = held (T d) UC (W7 m d f) := by
  rw [← Pipeline.unscopedBufs_held d (W7 m d f)]
  refine congrArg (fun X => (unscopedBufs d X : sProp 𝕄)) (funext fun b => ?_)
  by_cases h : b = main_v6
  · subst h; unfold W7
    exact (Function.update_self (β := fun b : DevRef τ sig => b.ty.Contents (Elt F)) v6' _ (W6 m d f)).symm
  · rw [TcRegion.post_ne _ _ _ h]; unfold W7
    exact (Function.update_of_ne (β := fun b : DevRef τ sig => b.ty.Contents (Elt F)) (StableHlo.devRef_ne_of_ne h) _ (W6 m d f)).symm

theorem st0_eq (d : Dev nD) :
    (bigSep Finset.univ fun c : Fin ((K (F := F)).nCore 0) => (P m OutOk).st 0 d c)
      = bigSep Finset.univ fun c : Fin 2 => bigSep Finset.univ fun i : Fin 16 =>
          iprop((tLoc d ↦{tokQ (wOf (coordsV c i))} m (tLoc d)) ∗ (iLoc d ↦[(iRowK (coordsV c i)).view.set]{fullShare} fI m d) ∗ (oLoc d ↦[oSetL (coordsV c i)]{fullShare} m (oLoc d))) :=
  bigSep_congr fun c _ => (show (P m OutOk).st 0 d c = bigSep Finset.univ (fun i : Fin ((K (F := F)).nSub 0) => goR m d (coordsV (Fin.cast nCore_zero c) (Fin.cast nSub_zero i))) from rfl).trans
    (bigSep_congr fun i _ => rfl)
theorem dn0_eq (d : Dev nD) :
    (bigSep Finset.univ fun c : Fin ((K (F := F)).nCore 0) => (P m OutOk).dn 0 d c)
      = bigSep Finset.univ fun c : Fin 2 => bigSep Finset.univ fun i : Fin 16 =>
          iprop((tLoc d ↦{tokQ (wOf (coordsV c i))} m (tLoc d)) ∗ (iLoc d ↦[(iRowK (coordsV c i)).view.set]{fullShare} fI m d)
            ∗ ∃ f, ⌜OutOk d (m (tLoc d)) (fI m d) (coordsV c i) f⌝ ∗ oLoc d ↦[oSetL (coordsV c i)]{fullShare} f) :=
  bigSep_congr fun c _ => (show (P m OutOk).dn 0 d c = bigSep Finset.univ (fun i : Fin ((K (F := F)).nSub 0) => tdR m OutOk d (coordsV (Fin.cast nCore_zero c) (Fin.cast nSub_zero i))) from rfl).trans
    (bigSep_congr fun i _ => rfl)

abbrev v7' : DevRef τ sig := Proc.devRef .tc (main_v7 : Ref sig .tc)

/-- Every worker's slabs hold what `OutOk` says. -/
def OkAll (d : Dev nD) (f : Buf (Elt F) (oLoc d)) : Prop := ∀ c i, OutOk d (m (tLoc d)) (fI m d) (coordsV c i) f

/-- The eight argument arrays at their launch contents. -/
abbrev FIN0 (d : Dev nD) : sProp 𝕄 := held (T d) S8 (W0 m d)

/-- What @main leaves the claim: the arguments as launched, and the result at the transpose of the layer-norm call's
    output, computed from gathered rows `f` of which `OutOk` holds on every worker's slabs. -/
abbrev FIN (d : Dev nD) : sProp 𝕄 :=
  iprop(FIN0 m d ∗ ∃ f, ⌜OkAll m OutOk d f⌝ ∗ ((SparseCore.T d : Thread nD τ).loc main_v7 ↦{fullShare} W8 m d f v7'))

omit [FloatOps F] in
theorem v7_mem_rest : (v7' : DevRef τ sig) ∈ (UC \ S8 : Finset (DevRef τ sig)) :=
  Finset.mem_sdiff.mpr ⟨mem_UC _ (by decide), by decide⟩

theorem held_v7 (d : Dev nD) (f : Buf (Elt F) (oLoc d)) :
    (held (T d) (UC \ S8) (W8 m d f) : sProp 𝕄) ⊢ ((SparseCore.T d : Thread nD τ).loc main_v7 ↦{fullShare} W8 m d f v7') := by
  unfold held
  exact bigSep_elim (Φ := fun b : DevRef τ sig => (((SparseCore.T d : Thread nD τ).1, b) ↦{fullShare} W8 m d f b : sProp 𝕄)) v7_mem_rest

/-- The bound on the TensorCore's recorded waits after the SparseCore call. -/
def BT (c : Dev nD) : Set (SemLoc sig × HIx 1) := {p | (K (F := F)).lev ((SparseCore.T c : Thread nD τ), p.1) p.2 ≤ 8 * 1}

omit [FloatOps F] in
theorem hB (c : Dev nD) (sm : SemLoc sig) : (sm, (none : HIx 1)) ∈ BT (F := F) c := Nat.zero_le _

theorem hOw (c : Dev nD) (sm : SemLoc sig) :
    (levAts (K (F := F)).L (K (F := F)).lev : sProp 𝕄) ⊢ MayWait (T c) sm none ((K (F := F)).Otc c 1) :=
  (K (F := F)).mayWait_none sm (by rw [(K (F := F)).Otc_end c le_rfl]; intro g; rfl)

set_option maxHeartbeats 1600000 in
/-- @main on device `d`'s TensorCore. -/
theorem hmain (hloc : OkLocal (F := F) OutOk) (κ : GSem nD τ sig → ℕ) (d : Dev nD) :
    iprop((K (F := F)).ctx EH (P m OutOk) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m OutOk d) := by
  unfold SparseCore.Cfg.tcRes
  rw [show (unscopedBufs d (fun b => m ((SparseCore.T d).loc b)) : sProp 𝕄) = held (T d) UC (W0 m d) from Pipeline.unscopedBufs_held d (W0 m d)]
  simp only [main, wp_bind, wp_pure]
  iintro ⟨#Hctx, Hst, ⟨Hb, Hheld, -, -⟩, ⟨Hg, Ht⟩⟩
  -- the index array reshaped
  iapply (wp_hlo_within 𝒱 (SparseCore.T d) none Set.univ (op := opR0) (S := UC) hR0 (V := W0 m d)) $$ [Hb Hheld]
  · isplitl [Hb]; · iexact Hb
    iexact Hheld
  iintro ⟨Hb, Hheld⟩
  rw [wp_ret, W1_eq]; imodintro
  -- the SparseCore call: the three arrays out of the sixteen, split among the subcores, joined, put back
  ihave Hh := (Entails.of_eq (held_sub_split (T d) S3_sub (W1 m d))) $$ Hheld
  icases Hh with ⟨H3, Hrest⟩
  ihave H3' := (Entails.of_eq (held_S3 (F := F) d (W1 m d))) $$ H3
  rw [W1_a3, W1_v1, W1_v0]
  ihave Hs := (splitJoin OutOk hloc d (m (tLoc d)) (fI m d) (m (oLoc d))) $$ H3'
  icases Hs with ⟨Hgo, Hback⟩
  iapply ((K (F := F)).wp_run (D (F := F)) 𝒱 (EH := EH) (P := P m OutOk) κ d 0) $$ [Hst Hgo Hback Hb Hrest Hg Ht]
  isplitr; · iexact Hctx
  isplitl [Hst]; · iexact Hst
  isplitl [Hgo]
  · rw [st0_eq]; iexact Hgo
  iintro ⟨Hst, Hdn⟩
  ihave Hdn' := (Entails.of_eq (dn0_eq m OutOk d)) $$ Hdn
  ihave Hj := Hback $$ Hdn'
  icases Hj with ⟨Ht3, Hi3, %f, %hf, Ho3⟩
  ihave Hheld : held (T d) UC (W2 m d f) $$ [Ht3 Hi3 Ho3 Hrest]
  · iapply (Entails.of_eq (held_sub_split (T d) S3_sub (W2 m d f)).symm)
    isplitr [Hrest]
    · rw [held_S3, W2_a3, W2_v0, W2_v1]
      isplitl [Ht3]; · iexact Ht3
      isplitl [Hi3]; · iexact Hi3
      iexact Ho3
    · rw [held_rest]; iexact Hrest
  -- four more reshapes
  iapply (wp_hlo_within 𝒱 (SparseCore.T d) none Set.univ (op := opR2) (S := UC) hR2 (V := W2 m d f)) $$ [Hb Hheld]
  · isplitl [Hb]; · iexact Hb
    iexact Hheld
  iintro ⟨Hb, Hheld⟩
  rw [wp_ret, W3_eq]; imodintro
  iapply (wp_hlo_within 𝒱 (SparseCore.T d) none Set.univ (op := opR3) (S := UC) hR3 (V := W3 m d f)) $$ [Hb Hheld]
  · isplitl [Hb]; · iexact Hb
    iexact Hheld
  iintro ⟨Hb, Hheld⟩
  rw [wp_ret, W4_eq]; imodintro
  iapply (wp_hlo_within 𝒱 (SparseCore.T d) none Set.univ (op := opR4) (S := UC) hR4 (V := W4 m d f)) $$ [Hb Hheld]
  · isplitl [Hb]; · iexact Hb
    iexact Hheld
  iintro ⟨Hb, Hheld⟩
  rw [wp_ret, W5_eq]; imodintro
  iapply (wp_hlo_within 𝒱 (SparseCore.T d) none Set.univ (op := opR5) (S := UC) hR5 (V := W5 m d f)) $$ [Hb Hheld]
  · isplitl [Hb]; · iexact Hb
    iexact Hheld
  iintro ⟨Hb, Hheld⟩
  rw [wp_ret, W6_eq]; imodintro
  -- the layer-norm call
  unfold SparseCore.Cfg.tcSt
  icases Hst with ⟨⟨%Wt, %hWt, HO⟩, Hstrest⟩
  ihave Hlev := ((K (F := F)).ctx_levAts κ) $$ Hctx
  iapply (TcRegion.wp_tcRegion (VR m d f) (fun c => (K (F := F)).Otc c 1) (BT (F := F)) (K (F := F)).L (K (F := F)).lev hB hOw d) $$ [Hb Hheld HO Hg Ht Hstrest]
  isplitl [Hb]; · iexact Hb
  isplitl [Hheld]
  · iapply (Entails.of_eq (pre_held m d f)); iexact Hheld
  isplitl [HO]
  · iexists Wt; isplitr
    · ipureintro; exact fun p hp => hWt p (Finset.mem_coe.mp hp)
    · iexact HO
  isplitr; · iexact Hlev
  isplitl [Hg]; · iexact Hg
  isplitl [Ht]; · iexact Ht
  iintro ⟨Hb, Hub, %Wr, %hWr, HO⟩
  ihave Hheld := (Entails.of_eq (post_held m d f)) $$ Hub
  -- the transpose
  iapply (wp_hlo_within 𝒱 (SparseCore.T d) none Set.univ (op := opT7) (S := UC) hT7 (V := W7 m d f)) $$ [Hb Hheld]
  · isplitl [Hb]; · iexact Hb
    iexact Hheld
  iintro ⟨Hb, Hheld⟩
  rw [wp_ret, W8_eq]; imodintro; imodintro
  isplitl [HO Hstrest]
  · isplitl [HO]
    · iexists Wr; isplitr
      · ipureintro; exact fun p hp => hWr (Finset.mem_coe.mpr hp)
      · iexact HO
    · iexact Hstrest
  ihave Hh := (Entails.of_eq (held_sub_split (T d) S8_sub (W8 m d f))) $$ Hheld
  icases Hh with ⟨H8, Hr8⟩
  ihave H8' := (Entails.of_eq (held_S8 m d f)) $$ H8
  isplitl [H8']; · iexact H8'
  iexists f; isplitr
  · ipureintro; exact hf
  · iapply (held_v7 m d f); iexact Hr8

/-! ## The final memory and the claim -/

def fq (c : Dev nD) (s' : Phys nD τ sig (Elt F)) : Prop :=
  (s'.mem.mem ((SparseCore.T c : Thread nD τ).loc main_arg0) = m ((SparseCore.T c : Thread nD τ).loc main_arg0)
    ∧ s'.mem.mem ((SparseCore.T c : Thread nD τ).loc main_arg1) = m ((SparseCore.T c : Thread nD τ).loc main_arg1)
    ∧ s'.mem.mem ((SparseCore.T c : Thread nD τ).loc main_arg2) = m ((SparseCore.T c : Thread nD τ).loc main_arg2)
    ∧ s'.mem.mem ((SparseCore.T c : Thread nD τ).loc main_arg3) = m ((SparseCore.T c : Thread nD τ).loc main_arg3)
    ∧ s'.mem.mem ((SparseCore.T c : Thread nD τ).loc main_arg4) = m ((SparseCore.T c : Thread nD τ).loc main_arg4)
    ∧ s'.mem.mem ((SparseCore.T c : Thread nD τ).loc main_arg5) = m ((SparseCore.T c : Thread nD τ).loc main_arg5)
    ∧ s'.mem.mem ((SparseCore.T c : Thread nD τ).loc main_arg6) = m ((SparseCore.T c : Thread nD τ).loc main_arg6)
    ∧ s'.mem.mem ((SparseCore.T c : Thread nD τ).loc main_arg7) = m ((SparseCore.T c : Thread nD τ).loc main_arg7))
    ∧ ∃ f, OkAll m OutOk c f ∧ s'.mem.mem ((SparseCore.T c : Thread nD τ).loc main_v7) = W8 m c f v7'

theorem fin_agree (d : Dev nD) (s' : Phys nD τ sig (Elt F)) (b : DevRef τ sig) (hb : b ∈ (S8 : Finset (DevRef τ sig))) :
    iprop(FIN0 m d ∗ SI s') ⊢ (⌜s'.mem.mem (d, b) = W0 m d b⌝ : sProp 𝕄) := by
  show iprop(held (T d) S8 (W0 m d) ∗ SI s') ⊢ _
  unfold held
  iintro ⟨HF, HSI⟩
  ihave Hb := (SparseCore.ent (bigSep_elim (Φ := fun b : DevRef τ sig => (((SparseCore.T d : Thread nD τ).1, b) ↦{fullShare} W0 m d b : sProp 𝕄)) hb)) $$ HF
  ihave H := (SI_pointsTo_agree (st := s') (ℓ := (d, b)) (I := Finset.univ) (q := fullShare) (f := W0 m d b)) $$ [HSI Hb]
  · isplitl [HSI] <;> iassumption
  icases H with %h
  ipureintro; exact funext fun i => h i (Finset.mem_univ i)

theorem hfin (d : Dev nD) (s' : Phys nD τ sig (Elt F)) : iprop(FIN m OutOk d ∗ SI s') ⊢ (⌜fq m OutOk d s'⌝ : sProp 𝕄) := by
  iintro ⟨⟨H8, %f, %hf, Hv⟩, HSI⟩
  ihave Hx := (persistent_entails_right (SI_pointsTo_agree (st := s') (ℓ := (SparseCore.T d : Thread nD τ).loc main_v7) (I := Finset.univ) (q := fullShare) (f := W8 m d f v7'))) $$ [HSI Hv]
  · isplitl [HSI] <;> iassumption
  icases Hx with ⟨%hv, HSI, -⟩
  ihave H : iprop(FIN0 m d ∗ SI s') $$ [H8 HSI]
  · isplitl [H8] <;> iassumption
  ihave H := (persistent_entails_right (fin_agree m d s' a0' (by decide))) $$ H
  icases H with ⟨%h0, H⟩
  ihave H := (persistent_entails_right (fin_agree m d s' a1' (by decide))) $$ H
  icases H with ⟨%h1, H⟩
  ihave H := (persistent_entails_right (fin_agree m d s' a2' (by decide))) $$ H
  icases H with ⟨%h2, H⟩
  ihave H := (persistent_entails_right (fin_agree m d s' a3' (by decide))) $$ H
  icases H with ⟨%h3, H⟩
  ihave H := (persistent_entails_right (fin_agree m d s' a4' (by decide))) $$ H
  icases H with ⟨%h4, H⟩
  ihave H := (persistent_entails_right (fin_agree m d s' a5' (by decide))) $$ H
  icases H with ⟨%h5, H⟩
  ihave H := (persistent_entails_right (fin_agree m d s' a6' (by decide))) $$ H
  icases H with ⟨%h6, H⟩
  ihave H := (fin_agree m d s' a7' (by decide)) $$ H
  icases H with %h7
  ipureintro; exact ⟨⟨h0, h1, h2, h3, h4, h5, h6, h7⟩, f, hf, funext fun i => hv i (Finset.mem_univ i)⟩

def QC : PUnit × MemSt nD τ sig (Elt F) → Prop := fun r => ∀ c : Dev nD,
  (r.2.mem ((SparseCore.T c : Thread nD τ).loc main_arg0) = m ((SparseCore.T c : Thread nD τ).loc main_arg0)
    ∧ r.2.mem ((SparseCore.T c : Thread nD τ).loc main_arg1) = m ((SparseCore.T c : Thread nD τ).loc main_arg1)
    ∧ r.2.mem ((SparseCore.T c : Thread nD τ).loc main_arg2) = m ((SparseCore.T c : Thread nD τ).loc main_arg2)
    ∧ r.2.mem ((SparseCore.T c : Thread nD τ).loc main_arg3) = m ((SparseCore.T c : Thread nD τ).loc main_arg3)
    ∧ r.2.mem ((SparseCore.T c : Thread nD τ).loc main_arg4) = m ((SparseCore.T c : Thread nD τ).loc main_arg4)
    ∧ r.2.mem ((SparseCore.T c : Thread nD τ).loc main_arg5) = m ((SparseCore.T c : Thread nD τ).loc main_arg5)
    ∧ r.2.mem ((SparseCore.T c : Thread nD τ).loc main_arg6) = m ((SparseCore.T c : Thread nD τ).loc main_arg6)
    ∧ r.2.mem ((SparseCore.T c : Thread nD τ).loc main_arg7) = m ((SparseCore.T c : Thread nD τ).loc main_arg7))
    ∧ ∃ f, OkAll m OutOk c f ∧ r.2.mem ((SparseCore.T c : Thread nD τ).loc main_v7) = W8 m c f v7'

/-- The program's run: every weakly fair execution of all its threads terminates, the arguments unchanged, the result as `FIN` says. -/
theorem run_main [∀ e, Nonempty (Elt F e)] (hloc : OkLocal (F := F) OutOk) (htile : TileBody (F := F) OutOk) (hpre : PreOK m) :
    θ_run (Cert.Kernel.defs (F := F)) (Cert.Kernel.threads (F := F)) ⟨m, fun _ => 0, ρ⟩ (QC m OutOk) :=
  SparseCore.Cfg.θ_run_sc (K := K (F := F)) (D := D (F := F)) (𝒱 := 𝒱) (EH := EH) (P := P m OutOk) facts v₀
    (fun q hq => match q with | 0 => nomatch hq)
    (fun q _ => match q with | 0 => tileObl m OutOk htile facts hpre)
    (fun q _ => match q with | 0 => SparseCore.Cfg.VecSplit.of_plain (vecSplit m OutOk))
    m ρ main (fun d => G (F := F) d) (FIN m OutOk) (u₀ (F := F)) (sep_elim_left.trans (hu₀ m OutOk)) (hmain m ρ OutOk hloc) (fq m OutOk) (hfin m OutOk) (QC m OutOk) (fun _ h => h)

/-! ## The precondition's index range -/

theorem fI_apply (d : Dev nD) (j : S32x26x128.Idx) :
    fI m d j = m ((SparseCore.T d : Thread nD τ).loc main_arg1) (Shape.reshapeEquiv shapeCasts_S26x4096_S32x26x128 j) := by
  unfold fI W1
  rw [StableHlo.reshape_result]; rfl

theorem toNat_lt_of_range (v : BitVec 32) (h : 0 ≤ v.toInt ∧ v.toInt ≤ 99999) : v.toNat < 100001 := by
  have := v.isLt
  rw [BitVec.toInt_eq_toNat_cond] at h
  split at h <;> omega

theorem ok_of_pre (m : (ℓ : Loc nD τ sig) → Buf (Elt Bits) ℓ) (h : Cert.Pre_Kernel m) : PreOK (F := Bits) m := by
  intro d j
  rw [fI_apply]
  exact toNat_lt_of_range _ (Cert.PreFacts.range _ _ _ _ _ _ _ _ (h d) _)

/-- `Cert.frame_Kernel` (Defs.lean), from the body's proof at one subcore. -/
theorem frame (htile : TileBody (F := Bits) fun _ _ _ _ _ => True) : Cert.frame_Kernel := fun m ρ hpre =>
  (θ_run Cert.Kernel.defs _ _).mono (fun _ h c => (h c).1)
    (run_main (F := Bits) m ρ (fun _ _ _ _ _ => True) (fun _ _ _ _ _ _ _ _ => trivial) htile (ok_of_pre m hpre))

end Cert.Kernel.Sc

end
-- ==== Proof.ScBodyB.lean ====
/-
  The gather kernel's body as the launch takes it, from the body proved on its resources unpacked.

  The launch hands a vector subcore its read token of the tables, its row of the index array, its slabs of the
  result, and its own scratches and semaphores as two collections. The body's proof wants the token as four
  read shares (one per slot of the row scratch), the row scratch as its four slots, the list scratch whole, the
  nine semaphores it names one by one, the slabs as the kernel's whole-array view less everyone else's elements,
  and the evidence that the subcore may wait. This module converts one form into the other before the run and
  back after it, and keeps the rest of the subcore's scratches and semaphores aside during the run.
-/
import proofs.«206634_g85779086836150_cont_9to1c4b_256_28_alg».proof.Proof.ScTileB
import proofs.«206634_g85779086836150_cont_9to1c4b_256_28_alg».proof.Proof.ScTileResB
import proofs.«206634_g85779086836150_cont_9to1c4b_256_28_alg».proof.Proof.ScLaunchB

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (OutOk : (d : Dev nD) → Buf (Elt F) (tLoc d) → Buf (Elt F) (iLoc d) → grid0.Coords → Buf (Elt F) (oLoc d) → Prop)
variable (d : Dev nD) (L : grid0.Coords)

/-! ## The body's resources, unpacked -/

/-- What the body's proof starts from: the evidence that the subcore may wait, the four read shares of the
    tables, the row of the index array, the subcore's slabs as the whole-array view less the others' elements, the
    list scratch, the four slots of the row scratch, the nine semaphores at zero, and what the subcore owes. -/
def corePre (ft : Buf (Elt F) (tLoc d)) (fi : Buf (Elt F) (iLoc d)) (q : PosShare TreeShare)
    (O : CellTallies nD τ sig (HIx 1)) (W : Waits sig (HIx 1)) : sProp 𝕄 :=
  iprop((Transfers.MayWaits (VT d L) (none : HIx 1) O : sProp 𝕄)
    ∗ ((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
    ∗ ((iRowK L).view.loc (VT d L) ↦[(iRowK L).view.set]{fullShare} fi)
    ∗ (∃ fo : Buf (Elt F) ((oV).view.loc (VT d L)), (oV).view.loc (VT d L) ↦[Finset.univ \ (Finset.univ \ oSetL L)]{fullShare} fo)
    ∗ (∃ f0 : Buf (Elt F) ((sI).view.loc (VT d L)), (sI).view.loc (VT d L) ↦{fullShare} f0)
    ∗ (∃ f : Buf (Elt F) ((slotK 0).view.loc (VT d L)), (slotK 0).view.loc (VT d L) ↦[(slotK 0).view.set]{fullShare} f) ∗ (∃ f : Buf (Elt F) ((slotK 1).view.loc (VT d L)), (slotK 1).view.loc (VT d L) ↦[(slotK 1).view.set]{fullShare} f) ∗ (∃ f : Buf (Elt F) ((slotK 2).view.loc (VT d L)), (slotK 2).view.loc (VT d L) ↦[(slotK 2).view.set]{fullShare} f) ∗ (∃ f : Buf (Elt F) ((slotK 3).view.loc (VT d L)), (slotK 3).view.loc (VT d L) ↦[(slotK 3).view.set]{fullShare} f)
    ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0
    ∗ owes (VT d L) O W)

/-- What the body's proof ends with: the same, the slabs at contents of which the result property holds, and
    what the subcore still owes. -/
def corePost (ft : Buf (Elt F) (tLoc d)) (fi : Buf (Elt F) (iLoc d)) (q : PosShare TreeShare)
    (O : CellTallies nD τ sig (HIx 1)) (W : Waits sig (HIx 1)) : sProp 𝕄 :=
  iprop(((tV).view.loc (VT d L) ↦{tokOf q 0} ft) ∗ ((tV).view.loc (VT d L) ↦{tokOf q 1} ft) ∗ ((tV).view.loc (VT d L) ↦{tokOf q 2} ft) ∗ ((tV).view.loc (VT d L) ↦{tokOf q 3} ft)
    ∗ ((iRowK L).view.loc (VT d L) ↦[(iRowK L).view.set]{fullShare} fi)
    ∗ (∃ fo : Buf (Elt F) ((oV).view.loc (VT d L)), ⌜OutOk d ft fi L fo⌝ ∗ (oV).view.loc (VT d L) ↦[Finset.univ \ (Finset.univ \ oSetL L)]{fullShare} fo)
    ∗ (∃ f0 : Buf (Elt F) ((sI).view.loc (VT d L)), (sI).view.loc (VT d L) ↦{fullShare} f0)
    ∗ (∃ f : Buf (Elt F) ((slotK 0).view.loc (VT d L)), (slotK 0).view.loc (VT d L) ↦[(slotK 0).view.set]{fullShare} f) ∗ (∃ f : Buf (Elt F) ((slotK 1).view.loc (VT d L)), (slotK 1).view.loc (VT d L) ↦[(slotK 1).view.set]{fullShare} f) ∗ (∃ f : Buf (Elt F) ((slotK 2).view.loc (VT d L)), (slotK 2).view.loc (VT d L) ↦[(slotK 2).view.set]{fullShare} f) ∗ (∃ f : Buf (Elt F) ((slotK 3).view.loc (VT d L)), (slotK 3).view.loc (VT d L) ↦[(slotK 3).view.set]{fullShare} f)
    ∗ semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0
    ∗ ∃ W', ⌜∀ p ∈ W', p ∈ W ∨ p.2 = none⌝ ∗ owes (VT d L) O W')

/-! ## One location, two spellings -/

theorem pts_t (q : PosShare TreeShare) (ft : Buf (Elt F) (tLoc d)) :
    (tLoc d ↦{q} ft : sProp 𝕄) = ((tV).view.loc (VT d L) ↦{q} ft) := rfl
theorem pts_i (fi : Buf (Elt F) (iLoc d)) :
    (iLoc d ↦[(iRowK L).view.set]{fullShare} fi : sProp 𝕄) = ((iRowK L).view.loc (VT d L) ↦[(iRowK L).view.set]{fullShare} fi) := rfl
theorem pts_sI (f : Buf (Elt F) ((VT d L).loc cc0_scratch0)) :
    ((VT d L).loc cc0_scratch0 ↦{fullShare} f : sProp 𝕄) = ((sI).view.loc (VT d L) ↦{fullShare} f) := rfl
theorem pts_sB (f : Buf (Elt F) ((VT d L).loc cc0_scratch1)) :
    ((VT d L).loc cc0_scratch1 ↦{fullShare} f : sProp 𝕄) = ((sB).view.loc (VT d L) ↦{fullShare} f) := rfl

/-! ## Before the run -/

/-- What the launch hands over, with the subcore's scratches and semaphores already listed, is the body's
    resources and the rest of those collections. -/
theorem pre_unpack (ft : Buf (Elt F) (tLoc d)) (fi : Buf (Elt F) (iLoc d)) (fo : Buf (Elt F) (oLoc d))
    (O : CellTallies nD τ sig (HIx 1)) (W : Waits sig (HIx 1)) (hO : ∀ g, O g none = 0) (RB RS : sProp 𝕄) :
    iprop((levAts (K (F := F)).L (K (F := F)).lev : sProp 𝕄) ∗ emp
        ∗ ((tLoc d ↦{tokQ (wOf L)} ft) ∗ (iLoc d ↦[(iRowK L).view.set]{fullShare} fi) ∗ (oLoc d ↦[oSetL L]{fullShare} fo))
        ∗ ((∃ f, (VT d L).loc cc0_scratch0 ↦{fullShare} f) ∗ (∃ f, (VT d L).loc cc0_scratch1 ↦{fullShare} f) ∗ RB)
        ∗ (semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0 ∗ RS)
        ∗ owes (VT d L) O W)
      ⊢ iprop(corePre d L ft fi (tokQ (wOf L)) O W ∗ (RB ∗ RS)) := by
  have e0 : tokOf (tokQ (wOf L)) 0 = Transfers.shareDrop (tokQ (wOf L)) 3 := rfl
  have e1 : tokOf (tokQ (wOf L)) 1 = Transfers.shareTokN (tokQ (wOf L)) 0 := rfl
  have e2 : tokOf (tokQ (wOf L)) 2 = Transfers.shareTokN (tokQ (wOf L)) 1 := rfl
  have e3 : tokOf (tokQ (wOf L)) 3 = Transfers.shareTokN (tokQ (wOf L)) 2 := rfl
  unfold corePre
  rw [e0, e1, e2, e3, pts_t d L, pts_i d L, out_as_compl d L fo]
  iintro ⟨#Hlv, -, ⟨Ht, Hi, Ho⟩, ⟨⟨%g0, HsI⟩, ⟨%g1, HsB⟩, Hrb⟩, ⟨G0, G1, G2, G3, S0, S1, S2, S3, S8, Hrs⟩, HO⟩
  ihave Hmw := (show (levAts (K (F := F)).L (K (F := F)).lev : sProp 𝕄) ⊢ Transfers.MayWaits (VT d L) (none : HIx 1) O from
    (K (F := F)).mayWaits_none (thr := VT d L) hO) $$ Hlv
  ihave Ht' := (tok3 (F := F) (tokQ (wOf L)) ft).1 $$ Ht
  icases Ht' with ⟨T0, T1, T2, T3⟩
  ihave HsB' := (Entails.of_eq (pts_sB (F := F) d L g1)) $$ HsB
  ihave Hsl := (Entails.of_eq ((slots_split (F := F) d L g1).trans (bigSep_fin4 _))) $$ HsB'
  icases Hsl with ⟨B0, B1, B2, B3⟩
  ihave HsI' := (Entails.of_eq (pts_sI (F := F) d L g0)) $$ HsI
  isplitr [Hrb Hrs]
  · isplitl [Hmw]; · iexact Hmw
    isplitl [T0]; · iexact T0
    isplitl [T1]; · iexact T1
    isplitl [T2]; · iexact T2
    isplitl [T3]; · iexact T3
    isplitl [Hi]; · iexact Hi
    isplitl [Ho]; · iexists fo; iexact Ho
    isplitl [HsI']; · iexists g0; iexact HsI'
    isplitl [B0]; · iexists g1; iexact B0
    isplitl [B1]; · iexists g1; iexact B1
    isplitl [B2]; · iexists g1; iexact B2
    isplitl [B3]; · iexists g1; iexact B3
    isplitl [G0]; · iexact G0
    isplitl [G1]; · iexact G1
    isplitl [G2]; · iexact G2
    isplitl [G3]; · iexact G3
    isplitl [S0]; · iexact S0
    isplitl [S1]; · iexact S1
    isplitl [S2]; · iexact S2
    isplitl [S3]; · iexact S3
    isplitl [S8]; · iexact S8
    iexact HO
  · isplitl [Hrb]; · iexact Hrb
    iexact Hrs

/-! ## After the run -/

/-- What the body's proof ends with, and the rest kept aside, is what the launch takes back. -/
theorem post_pack (ft : Buf (Elt F) (tLoc d)) (fi : Buf (Elt F) (iLoc d))
    (O : CellTallies nD τ sig (HIx 1)) (W : Waits sig (HIx 1)) (RB RS : sProp 𝕄) :
    iprop(corePost OutOk d L ft fi (tokQ (wOf L)) O W ∗ (RB ∗ RS))
      ⊢ iprop(((tLoc d ↦{tokQ (wOf L)} ft) ∗ (iLoc d ↦[(iRowK L).view.set]{fullShare} fi)
            ∗ (∃ f, ⌜OutOk d ft fi L f⌝ ∗ oLoc d ↦[oSetL L]{fullShare} f))
          ∗ ((∃ f, (VT d L).loc cc0_scratch0 ↦{fullShare} f) ∗ (∃ f, (VT d L).loc cc0_scratch1 ↦{fullShare} f) ∗ RB)
          ∗ (semVal (VT d L, SemLoc.dma (gcell 0)) 0 ∗ semVal (VT d L, SemLoc.dma (gcell 1)) 0 ∗ semVal (VT d L, SemLoc.dma (gcell 2)) 0 ∗ semVal (VT d L, SemLoc.dma (gcell 3)) 0 ∗ semVal (VT d L, SemLoc.dma (scell 0)) 0 ∗ semVal (VT d L, SemLoc.dma (scell 1)) 0 ∗ semVal (VT d L, SemLoc.dma (scell 2)) 0 ∗ semVal (VT d L, SemLoc.dma (scell 3)) 0 ∗ semVal (VT d L, SemLoc.dma (csem 8)) 0 ∗ RS)
          ∗ ∃ W', ⌜∀ p ∈ W', p ∈ W ∨ p.2 = none⌝ ∗ owes (VT d L) O W') := by
  have e0 : tokOf (tokQ (wOf L)) 0 = Transfers.shareDrop (tokQ (wOf L)) 3 := rfl
  have e1 : tokOf (tokQ (wOf L)) 1 = Transfers.shareTokN (tokQ (wOf L)) 0 := rfl
  have e2 : tokOf (tokQ (wOf L)) 2 = Transfers.shareTokN (tokQ (wOf L)) 1 := rfl
  have e3 : tokOf (tokQ (wOf L)) 3 = Transfers.shareTokN (tokQ (wOf L)) 2 := rfl
  unfold corePost
  rw [e0, e1, e2, e3, pts_t d L, pts_i d L]
  iintro ⟨⟨T0, T1, T2, T3, Hi, ⟨%fo, %hfo, Ho⟩, ⟨%f0, HsI⟩, ⟨%h0, B0⟩, ⟨%h1, B1⟩, ⟨%h2, B2⟩, ⟨%h3, B3⟩,
    G0, G1, G2, G3, S0, S1, S2, S3, S8, ⟨%W', %hW', HO⟩⟩, Hrb, Hrs⟩
  ihave Ht := (tok3 (F := F) (tokQ (wOf L)) ft).2 $$ [T0 T1 T2 T3]
  · isplitl [T0]; · iexact T0
    isplitl [T1]; · iexact T1
    isplitl [T2]; · iexact T2
    iexact T3
  ihave HsB := ((Entails.of_eq (bigSep_fin4 (F := F) (fun j : Fin 4 =>
      iprop(∃ f : Buf (Elt F) ((slotK j).view.loc (VT d L)), (slotK j).view.loc (VT d L) ↦[(slotK j).view.set]{fullShare} f))).symm).trans
    (slots_join (F := F) d L)) $$ [B0 B1 B2 B3]
  · isplitl [B0]; · iexists h0; iexact B0
    isplitl [B1]; · iexists h1; iexact B1
    isplitl [B2]; · iexists h2; iexact B2
    iexists h3; iexact B3
  icases HsB with ⟨%gB, HsB⟩
  ihave Ho' := (Entails.of_eq (out_as_compl (F := F) d L fo).symm) $$ Ho
  isplitl [Ht Hi Ho']
  · isplitl [Ht]; · iexact Ht
    isplitl [Hi]; · iexact Hi
    iexists fo; isplitr
    · ipureintro; exact hfo
    · iexact Ho'
  isplitl [HsI HsB Hrb]
  · isplitl [HsI]; · iexists f0; iapply (Entails.of_eq (pts_sI (F := F) d L f0).symm); iexact HsI
    isplitl [HsB]; · iexists gB; iapply (Entails.of_eq (pts_sB (F := F) d L gB).symm); iexact HsB
    iexact Hrb
  isplitl [G0 G1 G2 G3 S0 S1 S2 S3 S8 Hrs]
  · isplitl [G0]; · iexact G0
    isplitl [G1]; · iexact G1
    isplitl [G2]; · iexact G2
    isplitl [G3]; · iexact G3
    isplitl [S0]; · iexact S0
    isplitl [S1]; · iexact S1
    isplitl [S2]; · iexact S2
    isplitl [S3]; · iexact S3
    isplitl [S8]; · iexact S8
    iexact Hrs
  iexists W'; isplitr
  · ipureintro; exact hW'
  · iexact HO

/-! ## The body as the launch takes it -/

/-- From the body proved on its unpacked resources, the subcore's task. -/
theorem tile_body_of_core
    (hcore : ∀ (d : Dev nD) (L : grid0.Coords) (ft : Buf (Elt F) (tLoc d)) (fi : Buf (Elt F) (iLoc d))
        (hin : ∀ j, (fi j).toNat < 100001) (q : PosShare TreeShare) (O : CellTallies nD τ sig (HIx 1)) (W : Waits sig (HIx 1)),
        corePre (F := F) d L ft fi q O W
          ⊢ wp Idealize.ShloMosaic.frame (wpE (defs₀ (F := F)) 𝒱₀ (VT d L) none) Set.univ
              (cc0_k L tV (Memref.isWhole_whole _) iV (Memref.isWhole_whole _) oV (Memref.isWhole_whole _) sI (Memref.isWhole_whole _) sB (Memref.isWhole_whole _) cc0_scratch2 cc0_scratch3 cc0_scoped0)
              fun _ => corePost OutOk d L ft fi q O W) :
    TileBody (F := F) OutOk := by
  unfold TileBody
  intro hF d L ft fi fo hin O W hO
  rw [(K (F := F)).scopedBufs_V hF d (cV L) (jV L), SparseCore.Cfg.scopedSems0_V (Val := Elt F) d (cV L) (jV L),
    ownSems0_V d L, ownBufs_V d L]
  refine (pre_unpack (F := F) d L ft fi fo O W hO _ _).trans ?_
  refine (sep_mono_l (hcore d L ft fi hin (tokQ (wOf L)) O W)).trans ?_
  refine (wp_frame_r Idealize.ShloMosaic.frame (wpE (defs₀ (F := F)) 𝒱₀ (VT d L) none) Set.univ).trans ?_
  exact wp_mono Idealize.ShloMosaic.frame (wpE (defs₀ (F := F)) 𝒱₀ (VT d L) none) Set.univ
    fun _ => post_pack (F := F) OutOk d L ft fi O W _ _

/-- The subcore's task, with the result property that each of its slabs holds its chunk of gathered rows. -/
theorem tile_body : TileBody (F := F) (_root_.Cert.Kernel.Sc.OutOk (F := F)) :=
  tile_body_of_core (_root_.Cert.Kernel.Sc.OutOk (F := F)) (fun d L ft fi hin q O W => by
    unfold corePre corePost
    exact tile_core d L ft (Finset.univ \ oSetL L) fi hin (slabs_in L) (slabs_disjoint L) q O W)

end Cert.Kernel.Sc

end
-- ==== Proof.ScWeakenB.lean ====
/-
  The body's proof with what the slabs hold forgotten: a proof of the kernel body at one vector subcore that names the
  contents of the worker's slabs is in particular one that names nothing, which is all the frame needs.
-/
import proofs.«206634_g85779086836150_cont_9to1c4b_256_28_alg».proof.Proof.ScLaunchB

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (OutOk : (d : Dev nD) → Buf (Elt F) (tLoc d) → Buf (Elt F) (iLoc d) → grid0.Coords → Buf (Elt F) (oLoc d) → Prop)

theorem TileBody_true (h : TileBody (F := F) OutOk) : TileBody (F := F) (fun _ _ _ _ _ => True) := by
  intro hF d L ft fi fo hin O W hO
  refine (h hF d L ft fi fo hin O W hO).trans (wp_mono Idealize.ShloMosaic.frame _ _ fun _ => ?_)
  iintro ⟨⟨Ht, Hi, %f, -, Ho⟩, Hrest⟩
  isplitr [Hrest]
  · isplitl [Ht]; · iexact Ht
    isplitl [Hi]; · iexact Hi
    iexists f; isplitr
    · ipureintro; trivial
    · iexact Ho
  · iexact Hrest

end Cert.Kernel.Sc

end
-- ==== Proof.lean ====
/-
  The certificate's claim.

  Three programs are spoken of: the kernel program read at machine words, the same program read at extended reals,
  and the reference read at extended reals. The kernel program is a gather on the SparseCores (each vector subcore
  copies, for its share of the batch, the rows of the 26 embedding tables that the categorical features name) followed
  on the TensorCore by a layer norm of the 43 rows of every batch row: the 26 gathered rows, 13 numerical features
  times their weight rows, 4 pretrained embeddings times their matrices.

  * Each kernel program's frame is its launch: every subcore's task ends (its copies are waited for before their
    destinations are read), the handshakes between the TensorCore, the sequencers and the subcores cannot deadlock,
    the TensorCore call's pipeline stages, runs and writes back 8 blocks of 512 batch rows, and no thread writes an
    argument array. At machine words nothing more is needed of the subcore's task than that it ends, so what it is
    proved to leave in its slabs is relaxed to nothing.
  * The reference's frame is its run as a sequence of host operations.
  * The idealization rewrote no operation, so that conjunct is trivial.
  * The two idealized programs end with equal results: the idealized kernel program's run ends with its result at
    the reference's own term of the arguments (the gathered rows are the table rows the reference looks up; the call's
    result at an entry is the kernel's arrangement of the normalisation of that row; on rows of reals, which the
    precondition gives, that arrangement equals the reference's), and the reference's run ends at the same term.
-/
import proofs.«206634_g85779086836150_cont_9to1c4b_256_28_alg».proof.Defs
import proofs.«206634_g85779086836150_cont_9to1c4b_256_28_alg».proof.Proof.Assembly
import proofs.«206634_g85779086836150_cont_9to1c4b_256_28_alg».proof.Proof.ScKerRun
import proofs.«206634_g85779086836150_cont_9to1c4b_256_28_alg».proof.Proof.ScBody
import proofs.«206634_g85779086836150_cont_9to1c4b_256_28_alg».proof.Proof.ScBodyB
import proofs.«206634_g85779086836150_cont_9to1c4b_256_28_alg».proof.Proof.ScLaunchB
import proofs.«206634_g85779086836150_cont_9to1c4b_256_28_alg».proof.Proof.ScWeakenB
import proofs.«206634_g85779086836150_cont_9to1c4b_256_28_alg».proof.Proof.RefRun
import proofs.«206634_g85779086836150_cont_9to1c4b_256_28_alg».proof.Proof.Gen.Kernel
import proofs.«206634_g85779086836150_cont_9to1c4b_256_28_alg».proof.Proof.Gen.KernelIdeal
import proofs.«206634_g85779086836150_cont_9to1c4b_256_28_alg».proof.Proof.Gen.ReferenceIdeal
import proofs.«206634_g85779086836150_cont_9to1c4b_256_28_alg».proof.Proof.Gen.Pre_input_domain

noncomputable section

namespace Cert.Proof

open Idealize.ShloMosaic Idealize.SL.Sem

/-- The idealized kernel program's run under the precondition: the result at the reference's term of the arguments,
    the arguments unchanged. -/
theorem ker : Cert.KernelIdeal.Assembly.KerRun := fun m g hpre =>
  Cert.KernelIdeal.Sc.ker_run Cert.KernelIdeal.Sc.tile_body m g hpre

theorem claim : Cert.Claim :=
  ⟨Cert.Kernel.Gen.facts, Cert.KernelIdeal.Gen.facts, Cert.ReferenceIdeal.Gen.facts, Cert.Pre_input_domain.Gen.facts,
    Cert.Kernel.Sc.frame (Cert.Kernel.Sc.TileBody_true _ Cert.Kernel.Sc.tile_body),
    Cert.KernelIdeal.Assembly.frame_of ker,
    Cert.ReferenceIdeal.RefRun.frame,
    trivial,
    Cert.KernelIdeal.Assembly.algebraic_of ker⟩

end Cert.Proof

end
